-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S32x45x1 : Shape := ⟨3, ![32, 45, 1]⟩
abbrev S96 : Shape := ⟨1, ![96]⟩
abbrev S96x128 : Shape := ⟨2, ![96, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32x45x1 : S_.BroadcastsInDim S32x45x1 (![] : Fin 0 → Fin S32x45x1.rank)
  reducesTo_S32x45x1_S_d0_1_2 : S32x45x1.ReducesTo [0, 1, 2] S_
  bcast_S_S96 : S_.BroadcastsInDim S96 (![] : Fin 0 → Fin S96.rank)
  reducesTo_S96_S_d0 : S96.ReducesTo [0] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S96x128 .f32) (main_arg6 : FVec F S128 .f32) (main_arg7 : FVec F S128x2 .f32) (main_arg8 : FVec F S2 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x128 .f32 := Host.absf main_arg5
  let main_cst_6 : FVec F S_ .f32 := constant S_ .f32 0x7F800000#32
  let main_v20 : FVec F S96x128 .f32 := broadcastInDim S96x128 ![] bcast_S_S96x128 main_cst_6
  let main_v21 : IVec S96x128 1 := cmpf .olt main_v19 main_v20
  let main_c_7 : IVec S_ 1 := constantI S_ 1 1#1
  let main_v22 : IVec S_ 1 := (fun x v => Host.reduce IntOp.andi x v reducesTo_S96x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg8 main_v33

def fn {F : FTy → Type} [FloatOps F] (main_arg0 : FVec F S2048x2048 .f32) (main_arg1 : IVec S2048 32) (main_arg2 : FVec F S32x45x1 .f32) (main_arg3 : FVec F S96 .f32) (main_arg4 : FVec F S96 .f32) (main_arg5 : FVec F S96x128 .f32) (main_arg6 : FVec F S128 .f32) (main_arg7 : FVec F S128x2 .f32) (main_arg8 : FVec F S2 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32x45x1 .f32 := Host.absf main_arg2
  let main_cst_0 : FVec F S_ .f32 := constant S_ .f32 0x7F800000#32
  let main_v5 : FVec F S32x45x1 .f32 := broadcastInDim S32x45x1 ![] bcast_S_S32x45x1 main_cst_0
  let main_v6 : IVec S32x45x1 1 := cmpf .olt main_v4 main_v5
  let main_c_1 : IVec S_ 1 := constantI S_ 1 1#1
  let main_v7 : IVec S_ 1 := (fun x v => Host.reduce IntOp.andi x v reducesTo_S32x45x1_S_d0_1_2 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_v13 main_v16
-- ==== Kernel.lean ====
abbrev S2048x2048 : Shape := ⟨2, ![2048, 2048]⟩
abbrev S2048 : Shape := ⟨1, ![2048]⟩
abbrev S32x45x1 : Shape := ⟨3, ![32, 45, 1]⟩
abbrev S96 : Shape := ⟨1, ![96]⟩
abbrev S96x128 : Shape := ⟨2, ![96, 128]⟩
abbrev S128 : Shape := ⟨1, ![128]⟩
abbrev S128x2 : Shape := ⟨2, ![128, 2]⟩
abbrev S2 : Shape := ⟨1, ![2]⟩
abbrev S32x45 : Shape := ⟨2, ![32, 45]⟩
abbrev S_ : Shape := ⟨0, ![]⟩
abbrev S10x10 : Shape := ⟨2, ![10, 10]⟩
abbrev S100 : Shape := ⟨1, ![100]⟩
abbrev S45 : Shape := ⟨1, ![45]⟩
abbrev S100x1 : Shape := ⟨2, ![100, 1]⟩
abbrev S32x10x10 : Shape := ⟨3, ![32, 10, 10]⟩
abbrev S45x1 : Shape := ⟨2, ![45, 1]⟩
abbrev S45x2 : Shape := ⟨2, ![45, 2]⟩
abbrev S2048x1 : Shape := ⟨2, ![2048, 1]⟩
abbrev S32x10x2048 : Shape := ⟨3, ![32, 10, 2048]⟩
abbrev S320x2048 : Shape := ⟨2, ![320, 2048]⟩
abbrev S2048x512 : Shape := ⟨2, ![2048, 512]⟩
abbrev S320x512 : Shape := ⟨2, ![320, 512]⟩
abbrev S2048x32x10 : Shape := ⟨3, ![2048, 32, 10]⟩
abbrev S128x32x10 : Shape := ⟨3, ![128, 32, 10]⟩
abbrev S128x32 : Shape := ⟨2, ![128, 32]⟩
abbrev S128x1 : Shape := ⟨2, ![128, 1]⟩
abbrev S512x2048 : Shape := ⟨2, ![512, 2048]⟩
abbrev S512x512 : Shape := ⟨2, ![512, 512]⟩
abbrev S128x96 : Shape := ⟨2, ![128, 96]⟩
abbrev S1x96 : Shape := ⟨2, ![1, 96]⟩
abbrev S128x128 : Shape := ⟨2, ![128, 128]⟩
abbrev S1x128 : Shape := ⟨2, ![1, 128]⟩
abbrev S1x2 : Shape := ⟨2, ![1, 2]⟩

abbrev nBuf : Space → Nat
  | .hbm => 260
  | .vmem => 27
  | .smem => 0
  | _ => 0

abbrev hbmTy0_0 (i : Nat) : BufTy := match i % 128 with
  | 0 => ⟨S2048x2048, .f32⟩
  | 1 => ⟨S2048, .i32⟩
  | 2 => ⟨S32x45x1, .f32⟩
  | 3 => ⟨S96, .f32⟩
  | 4 => ⟨S96, .f32⟩
  | 5 => ⟨S96x128, .f32⟩
  | 6 => ⟨S128, .f32⟩
  | 7 => ⟨S128x2, .f32⟩
  | 8 => ⟨S2, .f32⟩
  | 9 => ⟨S32x45, .f32⟩
  | 10 => ⟨S_, .f32⟩
  | 11 => ⟨S32x45, .f32⟩
  | 12 => ⟨S32x45, .f32⟩
  | 13 => ⟨S_, .f32⟩
  | 14 => ⟨S10x10, .f32⟩
  | 15 => ⟨S10x10, .i32⟩
  | 16 => ⟨S_, .i32⟩
  | 17 => ⟨S10x10, .i32⟩
  | 18 => ⟨S10x10, .i32⟩
  | 19 => ⟨S10x10, .i32⟩
  | 20 => ⟨S10x10, .i1⟩
  | 21 => ⟨S_, .f32⟩
  | 22 => ⟨S10x10, .f32⟩
  | 23 => ⟨S10x10, .f32⟩
  | 24 => ⟨S_, .f32⟩
  | 25 => ⟨S10x10, .f32⟩
  | 26 => ⟨S10x10, .i1⟩
  | 27 => ⟨S100, .i1⟩
  | 28 => ⟨S100, .i32⟩
  | 29 => ⟨S_, .i32⟩
  | 30 => ⟨S_, .i32⟩
  | 31 => ⟨S100, .i32⟩
  | 32 => ⟨S_, .i32⟩
  | 33 => ⟨S45, .i32⟩
  | 34 => ⟨S_, .i32⟩
  | 35 => ⟨S_, .i32⟩
  | 36 => ⟨S100, .i32⟩
  | 37 => ⟨S100, .i32⟩
  | 38 => ⟨S_, .i32⟩
  | 39 => ⟨S100, .i32⟩
  | 40 => ⟨S100, .i1⟩
  | 41 => ⟨S_, .i32⟩
  | 42 => ⟨S100, .i32⟩
  | 43 => ⟨S100, .i32⟩
  | 44 => ⟨S100, .i32⟩
  | 45 => ⟨S100x1, .i32⟩
  | 46 => ⟨S_, .i32⟩
  | 47 => ⟨S100, .i32⟩
  | 48 => ⟨S45, .i32⟩
  | 49 => ⟨S_, .i32⟩
  | 50 => ⟨S_, .i32⟩
  | 51 => ⟨S45, .i32⟩
  | 52 => ⟨S_, .i32⟩
  | 53 => ⟨S45, .i32⟩
  | 54 => ⟨S45, .i32⟩
  | 55 => ⟨S45, .i32⟩
  | 56 => ⟨S_, .i32⟩
  | 57 => ⟨S45, .i32⟩
  | 58 => ⟨S45, .i1⟩
  | 59 => ⟨S45, .i32⟩
  | 60 => ⟨S45, .i32⟩
  | 61 => ⟨S_, .i32⟩
  | 62 => ⟨S45, .i32⟩
  | 63 => ⟨S45, .i1⟩
  | 64 => ⟨S45, .i1⟩
  | 65 => ⟨S_, .i32⟩
  | 66 => ⟨S45, .i32⟩
  | 67 => ⟨S45, .i32⟩
  | 68 => ⟨S45, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S45, .i32⟩
  | 76 => ⟨S45, .i32⟩
  | 77 => ⟨S_, .i32⟩
  | 78 => ⟨S45, .i32⟩
  | 79 => ⟨S45, .i1⟩
  | 80 => ⟨S_, .i32⟩
  | 81 => ⟨S45, .i32⟩
  | 82 => ⟨S45, .i1⟩
  | 83 => ⟨S_, .i32⟩
  | 84 => ⟨S_, .i1⟩
  | 85 => ⟨S45, .i1⟩
  | 86 => ⟨S45, .i1⟩
  | 87 => ⟨S45, .i1⟩
  | 88 => ⟨S45, .i32⟩
  | 89 => ⟨S45, .i32⟩
  | 90 => ⟨S45, .i32⟩
  | 91 => ⟨S_, .i32⟩
  | 92 => ⟨S45, .i32⟩
  | 93 => ⟨S45, .i32⟩
  | 94 => ⟨S45, .i32⟩
  | 95 => ⟨S_, .i32⟩
  | 96 => ⟨S45, .i32⟩
  | 97 => ⟨S45, .i1⟩
  | 98 => ⟨S45, .i32⟩
  | 99 => ⟨S45, .i32⟩
  | 100 => ⟨S_, .i32⟩
  | 101 => ⟨S45, .i32⟩
  | 102 => ⟨S45, .i1⟩
  | 103 => ⟨S45, .i1⟩
  | 104 => ⟨S_, .i32⟩
  | 105 => ⟨S45, .i32⟩
  | 106 => ⟨S45, .i32⟩
  | 107 => ⟨S45, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S45, .i32⟩
  | 115 => ⟨S45, .i32⟩
  | 116 => ⟨S_, .i32⟩
  | 117 => ⟨S45, .i32⟩
  | 118 => ⟨S45, .i1⟩
  | 119 => ⟨S_, .i32⟩
  | 120 => ⟨S45, .i32⟩
  | 121 => ⟨S45, .i1⟩
  | 122 => ⟨S_, .i32⟩
  | 123 => ⟨S_, .i1⟩
  | 124 => ⟨S45, .i1⟩
  | 125 => ⟨S45, .i1⟩
  | 126 => ⟨S45, .i1⟩
  | 127 => ⟨S45, .i32⟩
  | _ => ⟨S2048x2048, .f32⟩

abbrev hbmTy0_1 (i : Nat) : BufTy := match i % 128 with
  | 0 => ⟨S45, .i32⟩
  | 1 => ⟨S45, .i32⟩
  | 2 => ⟨S_, .f32⟩
  | 3 => ⟨S32x10x10, .f32⟩
  | 4 => ⟨S_, .i32⟩
  | 5 => ⟨S45, .i32⟩
  | 6 => ⟨S45, .i1⟩
  | 7 => ⟨S_, .i32⟩
  | 8 => ⟨S45, .i32⟩
  | 9 => ⟨S45, .i32⟩
  | 10 => ⟨S45, .i32⟩
  | 11 => ⟨S_, .i32⟩
  | 12 => ⟨S45, .i32⟩
  | 13 => ⟨S45, .i1⟩
  | 14 => ⟨S_, .i32⟩
  | 15 => ⟨S45, .i32⟩
  | 16 => ⟨S45, .i32⟩
  | 17 => ⟨S45, .i32⟩
  | 18 => ⟨S45x1, .i32⟩
  | 19 => ⟨S45x1, .i32⟩
  | 20 => ⟨S45x2, .i32⟩
  | 21 => ⟨S32x10x10, .f32⟩
  | 22 => ⟨S32x10x10, .f32⟩
  | 23 => ⟨S32x10x10, .f32⟩
  | 24 => ⟨S_, .f32⟩
  | 25 => ⟨S2048, .f32⟩
  | 26 => ⟨S_, .f32⟩
  | 27 => ⟨S128, .f32⟩
  | 28 => ⟨S2048x1, .i32⟩
  | 29 => ⟨S128, .f32⟩
  | 30 => ⟨S_, .f32⟩
  | 31 => ⟨S32x10x2048, .f32⟩
  | 32 => ⟨S32x10x2048, .f32⟩
  | 33 => ⟨S320x2048, .f32⟩
  | 34 => ⟨S320x2048, .f32⟩
  | 35 => ⟨S32x10x2048, .f32⟩
  | 36 => ⟨S2048x32x10, .f32⟩
  | 37 => ⟨S_, .f32⟩
  | 38 => ⟨S128x32x10, .f32⟩
  | 39 => ⟨S2048x1, .i32⟩
  | 40 => ⟨S128x32x10, .f32⟩
  | 41 => ⟨S_, .f32⟩
  | 42 => ⟨S128x32, .f32⟩
  | 43 => ⟨S128x1, .f32⟩
  | 44 => ⟨S128x32, .f32⟩
  | 45 => ⟨S128x32, .f32⟩
  | 46 => ⟨S32x10x2048, .f32⟩
  | 47 => ⟨S2048x2048, .f32⟩
  | 48 => ⟨S320x2048, .f32⟩
  | 49 => ⟨S320x2048, .f32⟩
  | 50 => ⟨S32x10x2048, .f32⟩
  | 51 => ⟨S2048x32x10, .f32⟩
  | 52 => ⟨S_, .f32⟩
  | 53 => ⟨S128x32x10, .f32⟩
  | 54 => ⟨S2048x1, .i32⟩
  | 55 => ⟨S128x32x10, .f32⟩
  | 56 => ⟨S_, .f32⟩
  | 57 => ⟨S128x32, .f32⟩
  | 58 => ⟨S128x1, .f32⟩
  | 59 => ⟨S128x32, .f32⟩
  | 60 => ⟨S128x32, .f32⟩
  | 61 => ⟨S32x10x2048, .f32⟩
  | 62 => ⟨S2048x2048, .f32⟩
  | 63 => ⟨S320x2048, .f32⟩
  | 64 => ⟨S320x2048, .f32⟩
  | 65 => ⟨S32x10x2048, .f32⟩
  | 66 => ⟨S2048x32x10, .f32⟩
  | 67 => ⟨S_, .f32⟩
  | 68 => ⟨S128x32x10, .f32⟩
  | 69 => ⟨S2048x1, .i32⟩
  | 70 => ⟨S128x32x10, .f32⟩
  | 71 => ⟨S_, .f32⟩
  | 72 => ⟨S128x32, .f32⟩
  | 73 => ⟨S128x1, .f32⟩
  | 74 => ⟨S128x32, .f32⟩
  | 75 => ⟨S128x32, .f32⟩
  | 76 => ⟨S128x96, .f32⟩
  | 77 => ⟨S_, .f32⟩
  | 78 => ⟨S96, .f32⟩
  | 79 => ⟨S_, .f32⟩
  | 80 => ⟨S96, .f32⟩
  | 81 => ⟨S96, .f32⟩
  | 82 => ⟨S_, .i32⟩
  | 83 => ⟨S_, .f32⟩
  | 84 => ⟨S96, .f32⟩
  | 85 => ⟨S1x96, .f32⟩
  | 86 => ⟨S_, .f32⟩
  | 87 => ⟨S1x96, .f32⟩
  | 88 => ⟨S1x96, .f32⟩
  | 89 => ⟨S128x96, .f32⟩
  | 90 => ⟨S128x96, .f32⟩
  | 91 => ⟨S128x96, .f32⟩
  | 92 => ⟨S_, .f32⟩
  | 93 => ⟨S_, .f32⟩
  | 94 => ⟨S_, .f32⟩
  | 95 => ⟨S_, .f32⟩
  | 96 => ⟨S96, .f32⟩
  | 97 => ⟨S96, .f32⟩
  | 98 => ⟨S96, .f32⟩
  | 99 => ⟨S_, .f32⟩
  | 100 => ⟨S_, .i1⟩
  | 101 => ⟨S_, .f32⟩
  | 102 => ⟨S_, .f32⟩
  | 103 => ⟨S96, .f32⟩
  | 104 => ⟨S96, .f32⟩
  | 105 => ⟨S1x96, .f32⟩
  | 106 => ⟨S128x96, .f32⟩
  | 107 => ⟨S128x96, .f32⟩
  | 108 => ⟨S1x96, .f32⟩
  | 109 => ⟨S128x96, .f32⟩
  | 110 => ⟨S128x96, .f32⟩
  | 111 => ⟨S_, .f32⟩
  | 112 => ⟨S96, .f32⟩
  | 113 => ⟨S96, .f32⟩
  | 114 => ⟨S96, .f32⟩
  | 115 => ⟨S1x96, .f32⟩
  | 116 => ⟨S128x96, .f32⟩
  | 117 => ⟨S128x96, .f32⟩
  | 118 => ⟨S1x96, .f32⟩
  | 119 => ⟨S128x96, .f32⟩
  | 120 => ⟨S128x96, .f32⟩
  | 121 => ⟨S128x128, .f32⟩
  | 122 => ⟨S1x128, .f32⟩
  | 123 => ⟨S128x128, .f32⟩
  | 124 => ⟨S128x128, .f32⟩
  | 125 => ⟨S_, .f32⟩
  | 126 => ⟨S128x128, .f32⟩
  | 127 => ⟨S128x128, .f32⟩
  | _ => ⟨S2048x2048, .f32⟩

abbrev hbmTy0_2 (i : Nat) : BufTy := match i % 128 with
  | 0 => ⟨S128x2, .f32⟩
  | 1 => ⟨S1x2, .f32⟩
  | 2 => ⟨S128x2, .f32⟩
  | 3 => ⟨S128x2, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | .local _ .vmem, ⟨0, _⟩ => ⟨S320x2048, .f32⟩
  | .local _ .vmem, ⟨1, _⟩ => ⟨S2048x512, .f32⟩
  | .local _ .vmem, ⟨2, _⟩ => ⟨S2048x512, .f32⟩
  | .local _ .vmem, ⟨3, _⟩ => ⟨S320x512, .f32⟩
  | .local _ .vmem, ⟨4, _⟩ => ⟨S320x512, .f32⟩
  | .local _ .vmem, ⟨5, _⟩ => ⟨S512x2048, .f32⟩
  | .local _ .vmem, ⟨6, _⟩ => ⟨S512x2048, .f32⟩
  | .local _ .vmem, ⟨7, _⟩ => ⟨S2048x512, .f32⟩
  | .local _ .vmem, ⟨8, _⟩ => ⟨S2048x512, .f32⟩
  | .local _ .vmem, ⟨9, _⟩ => ⟨S512x512, .f32⟩
  | .local _ .vmem, ⟨10, _⟩ => ⟨S512x512, .f32⟩
  | .local _ .vmem, ⟨11, _⟩ => ⟨S320x2048, .f32⟩
  | .local _ .vmem, ⟨12, _⟩ => ⟨S2048x512, .f32⟩
  | .local _ .vmem, ⟨13, _⟩ => ⟨S2048x512, .f32⟩
  | .local _ .vmem, ⟨14, _⟩ => ⟨S320x512, .f32⟩
  | .local _ .vmem, ⟨15, _⟩ => ⟨S320x512, .f32⟩
  | .local _ .vmem, ⟨16, _⟩ => ⟨S512x2048, .f32⟩
  | .local _ .vmem, ⟨17, _⟩ => ⟨S512x2048, .f32⟩
  | .local _ .vmem, ⟨18, _⟩ => ⟨S2048x512, .f32⟩
  | .local _ .vmem, ⟨19, _⟩ => ⟨S2048x512, .f32⟩
  | .local _ .vmem, ⟨20, _⟩ => ⟨S512x512, .f32⟩
  | .local _ .vmem, ⟨21, _⟩ => ⟨S512x512, .f32⟩
  | .local _ .vmem, ⟨22, _⟩ => ⟨S320x2048, .f32⟩
  | .local _ .vmem, ⟨23, _⟩ => ⟨S2048x512, .f32⟩
  | .local _ .vmem, ⟨24, _⟩ => ⟨S2048x512, .f32⟩
  | .local _ .vmem, ⟨25, _⟩ => ⟨S320x512, .f32⟩
  | .local _ .vmem, ⟨26, _⟩ => ⟨S320x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_call1_v0 : Ref sig .tc := ⟨.hbm, 15, rfl⟩
abbrev main_call1_c : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_cst : Ref sig .tc := ⟨.hbm, 21, rfl⟩
abbrev main_call1_v5 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_call2_v0 : Ref sig .tc := ⟨.hbm, 27, rfl⟩
abbrev main_call2_v1 : Ref sig .tc := ⟨.hbm, 28, rfl⟩
abbrev main_call2_call0_c : Ref sig .tc := ⟨.hbm, 29, rfl⟩
abbrev main_call2_call0_v0 : Ref sig .tc := ⟨.hbm, 30, rfl⟩
abbrev main_v6 : Ref sig .tc := ⟨.hbm, 31, rfl⟩
abbrev main_c : Ref sig .tc := ⟨.hbm, 32, rfl⟩
abbrev main_v7 : Ref sig .tc := ⟨.hbm, 33, rfl⟩
abbrev main_c_1 : Ref sig .tc := ⟨.hbm, 34, rfl⟩
abbrev main_call3_v0 : Ref sig .tc := ⟨.hbm, 35, rfl⟩
abbrev main_call3_v1 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_c_3 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_4 : Ref sig .tc := ⟨.hbm, 46, rfl⟩
abbrev main_v15 : Ref sig .tc := ⟨.hbm, 47, rfl⟩
abbrev main_v16 : Ref sig .tc := ⟨.hbm, 48, rfl⟩
abbrev main_call4_call0_c : Ref sig .tc := ⟨.hbm, 49, rfl⟩
abbrev main_call4_call0_v0 : Ref sig .tc := ⟨.hbm, 50, rfl⟩
abbrev main_v17 : Ref sig .tc := ⟨.hbm, 51, rfl⟩
abbrev main_c_5 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_call5_v5 : Ref sig .tc := ⟨.hbm, 58, rfl⟩
abbrev main_call5_v6 : Ref sig .tc := ⟨.hbm, 59, rfl⟩
abbrev main_call5_v7 : Ref sig .tc := ⟨.hbm, 60, rfl⟩
abbrev main_call5_c : Ref sig .tc := ⟨.hbm, 61, rfl⟩
abbrev main_call5_v8 : Ref sig .tc := ⟨.hbm, 62, rfl⟩
abbrev main_call5_v9 : Ref sig .tc := ⟨.hbm, 63, rfl⟩
abbrev main_call5_v10 : Ref sig .tc := ⟨.hbm, 64, rfl⟩
abbrev main_call5_c_0 : Ref sig .tc := ⟨.hbm, 65, rfl⟩
abbrev main_call5_v11 : Ref sig .tc := ⟨.hbm, 66, rfl⟩
abbrev main_call5_v12 : Ref sig .tc := ⟨.hbm, 67, rfl⟩
abbrev main_v18 : Ref sig .tc := ⟨.hbm, 68, rfl⟩
abbrev main_c_6 : Ref sig .tc := ⟨.hbm, 69, rfl⟩
abbrev main_call6_v0 : Ref sig .tc := ⟨.hbm, 70, rfl⟩
abbrev main_call6_c : Ref sig .tc := ⟨.hbm, 71, rfl⟩
abbrev main_call6_v1 : Ref sig .tc := ⟨.hbm, 72, rfl⟩
abbrev main_call6_c_0 : Ref sig .tc := ⟨.hbm, 73, rfl⟩
abbrev main_call6_v2 : Ref sig .tc := ⟨.hbm, 74, rfl⟩
abbrev main_call6_v3 : Ref sig .tc := ⟨.hbm, 75, rfl⟩
abbrev main_call6_v4 : Ref sig .tc := ⟨.hbm, 76, rfl⟩
abbrev main_call6_c_1 : Ref sig .tc := ⟨.hbm, 77, rfl⟩
abbrev main_call6_v5 : Ref sig .tc := ⟨.hbm, 78, rfl⟩
abbrev main_call6_v6 : Ref sig .tc := ⟨.hbm, 79, rfl⟩
abbrev main_call6_c_2 : Ref sig .tc := ⟨.hbm, 80, rfl⟩
abbrev main_call6_v7 : Ref sig .tc := ⟨.hbm, 81, rfl⟩
abbrev main_call6_v8 : Ref sig .tc := ⟨.hbm, 82, rfl⟩
abbrev main_call6_c_3 : Ref sig .tc := ⟨.hbm, 83, rfl⟩
abbrev main_call6_v9 : Ref sig .tc := ⟨.hbm, 84, rfl⟩
abbrev main_call6_v10 : Ref sig .tc := ⟨.hbm, 85, rfl⟩
abbrev main_call6_v11 : Ref sig .tc := ⟨.hbm, 86, rfl⟩
abbrev main_call6_v12 : Ref sig .tc := ⟨.hbm, 87, rfl⟩
abbrev main_call6_v13 : Ref sig .tc := ⟨.hbm, 88, rfl⟩
abbrev main_call6_v14 : Ref sig .tc := ⟨.hbm, 89, rfl⟩
abbrev main_v19 : Ref sig .tc := ⟨.hbm, 90, rfl⟩
abbrev main_c_7 : Ref sig .tc := ⟨.hbm, 91, rfl⟩
abbrev main_call7_v0 : Ref sig .tc := ⟨.hbm, 92, rfl⟩
abbrev main_call7_v1 : Ref sig .tc := ⟨.hbm, 93, rfl⟩
abbrev main_call7_v2 : Ref sig .tc := ⟨.hbm, 94, rfl⟩
abbrev main_call7_v3 : Ref sig .tc := ⟨.hbm, 95, rfl⟩
abbrev main_call7_v4 : Ref sig .tc := ⟨.hbm, 96, rfl⟩
abbrev main_call7_v5 : Ref sig .tc := ⟨.hbm, 97, rfl⟩
abbrev main_call7_v6 : Ref sig .tc := ⟨.hbm, 98, rfl⟩
abbrev main_call7_v7 : Ref sig .tc := ⟨.hbm, 99, rfl⟩
abbrev main_call7_c : Ref sig .tc := ⟨.hbm, 100, rfl⟩
abbrev main_call7_v8 : Ref sig .tc := ⟨.hbm, 101, rfl⟩
abbrev main_call7_v9 : Ref sig .tc := ⟨.hbm, 102, rfl⟩
abbrev main_call7_v10 : Ref sig .tc := ⟨.hbm, 103, rfl⟩
abbrev main_call7_c_0 : Ref sig .tc := ⟨.hbm, 104, rfl⟩
abbrev main_call7_v11 : Ref sig .tc := ⟨.hbm, 105, rfl⟩
abbrev main_call7_v12 : Ref sig .tc := ⟨.hbm, 106, rfl⟩
abbrev main_v20 : Ref sig .tc := ⟨.hbm, 107, rfl⟩
abbrev main_c_8 : Ref sig .tc := ⟨.hbm, 108, rfl⟩
abbrev main_call8_v0 : Ref sig .tc := ⟨.hbm, 109, rfl⟩
abbrev main_call8_c : Ref sig .tc := ⟨.hbm, 110, rfl⟩
abbrev main_call8_v1 : Ref sig .tc := ⟨.hbm, 111, rfl⟩
abbrev main_call8_c_0 : Ref sig .tc := ⟨.hbm, 112, rfl⟩
abbrev main_call8_v2 : Ref sig .tc := ⟨.hbm, 113, rfl⟩
abbrev main_call8_v3 : Ref sig .tc := ⟨.hbm, 114, rfl⟩
abbrev main_call8_v4 : Ref sig .tc := ⟨.hbm, 115, rfl⟩
abbrev main_call8_c_1 : Ref sig .tc := ⟨.hbm, 116, rfl⟩
abbrev main_call8_v5 : Ref sig .tc := ⟨.hbm, 117, rfl⟩
abbrev main_call8_v6 : Ref sig .tc := ⟨.hbm, 118, rfl⟩
abbrev main_call8_c_2 : Ref sig .tc := ⟨.hbm, 119, rfl⟩
abbrev main_call8_v7 : Ref sig .tc := ⟨.hbm, 120, rfl⟩
abbrev main_call8_v8 : Ref sig .tc := ⟨.hbm, 121, rfl⟩
abbrev main_call8_c_3 : Ref sig .tc := ⟨.hbm, 122, rfl⟩
abbrev main_call8_v9 : Ref sig .tc := ⟨.hbm, 123, rfl⟩
abbrev main_call8_v10 : Ref sig .tc := ⟨.hbm, 124, rfl⟩
abbrev main_call8_v11 : Ref sig .tc := ⟨.hbm, 125, rfl⟩
abbrev main_call8_v12 : Ref sig .tc := ⟨.hbm, 126, rfl⟩
abbrev main_call8_v13 : Ref sig .tc := ⟨.hbm, 127, rfl⟩
abbrev main_call8_v14 : Ref sig .tc := ⟨.hbm, 128, rfl⟩
abbrev main_v21 : Ref sig .tc := ⟨.hbm, 129, rfl⟩
abbrev main_cst_9 : Ref sig .tc := ⟨.hbm, 130, rfl⟩
abbrev main_v22 : Ref sig .tc := ⟨.hbm, 131, rfl⟩
abbrev main_c_10 : Ref sig .tc := ⟨.hbm, 132, rfl⟩
abbrev main_v23 : Ref sig .tc := ⟨.hbm, 133, rfl⟩
abbrev main_v24 : Ref sig .tc := ⟨.hbm, 134, rfl⟩
abbrev main_c_11 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_c_12 : Ref sig .tc := ⟨.hbm, 139, rfl⟩
abbrev main_v28 : Ref sig .tc := ⟨.hbm, 140, rfl⟩
abbrev main_v29 : Ref sig .tc := ⟨.hbm, 141, rfl⟩
abbrev main_c_13 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_cst_14 : Ref sig .tc := ⟨.hbm, 152, rfl⟩
abbrev main_v39 : Ref sig .tc := ⟨.hbm, 153, rfl⟩
abbrev main_cst_15 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_cst_16 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_cst_17 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_cst_18 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_cst_19 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_cst_20 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_cst_21 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_cst_22 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_cst_23 : Ref sig .tc := ⟨.hbm, 205, rfl⟩
abbrev main_v83 : Ref sig .tc := ⟨.hbm, 206, rfl⟩
abbrev main_cst_24 : Ref sig .tc := ⟨.hbm, 207, rfl⟩
abbrev main_v84 : Ref sig .tc := ⟨.hbm, 208, rfl⟩
abbrev main_v85 : Ref sig .tc := ⟨.hbm, 209, rfl⟩
abbrev main_c_25 : Ref sig .tc := ⟨.hbm, 210, rfl⟩
abbrev main_call9_cst : Ref sig .tc := ⟨.hbm, 211, rfl⟩
abbrev main_call9_v0 : Ref sig .tc := ⟨.hbm, 212, rfl⟩
abbrev main_call9_v1 : Ref sig .tc := ⟨.hbm, 213, rfl⟩
abbrev main_call9_cst_0 : Ref sig .tc := ⟨.hbm, 214, rfl⟩
abbrev main_call9_v2 : Ref sig .tc := ⟨.hbm, 215, rfl⟩
abbrev main_call9_v3 : Ref sig .tc := ⟨.hbm, 216, rfl⟩
abbrev main_call9_v4 : Ref sig .tc := ⟨.hbm, 217, rfl⟩
abbrev main_call9_v5 : Ref sig .tc := ⟨.hbm, 218, rfl⟩
abbrev main_call9_v6 : Ref sig .tc := ⟨.hbm, 219, rfl⟩
abbrev main_call9_v7 : Ref sig .tc := ⟨.hbm, 220, rfl⟩
abbrev main_call9_cst_1 : Ref sig .tc := ⟨.hbm, 221, rfl⟩
abbrev main_call9_v8 : Ref sig .tc := ⟨.hbm, 222, rfl⟩
abbrev main_call9_cst_2 : Ref sig .tc := ⟨.hbm, 223, rfl⟩
abbrev main_call9_v9 : Ref sig .tc := ⟨.hbm, 224, rfl⟩
abbrev main_call9_v10 : Ref sig .tc := ⟨.hbm, 225, rfl⟩
abbrev main_call9_v11 : Ref sig .tc := ⟨.hbm, 226, rfl⟩
abbrev main_call9_cst_3 : Ref sig .tc := ⟨.hbm, 227, rfl⟩
abbrev main_call9_v12 : Ref sig .tc := ⟨.hbm, 228, rfl⟩
abbrev main_call9_cst_4 : Ref sig .tc := ⟨.hbm, 229, rfl⟩
abbrev main_call9_call0_v0 : Ref sig .tc := ⟨.hbm, 230, rfl⟩
abbrev main_call9_call0_v1 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_v91 : Ref sig .tc := ⟨.hbm, 237, rfl⟩
abbrev main_v92 : Ref sig .tc := ⟨.hbm, 238, rfl⟩
abbrev main_cst_26 : Ref sig .tc := ⟨.hbm, 239, rfl⟩
abbrev main_v93 : Ref sig .tc := ⟨.hbm, 240, rfl⟩
abbrev main_v94 : Ref sig .tc := ⟨.hbm, 241, rfl⟩
abbrev main_v95 : Ref sig .tc := ⟨.hbm, 242, rfl⟩
abbrev main_v96 : Ref sig .tc := ⟨.hbm, 243, rfl⟩
abbrev main_v97 : Ref sig .tc := ⟨.hbm, 244, rfl⟩
abbrev main_v98 : Ref sig .tc := ⟨.hbm, 245, rfl⟩
abbrev main_v99 : Ref sig .tc := ⟨.hbm, 246, rfl⟩
abbrev main_v100 : Ref sig .tc := ⟨.hbm, 247, rfl⟩
abbrev main_v101 : Ref sig .tc := ⟨.hbm, 248, rfl⟩
abbrev main_v102 : Ref sig .tc := ⟨.hbm, 249, rfl⟩
abbrev main_v103 : Ref sig .tc := ⟨.hbm, 250, rfl⟩
abbrev main_v104 : Ref sig .tc := ⟨.hbm, 251, rfl⟩
abbrev main_v105 : Ref sig .tc := ⟨.hbm, 252, rfl⟩
abbrev main_call10_cst : Ref sig .tc := ⟨.hbm, 253, rfl⟩
abbrev main_call10_v0 : Ref sig .tc := ⟨.hbm, 254, rfl⟩
abbrev main_v106 : Ref sig .tc := ⟨.hbm, 255, rfl⟩
abbrev main_v107 : Ref sig .tc := ⟨.hbm, 256, rfl⟩
abbrev main_v108 : Ref sig .tc := ⟨.hbm, 257, rfl⟩
abbrev main_v109 : Ref sig .tc := ⟨.hbm, 258, rfl⟩
abbrev main_v110 : Ref sig .tc := ⟨.hbm, 259, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S320x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S320x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S320x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S320x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S320x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  shapeCasts_S32x45x1_S32x45 : S32x45x1.ShapeCasts S32x45
  bcast_S_S32x45 : S_.BroadcastsInDim S32x45 (![] : Fin 0 → Fin S32x45.rank)
  bcast_S_S10x10 : S_.BroadcastsInDim S10x10 (![] : Fin 0 → Fin S10x10.rank)
  shapeCasts_S10x10_S100 : S10x10.ShapeCasts S100
  natLt_1_32 : 1 < 32
  bcast_S_S_ : S_.BroadcastsInDim S_ (![] : Fin 0 → Fin S_.rank)
  reduceWindows_S100_S100_w100s1p99_0 : S100.ReduceWindows (![100] : Fin 1 → Nat) ![1] ![99] ![0] S100
  h_S_ : 0 < S_.numel
  bcast_S_S45 : S_.BroadcastsInDim S45 (![] : Fin 0 → Fin S45.rank)
  bcast_S_S100 : S_.BroadcastsInDim S100 (![] : Fin 0 → Fin S100.rank)
  bcast_S100_S100x1_0 : S100.BroadcastsInDim S100x1 (![0] : Fin 1 → Fin S100x1.rank)
  reduceWindows_S45_S45_w45s1p44_0 : S45.ReduceWindows (![45] : Fin 1 → Nat) ![1] ![44] ![0] S45
  bcast_S_S32x10x10 : S_.BroadcastsInDim S32x10x10 (![] : Fin 0 → Fin S32x10x10.rank)
  bcast_S45_S45x1_0 : S45.BroadcastsInDim S45x1 (![0] : Fin 1 → Fin S45x1.rank)
  concatenates_S45x1_S45x1_S45x2_d1 : Shape.Concatenates [S45x1, S45x1] S45x2 1
  transposes_S32x10x10_S32x10x10_0_2_1 : S32x10x10.Transposes [0, 2, 1] S32x10x10
  bcast_S_S2048 : S_.BroadcastsInDim S2048 (![] : Fin 0 → Fin S2048.rank)
  bcast_S_S128 : S_.BroadcastsInDim S128 (![] : Fin 0 → Fin S128.rank)
  bcast_S2048_S2048x1_0 : S2048.BroadcastsInDim S2048x1 (![0] : Fin 1 → Fin S2048x1.rank)
  bcast_S_S32x10x2048 : S_.BroadcastsInDim S32x10x2048 (![] : Fin 0 → Fin S32x10x2048.rank)
  shapeCasts_S32x10x2048_S320x2048 : S32x10x2048.ShapeCasts S320x2048
  inb_S320x2048_S320x2048_0_0 : ∀ a, (![0, 0] : Fin 2 → Nat) a + S320x2048.size a ≤ S320x2048.size a
  h_S320x2048 : 0 < S320x2048.numel
  shapeCasts_S320x2048_S320x2048 : S320x2048.ShapeCasts S320x2048
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S320x512_S320x512_0_0 : ∀ a, (![0, 0] : Fin 2 → Nat) a + S320x512.size a ≤ S320x512.size a
  h_S320x512 : 0 < S320x512.numel
  shapeCasts_S320x2048_S32x10x2048 : S320x2048.ShapeCasts S32x10x2048
  transposes_S32x10x2048_S2048x32x10_2_0_1 : S32x10x2048.Transposes [2, 0, 1] S2048x32x10
  bcast_S_S128x32x10 : S_.BroadcastsInDim S128x32x10 (![] : Fin 0 → Fin S128x32x10.rank)
  reducesTo_S128x32x10_S128x32_d2 : S128x32x10.ReducesTo [2] S128x32
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  inb_S512x2048_S512x2048_0_0 : ∀ a, (![0, 0] : Fin 2 → Nat) a + S512x2048.size a ≤ S512x2048.size a
  h_S512x2048 : 0 < S512x2048.numel
  inb_S512x512_S512x512_0_0 : ∀ a, (![0, 0] : Fin 2 → Nat) a + S512x512.size a ≤ S512x512.size a
  h_S512x512 : 0 < S512x512.numel
  shapeCasts_S2048x512_S2048x512 : S2048x512.ShapeCasts S2048x512
  concatenates_S128x32_S128x32_S128x32_S128x96_d1 : Shape.Concatenates [S128x32, S128x32, S128x32] S128x96 1
  reducesTo_S128x96_S96_d0 : S128x96.ReducesTo [0] S96
  bcast_S_S96 : S_.BroadcastsInDim S96 (![] : Fin 0 → Fin S96.rank)
  bcast_S96_S1x96_1 : S96.BroadcastsInDim S1x96 (![1] : Fin 1 → Fin S1x96.rank)
  bcast_S_S1x96 : S_.BroadcastsInDim S1x96 (![] : Fin 0 → Fin S1x96.rank)
  bcast_S1x96_S128x96_0_1 : S1x96.BroadcastsInDim S128x96 (![0, 1] : Fin 2 → Fin S128x96.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S45_S100x1_S100_n_0_0_1_wf : ScatterDims.WF S45 S100x1 S100 [] [0] [0] 1
  scatter_S32x10x10_S45x2_S32x45_0_12_12_1_wf : ScatterDims.WF S32x10x10 S45x2 S32x45 [0] [1, 2] [1, 2] 1
  scatter_S128_S2048x1_S2048_n_0_0_1_wf : ScatterDims.WF S128 S2048x1 S2048 [] [0] [0] 1
  dot_S32x10x10_S32x10x2048_S32x10x2048_2_1_1_2_0_0_wf : DotDims.WF S32x10x10 S32x10x2048 S32x10x2048 [2] [1] [1] [2] [0] [0]
  dot_S320x2048_S2048x512_S320x512_1_0_0_1_n_n_wf : DotDims.WF S320x2048 S2048x512 S320x512 [1] [0] [0] [1] [] []
  scatter_S128x32x10_S2048x1_S2048x32x10_12_0_0_1_wf : ScatterDims.WF S128x32x10 S2048x1 S2048x32x10 [1, 2] [0] [0] 1
  dot_S512x2048_S2048x512_S512x512_1_0_0_1_n_n_wf : DotDims.WF S512x2048 S2048x512 S512x512 [1] [0] [0] [1] [] []
  dot_S128x96_S96x128_S128x128_1_0_0_1_n_n_wf : DotDims.WF S128x96 S96x128 S128x128 [1] [0] [0] [1] [] []
  dot_S128x128_S128x2_S128x2_1_0_0_1_n_n_wf : DotDims.WF S128x128 S128x2 S128x2 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S320x2048.size a ≤ S320x2048.size a
  hwx0_0 : ∀ i : grid0.Coords, EltTy.bits .f32 = 32 ∨ (Rect.block (s := S320x2048) S320x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S320x512.size a ≤ S320x2048.size a
  hwx0_2 : ∀ i : grid0.Coords, EltTy.bits .f32 = 32 ∨ (Rect.block (s := S320x2048) S320x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .f32 = 32 ∨ (Rect.block (s := S2048x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x2048.size a
  hwx1_1 : ∀ i : grid1.Coords, EltTy.bits .f32 = 32 ∨ (Rect.block (s := S2048x2048) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S2048x2048.size a
  hwx1_2 : ∀ i : grid1.Coords, EltTy.bits .f32 = 32 ∨ (Rect.block (s := S2048x2048) S512x512.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S320x2048.size a ≤ S320x2048.size a
  hwx2_0 : ∀ i : grid2.Coords, EltTy.bits .f32 = 32 ∨ (Rect.block (s := S320x2048) S320x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x2048.size a
  hwx2_1 : ∀ i : grid2.Coords, EltTy.bits .f32 = 32 ∨ (Rect.block (s := S2048x2048) S2048x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S320x512.size a ≤ S320x2048.size a
  hwx2_2 : ∀ i : grid2.Coords, EltTy.bits .f32 = 32 ∨ (Rect.block (s := S320x2048) S320x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S2048x2048.size a
  hwx3_0 : ∀ i : grid3.Coords, EltTy.bits .f32 = 32 ∨ (Rect.block (s := S2048x2048) S512x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S2048x2048.size a
  hwx3_1 : ∀ i : grid3.Coords, EltTy.bits .f32 = 32 ∨ (Rect.block (s := S2048x2048) S2048x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S2048x2048.size a
  hwx3_2 : ∀ i : grid3.Coords, EltTy.bits .f32 = 32 ∨ (Rect.block (s := S2048x2048) S512x512.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S320x2048.size a ≤ S320x2048.size a
  hwx4_0 : ∀ i : grid4.Coords, EltTy.bits .f32 = 32 ∨ (Rect.block (s := S320x2048) S320x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S2048x2048.size a
  hwx4_1 : ∀ i : grid4.Coords, EltTy.bits .f32 = 32 ∨ (Rect.block (s := S2048x2048) S2048x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S320x512.size a ≤ S320x2048.size a
  hwx4_2 : ∀ i : grid4.Coords, EltTy.bits .f32 = 32 ∨ (Rect.block (s := S320x2048) S320x512.size (cc4_transform_2 i) (hinb4_2 i)).WholeWords (EltTy.packing .f32)

variable [Facts₀]

def scatter_S45_S100x1_S100_n_0_0_1 : ScatterDims S45 S100x1 S100 where
  updateWindowDims := []
  insertedWindowDims := [0]
  scatterDimsToOperandDims := [0]
  indexVectorDim := 1
  wf := scatter_S45_S100x1_S100_n_0_0_1_wf
def scatter_S32x10x10_S45x2_S32x45_0_12_12_1 : ScatterDims S32x10x10 S45x2 S32x45 where
  updateWindowDims := [0]
  insertedWindowDims := [1, 2]
  scatterDimsToOperandDims := [1, 2]
  indexVectorDim := 1
  wf := scatter_S32x10x10_S45x2_S32x45_0_12_12_1_wf
def scatter_S128_S2048x1_S2048_n_0_0_1 : ScatterDims S128 S2048x1 S2048 where
  updateWindowDims := []
  insertedWindowDims := [0]
  scatterDimsToOperandDims := [0]
  indexVectorDim := 1
  wf := scatter_S128_S2048x1_S2048_n_0_0_1_wf
def dot_S32x10x10_S32x10x2048_S32x10x2048_2_1_1_2_0_0 : DotDims S32x10x10 S32x10x2048 S32x10x2048 where
  lhsContracting := [2]
  rhsContracting := [1]
  lhsNonContracting := [1]
  rhsNonContracting := [2]
  lhsBatch := [0]
  rhsBatch := [0]
  wf := dot_S32x10x10_S32x10x2048_S32x10x2048_2_1_1_2_0_0_wf
def dot_S320x2048_S2048x512_S320x512_1_0_0_1_n_n : DotDims S320x2048 S2048x512 S320x512 where
  lhsContracting := [1]
  rhsContracting := [0]
  lhsNonContracting := [0]
  rhsNonContracting := [1]
  lhsBatch := []
  rhsBatch := []
  wf := dot_S320x2048_S2048x512_S320x512_1_0_0_1_n_n_wf
def scatter_S128x32x10_S2048x1_S2048x32x10_12_0_0_1 : ScatterDims S128x32x10 S2048x1 S2048x32x10 where
  updateWindowDims := [1, 2]
  insertedWindowDims := [0]
  scatterDimsToOperandDims := [0]
  indexVectorDim := 1
  wf := scatter_S128x32x10_S2048x1_S2048x32x10_12_0_0_1_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S128x96_S96x128_S128x128_1_0_0_1_n_n : DotDims S128x96 S96x128 S128x128 where
  lhsContracting := [1]
  rhsContracting := [0]
  lhsNonContracting := [0]
  rhsNonContracting := [1]
  lhsBatch := []
  rhsBatch := []
  wf := dot_S128x96_S96x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

abbrev win0_0 : Pipeline.Window sig grid0 :=
  Pipeline.Window.ofSpec (Memref.whole main_v45) S320x2048.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S320x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v57) S512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v58) S320x2048.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v57) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S320x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg0) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S512x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S320x2048.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v70) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v72) S320x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2048x2048 : Shape := ⟨2, ![2048, 2048]⟩
abbrev S2048 : Shape := ⟨1, ![2048]⟩
abbrev S32x45x1 : Shape := ⟨3, ![32, 45, 1]⟩
abbrev S96 : Shape := ⟨1, ![96]⟩
abbrev S96x128 : Shape := ⟨2, ![96, 128]⟩
abbrev S128 : Shape := ⟨1, ![128]⟩
abbrev S128x2 : Shape := ⟨2, ![128, 2]⟩
abbrev S2 : Shape := ⟨1, ![2]⟩
abbrev S32x45 : Shape := ⟨2, ![32, 45]⟩
abbrev S_ : Shape := ⟨0, ![]⟩
abbrev S10x10 : Shape := ⟨2, ![10, 10]⟩
abbrev S100 : Shape := ⟨1, ![100]⟩
abbrev S45 : Shape := ⟨1, ![45]⟩
abbrev S100x1 : Shape := ⟨2, ![100, 1]⟩
abbrev S32x10x10 : Shape := ⟨3, ![32, 10, 10]⟩
abbrev S45x1 : Shape := ⟨2, ![45, 1]⟩
abbrev S45x2 : Shape := ⟨2, ![45, 2]⟩
abbrev S2048x1 : Shape := ⟨2, ![2048, 1]⟩
abbrev S32x10x2048 : Shape := ⟨3, ![32, 10, 2048]⟩
abbrev S2048x32x10 : Shape := ⟨3, ![2048, 32, 10]⟩
abbrev S128x32x10 : Shape := ⟨3, ![128, 32, 10]⟩
abbrev S128x32 : Shape := ⟨2, ![128, 32]⟩
abbrev S128x1 : Shape := ⟨2, ![128, 1]⟩
abbrev S128x96 : Shape := ⟨2, ![128, 96]⟩
abbrev S1x96 : Shape := ⟨2, ![1, 96]⟩
abbrev S128x128 : Shape := ⟨2, ![128, 128]⟩
abbrev S1x128 : Shape := ⟨2, ![1, 128]⟩
abbrev S1x2 : Shape := ⟨2, ![1, 2]⟩

abbrev nBuf : Space → Nat
  | .hbm => 262
  | .vmem => 0
  | .smem => 0
  | _ => 0

abbrev hbmTy0_0 (i : Nat) : BufTy := match i % 128 with
  | 0 => ⟨S2048x2048, .f32⟩
  | 1 => ⟨S2048, .i32⟩
  | 2 => ⟨S32x45x1, .f32⟩
  | 3 => ⟨S96, .f32⟩
  | 4 => ⟨S96, .f32⟩
  | 5 => ⟨S96x128, .f32⟩
  | 6 => ⟨S128, .f32⟩
  | 7 => ⟨S128x2, .f32⟩
  | 8 => ⟨S2, .f32⟩
  | 9 => ⟨S32x45, .f32⟩
  | 10 => ⟨S_, .f32⟩
  | 11 => ⟨S32x45, .f32⟩
  | 12 => ⟨S32x45, .f32⟩
  | 13 => ⟨S_, .f32⟩
  | 14 => ⟨S10x10, .f32⟩
  | 15 => ⟨S10x10, .i32⟩
  | 16 => ⟨S_, .i32⟩
  | 17 => ⟨S10x10, .i32⟩
  | 18 => ⟨S10x10, .i32⟩
  | 19 => ⟨S10x10, .i32⟩
  | 20 => ⟨S10x10, .i1⟩
  | 21 => ⟨S_, .f32⟩
  | 22 => ⟨S10x10, .f32⟩
  | 23 => ⟨S10x10, .f32⟩
  | 24 => ⟨S_, .f32⟩
  | 25 => ⟨S10x10, .f32⟩
  | 26 => ⟨S10x10, .i1⟩
  | 27 => ⟨S100, .i1⟩
  | 28 => ⟨S100, .i32⟩
  | 29 => ⟨S_, .i32⟩
  | 30 => ⟨S_, .i32⟩
  | 31 => ⟨S100, .i32⟩
  | 32 => ⟨S_, .i32⟩
  | 33 => ⟨S45, .i32⟩
  | 34 => ⟨S_, .i32⟩
  | 35 => ⟨S_, .i32⟩
  | 36 => ⟨S100, .i32⟩
  | 37 => ⟨S100, .i32⟩
  | 38 => ⟨S_, .i32⟩
  | 39 => ⟨S100, .i32⟩
  | 40 => ⟨S100, .i1⟩
  | 41 => ⟨S_, .i32⟩
  | 42 => ⟨S100, .i32⟩
  | 43 => ⟨S100, .i32⟩
  | 44 => ⟨S100, .i32⟩
  | 45 => ⟨S100x1, .i32⟩
  | 46 => ⟨S_, .i32⟩
  | 47 => ⟨S100, .i32⟩
  | 48 => ⟨S45, .i32⟩
  | 49 => ⟨S_, .i32⟩
  | 50 => ⟨S_, .i32⟩
  | 51 => ⟨S45, .i32⟩
  | 52 => ⟨S_, .i32⟩
  | 53 => ⟨S45, .i32⟩
  | 54 => ⟨S45, .i32⟩
  | 55 => ⟨S45, .i32⟩
  | 56 => ⟨S_, .i32⟩
  | 57 => ⟨S45, .i32⟩
  | 58 => ⟨S45, .i1⟩
  | 59 => ⟨S45, .i32⟩
  | 60 => ⟨S45, .i32⟩
  | 61 => ⟨S_, .i32⟩
  | 62 => ⟨S45, .i32⟩
  | 63 => ⟨S45, .i1⟩
  | 64 => ⟨S45, .i1⟩
  | 65 => ⟨S_, .i32⟩
  | 66 => ⟨S45, .i32⟩
  | 67 => ⟨S45, .i32⟩
  | 68 => ⟨S45, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S45, .i32⟩
  | 76 => ⟨S45, .i32⟩
  | 77 => ⟨S_, .i32⟩
  | 78 => ⟨S45, .i32⟩
  | 79 => ⟨S45, .i1⟩
  | 80 => ⟨S_, .i32⟩
  | 81 => ⟨S45, .i32⟩
  | 82 => ⟨S45, .i1⟩
  | 83 => ⟨S_, .i32⟩
  | 84 => ⟨S_, .i1⟩
  | 85 => ⟨S45, .i1⟩
  | 86 => ⟨S45, .i1⟩
  | 87 => ⟨S45, .i1⟩
  | 88 => ⟨S45, .i32⟩
  | 89 => ⟨S45, .i32⟩
  | 90 => ⟨S45, .i32⟩
  | 91 => ⟨S_, .i32⟩
  | 92 => ⟨S45, .i32⟩
  | 93 => ⟨S45, .i32⟩
  | 94 => ⟨S45, .i32⟩
  | 95 => ⟨S_, .i32⟩
  | 96 => ⟨S45, .i32⟩
  | 97 => ⟨S45, .i1⟩
  | 98 => ⟨S45, .i32⟩
  | 99 => ⟨S45, .i32⟩
  | 100 => ⟨S_, .i32⟩
  | 101 => ⟨S45, .i32⟩
  | 102 => ⟨S45, .i1⟩
  | 103 => ⟨S45, .i1⟩
  | 104 => ⟨S_, .i32⟩
  | 105 => ⟨S45, .i32⟩
  | 106 => ⟨S45, .i32⟩
  | 107 => ⟨S45, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S45, .i32⟩
  | 115 => ⟨S45, .i32⟩
  | 116 => ⟨S_, .i32⟩
  | 117 => ⟨S45, .i32⟩
  | 118 => ⟨S45, .i1⟩
  | 119 => ⟨S_, .i32⟩
  | 120 => ⟨S45, .i32⟩
  | 121 => ⟨S45, .i1⟩
  | 122 => ⟨S_, .i32⟩
  | 123 => ⟨S_, .i1⟩
  | 124 => ⟨S45, .i1⟩
  | 125 => ⟨S45, .i1⟩
  | 126 => ⟨S45, .i1⟩
  | 127 => ⟨S45, .i32⟩
  | _ => ⟨S2048x2048, .f32⟩

abbrev hbmTy0_1 (i : Nat) : BufTy := match i % 128 with
  | 0 => ⟨S45, .i32⟩
  | 1 => ⟨S45, .i32⟩
  | 2 => ⟨S_, .f32⟩
  | 3 => ⟨S32x10x10, .f32⟩
  | 4 => ⟨S_, .i32⟩
  | 5 => ⟨S45, .i32⟩
  | 6 => ⟨S45, .i1⟩
  | 7 => ⟨S_, .i32⟩
  | 8 => ⟨S45, .i32⟩
  | 9 => ⟨S45, .i32⟩
  | 10 => ⟨S45, .i32⟩
  | 11 => ⟨S_, .i32⟩
  | 12 => ⟨S45, .i32⟩
  | 13 => ⟨S45, .i1⟩
  | 14 => ⟨S_, .i32⟩
  | 15 => ⟨S45, .i32⟩
  | 16 => ⟨S45, .i32⟩
  | 17 => ⟨S45, .i32⟩
  | 18 => ⟨S45x1, .i32⟩
  | 19 => ⟨S45x1, .i32⟩
  | 20 => ⟨S45x2, .i32⟩
  | 21 => ⟨S32x10x10, .f32⟩
  | 22 => ⟨S32x10x10, .f32⟩
  | 23 => ⟨S32x10x10, .f32⟩
  | 24 => ⟨S_, .f32⟩
  | 25 => ⟨S2048, .f32⟩
  | 26 => ⟨S_, .f32⟩
  | 27 => ⟨S128, .f32⟩
  | 28 => ⟨S2048x1, .i32⟩
  | 29 => ⟨S128, .f32⟩
  | 30 => ⟨S2048x2048, .i32⟩
  | 31 => ⟨S2048x2048, .i32⟩
  | 32 => ⟨S_, .i32⟩
  | 33 => ⟨S2048x2048, .i32⟩
  | 34 => ⟨S2048x2048, .i32⟩
  | 35 => ⟨S2048x2048, .i1⟩
  | 36 => ⟨S2048x2048, .f32⟩
  | 37 => ⟨S_, .f32⟩
  | 38 => ⟨S32x10x2048, .f32⟩
  | 39 => ⟨S2048x2048, .f32⟩
  | 40 => ⟨S32x10x2048, .f32⟩
  | 41 => ⟨S32x10x2048, .f32⟩
  | 42 => ⟨S2048x32x10, .f32⟩
  | 43 => ⟨S_, .f32⟩
  | 44 => ⟨S128x32x10, .f32⟩
  | 45 => ⟨S2048x1, .i32⟩
  | 46 => ⟨S128x32x10, .f32⟩
  | 47 => ⟨S_, .f32⟩
  | 48 => ⟨S128x32, .f32⟩
  | 49 => ⟨S128x1, .f32⟩
  | 50 => ⟨S128x32, .f32⟩
  | 51 => ⟨S128x32, .f32⟩
  | 52 => ⟨S2048x2048, .f32⟩
  | 53 => ⟨S32x10x2048, .f32⟩
  | 54 => ⟨S32x10x2048, .f32⟩
  | 55 => ⟨S2048x32x10, .f32⟩
  | 56 => ⟨S_, .f32⟩
  | 57 => ⟨S128x32x10, .f32⟩
  | 58 => ⟨S2048x1, .i32⟩
  | 59 => ⟨S128x32x10, .f32⟩
  | 60 => ⟨S_, .f32⟩
  | 61 => ⟨S128x32, .f32⟩
  | 62 => ⟨S128x1, .f32⟩
  | 63 => ⟨S128x32, .f32⟩
  | 64 => ⟨S128x32, .f32⟩
  | 65 => ⟨S2048x2048, .f32⟩
  | 66 => ⟨S32x10x2048, .f32⟩
  | 67 => ⟨S32x10x2048, .f32⟩
  | 68 => ⟨S2048x32x10, .f32⟩
  | 69 => ⟨S_, .f32⟩
  | 70 => ⟨S128x32x10, .f32⟩
  | 71 => ⟨S2048x1, .i32⟩
  | 72 => ⟨S128x32x10, .f32⟩
  | 73 => ⟨S_, .f32⟩
  | 74 => ⟨S128x32, .f32⟩
  | 75 => ⟨S128x1, .f32⟩
  | 76 => ⟨S128x32, .f32⟩
  | 77 => ⟨S128x32, .f32⟩
  | 78 => ⟨S128x96, .f32⟩
  | 79 => ⟨S_, .f32⟩
  | 80 => ⟨S96, .f32⟩
  | 81 => ⟨S_, .f32⟩
  | 82 => ⟨S96, .f32⟩
  | 83 => ⟨S96, .f32⟩
  | 84 => ⟨S_, .i32⟩
  | 85 => ⟨S_, .f32⟩
  | 86 => ⟨S96, .f32⟩
  | 87 => ⟨S1x96, .f32⟩
  | 88 => ⟨S_, .f32⟩
  | 89 => ⟨S1x96, .f32⟩
  | 90 => ⟨S1x96, .f32⟩
  | 91 => ⟨S128x96, .f32⟩
  | 92 => ⟨S128x96, .f32⟩
  | 93 => ⟨S128x96, .f32⟩
  | 94 => ⟨S_, .f32⟩
  | 95 => ⟨S_, .f32⟩
  | 96 => ⟨S_, .f32⟩
  | 97 => ⟨S_, .f32⟩
  | 98 => ⟨S96, .f32⟩
  | 99 => ⟨S96, .f32⟩
  | 100 => ⟨S96, .f32⟩
  | 101 => ⟨S_, .f32⟩
  | 102 => ⟨S_, .i1⟩
  | 103 => ⟨S_, .f32⟩
  | 104 => ⟨S_, .f32⟩
  | 105 => ⟨S96, .f32⟩
  | 106 => ⟨S96, .f32⟩
  | 107 => ⟨S1x96, .f32⟩
  | 108 => ⟨S128x96, .f32⟩
  | 109 => ⟨S128x96, .f32⟩
  | 110 => ⟨S1x96, .f32⟩
  | 111 => ⟨S128x96, .f32⟩
  | 112 => ⟨S128x96, .f32⟩
  | 113 => ⟨S_, .f32⟩
  | 114 => ⟨S96, .f32⟩
  | 115 => ⟨S96, .f32⟩
  | 116 => ⟨S96, .f32⟩
  | 117 => ⟨S1x96, .f32⟩
  | 118 => ⟨S128x96, .f32⟩
  | 119 => ⟨S128x96, .f32⟩
  | 120 => ⟨S1x96, .f32⟩
  | 121 => ⟨S128x96, .f32⟩
  | 122 => ⟨S128x96, .f32⟩
  | 123 => ⟨S128x128, .f32⟩
  | 124 => ⟨S1x128, .f32⟩
  | 125 => ⟨S128x128, .f32⟩
  | 126 => ⟨S128x128, .f32⟩
  | 127 => ⟨S_, .f32⟩
  | _ => ⟨S2048x2048, .f32⟩

abbrev hbmTy0_2 (i : Nat) : BufTy := match i % 128 with
  | 0 => ⟨S128x128, .f32⟩
  | 1 => ⟨S128x128, .f32⟩
  | 2 => ⟨S128x2, .f32⟩
  | 3 => ⟨S1x2, .f32⟩
  | 4 => ⟨S128x2, .f32⟩
  | 5 => ⟨S128x2, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_call1_v0 : Ref sig .tc := ⟨.hbm, 15, rfl⟩
abbrev main_call1_c : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_cst : Ref sig .tc := ⟨.hbm, 21, rfl⟩
abbrev main_call1_v5 : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_call2_v0 : Ref sig .tc := ⟨.hbm, 27, rfl⟩
abbrev main_call2_v1 : Ref sig .tc := ⟨.hbm, 28, rfl⟩
abbrev main_call2_call0_c : Ref sig .tc := ⟨.hbm, 29, rfl⟩
abbrev main_call2_call0_v0 : Ref sig .tc := ⟨.hbm, 30, rfl⟩
abbrev main_v6 : Ref sig .tc := ⟨.hbm, 31, rfl⟩
abbrev main_c : Ref sig .tc := ⟨.hbm, 32, rfl⟩
abbrev main_v7 : Ref sig .tc := ⟨.hbm, 33, rfl⟩
abbrev main_c_1 : Ref sig .tc := ⟨.hbm, 34, rfl⟩
abbrev main_call3_v0 : Ref sig .tc := ⟨.hbm, 35, rfl⟩
abbrev main_call3_v1 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_c_3 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_4 : Ref sig .tc := ⟨.hbm, 46, rfl⟩
abbrev main_v15 : Ref sig .tc := ⟨.hbm, 47, rfl⟩
abbrev main_v16 : Ref sig .tc := ⟨.hbm, 48, rfl⟩
abbrev main_call4_call0_c : Ref sig .tc := ⟨.hbm, 49, rfl⟩
abbrev main_call4_call0_v0 : Ref sig .tc := ⟨.hbm, 50, rfl⟩
abbrev main_v17 : Ref sig .tc := ⟨.hbm, 51, rfl⟩
abbrev main_c_5 : Ref sig .tc := ⟨.hbm, 52, rfl⟩
abbrev main_call5_v0 : Ref sig .tc := ⟨.hbm, 53, rfl⟩
abbrev main_call5_v1 : Ref sig .tc := ⟨.hbm, 54, rfl⟩
abbrev main_call5_v2 : Ref sig .tc := ⟨.hbm, 55, rfl⟩
abbrev main_call5_v3 : Ref sig .tc := ⟨.hbm, 56, rfl⟩
abbrev main_call5_v4 : Ref sig .tc := ⟨.hbm, 57, rfl⟩
abbrev main_call5_v5 : Ref sig .tc := ⟨.hbm, 58, rfl⟩
abbrev main_call5_v6 : Ref sig .tc := ⟨.hbm, 59, rfl⟩
abbrev main_call5_v7 : Ref sig .tc := ⟨.hbm, 60, rfl⟩
abbrev main_call5_c : Ref sig .tc := ⟨.hbm, 61, rfl⟩
abbrev main_call5_v8 : Ref sig .tc := ⟨.hbm, 62, rfl⟩
abbrev main_call5_v9 : Ref sig .tc := ⟨.hbm, 63, rfl⟩
abbrev main_call5_v10 : Ref sig .tc := ⟨.hbm, 64, rfl⟩
abbrev main_call5_c_0 : Ref sig .tc := ⟨.hbm, 65, rfl⟩
abbrev main_call5_v11 : Ref sig .tc := ⟨.hbm, 66, rfl⟩
abbrev main_call5_v12 : Ref sig .tc := ⟨.hbm, 67, rfl⟩
abbrev main_v18 : Ref sig .tc := ⟨.hbm, 68, rfl⟩
abbrev main_c_6 : Ref sig .tc := ⟨.hbm, 69, rfl⟩
abbrev main_call6_v0 : Ref sig .tc := ⟨.hbm, 70, rfl⟩
abbrev main_call6_c : Ref sig .tc := ⟨.hbm, 71, rfl⟩
abbrev main_call6_v1 : Ref sig .tc := ⟨.hbm, 72, rfl⟩
abbrev main_call6_c_0 : Ref sig .tc := ⟨.hbm, 73, rfl⟩
abbrev main_call6_v2 : Ref sig .tc := ⟨.hbm, 74, rfl⟩
abbrev main_call6_v3 : Ref sig .tc := ⟨.hbm, 75, rfl⟩
abbrev main_call6_v4 : Ref sig .tc := ⟨.hbm, 76, rfl⟩
abbrev main_call6_c_1 : Ref sig .tc := ⟨.hbm, 77, rfl⟩
abbrev main_call6_v5 : Ref sig .tc := ⟨.hbm, 78, rfl⟩
abbrev main_call6_v6 : Ref sig .tc := ⟨.hbm, 79, rfl⟩
abbrev main_call6_c_2 : Ref sig .tc := ⟨.hbm, 80, rfl⟩
abbrev main_call6_v7 : Ref sig .tc := ⟨.hbm, 81, rfl⟩
abbrev main_call6_v8 : Ref sig .tc := ⟨.hbm, 82, rfl⟩
abbrev main_call6_c_3 : Ref sig .tc := ⟨.hbm, 83, rfl⟩
abbrev main_call6_v9 : Ref sig .tc := ⟨.hbm, 84, rfl⟩
abbrev main_call6_v10 : Ref sig .tc := ⟨.hbm, 85, rfl⟩
abbrev main_call6_v11 : Ref sig .tc := ⟨.hbm, 86, rfl⟩
abbrev main_call6_v12 : Ref sig .tc := ⟨.hbm, 87, rfl⟩
abbrev main_call6_v13 : Ref sig .tc := ⟨.hbm, 88, rfl⟩
abbrev main_call6_v14 : Ref sig .tc := ⟨.hbm, 89, rfl⟩
abbrev main_v19 : Ref sig .tc := ⟨.hbm, 90, rfl⟩
abbrev main_c_7 : Ref sig .tc := ⟨.hbm, 91, rfl⟩
abbrev main_call7_v0 : Ref sig .tc := ⟨.hbm, 92, rfl⟩
abbrev main_call7_v1 : Ref sig .tc := ⟨.hbm, 93, rfl⟩
abbrev main_call7_v2 : Ref sig .tc := ⟨.hbm, 94, rfl⟩
abbrev main_call7_v3 : Ref sig .tc := ⟨.hbm, 95, rfl⟩
abbrev main_call7_v4 : Ref sig .tc := ⟨.hbm, 96, rfl⟩
abbrev main_call7_v5 : Ref sig .tc := ⟨.hbm, 97, rfl⟩
abbrev main_call7_v6 : Ref sig .tc := ⟨.hbm, 98, rfl⟩
abbrev main_call7_v7 : Ref sig .tc := ⟨.hbm, 99, rfl⟩
abbrev main_call7_c : Ref sig .tc := ⟨.hbm, 100, rfl⟩
abbrev main_call7_v8 : Ref sig .tc := ⟨.hbm, 101, rfl⟩
abbrev main_call7_v9 : Ref sig .tc := ⟨.hbm, 102, rfl⟩
abbrev main_call7_v10 : Ref sig .tc := ⟨.hbm, 103, rfl⟩
abbrev main_call7_c_0 : Ref sig .tc := ⟨.hbm, 104, rfl⟩
abbrev main_call7_v11 : Ref sig .tc := ⟨.hbm, 105, rfl⟩
abbrev main_call7_v12 : Ref sig .tc := ⟨.hbm, 106, rfl⟩
abbrev main_v20 : Ref sig .tc := ⟨.hbm, 107, rfl⟩
abbrev main_c_8 : Ref sig .tc := ⟨.hbm, 108, rfl⟩
abbrev main_call8_v0 : Ref sig .tc := ⟨.hbm, 109, rfl⟩
abbrev main_call8_c : Ref sig .tc := ⟨.hbm, 110, rfl⟩
abbrev main_call8_v1 : Ref sig .tc := ⟨.hbm, 111, rfl⟩
abbrev main_call8_c_0 : Ref sig .tc := ⟨.hbm, 112, rfl⟩
abbrev main_call8_v2 : Ref sig .tc := ⟨.hbm, 113, rfl⟩
abbrev main_call8_v3 : Ref sig .tc := ⟨.hbm, 114, rfl⟩
abbrev main_call8_v4 : Ref sig .tc := ⟨.hbm, 115, rfl⟩
abbrev main_call8_c_1 : Ref sig .tc := ⟨.hbm, 116, rfl⟩
abbrev main_call8_v5 : Ref sig .tc := ⟨.hbm, 117, rfl⟩
abbrev main_call8_v6 : Ref sig .tc := ⟨.hbm, 118, rfl⟩
abbrev main_call8_c_2 : Ref sig .tc := ⟨.hbm, 119, rfl⟩
abbrev main_call8_v7 : Ref sig .tc := ⟨.hbm, 120, rfl⟩
abbrev main_call8_v8 : Ref sig .tc := ⟨.hbm, 121, rfl⟩
abbrev main_call8_c_3 : Ref sig .tc := ⟨.hbm, 122, rfl⟩
abbrev main_call8_v9 : Ref sig .tc := ⟨.hbm, 123, rfl⟩
abbrev main_call8_v10 : Ref sig .tc := ⟨.hbm, 124, rfl⟩
abbrev main_call8_v11 : Ref sig .tc := ⟨.hbm, 125, rfl⟩
abbrev main_call8_v12 : Ref sig .tc := ⟨.hbm, 126, rfl⟩
abbrev main_call8_v13 : Ref sig .tc := ⟨.hbm, 127, rfl⟩
abbrev main_call8_v14 : Ref sig .tc := ⟨.hbm, 128, rfl⟩
abbrev main_v21 : Ref sig .tc := ⟨.hbm, 129, rfl⟩
abbrev main_cst_9 : Ref sig .tc := ⟨.hbm, 130, rfl⟩
abbrev main_v22 : Ref sig .tc := ⟨.hbm, 131, rfl⟩
abbrev main_c_10 : Ref sig .tc := ⟨.hbm, 132, rfl⟩
abbrev main_v23 : Ref sig .tc := ⟨.hbm, 133, rfl⟩
abbrev main_v24 : Ref sig .tc := ⟨.hbm, 134, rfl⟩
abbrev main_c_11 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_c_12 : Ref sig .tc := ⟨.hbm, 139, rfl⟩
abbrev main_v28 : Ref sig .tc := ⟨.hbm, 140, rfl⟩
abbrev main_v29 : Ref sig .tc := ⟨.hbm, 141, rfl⟩
abbrev main_c_13 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_cst_14 : Ref sig .tc := ⟨.hbm, 152, rfl⟩
abbrev main_v39 : Ref sig .tc := ⟨.hbm, 153, rfl⟩
abbrev main_cst_15 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_c_16 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_cst_17 : Ref sig .tc := ⟨.hbm, 165, rfl⟩
abbrev main_v49 : Ref sig .tc := ⟨.hbm, 166, rfl⟩
abbrev main_v50 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_cst_18 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_cst_19 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_cst_20 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_cst_21 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_cst_22 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_cst_23 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_cst_24 : Ref sig .tc := ⟨.hbm, 207, rfl⟩
abbrev main_v84 : Ref sig .tc := ⟨.hbm, 208, rfl⟩
abbrev main_cst_25 : Ref sig .tc := ⟨.hbm, 209, rfl⟩
abbrev main_v85 : Ref sig .tc := ⟨.hbm, 210, rfl⟩
abbrev main_v86 : Ref sig .tc := ⟨.hbm, 211, rfl⟩
abbrev main_c_26 : Ref sig .tc := ⟨.hbm, 212, rfl⟩
abbrev main_call9_cst : Ref sig .tc := ⟨.hbm, 213, rfl⟩
abbrev main_call9_v0 : Ref sig .tc := ⟨.hbm, 214, rfl⟩
abbrev main_call9_v1 : Ref sig .tc := ⟨.hbm, 215, rfl⟩
abbrev main_call9_cst_0 : Ref sig .tc := ⟨.hbm, 216, rfl⟩
abbrev main_call9_v2 : Ref sig .tc := ⟨.hbm, 217, rfl⟩
abbrev main_call9_v3 : Ref sig .tc := ⟨.hbm, 218, rfl⟩
abbrev main_call9_v4 : Ref sig .tc := ⟨.hbm, 219, rfl⟩
abbrev main_call9_v5 : Ref sig .tc := ⟨.hbm, 220, rfl⟩
abbrev main_call9_v6 : Ref sig .tc := ⟨.hbm, 221, rfl⟩
abbrev main_call9_v7 : Ref sig .tc := ⟨.hbm, 222, rfl⟩
abbrev main_call9_cst_1 : Ref sig .tc := ⟨.hbm, 223, rfl⟩
abbrev main_call9_v8 : Ref sig .tc := ⟨.hbm, 224, rfl⟩
abbrev main_call9_cst_2 : Ref sig .tc := ⟨.hbm, 225, rfl⟩
abbrev main_call9_v9 : Ref sig .tc := ⟨.hbm, 226, rfl⟩
abbrev main_call9_v10 : Ref sig .tc := ⟨.hbm, 227, rfl⟩
abbrev main_call9_v11 : Ref sig .tc := ⟨.hbm, 228, rfl⟩
abbrev main_call9_cst_3 : Ref sig .tc := ⟨.hbm, 229, rfl⟩
abbrev main_call9_v12 : Ref sig .tc := ⟨.hbm, 230, rfl⟩
abbrev main_call9_cst_4 : Ref sig .tc := ⟨.hbm, 231, rfl⟩
abbrev main_call9_call0_v0 : Ref sig .tc := ⟨.hbm, 232, rfl⟩
abbrev main_call9_call0_v1 : Ref sig .tc := ⟨.hbm, 233, rfl⟩
abbrev main_v87 : Ref sig .tc := ⟨.hbm, 234, rfl⟩
abbrev main_v88 : Ref sig .tc := ⟨.hbm, 235, rfl⟩
abbrev main_v89 : Ref sig .tc := ⟨.hbm, 236, rfl⟩
abbrev main_v90 : Ref sig .tc := ⟨.hbm, 237, rfl⟩
abbrev main_v91 : Ref sig .tc := ⟨.hbm, 238, rfl⟩
abbrev main_v92 : Ref sig .tc := ⟨.hbm, 239, rfl⟩
abbrev main_v93 : Ref sig .tc := ⟨.hbm, 240, rfl⟩
abbrev main_cst_27 : Ref sig .tc := ⟨.hbm, 241, rfl⟩
abbrev main_v94 : Ref sig .tc := ⟨.hbm, 242, rfl⟩
abbrev main_v95 : Ref sig .tc := ⟨.hbm, 243, rfl⟩
abbrev main_v96 : Ref sig .tc := ⟨.hbm, 244, rfl⟩
abbrev main_v97 : Ref sig .tc := ⟨.hbm, 245, rfl⟩
abbrev main_v98 : Ref sig .tc := ⟨.hbm, 246, rfl⟩
abbrev main_v99 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_call10_cst : Ref sig .tc := ⟨.hbm, 255, rfl⟩
abbrev main_call10_v0 : Ref sig .tc := ⟨.hbm, 256, rfl⟩
abbrev main_v107 : Ref sig .tc := ⟨.hbm, 257, rfl⟩
abbrev main_v108 : Ref sig .tc := ⟨.hbm, 258, rfl⟩
abbrev main_v109 : Ref sig .tc := ⟨.hbm, 259, rfl⟩
abbrev main_v110 : Ref sig .tc := ⟨.hbm, 260, rfl⟩
abbrev main_v111 : Ref sig .tc := ⟨.hbm, 261, rfl⟩

abbrev nD : Nat := 1
abbrev τ : Topo := Topo.v7x

variable {F : FTy → Type} [FloatOps F]

class Facts₀ : Prop where
  shapeCasts_S32x45x1_S32x45 : S32x45x1.ShapeCasts S32x45
  bcast_S_S32x45 : S_.BroadcastsInDim S32x45 (![] : Fin 0 → Fin S32x45.rank)
  bcast_S_S10x10 : S_.BroadcastsInDim S10x10 (![] : Fin 0 → Fin S10x10.rank)
  shapeCasts_S10x10_S100 : S10x10.ShapeCasts S100
  natLt_1_32 : 1 < 32
  bcast_S_S_ : S_.BroadcastsInDim S_ (![] : Fin 0 → Fin S_.rank)
  reduceWindows_S100_S100_w100s1p99_0 : S100.ReduceWindows (![100] : Fin 1 → Nat) ![1] ![99] ![0] S100
  h_S_ : 0 < S_.numel
  bcast_S_S45 : S_.BroadcastsInDim S45 (![] : Fin 0 → Fin S45.rank)
  bcast_S_S100 : S_.BroadcastsInDim S100 (![] : Fin 0 → Fin S100.rank)
  bcast_S100_S100x1_0 : S100.BroadcastsInDim S100x1 (![0] : Fin 1 → Fin S100x1.rank)
  reduceWindows_S45_S45_w45s1p44_0 : S45.ReduceWindows (![45] : Fin 1 → Nat) ![1] ![44] ![0] S45
  bcast_S_S32x10x10 : S_.BroadcastsInDim S32x10x10 (![] : Fin 0 → Fin S32x10x10.rank)
  bcast_S45_S45x1_0 : S45.BroadcastsInDim S45x1 (![0] : Fin 1 → Fin S45x1.rank)
  concatenates_S45x1_S45x1_S45x2_d1 : Shape.Concatenates [S45x1, S45x1] S45x2 1
  transposes_S32x10x10_S32x10x10_0_2_1 : S32x10x10.Transposes [0, 2, 1] S32x10x10
  bcast_S_S2048 : S_.BroadcastsInDim S2048 (![] : Fin 0 → Fin S2048.rank)
  bcast_S_S128 : S_.BroadcastsInDim S128 (![] : Fin 0 → Fin S128.rank)
  bcast_S2048_S2048x1_0 : S2048.BroadcastsInDim S2048x1 (![0] : Fin 1 → Fin S2048x1.rank)
  bcast_S_S2048x2048 : S_.BroadcastsInDim S2048x2048 (![] : Fin 0 → Fin S2048x2048.rank)
  bcast_S_S32x10x2048 : S_.BroadcastsInDim S32x10x2048 (![] : Fin 0 → Fin S32x10x2048.rank)
  transposes_S32x10x2048_S2048x32x10_2_0_1 : S32x10x2048.Transposes [2, 0, 1] S2048x32x10
  bcast_S_S128x32x10 : S_.BroadcastsInDim S128x32x10 (![] : Fin 0 → Fin S128x32x10.rank)
  reducesTo_S128x32x10_S128x32_d2 : S128x32x10.ReducesTo [2] S128x32
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  concatenates_S128x32_S128x32_S128x32_S128x96_d1 : Shape.Concatenates [S128x32, S128x32, S128x32] S128x96 1
  reducesTo_S128x96_S96_d0 : S128x96.ReducesTo [0] S96
  bcast_S_S96 : S_.BroadcastsInDim S96 (![] : Fin 0 → Fin S96.rank)
  bcast_S96_S1x96_1 : S96.BroadcastsInDim S1x96 (![1] : Fin 1 → Fin S1x96.rank)
  bcast_S_S1x96 : S_.BroadcastsInDim S1x96 (![] : Fin 0 → Fin S1x96.rank)
  bcast_S1x96_S128x96_0_1 : S1x96.BroadcastsInDim S128x96 (![0, 1] : Fin 2 → Fin S128x96.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S45_S100x1_S100_n_0_0_1_wf : ScatterDims.WF S45 S100x1 S100 [] [0] [0] 1
  scatter_S32x10x10_S45x2_S32x45_0_12_12_1_wf : ScatterDims.WF S32x10x10 S45x2 S32x45 [0] [1, 2] [1, 2] 1
  scatter_S128_S2048x1_S2048_n_0_0_1_wf : ScatterDims.WF S128 S2048x1 S2048 [] [0] [0] 1
  dot_S2048x2048_S2048x2048_S2048x2048_1_0_0_1_n_n_wf : DotDims.WF S2048x2048 S2048x2048 S2048x2048 [1] [0] [0] [1] [] []
  dot_S32x10x10_S32x10x2048_S32x10x2048_2_1_1_2_0_0_wf : DotDims.WF S32x10x10 S32x10x2048 S32x10x2048 [2] [1] [1] [2] [0] [0]
  dot_S32x10x2048_S2048x2048_S32x10x2048_2_0_01_1_n_n_wf : DotDims.WF S32x10x2048 S2048x2048 S32x10x2048 [2] [0] [0, 1] [1] [] []
  scatter_S128x32x10_S2048x1_S2048x32x10_12_0_0_1_wf : ScatterDims.WF S128x32x10 S2048x1 S2048x32x10 [1, 2] [0] [0] 1
  dot_S128x96_S96x128_S128x128_1_0_0_1_n_n_wf : DotDims.WF S128x96 S96x128 S128x128 [1] [0] [0] [1] [] []
  dot_S128x128_S128x2_S128x2_1_0_0_1_n_n_wf : DotDims.WF S128x128 S128x2 S128x2 [1] [0] [0] [1] [] []

variable [Facts₀]

def scatter_S45_S100x1_S100_n_0_0_1 : ScatterDims S45 S100x1 S100 where
  updateWindowDims := []
  insertedWindowDims := [0]
  scatterDimsToOperandDims := [0]
  indexVectorDim := 1
  wf := scatter_S45_S100x1_S100_n_0_0_1_wf
def scatter_S32x10x10_S45x2_S32x45_0_12_12_1 : ScatterDims S32x10x10 S45x2 S32x45 where
  updateWindowDims := [0]
  insertedWindowDims := [1, 2]
  scatterDimsToOperandDims := [1, 2]
  indexVectorDim := 1
  wf := scatter_S32x10x10_S45x2_S32x45_0_12_12_1_wf
def scatter_S128_S2048x1_S2048_n_0_0_1 : ScatterDims S128 S2048x1 S2048 where
  updateWindowDims := []
  insertedWindowDims := [0]
  scatterDimsToOperandDims := [0]
  indexVectorDim := 1
  wf := scatter_S128_S2048x1_S2048_n_0_0_1_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S32x10x10_S32x10x2048_S32x10x2048_2_1_1_2_0_0 : DotDims S32x10x10 S32x10x2048 S32x10x2048 where
  lhsContracting := [2]
  rhsContracting := [1]
  lhsNonContracting := [1]
  rhsNonContracting := [2]
  lhsBatch := [0]
  rhsBatch := [0]
  wf := dot_S32x10x10_S32x10x2048_S32x10x2048_2_1_1_2_0_0_wf
def dot_S32x10x2048_S2048x2048_S32x10x2048_2_0_01_1_n_n : DotDims S32x10x2048 S2048x2048 S32x10x2048 where
  lhsContracting := [2]
  rhsContracting := [0]
  lhsNonContracting := [0, 1]
  rhsNonContracting := [1]
  lhsBatch := []
  rhsBatch := []
  wf := dot_S32x10x2048_S2048x2048_S32x10x2048_2_0_01_1_n_n_wf
def scatter_S128x32x10_S2048x1_S2048x32x10_12_0_0_1 : ScatterDims S128x32x10 S2048x1 S2048x32x10 where
  updateWindowDims := [1, 2]
  insertedWindowDims := [0]
  scatterDimsToOperandDims := [0]
  indexVectorDim := 1
  wf := scatter_S128x32x10_S2048x1_S2048x32x10_12_0_0_1_wf
def dot_S128x96_S96x128_S128x128_1_0_0_1_n_n : DotDims S128x96 S96x128 S128x128 where
  lhsContracting := [1]
  rhsContracting := [0]
  lhsNonContracting := [0]
  rhsNonContracting := [1]
  lhsBatch := []
  rhsBatch := []
  wf := dot_S128x96_S96x128_S128x128_1_0_0_1_n_n_wf
def dot_S128x128_S128x2_S128x2_1_0_0_1_n_n : DotDims S128x128 S128x2 S128x2 where
  lhsContracting := [1]
  rhsContracting := [0]
  lhsNonContracting := [0]
  rhsNonContracting := [1]
  lhsBatch := []
  rhsBatch := []
  wf := dot_S128x128_S128x2_S128x2_1_0_0_1_n_n_wf

class Facts : Prop extends Facts₀ where

variable [Facts]
-- ==== Proof.KB.R0.lean ====
/-
  Region 0 of the program: one matrix product per grid point. The body loads the left block
  (S320x2048) and the right block (S2048x512), multiplies them into a zero accumulator and stores the
  product over the whole output block (S320x512). This module states what the output block holds after the body
  as a function of the two input blocks, proves the body's triple, and packages the per-point data
  the pipeline needs: the input blocks stay in place, the output block is the product.
-/
import proofs.«141740_j85993835200811_1_alg».proof.Proof.Gen.Kernel.Launch
import proofs.«141740_j85993835200811_1_alg».proof.Proof.Gen.Kernel.Skeleton
import proofs.«141740_j85993835200811_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole left block, the whole right block, the whole output block. -/
abbrev rL0 : Rect S320x2048 := Rect.unit (s := S320x2048) ![0, 0] S320x2048.size inb_S320x2048_S320x2048_0_0
abbrev rR0 : Rect S2048x512 := Rect.unit (s := S2048x512) ![0, 0] S2048x512.size inb_S2048x512_S2048x512_0_0
abbrev rO0 : Rect S320x512 := Rect.unit (s := S320x512) ![0, 0] S320x512.size inb_S320x512_S320x512_0_0

/-- The output block after the body: its one store, of the product of the two loaded blocks. -/
def out0_2 (x0 : Vec F S320x2048 .f32) (x1 : Vec F S2048x512 .f32) : Vec F S320x512 .f32 :=
  View.canon [⟨rO0, k0_pay1 (View.ld x0 rL0) (View.ld x1 rR0)⟩]

/-- The one store covers the output block. -/
theorem cover0_2 (p0 : Vec F S320x512 .f32) (y : S320x512.Idx) :
    ∃ pc ∈ ([⟨rO0, p0⟩] : List (View.Piece (Elt F) S320x512 .f32)), y ∈ pc.1.set :=
  View.cover_of_tiled [⟨rO0, p0⟩] S320x512.size (by rfl) y

set_option maxHeartbeats 1000000 in
/-- The body on whole staging buffers: the inputs keep their contents, the output ends at the product. -/
theorem sound_kernel0 (c : Dev nD) (E : Set ℕ) (i : grid0.Coords) (arg2 : Memref sig .tc .vmem S320x2048 .f32) (harg2 : arg2.IsWhole) (arg3 : Memref sig .tc .vmem S2048x512 .f32) (harg3 : arg3.IsWhole)
    (arg4 : Memref sig .tc .vmem S320x512 .f32) (harg4 : arg4.IsWhole)
    (x0 : Vec F S320x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The per-point data of this region on core `c`: the arrays as the region finds them; after the body each input
    buffer holds its block and the output buffer the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.KB.R1.lean ====
/-
  Region 1 of the program: one matrix product per grid point. The body loads the left block
  (S512x2048) and the right block (S2048x512), multiplies them into a zero accumulator and stores the
  product over the whole output block (S512x512). This module states what the output block holds after the body
  as a function of the two input blocks, proves the body's triple, and packages the per-point data
  the pipeline needs: the input blocks stay in place, the output block is the product.
-/
import proofs.«141740_j85993835200811_1_alg».proof.Proof.Gen.Kernel.Launch
import proofs.«141740_j85993835200811_1_alg».proof.Proof.Gen.Kernel.Skeleton
import proofs.«141740_j85993835200811_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole left block, the whole right block, the whole output block. -/
abbrev rL1 : Rect S512x2048 := Rect.unit (s := S512x2048) ![0, 0] S512x2048.size inb_S512x2048_S512x2048_0_0
abbrev rR1 : Rect S2048x512 := Rect.unit (s := S2048x512) ![0, 0] S2048x512.size inb_S2048x512_S2048x512_0_0
abbrev rO1 : Rect S512x512 := Rect.unit (s := S512x512) ![0, 0] S512x512.size inb_S512x512_S512x512_0_0

/-- The output block after the body: its one store, of the product of the two loaded blocks. -/
def out1_2 (x0 : Vec F S512x2048 .f32) (x1 : Vec F S2048x512 .f32) : Vec F S512x512 .f32 :=
  View.canon [⟨rO1, k1_pay1 (View.ld x0 rL1) (View.ld x1 rR1)⟩]

/-- The one store covers the output block. -/
theorem cover1_2 (p0 : Vec F S512x512 .f32) (y : S512x512.Idx) :
    ∃ pc ∈ ([⟨rO1, p0⟩] : List (View.Piece (Elt F) S512x512 .f32)), y ∈ pc.1.set :=
  View.cover_of_tiled [⟨rO1, p0⟩] S512x512.size (by rfl) y

set_option maxHeartbeats 1000000 in
/-- The body on whole staging buffers: the inputs keep their contents, the output ends at the product. -/
theorem sound_kernel1 (c : Dev nD) (E : Set ℕ) (i : grid1.Coords) (arg2 : Memref sig .tc .vmem S512x2048 .f32) (harg2 : arg2.IsWhole) (arg3 : Memref sig .tc .vmem S2048x512 .f32) (harg3 : arg3.IsWhole)
    (arg4 : Memref sig .tc .vmem S512x512 .f32) (harg4 : arg4.IsWhole)
    (x0 : Vec F S512x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The per-point data of this region on core `c`: the arrays as the region finds them; after the body each input
    buffer holds its block and the output buffer the product of the two input blocks. The two input windows read ONE
    array, so each holds it at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.KB.R2.lean ====
/-
  Region 2 of the program: one matrix product per grid point. The body loads the left block
  (S320x2048) and the right block (S2048x512), multiplies them into a zero accumulator and stores the
  product over the whole output block (S320x512). This module states what the output block holds after the body
  as a function of the two input blocks, proves the body's triple, and packages the per-point data
  the pipeline needs: the input blocks stay in place, the output block is the product.
-/
import proofs.«141740_j85993835200811_1_alg».proof.Proof.Gen.Kernel.Launch
import proofs.«141740_j85993835200811_1_alg».proof.Proof.Gen.Kernel.Skeleton
import proofs.«141740_j85993835200811_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole left block, the whole right block, the whole output block. -/
abbrev rL2 : Rect S320x2048 := Rect.unit (s := S320x2048) ![0, 0] S320x2048.size inb_S320x2048_S320x2048_0_0
abbrev rR2 : Rect S2048x512 := Rect.unit (s := S2048x512) ![0, 0] S2048x512.size inb_S2048x512_S2048x512_0_0
abbrev rO2 : Rect S320x512 := Rect.unit (s := S320x512) ![0, 0] S320x512.size inb_S320x512_S320x512_0_0

/-- The output block after the body: its one store, of the product of the two loaded blocks. -/
def out2_2 (x0 : Vec F S320x2048 .f32) (x1 : Vec F S2048x512 .f32) : Vec F S320x512 .f32 :=
  View.canon [⟨rO2, k2_pay1 (View.ld x0 rL2) (View.ld x1 rR2)⟩]

/-- The one store covers the output block. -/
theorem cover2_2 (p0 : Vec F S320x512 .f32) (y : S320x512.Idx) :
    ∃ pc ∈ ([⟨rO2, p0⟩] : List (View.Piece (Elt F) S320x512 .f32)), y ∈ pc.1.set :=
  View.cover_of_tiled [⟨rO2, p0⟩] S320x512.size (by rfl) y

set_option maxHeartbeats 1000000 in
/-- The body on whole staging buffers: the inputs keep their contents, the output ends at the product. -/
theorem sound_kernel2 (c : Dev nD) (E : Set ℕ) (i : grid2.Coords) (arg2 : Memref sig .tc .vmem S320x2048 .f32) (harg2 : arg2.IsWhole) (arg3 : Memref sig .tc .vmem S2048x512 .f32) (harg3 : arg3.IsWhole)
    (arg4 : Memref sig .tc .vmem S320x512 .f32) (harg4 : arg4.IsWhole)
    (x0 : Vec F S320x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The per-point data of this region on core `c`: the arrays as the region finds them; after the body each input
    buffer holds its block and the output buffer the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.KB.R3.lean ====
/-
  Region 3 of the program: one matrix product per grid point. The body loads the left block
  (S512x2048) and the right block (S2048x512), multiplies them into a zero accumulator and stores the
  product over the whole output block (S512x512). This module states what the output block holds after the body
  as a function of the two input blocks, proves the body's triple, and packages the per-point data
  the pipeline needs: the input blocks stay in place, the output block is the product.
-/
import proofs.«141740_j85993835200811_1_alg».proof.Proof.Gen.Kernel.Launch
import proofs.«141740_j85993835200811_1_alg».proof.Proof.Gen.Kernel.Skeleton
import proofs.«141740_j85993835200811_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point, whether or not the point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole left block, the whole right block, the whole output block. -/
abbrev rL3 : Rect S512x2048 := Rect.unit (s := S512x2048) ![0, 0] S512x2048.size inb_S512x2048_S512x2048_0_0
abbrev rR3 : Rect S2048x512 := Rect.unit (s := S2048x512) ![0, 0] S2048x512.size inb_S2048x512_S2048x512_0_0
abbrev rO3 : Rect S512x512 := Rect.unit (s := S512x512) ![0, 0] S512x512.size inb_S512x512_S512x512_0_0

/-- The output block after the body: its one store, of the product of the two loaded blocks. -/
def out3_2 (x0 : Vec F S512x2048 .f32) (x1 : Vec F S2048x512 .f32) : Vec F S512x512 .f32 :=
  View.canon [⟨rO3, k3_pay1 (View.ld x0 rL3) (View.ld x1 rR3)⟩]

/-- The one store covers the output block. -/
theorem cover3_2 (p0 : Vec F S512x512 .f32) (y : S512x512.Idx) :
    ∃ pc ∈ ([⟨rO3, p0⟩] : List (View.Piece (Elt F) S512x512 .f32)), y ∈ pc.1.set :=
  View.cover_of_tiled [⟨rO3, p0⟩] S512x512.size (by rfl) y

set_option maxHeartbeats 1000000 in
/-- The body on whole staging buffers: the inputs keep their contents, the output ends at the product. -/
theorem sound_kernel3 (c : Dev nD) (E : Set ℕ) (i : grid3.Coords) (arg2 : Memref sig .tc .vmem S512x2048 .f32) (harg2 : arg2.IsWhole) (arg3 : Memref sig .tc .vmem S2048x512 .f32) (harg3 : arg3.IsWhole)
    (arg4 : Memref sig .tc .vmem S512x512 .f32) (harg4 : arg4.IsWhole)
    (x0 : Vec F S512x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__matmul_kernel i arg2 harg2 arg3 harg3 arg4 harg4) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The per-point data of this region on core `c`: the arrays as the region finds them; after the body each input
    buffer holds its block and the output buffer the product of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.KB.R4.lean ====
/-
  Region 4 of the program: one matrix product per grid point. The body loads the left block
  (S320x2048) and the right block (S2048x512), multiplies them into a zero accumulator and stores the
  product over the whole output block (S320x512). This module states what the output block holds after the body
  as a function of the two input blocks, proves the body's triple, and packages the per-point data
  the pipeline needs: the input blocks stay in place, the output block is the product.
-/
import proofs.«141740_j85993835200811_1_alg».proof.Proof.Gen.Kernel.Launch
import proofs.«141740_j85993835200811_1_alg».proof.Proof.Gen.Kernel.Skeleton
import proofs.«141740_j85993835200811_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point, whether or not the point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole left block, the whole right block, the whole output block. -/
abbrev rL4 : Rect S320x2048 := Rect.unit (s := S320x2048) ![0, 0] S320x2048.size inb_S320x2048_S320x2048_0_0
abbrev rR4 : Rect S2048x512 := Rect.unit (s := S2048x512) ![0, 0] S2048x512.size inb_S2048x512_S2048x512_0_0
abbrev rO4 : Rect S320x512 := Rect.unit (s := S320x512) ![0, 0] S320x512.size inb_S320x512_S320x512_0_0

/-- The output block after the body: its one store, of the product of the two loaded blocks. -/
def out4_2 (x0 : Vec F S320x2048 .f32) (x1 : Vec F S2048x512 .f32) : Vec F S320x512 .f32 :=
  View.canon [⟨rO4, k4_pay1 (View.ld x0 rL4) (View.ld x1 rR4)⟩]

/-- The one store covers the output block. -/
theorem cover4_2 (p0 : Vec F S320x512 .f32) (y : S320x512.Idx) :
    ∃ pc ∈ ([⟨rO4, p0⟩] : List (View.Piece (Elt F) S320x512 .f32)), y ∈ pc.1.set :=
  View.cover_of_tiled [⟨rO4, p0⟩] S320x512.size (by rfl) y

set_option maxHeartbeats 1000000 in
/-- The body on whole staging buffers: the inputs keep their contents, the output ends at the product. -/
theorem sound_kernel4 (c : Dev nD) (E : Set ℕ) (i : grid4.Coords) (arg2 : Memref sig .tc .vmem S320x2048 .f32) (harg2 : arg2.IsWhole) (arg3 : Memref sig .tc .vmem S2048x512 .f32) (harg3 : arg3.IsWhole)
    (arg4 : Memref sig .tc .vmem S320x512 .f32) (harg4 : arg4.IsWhole)
    (x0 : Vec F S320x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__matmul_kernel i arg2 harg2 arg3 harg3 arg4 harg4) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The per-point data of this region on core `c`: the arrays as the region finds them; after the body each input
    buffer holds its block and the output buffer the product of the two input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Gen

end
-- ==== Proof.KB.RunW.lean ====
/-
  The buffer contents of a TensorCore at every boundary between two segments of the program: the launch memory,
  then, segment by segment, what a host stretch leaves (each operation rewrites the buffers it writes) and what a
  kernel region leaves (its windows' arrays at what the pipeline's write-backs fold to, every other buffer as
  entered). The lemmas read these valuations at single references: a region's arrays at its exit, a buffer that is
  no array of the region, a reference no operation of a stretch writes; and each argument array, which no
  stretch writes and which regions only read, is walked back through all 33 segments to the launch memory.
-/
import proofs.«141740_j85993835200811_1_alg».proof.Proof.KB.R0
import proofs.«141740_j85993835200811_1_alg».proof.Proof.KB.R1
import proofs.«141740_j85993835200811_1_alg».proof.Proof.KB.R2
import proofs.«141740_j85993835200811_1_alg».proof.Proof.KB.R3
import proofs.«141740_j85993835200811_1_alg».proof.Proof.KB.R4

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

namespace Run

/-- Every operation of a literal stretch writes only references of a literal list: each operation's written set is
    a singleton, whose element is found in the list by evaluation. -/
local macro "writes_in_list" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)))

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  writes_in_list
/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_cst, main_call0_v0, main_v1]
theorem hostOps0_1_writes : (hostOps0_1 : List (HloOp τ sig (Elt F))).Forall fun op => op.writes ⊆ (hostOps0_1_W.map (Proc.devRef (τ := τ) .tc)).toFinset := by
  writes_in_list
/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_cst, main_v2]
theorem hostOps0_2_writes : (hostOps0_2 : List (HloOp τ sig (Elt F))).Forall fun op => op.writes ⊆ (hostOps0_2_W.map (Proc.devRef (τ := τ) .tc)).toFinset := by
  writes_in_list
/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_v0, main_call1_c, main_call1_v1, main_call1_v2, main_call1_v3, main_call1_v4, main_call1_cst, main_call1_v5, main_v3]
theorem hostOps0_3_writes : (hostOps0_3 : List (HloOp τ sig (Elt F))).Forall fun op => op.writes ⊆ (hostOps0_3_W.map (Proc.devRef (τ := τ) .tc)).toFinset := by
  writes_in_list
/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_cst_0, main_v4, main_v5]
theorem hostOps0_4_writes : (hostOps0_4 : List (HloOp τ sig (Elt F))).Forall fun op => op.writes ⊆ (hostOps0_4_W.map (Proc.devRef (τ := τ) .tc)).toFinset := by
  writes_in_list
/-- No operation of `hostOps0_5` allocates a buffer. -/
theorem hostOps0_5_fresh : (hostOps0_5 : List (HloOp τ sig (Elt F))).Forall fun op => op.fresh = ∅ := by
  simp only [List.Forall]; repeat' constructor
/-- The references `hostOps0_5`'s operations write. -/
abbrev hostOps0_5_W : List (Ref sig .tc) := [main_call2_v0, main_call2_v1, main_call2_call0_c, main_call2_call0_v0, main_v6]
theorem hostOps0_5_writes : (hostOps0_5 : List (HloOp τ sig (Elt F))).Forall fun op => op.writes ⊆ (hostOps0_5_W.map (Proc.devRef (τ := τ) .tc)).toFinset := by
  writes_in_list
/-- No operation of `hostOps0_6` allocates a buffer. -/
theorem hostOps0_6_fresh : (hostOps0_6 : List (HloOp τ sig (Elt F))).Forall fun op => op.fresh = ∅ := by
  simp only [List.Forall]; repeat' constructor
/-- The references `hostOps0_6`'s operations write. -/
abbrev hostOps0_6_W : List (Ref sig .tc) := [main_c, main_v7, main_c_1]
theorem hostOps0_6_writes : (hostOps0_6 : List (HloOp τ sig (Elt F))).Forall fun op => op.writes ⊆ (hostOps0_6_W.map (Proc.devRef (τ := τ) .tc)).toFinset := by
  writes_in_list
/-- No operation of `hostOps0_7` allocates a buffer. -/
theorem hostOps0_7_fresh : (hostOps0_7 : List (HloOp τ sig (Elt F))).Forall fun op => op.fresh = ∅ := by
  simp only [List.Forall]; repeat' constructor
/-- The references `hostOps0_7`'s operations write. -/
abbrev hostOps0_7_W : List (Ref sig .tc) := [main_call3_v0, main_call3_v1, main_v8]
theorem hostOps0_7_writes : (hostOps0_7 : List (HloOp τ sig (Elt F))).Forall fun op => op.writes ⊆ (hostOps0_7_W.map (Proc.devRef (τ := τ) .tc)).toFinset := by
  writes_in_list
/-- No operation of `hostOps0_8` allocates a buffer. -/
theorem hostOps0_8_fresh : (hostOps0_8 : List (HloOp τ sig (Elt F))).Forall fun op => op.fresh = ∅ := by
  simp only [List.Forall]; repeat' constructor
/-- The references `hostOps0_8`'s operations write. -/
abbrev hostOps0_8_W : List (Ref sig .tc) := [main_c_2, main_v9, main_v10, main_c_3, main_v11, main_v12, main_v13, main_v14, main_c_4, main_v15, main_v16]
theorem hostOps0_8_writes : (hostOps0_8 : List (HloOp τ sig (Elt F))).Forall fun op => op.writes ⊆ (hostOps0_8_W.map (Proc.devRef (τ := τ) .tc)).toFinset := by
  writes_in_list
/-- No operation of `hostOps0_9` allocates a buffer. -/
theorem hostOps0_9_fresh : (hostOps0_9 : List (HloOp τ sig (Elt F))).Forall fun op => op.fresh = ∅ := by
  simp only [List.Forall]; repeat' constructor
/-- The references `hostOps0_9`'s operations write. -/
abbrev hostOps0_9_W : List (Ref sig .tc) := [main_call4_call0_c, main_call4_call0_v0, main_v17]
theorem hostOps0_9_writes : (hostOps0_9 : List (HloOp τ sig (Elt F))).Forall fun op => op.writes ⊆ (hostOps0_9_W.map (Proc.devRef (τ := τ) .tc)).toFinset := by
  writes_in_list
/-- No operation of `hostOps0_10` allocates a buffer. -/
theorem hostOps0_10_fresh : (hostOps0_10 : List (HloOp τ sig (Elt F))).Forall fun op => op.fresh = ∅ := by
  simp only [List.Forall]; repeat' constructor
/-- The references `hostOps0_10`'s operations write. -/
abbrev hostOps0_10_W : List (Ref sig .tc) := [main_c_5]
theorem hostOps0_10_writes : (hostOps0_10 : List (HloOp τ sig (Elt F))).Forall fun op => op.writes ⊆ (hostOps0_10_W.map (Proc.devRef (τ := τ) .tc)).toFinset := by
  writes_in_list
/-- No operation of `hostOps0_11` allocates a buffer. -/
theorem hostOps0_11_fresh : (hostOps0_11 : List (HloOp τ sig (Elt F))).Forall fun op => op.fresh = ∅ := by
  simp only [List.Forall]; repeat' constructor
/-- The references `hostOps0_11`'s operations write. -/
abbrev hostOps0_11_W : List (Ref sig .tc) := [main_call5_v0, main_call5_v1, main_call5_v2, main_call5_v3, main_call5_v4, main_call5_v5, main_call5_v6, main_call5_v7, main_call5_c, main_call5_v8, main_call5_v9, main_call5_v10, main_call5_c_0, main_call5_v11, main_call5_v12, main_v18]
theorem hostOps0_11_writes : (hostOps0_11 : List (HloOp τ sig (Elt F))).Forall fun op => op.writes ⊆ (hostOps0_11_W.map (Proc.devRef (τ := τ) .tc)).toFinset := by
  writes_in_list
/-- No operation of `hostOps0_12` allocates a buffer. -/
theorem hostOps0_12_fresh : (hostOps0_12 : List (HloOp τ sig (Elt F))).Forall fun op => op.fresh = ∅ := by
  simp only [List.Forall]; repeat' constructor
/-- The references `hostOps0_12`'s operations write. -/
abbrev hostOps0_12_W : List (Ref sig .tc) := [main_c_6]
theorem hostOps0_12_writes : (hostOps0_12 : List (HloOp τ sig (Elt F))).Forall fun op => op.writes ⊆ (hostOps0_12_W.map (Proc.devRef (τ := τ) .tc)).toFinset := by
  writes_in_list
/-- No operation of `hostOps0_13` allocates a buffer. -/
theorem hostOps0_13_fresh : (hostOps0_13 : List (HloOp τ sig (Elt F))).Forall fun op => op.fresh = ∅ := by
  simp only [List.Forall]; repeat' constructor
/-- The references `hostOps0_13`'s operations write. -/
abbrev hostOps0_13_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v19]
theorem hostOps0_13_writes : (hostOps0_13 : List (HloOp τ sig (Elt F))).Forall fun op => op.writes ⊆ (hostOps0_13_W.map (Proc.devRef (τ := τ) .tc)).toFinset := by
  writes_in_list
/-- No operation of `hostOps0_14` allocates a buffer. -/
theorem hostOps0_14_fresh : (hostOps0_14 : List (HloOp τ sig (Elt F))).Forall fun op => op.fresh = ∅ := by
  simp only [List.Forall]; repeat' constructor
/-- The references `hostOps0_14`'s operations write. -/
abbrev hostOps0_14_W : List (Ref sig .tc) := [main_c_7]
theorem hostOps0_14_writes : (hostOps0_14 : List (HloOp τ sig (Elt F))).Forall fun op => op.writes ⊆ (hostOps0_14_W.map (Proc.devRef (τ := τ) .tc)).toFinset := by
  writes_in_list
/-- No operation of `hostOps0_15` allocates a buffer. -/
theorem hostOps0_15_fresh : (hostOps0_15 : List (HloOp τ sig (Elt F))).Forall fun op => op.fresh = ∅ := by
  simp only [List.Forall]; repeat' constructor
/-- The references `hostOps0_15`'s operations write. -/
abbrev hostOps0_15_W : List (Ref sig .tc) := [main_call7_v0, main_call7_v1, main_call7_v2, main_call7_v3, main_call7_v4, main_call7_v5, main_call7_v6, main_call7_v7, main_call7_c, main_call7_v8, main_call7_v9, main_call7_v10, main_call7_c_0, main_call7_v11, main_call7_v12, main_v20]
theorem hostOps0_15_writes : (hostOps0_15 : List (HloOp τ sig (Elt F))).Forall fun op => op.writes ⊆ (hostOps0_15_W.map (Proc.devRef (τ := τ) .tc)).toFinset := by
  writes_in_list
/-- No operation of `hostOps0_16` allocates a buffer. -/
theorem hostOps0_16_fresh : (hostOps0_16 : List (HloOp τ sig (Elt F))).Forall fun op => op.fresh = ∅ := by
  simp only [List.Forall]; repeat' constructor
/-- The references `hostOps0_16`'s operations write. -/
abbrev hostOps0_16_W : List (Ref sig .tc) := [main_c_8]
theorem hostOps0_16_writes : (hostOps0_16 : List (HloOp τ sig (Elt F))).Forall fun op => op.writes ⊆ (hostOps0_16_W.map (Proc.devRef (τ := τ) .tc)).toFinset := by
  writes_in_list
/-- No operation of `hostOps0_17` allocates a buffer. -/
theorem hostOps0_17_fresh : (hostOps0_17 : List (HloOp τ sig (Elt F))).Forall fun op => op.fresh = ∅ := by
  simp only [List.Forall]; repeat' constructor
/-- The references `hostOps0_17`'s operations write. -/
abbrev hostOps0_17_W : List (Ref sig .tc) := [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v21]
theorem hostOps0_17_writes : (hostOps0_17 : List (HloOp τ sig (Elt F))).Forall fun op => op.writes ⊆ (hostOps0_17_W.map (Proc.devRef (τ := τ) .tc)).toFinset := by
  writes_in_list
/-- No operation of `hostOps0_18` allocates a buffer. -/
theorem hostOps0_18_fresh : (hostOps0_18 : List (HloOp τ sig (Elt F))).Forall fun op => op.fresh = ∅ := by
  simp only [List.Forall]; repeat' constructor
/-- The references `hostOps0_18`'s operations write. -/
abbrev hostOps0_18_W : List (Ref sig .tc) := [main_cst_9, main_v22, main_c_10, main_v23, main_v24, main_c_11, main_v25, main_v26, main_v27, main_c_12, main_v28, main_v29, main_c_13, main_v30, main_v31, main_v32, main_v33, main_v34, main_v35, main_v36, main_v37, main_v38, main_cst_14, main_v39, main_cst_15, main_v40, main_v41, main_v42, main_cst_16, main_v43, main_v44, main_v45]
theorem hostOps0_18_writes : (hostOps0_18 : List (HloOp τ sig (Elt F))).Forall fun op => op.writes ⊆ (hostOps0_18_W.map (Proc.devRef (τ := τ) .tc)).toFinset := by
  writes_in_list
/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v47, main_v48, main_cst_17, main_v49, main_v50, main_v51, main_cst_18, main_v52, main_v53, main_v54, main_v55, main_v56]
theorem hostOps1_writes : (hostOps1 : List (HloOp τ sig (Elt F))).Forall fun op => op.writes ⊆ (hostOps1_W.map (Proc.devRef (τ := τ) .tc)).toFinset := by
  writes_in_list
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v58]
theorem hostOps2_writes : (hostOps2 : List (HloOp τ sig (Elt F))).Forall fun op => op.writes ⊆ (hostOps2_W.map (Proc.devRef (τ := τ) .tc)).toFinset := by
  writes_in_list
/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v60, main_v61, main_cst_19, main_v62, main_v63, main_v64, main_cst_20, main_v65, main_v66, main_v67, main_v68, main_v69]
theorem hostOps3_writes : (hostOps3 : List (HloOp τ sig (Elt F))).Forall fun op => op.writes ⊆ (hostOps3_W.map (Proc.devRef (τ := τ) .tc)).toFinset := by
  writes_in_list
/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v71]
theorem hostOps4_writes : (hostOps4 : List (HloOp τ sig (Elt F))).Forall fun op => op.writes ⊆ (hostOps4_W.map (Proc.devRef (τ := τ) .tc)).toFinset := by
  writes_in_list
/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v73, main_v74, main_cst_21, main_v75, main_v76, main_v77, main_cst_22, main_v78, main_v79, main_v80, main_v81, main_v82, main_cst_23, main_v83, main_cst_24, main_v84, main_v85, main_c_25]
theorem hostOps5_writes : (hostOps5 : List (HloOp τ sig (Elt F))).Forall fun op => op.writes ⊆ (hostOps5_W.map (Proc.devRef (τ := τ) .tc)).toFinset := by
  writes_in_list
/-- No operation of `hostOps5_1` allocates a buffer. -/
theorem hostOps5_1_fresh : (hostOps5_1 : List (HloOp τ sig (Elt F))).Forall fun op => op.fresh = ∅ := by
  simp only [List.Forall]; repeat' constructor
/-- The references `hostOps5_1`'s operations write. -/
abbrev hostOps5_1_W : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v86]
theorem hostOps5_1_writes : (hostOps5_1 : List (HloOp τ sig (Elt F))).Forall fun op => op.writes ⊆ (hostOps5_1_W.map (Proc.devRef (τ := τ) .tc)).toFinset := by
  writes_in_list
/-- No operation of `hostOps5_2` allocates a buffer. -/
theorem hostOps5_2_fresh : (hostOps5_2 : List (HloOp τ sig (Elt F))).Forall fun op => op.fresh = ∅ := by
  simp only [List.Forall]; repeat' constructor
/-- The references `hostOps5_2`'s operations write. -/
abbrev hostOps5_2_W : List (Ref sig .tc) := [main_v87, main_v88, main_v89, main_v90, main_v91, main_v92, main_cst_26, main_v93, main_v94, main_v95, main_v96, main_v97, main_v98, main_v99, main_v100, main_v101, main_v102, main_v103, main_v104, main_v105]
theorem hostOps5_2_writes : (hostOps5_2 : List (HloOp τ sig (Elt F))).Forall fun op => op.writes ⊆ (hostOps5_2_W.map (Proc.devRef (τ := τ) .tc)).toFinset := by
  writes_in_list
/-- No operation of `hostOps5_3` allocates a buffer. -/
theorem hostOps5_3_fresh : (hostOps5_3 : List (HloOp τ sig (Elt F))).Forall fun op => op.fresh = ∅ := by
  simp only [List.Forall]; repeat' constructor
/-- The references `hostOps5_3`'s operations write. -/
abbrev hostOps5_3_W : List (Ref sig .tc) := [main_call10_cst, main_call10_v0, main_v106]
theorem hostOps5_3_writes : (hostOps5_3 : List (HloOp τ sig (Elt F))).Forall fun op => op.writes ⊆ (hostOps5_3_W.map (Proc.devRef (τ := τ) .tc)).toFinset := by
  writes_in_list
/-- No operation of `hostOps5_4` allocates a buffer. -/
theorem hostOps5_4_fresh : (hostOps5_4 : List (HloOp τ sig (Elt F))).Forall fun op => op.fresh = ∅ := by
  simp only [List.Forall]; repeat' constructor
/-- The references `hostOps5_4`'s operations write. -/
abbrev hostOps5_4_W : List (Ref sig .tc) := [main_v107, main_v108, main_v109, main_v110]
theorem hostOps5_4_writes : (hostOps5_4 : List (HloOp τ sig (Elt F))).Forall fun op => op.writes ⊆ (hostOps5_4_W.map (Proc.devRef (τ := τ) .tc)).toFinset := by
  writes_in_list

end Run

/-! ## The buffer contents at each boundary: a fold through the program -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12`. -/
abbrev W13 : Dev nD → Valuation τ sig (Elt F) := fun c => StableHlo.after hostOps0_12 (W12 m ρ c)
/-- After `hostOps0_13`. -/
abbrev W14 : Dev nD → Valuation τ sig (Elt F) := fun c => StableHlo.after hostOps0_13 (W13 m ρ c)
/-- After `hostOps0_14`. -/
abbrev W15 : Dev nD → Valuation τ sig (Elt F) := fun c => StableHlo.after hostOps0_14 (W14 m ρ c)
/-- After `hostOps0_15`. -/
abbrev W16 : Dev nD → Valuation τ sig (Elt F) := fun c => StableHlo.after hostOps0_15 (W15 m ρ c)
/-- After `hostOps0_16`. -/
abbrev W17 : Dev nD → Valuation τ sig (Elt F) := fun c => StableHlo.after hostOps0_16 (W16 m ρ c)
/-- After `hostOps0_17`. -/
abbrev W18 : Dev nD → Valuation τ sig (Elt F) := fun c => StableHlo.after hostOps0_17 (W17 m ρ c)
/-- After `hostOps0_18`. -/
abbrev W19 : Dev nD → Valuation τ sig (Elt F) := fun c => StableHlo.after hostOps0_18 (W18 m ρ c)
/-- The same read at the TensorCore's references: what region 0 is entered from. -/
abbrev E0 : (c : Dev nD) → (b : Ref sig .tc) → Buf (Elt F) ((c : Thread nD τ).loc b) := fun c b => W19 m ρ c b
/-- At region 0's exit: its arrays at what the pipeline leaves (the inputs as entered, the output's write-backs
    folded), every other buffer as entered. -/
def W20 (c : Dev nD) : Valuation τ sig (Elt F) :=
  Pipeline.withArrays spec0 c (W19 m ρ c) fun w => (dat0 (E0 m ρ) c).arrAt w cfg0.N
theorem W20_arr (c : Dev nD) (w : Fin cfg0.W) :
    W20 m ρ c (Proc.devRef .tc (Pipeline.arrRef spec0 w)) = (dat0 (E0 m ρ) c).arrAt w cfg0.N := by
  unfold W20; exact Pipeline.withArrays_arr spec0 launch0.win.arr_inj c _ _ w
theorem W20_of_ne (c : Dev nD) (b : Ref sig .tc) (hb : ∀ w, Pipeline.arrRef spec0 w ≠ b) :
    W20 m ρ c (Proc.devRef .tc b) = W19 m ρ c (Proc.devRef .tc b) := by
  unfold W20; exact Pipeline.withArrays_of_ne spec0 c _ _ b hb
/-- The same read at the TensorCore's references: what region 0 leaves. -/
abbrev X0 : (c : Dev nD) → (b : Ref sig .tc) → Buf (Elt F) ((c : Thread nD τ).loc b) := fun c b => W20 m ρ c b
/-- At region 0's exit each of its arrays holds what the pipeline leaves, and every other buffer what it held at entry. -/
theorem hF0 (c : Dev nD) (w : Fin cfg0.W) : (dat0 (E0 m ρ) c).arrAt w cfg0.N = X0 m ρ c (Pipeline.arrRef spec0 w) :=
  (W20_arr m ρ c w).symm
theorem hrest0 (c : Dev nD) : ∀ b, b ∉ Finset.univ.image (Pipeline.arrRef spec0) → X0 m ρ c b = E0 m ρ c b :=
  fun b hb => W20_of_ne m ρ c b fun w e => hb (Finset.mem_image.mpr ⟨w, Finset.mem_univ _, e⟩)
/-- After `hostOps1`. -/
abbrev W21 : Dev nD → Valuation τ sig (Elt F) := fun c => StableHlo.after hostOps1 (W20 m ρ c)
/-- The same read at the TensorCore's references: what region 1 is entered from. -/
abbrev E1 : (c : Dev nD) → (b : Ref sig .tc) → Buf (Elt F) ((c : Thread nD τ).loc b) := fun c b => W21 m ρ c b
/-- At region 1's exit: its two input windows read one array, which the region leaves as entered; only the output
    array changes, to what the pipeline's write-backs fold to. -/
def W22 (c : Dev nD) : Valuation τ sig (Elt F) :=
  Function.update (W21 m ρ c) (Proc.devRef .tc main_v57) ((dat1 (E1 m ρ) c).arrAt 2 cfg1.N)
theorem W22_v57 (c : Dev nD) : W22 m ρ c (Proc.devRef .tc main_v57) = (dat1 (E1 m ρ) c).arrAt 2 cfg1.N := by
  unfold W22; exact Function.update_self _ _ _
theorem W22_of_ne (c : Dev nD) (b : Ref sig .tc) (hb : b ≠ main_v57) :
    W22 m ρ c (Proc.devRef .tc b) = W21 m ρ c (Proc.devRef .tc b) := by
  unfold W22; exact Function.update_of_ne (StableHlo.devRef_ne_of_ne hb) _ _
/-- The same read at the TensorCore's references: what region 1 leaves. -/
abbrev X1 : (c : Dev nD) → (b : Ref sig .tc) → Buf (Elt F) ((c : Thread nD τ).loc b) := fun c b => W22 m ρ c b
/-- At region 1's exit each window's array holds what the pipeline leaves: an input window's array never changes
    (and the exit contents agree with the entry contents there), the output's is the updated one. -/
theorem hF1 (c : Dev nD) : ∀ w : Fin cfg1.W, (dat1 (E1 m ρ) c).arrAt w cfg1.N = X1 m ρ c (Pipeline.arrRef spec1 w)
  | ⟨0, _⟩ => (((dat1 (E1 m ρ) c).arrAt_in 0 rfl _).trans (A_eq1 (E1 m ρ) c 0)).trans (W22_of_ne m ρ c (Pipeline.arrRef spec1 0) (by decide)).symm
  | ⟨1, _⟩ => (((dat1 (E1 m ρ) c).arrAt_in 1 rfl _).trans (A_eq1 (E1 m ρ) c 1)).trans (W22_of_ne m ρ c (Pipeline.arrRef spec1 1) (by decide)).symm
  | ⟨2, _⟩ => (W22_v57 m ρ c).symm
  | ⟨_ + 3, h⟩ => absurd h (Nat.not_lt.2 (Nat.le_add_left _ _))
/-- Every buffer that is no array of region 1 holds at its exit what it held at entry. -/
theorem hrest1 (c : Dev nD) : ∀ b, b ∉ Finset.univ.image (Pipeline.arrRef spec1) → X1 m ρ c b = E1 m ρ c b :=
  fun b hb => W22_of_ne m ρ c b fun e => hb (Finset.mem_image.mpr ⟨2, Finset.mem_univ _, e.symm⟩)
/-- After `hostOps2`. -/
abbrev W23 : Dev nD → Valuation τ sig (Elt F) := fun c => StableHlo.after hostOps2 (W22 m ρ c)
/-- The same read at the TensorCore's references: what region 2 is entered from. -/
abbrev E2 : (c : Dev nD) → (b : Ref sig .tc) → Buf (Elt F) ((c : Thread nD τ).loc b) := fun c b => W23 m ρ c b
/-- At region 2's exit: its arrays at what the pipeline leaves (the inputs as entered, the output's write-backs
    folded), every other buffer as entered. -/
def W24 (c : Dev nD) : Valuation τ sig (Elt F) :=
  Pipeline.withArrays spec2 c (W23 m ρ c) fun w => (dat2 (E2 m ρ) c).arrAt w cfg2.N
theorem W24_arr (c : Dev nD) (w : Fin cfg2.W) :
    W24 m ρ c (Proc.devRef .tc (Pipeline.arrRef spec2 w)) = (dat2 (E2 m ρ) c).arrAt w cfg2.N := by
  unfold W24; exact Pipeline.withArrays_arr spec2 launch2.win.arr_inj c _ _ w
theorem W24_of_ne (c : Dev nD) (b : Ref sig .tc) (hb : ∀ w, Pipeline.arrRef spec2 w ≠ b) :
    W24 m ρ c (Proc.devRef .tc b) = W23 m ρ c (Proc.devRef .tc b) := by
  unfold W24; exact Pipeline.withArrays_of_ne spec2 c _ _ b hb
/-- The same read at the TensorCore's references: what region 2 leaves. -/
abbrev X2 : (c : Dev nD) → (b : Ref sig .tc) → Buf (Elt F) ((c : Thread nD τ).loc b) := fun c b => W24 m ρ c b
/-- At region 2's exit each of its arrays holds what the pipeline leaves, and every other buffer what it held at entry. -/
theorem hF2 (c : Dev nD) (w : Fin cfg2.W) : (dat2 (E2 m ρ) c).arrAt w cfg2.N = X2 m ρ c (Pipeline.arrRef spec2 w) :=
  (W24_arr m ρ c w).symm
theorem hrest2 (c : Dev nD) : ∀ b, b ∉ Finset.univ.image (Pipeline.arrRef spec2) → X2 m ρ c b = E2 m ρ c b :=
  fun b hb => W24_of_ne m ρ c b fun w e => hb (Finset.mem_image.mpr ⟨w, Finset.mem_univ _, e⟩)
/-- After `hostOps3`. -/
abbrev W25 : Dev nD → Valuation τ sig (Elt F) := fun c => StableHlo.after hostOps3 (W24 m ρ c)
/-- The same read at the TensorCore's references: what region 3 is entered from. -/
abbrev E3 : (c : Dev nD) → (b : Ref sig .tc) → Buf (Elt F) ((c : Thread nD τ).loc b) := fun c b => W25 m ρ c b
/-- At region 3's exit: its arrays at what the pipeline leaves (the inputs as entered, the output's write-backs
    folded), every other buffer as entered. -/
def W26 (c : Dev nD) : Valuation τ sig (Elt F) :=
  Pipeline.withArrays spec3 c (W25 m ρ c) fun w => (dat3 (E3 m ρ) c).arrAt w cfg3.N
theorem W26_arr (c : Dev nD) (w : Fin cfg3.W) :
    W26 m ρ c (Proc.devRef .tc (Pipeline.arrRef spec3 w)) = (dat3 (E3 m ρ) c).arrAt w cfg3.N := by
  unfold W26; exact Pipeline.withArrays_arr spec3 launch3.win.arr_inj c _ _ w
theorem W26_of_ne (c : Dev nD) (b : Ref sig .tc) (hb : ∀ w, Pipeline.arrRef spec3 w ≠ b) :
    W26 m ρ c (Proc.devRef .tc b) = W25 m ρ c (Proc.devRef .tc b) := by
  unfold W26; exact Pipeline.withArrays_of_ne spec3 c _ _ b hb
/-- The same read at the TensorCore's references: what region 3 leaves. -/
abbrev X3 : (c : Dev nD) → (b : Ref sig .tc) → Buf (Elt F) ((c : Thread nD τ).loc b) := fun c b => W26 m ρ c b
/-- At region 3's exit each of its arrays holds what the pipeline leaves, and every other buffer what it held at entry. -/
theorem hF3 (c : Dev nD) (w : Fin cfg3.W) : (dat3 (E3 m ρ) c).arrAt w cfg3.N = X3 m ρ c (Pipeline.arrRef spec3 w) :=
  (W26_arr m ρ c w).symm
theorem hrest3 (c : Dev nD) : ∀ b, b ∉ Finset.univ.image (Pipeline.arrRef spec3) → X3 m ρ c b = E3 m ρ c b :=
  fun b hb => W26_of_ne m ρ c b fun w e => hb (Finset.mem_image.mpr ⟨w, Finset.mem_univ _, e⟩)
/-- After `hostOps4`. -/
abbrev W27 : Dev nD → Valuation τ sig (Elt F) := fun c => StableHlo.after hostOps4 (W26 m ρ c)
/-- The same read at the TensorCore's references: what region 4 is entered from. -/
abbrev E4 : (c : Dev nD) → (b : Ref sig .tc) → Buf (Elt F) ((c : Thread nD τ).loc b) := fun c b => W27 m ρ c b
/-- At region 4's exit: its arrays at what the pipeline leaves (the inputs as entered, the output's write-backs
    folded), every other buffer as entered. -/
def W28 (c : Dev nD) : Valuation τ sig (Elt F) :=
  Pipeline.withArrays spec4 c (W27 m ρ c) fun w => (dat4 (E4 m ρ) c).arrAt w cfg4.N
theorem W28_arr (c : Dev nD) (w : Fin cfg4.W) :
    W28 m ρ c (Proc.devRef .tc (Pipeline.arrRef spec4 w)) = (dat4 (E4 m ρ) c).arrAt w cfg4.N := by
  unfold W28; exact Pipeline.withArrays_arr spec4 launch4.win.arr_inj c _ _ w
theorem W28_of_ne (c : Dev nD) (b : Ref sig .tc) (hb : ∀ w, Pipeline.arrRef spec4 w ≠ b) :
    W28 m ρ c (Proc.devRef .tc b) = W27 m ρ c (Proc.devRef .tc b) := by
  unfold W28; exact Pipeline.withArrays_of_ne spec4 c _ _ b hb
/-- The same read at the TensorCore's references: what region 4 leaves. -/
abbrev X4 : (c : Dev nD) → (b : Ref sig .tc) → Buf (Elt F) ((c : Thread nD τ).loc b) := fun c b => W28 m ρ c b
/-- At region 4's exit each of its arrays holds what the pipeline leaves, and every other buffer what it held at entry. -/
theorem hF4 (c : Dev nD) (w : Fin cfg4.W) : (dat4 (E4 m ρ) c).arrAt w cfg4.N = X4 m ρ c (Pipeline.arrRef spec4 w) :=
  (W28_arr m ρ c w).symm
theorem hrest4 (c : Dev nD) : ∀ b, b ∉ Finset.univ.image (Pipeline.arrRef spec4) → X4 m ρ c b = E4 m ρ c b :=
  fun b hb => W28_of_ne m ρ c b fun w e => hb (Finset.mem_image.mpr ⟨w, Finset.mem_univ _, e⟩)
/-- After `hostOps5`. -/
abbrev W29 : Dev nD → Valuation τ sig (Elt F) := fun c => StableHlo.after hostOps5 (W28 m ρ c)
/-- After `hostOps5_1`. -/
abbrev W30 : Dev nD → Valuation τ sig (Elt F) := fun c => StableHlo.after hostOps5_1 (W29 m ρ c)
/-- After `hostOps5_2`. -/
abbrev W31 : Dev nD → Valuation τ sig (Elt F) := fun c => StableHlo.after hostOps5_2 (W30 m ρ c)
/-- After `hostOps5_3`. -/
abbrev W32 : Dev nD → Valuation τ sig (Elt F) := fun c => StableHlo.after hostOps5_3 (W31 m ρ c)
/-- After `hostOps5_4`. -/
abbrev W33 : Dev nD → Valuation τ sig (Elt F) := fun c => StableHlo.after hostOps5_4 (W32 m ρ c)

/-! ## What each host stretch leaves unchanged -/

theorem W1_of (c : Dev nD) (r : Ref sig .tc) (h : r ∉ Run.hostOps0_W) :
    W1 m ρ c (Proc.devRef .tc r) = W0 m ρ c (Proc.devRef .tc r) :=
  StableHlo.after_of_writes_sub hostOps0 _ Run.hostOps0_writes h
theorem W2_of (c : Dev nD) (r : Ref sig .tc) (h : r ∉ Run.hostOps0_1_W) :
    W2 m ρ c (Proc.devRef .tc r) = W1 m ρ c (Proc.devRef .tc r) :=
  StableHlo.after_of_writes_sub hostOps0_1 _ Run.hostOps0_1_writes h
theorem W3_of (c : Dev nD) (r : Ref sig .tc) (h : r ∉ Run.hostOps0_2_W) :
    W3 m ρ c (Proc.devRef .tc r) = W2 m ρ c (Proc.devRef .tc r) :=
  StableHlo.after_of_writes_sub hostOps0_2 _ Run.hostOps0_2_writes h
theorem W4_of (c : Dev nD) (r : Ref sig .tc) (h : r ∉ Run.hostOps0_3_W) :
    W4 m ρ c (Proc.devRef .tc r) = W3 m ρ c (Proc.devRef .tc r) :=
  StableHlo.after_of_writes_sub hostOps0_3 _ Run.hostOps0_3_writes h
theorem W5_of (c : Dev nD) (r : Ref sig .tc) (h : r ∉ Run.hostOps0_4_W) :
    W5 m ρ c (Proc.devRef .tc r) = W4 m ρ c (Proc.devRef .tc r) :=
  StableHlo.after_of_writes_sub hostOps0_4 _ Run.hostOps0_4_writes h
theorem W6_of (c : Dev nD) (r : Ref sig .tc) (h : r ∉ Run.hostOps0_5_W) :
    W6 m ρ c (Proc.devRef .tc r) = W5 m ρ c (Proc.devRef .tc r) :=
  StableHlo.after_of_writes_sub hostOps0_5 _ Run.hostOps0_5_writes h
theorem W7_of (c : Dev nD) (r : Ref sig .tc) (h : r ∉ Run.hostOps0_6_W) :
    W7 m ρ c (Proc.devRef .tc r) = W6 m ρ c (Proc.devRef .tc r) :=
  StableHlo.after_of_writes_sub hostOps0_6 _ Run.hostOps0_6_writes h
theorem W8_of (c : Dev nD) (r : Ref sig .tc) (h : r ∉ Run.hostOps0_7_W) :
    W8 m ρ c (Proc.devRef .tc r) = W7 m ρ c (Proc.devRef .tc r) :=
  StableHlo.after_of_writes_sub hostOps0_7 _ Run.hostOps0_7_writes h
theorem W9_of (c : Dev nD) (r : Ref sig .tc) (h : r ∉ Run.hostOps0_8_W) :
    W9 m ρ c (Proc.devRef .tc r) = W8 m ρ c (Proc.devRef .tc r) :=
  StableHlo.after_of_writes_sub hostOps0_8 _ Run.hostOps0_8_writes h
theorem W10_of (c : Dev nD) (r : Ref sig .tc) (h : r ∉ Run.hostOps0_9_W) :
    W10 m ρ c (Proc.devRef .tc r) = W9 m ρ c (Proc.devRef .tc r) :=
  StableHlo.after_of_writes_sub hostOps0_9 _ Run.hostOps0_9_writes h
theorem W11_of (c : Dev nD) (r : Ref sig .tc) (h : r ∉ Run.hostOps0_10_W) :
    W11 m ρ c (Proc.devRef .tc r) = W10 m ρ c (Proc.devRef .tc r) :=
  StableHlo.after_of_writes_sub hostOps0_10 _ Run.hostOps0_10_writes h
theorem W12_of (c : Dev nD) (r : Ref sig .tc) (h : r ∉ Run.hostOps0_11_W) :
    W12 m ρ c (Proc.devRef .tc r) = W11 m ρ c (Proc.devRef .tc r) :=
  StableHlo.after_of_writes_sub hostOps0_11 _ Run.hostOps0_11_writes h
theorem W13_of (c : Dev nD) (r : Ref sig .tc) (h : r ∉ Run.hostOps0_12_W) :
    W13 m ρ c (Proc.devRef .tc r) = W12 m ρ c (Proc.devRef .tc r) :=
  StableHlo.after_of_writes_sub hostOps0_12 _ Run.hostOps0_12_writes h
theorem W14_of (c : Dev nD) (r : Ref sig .tc) (h : r ∉ Run.hostOps0_13_W) :
    W14 m ρ c (Proc.devRef .tc r) = W13 m ρ c (Proc.devRef .tc r) :=
  StableHlo.after_of_writes_sub hostOps0_13 _ Run.hostOps0_13_writes h
theorem W15_of (c : Dev nD) (r : Ref sig .tc) (h : r ∉ Run.hostOps0_14_W) :
    W15 m ρ c (Proc.devRef .tc r) = W14 m ρ c (Proc.devRef .tc r) :=
  StableHlo.after_of_writes_sub hostOps0_14 _ Run.hostOps0_14_writes h
theorem W16_of (c : Dev nD) (r : Ref sig .tc) (h : r ∉ Run.hostOps0_15_W) :
    W16 m ρ c (Proc.devRef .tc r) = W15 m ρ c (Proc.devRef .tc r) :=
  StableHlo.after_of_writes_sub hostOps0_15 _ Run.hostOps0_15_writes h
theorem W17_of (c : Dev nD) (r : Ref sig .tc) (h : r ∉ Run.hostOps0_16_W) :
    W17 m ρ c (Proc.devRef .tc r) = W16 m ρ c (Proc.devRef .tc r) :=
  StableHlo.after_of_writes_sub hostOps0_16 _ Run.hostOps0_16_writes h
theorem W18_of (c : Dev nD) (r : Ref sig .tc) (h : r ∉ Run.hostOps0_17_W) :
    W18 m ρ c (Proc.devRef .tc r) = W17 m ρ c (Proc.devRef .tc r) :=
  StableHlo.after_of_writes_sub hostOps0_17 _ Run.hostOps0_17_writes h
theorem W19_of (c : Dev nD) (r : Ref sig .tc) (h : r ∉ Run.hostOps0_18_W) :
    W19 m ρ c (Proc.devRef .tc r) = W18 m ρ c (Proc.devRef .tc r) :=
  StableHlo.after_of_writes_sub hostOps0_18 _ Run.hostOps0_18_writes h
theorem W21_of (c : Dev nD) (r : Ref sig .tc) (h : r ∉ Run.hostOps1_W) :
    W21 m ρ c (Proc.devRef .tc r) = W20 m ρ c (Proc.devRef .tc r) :=
  StableHlo.after_of_writes_sub hostOps1 _ Run.hostOps1_writes h
theorem W23_of (c : Dev nD) (r : Ref sig .tc) (h : r ∉ Run.hostOps2_W) :
    W23 m ρ c (Proc.devRef .tc r) = W22 m ρ c (Proc.devRef .tc r) :=
  StableHlo.after_of_writes_sub hostOps2 _ Run.hostOps2_writes h
theorem W25_of (c : Dev nD) (r : Ref sig .tc) (h : r ∉ Run.hostOps3_W) :
    W25 m ρ c (Proc.devRef .tc r) = W24 m ρ c (Proc.devRef .tc r) :=
  StableHlo.after_of_writes_sub hostOps3 _ Run.hostOps3_writes h
theorem W27_of (c : Dev nD) (r : Ref sig .tc) (h : r ∉ Run.hostOps4_W) :
    W27 m ρ c (Proc.devRef .tc r) = W26 m ρ c (Proc.devRef .tc r) :=
  StableHlo.after_of_writes_sub hostOps4 _ Run.hostOps4_writes h
theorem W29_of (c : Dev nD) (r : Ref sig .tc) (h : r ∉ Run.hostOps5_W) :
    W29 m ρ c (Proc.devRef .tc r) = W28 m ρ c (Proc.devRef .tc r) :=
  StableHlo.after_of_writes_sub hostOps5 _ Run.hostOps5_writes h
theorem W30_of (c : Dev nD) (r : Ref sig .tc) (h : r ∉ Run.hostOps5_1_W) :
    W30 m ρ c (Proc.devRef .tc r) = W29 m ρ c (Proc.devRef .tc r) :=
  StableHlo.after_of_writes_sub hostOps5_1 _ Run.hostOps5_1_writes h
theorem W31_of (c : Dev nD) (r : Ref sig .tc) (h : r ∉ Run.hostOps5_2_W) :
    W31 m ρ c (Proc.devRef .tc r) = W30 m ρ c (Proc.devRef .tc r) :=
  StableHlo.after_of_writes_sub hostOps5_2 _ Run.hostOps5_2_writes h
theorem W32_of (c : Dev nD) (r : Ref sig .tc) (h : r ∉ Run.hostOps5_3_W) :
    W32 m ρ c (Proc.devRef .tc r) = W31 m ρ c (Proc.devRef .tc r) :=
  StableHlo.after_of_writes_sub hostOps5_3 _ Run.hostOps5_3_writes h
theorem W33_of (c : Dev nD) (r : Ref sig .tc) (h : r ∉ Run.hostOps5_4_W) :
    W33 m ρ c (Proc.devRef .tc r) = W32 m ρ c (Proc.devRef .tc r) :=
  StableHlo.after_of_writes_sub hostOps5_4 _ Run.hostOps5_4_writes h

/-! ## The arguments end as launched

No host operation writes an argument and no region has one as its output: the fold at an argument's buffer walks back
to the launch memory. The first argument is an input array of regions 0, 1 and 3; an input window's array is never
written back. -/

theorem W33_main_arg0 (c : Dev nD) : W33 m ρ c (Proc.devRef .tc main_arg0) = m ((c : Thread nD τ).loc main_arg0) :=
  calc W33 m ρ c (Proc.devRef .tc main_arg0)
    _ = W32 m ρ c (Proc.devRef .tc main_arg0) := W33_of m ρ c main_arg0 (by decide)
    _ = W31 m ρ c (Proc.devRef .tc main_arg0) := W32_of m ρ c main_arg0 (by decide)
    _ = W30 m ρ c (Proc.devRef .tc main_arg0) := W31_of m ρ c main_arg0 (by decide)
    _ = W29 m ρ c (Proc.devRef .tc main_arg0) := W30_of m ρ c main_arg0 (by decide)
    _ = W28 m ρ c (Proc.devRef .tc main_arg0) := W29_of m ρ c main_arg0 (by decide)
    _ = W27 m ρ c (Proc.devRef .tc main_arg0) := W28_of_ne m ρ c main_arg0 (by decide)
    _ = W26 m ρ c (Proc.devRef .tc main_arg0) := W27_of m ρ c main_arg0 (by decide)
    _ = W25 m ρ c (Proc.devRef .tc main_arg0) := (W26_arr m ρ c 0).trans (((dat3 (E3 m ρ) c).arrAt_in 0 rfl _).trans (A_eq3 (E3 m ρ) c 0))
    _ = W24 m ρ c (Proc.devRef .tc main_arg0) := W25_of m ρ c main_arg0 (by decide)
    _ = W23 m ρ c (Proc.devRef .tc main_arg0) := W24_of_ne m ρ c main_arg0 (by decide)
    _ = W22 m ρ c (Proc.devRef .tc main_arg0) := W23_of m ρ c main_arg0 (by decide)
    _ = W21 m ρ c (Proc.devRef .tc main_arg0) := W22_of_ne m ρ c main_arg0 (by decide)
    _ = W20 m ρ c (Proc.devRef .tc main_arg0) := W21_of m ρ c main_arg0 (by decide)
    _ = W19 m ρ c (Proc.devRef .tc main_arg0) := (W20_arr m ρ c 1).trans (((dat0 (E0 m ρ) c).arrAt_in 1 rfl _).trans (A_eq0 (E0 m ρ) c 1))
    _ = W18 m ρ c (Proc.devRef .tc main_arg0) := W19_of m ρ c main_arg0 (by decide)
    _ = W17 m ρ c (Proc.devRef .tc main_arg0) := W18_of m ρ c main_arg0 (by decide)
    _ = W16 m ρ c (Proc.devRef .tc main_arg0) := W17_of m ρ c main_arg0 (by decide)
    _ = W15 m ρ c (Proc.devRef .tc main_arg0) := W16_of m ρ c main_arg0 (by decide)
    _ = W14 m ρ c (Proc.devRef .tc main_arg0) := W15_of m ρ c main_arg0 (by decide)
    _ = W13 m ρ c (Proc.devRef .tc main_arg0) := W14_of m ρ c main_arg0 (by decide)
    _ = W12 m ρ c (Proc.devRef .tc main_arg0) := W13_of m ρ c main_arg0 (by decide)
    _ = W11 m ρ c (Proc.devRef .tc main_arg0) := W12_of m ρ c main_arg0 (by decide)
    _ = W10 m ρ c (Proc.devRef .tc main_arg0) := W11_of m ρ c main_arg0 (by decide)
    _ = W9 m ρ c (Proc.devRef .tc main_arg0) := W10_of m ρ c main_arg0 (by decide)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W33_main_arg1 (c : Dev nD) : W33 m ρ c (Proc.devRef .tc main_arg1) = m ((c : Thread nD τ).loc main_arg1) :=
  calc W33 m ρ c (Proc.devRef .tc main_arg1)
    _ = W32 m ρ c (Proc.devRef .tc main_arg1) := W33_of m ρ c main_arg1 (by decide)
    _ = W31 m ρ c (Proc.devRef .tc main_arg1) := W32_of m ρ c main_arg1 (by decide)
    _ = W30 m ρ c (Proc.devRef .tc main_arg1) := W31_of m ρ c main_arg1 (by decide)
    _ = W29 m ρ c (Proc.devRef .tc main_arg1) := W30_of m ρ c main_arg1 (by decide)
    _ = W28 m ρ c (Proc.devRef .tc main_arg1) := W29_of m ρ c main_arg1 (by decide)
    _ = W27 m ρ c (Proc.devRef .tc main_arg1) := W28_of_ne m ρ c main_arg1 (by decide)
    _ = W26 m ρ c (Proc.devRef .tc main_arg1) := W27_of m ρ c main_arg1 (by decide)
    _ = W25 m ρ c (Proc.devRef .tc main_arg1) := W26_of_ne m ρ c main_arg1 (by decide)
    _ = W24 m ρ c (Proc.devRef .tc main_arg1) := W25_of m ρ c main_arg1 (by decide)
    _ = W23 m ρ c (Proc.devRef .tc main_arg1) := W24_of_ne m ρ c main_arg1 (by decide)
    _ = W22 m ρ c (Proc.devRef .tc main_arg1) := W23_of m ρ c main_arg1 (by decide)
    _ = W21 m ρ c (Proc.devRef .tc main_arg1) := W22_of_ne m ρ c main_arg1 (by decide)
    _ = W20 m ρ c (Proc.devRef .tc main_arg1) := W21_of m ρ c main_arg1 (by decide)
    _ = W19 m ρ c (Proc.devRef .tc main_arg1) := W20_of_ne m ρ c main_arg1 (by decide)
    _ = W18 m ρ c (Proc.devRef .tc main_arg1) := W19_of m ρ c main_arg1 (by decide)
    _ = W17 m ρ c (Proc.devRef .tc main_arg1) := W18_of m ρ c main_arg1 (by decide)
    _ = W16 m ρ c (Proc.devRef .tc main_arg1) := W17_of m ρ c main_arg1 (by decide)
    _ = W15 m ρ c (Proc.devRef .tc main_arg1) := W16_of m ρ c main_arg1 (by decide)
    _ = W14 m ρ c (Proc.devRef .tc main_arg1) := W15_of m ρ c main_arg1 (by decide)
    _ = W13 m ρ c (Proc.devRef .tc main_arg1) := W14_of m ρ c main_arg1 (by decide)
    _ = W12 m ρ c (Proc.devRef .tc main_arg1) := W13_of m ρ c main_arg1 (by decide)
    _ = W11 m ρ c (Proc.devRef .tc main_arg1) := W12_of m ρ c main_arg1 (by decide)
    _ = W10 m ρ c (Proc.devRef .tc main_arg1) := W11_of m ρ c main_arg1 (by decide)
    _ = W9 m ρ c (Proc.devRef .tc main_arg1) := W10_of m ρ c main_arg1 (by decide)
    _ = W8 m ρ c (Proc.devRef .tc main_arg1) := W9_of m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W33_main_arg2 (c : Dev nD) : W33 m ρ c (Proc.devRef .tc main_arg2) = m ((c : Thread nD τ).loc main_arg2) :=
  calc W33 m ρ c (Proc.devRef .tc main_arg2)
    _ = W32 m ρ c (Proc.devRef .tc main_arg2) := W33_of m ρ c main_arg2 (by decide)
    _ = W31 m ρ c (Proc.devRef .tc main_arg2) := W32_of m ρ c main_arg2 (by decide)
    _ = W30 m ρ c (Proc.devRef .tc main_arg2) := W31_of m ρ c main_arg2 (by decide)
    _ = W29 m ρ c (Proc.devRef .tc main_arg2) := W30_of m ρ c main_arg2 (by decide)
    _ = W28 m ρ c (Proc.devRef .tc main_arg2) := W29_of m ρ c main_arg2 (by decide)
    _ = W27 m ρ c (Proc.devRef .tc main_arg2) := W28_of_ne m ρ c main_arg2 (by decide)
    _ = W26 m ρ c (Proc.devRef .tc main_arg2) := W27_of m ρ c main_arg2 (by decide)
    _ = W25 m ρ c (Proc.devRef .tc main_arg2) := W26_of_ne m ρ c main_arg2 (by decide)
    _ = W24 m ρ c (Proc.devRef .tc main_arg2) := W25_of m ρ c main_arg2 (by decide)
    _ = W23 m ρ c (Proc.devRef .tc main_arg2) := W24_of_ne m ρ c main_arg2 (by decide)
    _ = W22 m ρ c (Proc.devRef .tc main_arg2) := W23_of m ρ c main_arg2 (by decide)
    _ = W21 m ρ c (Proc.devRef .tc main_arg2) := W22_of_ne m ρ c main_arg2 (by decide)
    _ = W20 m ρ c (Proc.devRef .tc main_arg2) := W21_of m ρ c main_arg2 (by decide)
    _ = W19 m ρ c (Proc.devRef .tc main_arg2) := W20_of_ne m ρ c main_arg2 (by decide)
    _ = W18 m ρ c (Proc.devRef .tc main_arg2) := W19_of m ρ c main_arg2 (by decide)
    _ = W17 m ρ c (Proc.devRef .tc main_arg2) := W18_of m ρ c main_arg2 (by decide)
    _ = W16 m ρ c (Proc.devRef .tc main_arg2) := W17_of m ρ c main_arg2 (by decide)
    _ = W15 m ρ c (Proc.devRef .tc main_arg2) := W16_of m ρ c main_arg2 (by decide)
    _ = W14 m ρ c (Proc.devRef .tc main_arg2) := W15_of m ρ c main_arg2 (by decide)
    _ = W13 m ρ c (Proc.devRef .tc main_arg2) := W14_of m ρ c main_arg2 (by decide)
    _ = W12 m ρ c (Proc.devRef .tc main_arg2) := W13_of m ρ c main_arg2 (by decide)
    _ = W11 m ρ c (Proc.devRef .tc main_arg2) := W12_of m ρ c main_arg2 (by decide)
    _ = W10 m ρ c (Proc.devRef .tc main_arg2) := W11_of m ρ c main_arg2 (by decide)
    _ = W9 m ρ c (Proc.devRef .tc main_arg2) := W10_of m ρ c main_arg2 (by decide)
    _ = W8 m ρ c (Proc.devRef .tc main_arg2) := W9_of m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W33_main_arg3 (c : Dev nD) : W33 m ρ c (Proc.devRef .tc main_arg3) = m ((c : Thread nD τ).loc main_arg3) :=
  calc W33 m ρ c (Proc.devRef .tc main_arg3)
    _ = W32 m ρ c (Proc.devRef .tc main_arg3) := W33_of m ρ c main_arg3 (by decide)
    _ = W31 m ρ c (Proc.devRef .tc main_arg3) := W32_of m ρ c main_arg3 (by decide)
    _ = W30 m ρ c (Proc.devRef .tc main_arg3) := W31_of m ρ c main_arg3 (by decide)
    _ = W29 m ρ c (Proc.devRef .tc main_arg3) := W30_of m ρ c main_arg3 (by decide)
    _ = W28 m ρ c (Proc.devRef .tc main_arg3) := W29_of m ρ c main_arg3 (by decide)
    _ = W27 m ρ c (Proc.devRef .tc main_arg3) := W28_of_ne m ρ c main_arg3 (by decide)
    _ = W26 m ρ c (Proc.devRef .tc main_arg3) := W27_of m ρ c main_arg3 (by decide)
    _ = W25 m ρ c (Proc.devRef .tc main_arg3) := W26_of_ne m ρ c main_arg3 (by decide)
    _ = W24 m ρ c (Proc.devRef .tc main_arg3) := W25_of m ρ c main_arg3 (by decide)
    _ = W23 m ρ c (Proc.devRef .tc main_arg3) := W24_of_ne m ρ c main_arg3 (by decide)
    _ = W22 m ρ c (Proc.devRef .tc main_arg3) := W23_of m ρ c main_arg3 (by decide)
    _ = W21 m ρ c (Proc.devRef .tc main_arg3) := W22_of_ne m ρ c main_arg3 (by decide)
    _ = W20 m ρ c (Proc.devRef .tc main_arg3) := W21_of m ρ c main_arg3 (by decide)
    _ = W19 m ρ c (Proc.devRef .tc main_arg3) := W20_of_ne m ρ c main_arg3 (by decide)
    _ = W18 m ρ c (Proc.devRef .tc main_arg3) := W19_of m ρ c main_arg3 (by decide)
    _ = W17 m ρ c (Proc.devRef .tc main_arg3) := W18_of m ρ c main_arg3 (by decide)
    _ = W16 m ρ c (Proc.devRef .tc main_arg3) := W17_of m ρ c main_arg3 (by decide)
    _ = W15 m ρ c (Proc.devRef .tc main_arg3) := W16_of m ρ c main_arg3 (by decide)
    _ = W14 m ρ c (Proc.devRef .tc main_arg3) := W15_of m ρ c main_arg3 (by decide)
    _ = W13 m ρ c (Proc.devRef .tc main_arg3) := W14_of m ρ c main_arg3 (by decide)
    _ = W12 m ρ c (Proc.devRef .tc main_arg3) := W13_of m ρ c main_arg3 (by decide)
    _ = W11 m ρ c (Proc.devRef .tc main_arg3) := W12_of m ρ c main_arg3 (by decide)
    _ = W10 m ρ c (Proc.devRef .tc main_arg3) := W11_of m ρ c main_arg3 (by decide)
    _ = W9 m ρ c (Proc.devRef .tc main_arg3) := W10_of m ρ c main_arg3 (by decide)
    _ = W8 m ρ c (Proc.devRef .tc main_arg3) := W9_of m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W33_main_arg4 (c : Dev nD) : W33 m ρ c (Proc.devRef .tc main_arg4) = m ((c : Thread nD τ).loc main_arg4) :=
  calc W33 m ρ c (Proc.devRef .tc main_arg4)
    _ = W32 m ρ c (Proc.devRef .tc main_arg4) := W33_of m ρ c main_arg4 (by decide)
    _ = W31 m ρ c (Proc.devRef .tc main_arg4) := W32_of m ρ c main_arg4 (by decide)
    _ = W30 m ρ c (Proc.devRef .tc main_arg4) := W31_of m ρ c main_arg4 (by decide)
    _ = W29 m ρ c (Proc.devRef .tc main_arg4) := W30_of m ρ c main_arg4 (by decide)
    _ = W28 m ρ c (Proc.devRef .tc main_arg4) := W29_of m ρ c main_arg4 (by decide)
    _ = W27 m ρ c (Proc.devRef .tc main_arg4) := W28_of_ne m ρ c main_arg4 (by decide)
    _ = W26 m ρ c (Proc.devRef .tc main_arg4) := W27_of m ρ c main_arg4 (by decide)
    _ = W25 m ρ c (Proc.devRef .tc main_arg4) := W26_of_ne m ρ c main_arg4 (by decide)
    _ = W24 m ρ c (Proc.devRef .tc main_arg4) := W25_of m ρ c main_arg4 (by decide)
    _ = W23 m ρ c (Proc.devRef .tc main_arg4) := W24_of_ne m ρ c main_arg4 (by decide)
    _ = W22 m ρ c (Proc.devRef .tc main_arg4) := W23_of m ρ c main_arg4 (by decide)
    _ = W21 m ρ c (Proc.devRef .tc main_arg4) := W22_of_ne m ρ c main_arg4 (by decide)
    _ = W20 m ρ c (Proc.devRef .tc main_arg4) := W21_of m ρ c main_arg4 (by decide)
    _ = W19 m ρ c (Proc.devRef .tc main_arg4) := W20_of_ne m ρ c main_arg4 (by decide)
    _ = W18 m ρ c (Proc.devRef .tc main_arg4) := W19_of m ρ c main_arg4 (by decide)
    _ = W17 m ρ c (Proc.devRef .tc main_arg4) := W18_of m ρ c main_arg4 (by decide)
    _ = W16 m ρ c (Proc.devRef .tc main_arg4) := W17_of m ρ c main_arg4 (by decide)
    _ = W15 m ρ c (Proc.devRef .tc main_arg4) := W16_of m ρ c main_arg4 (by decide)
    _ = W14 m ρ c (Proc.devRef .tc main_arg4) := W15_of m ρ c main_arg4 (by decide)
    _ = W13 m ρ c (Proc.devRef .tc main_arg4) := W14_of m ρ c main_arg4 (by decide)
    _ = W12 m ρ c (Proc.devRef .tc main_arg4) := W13_of m ρ c main_arg4 (by decide)
    _ = W11 m ρ c (Proc.devRef .tc main_arg4) := W12_of m ρ c main_arg4 (by decide)
    _ = W10 m ρ c (Proc.devRef .tc main_arg4) := W11_of m ρ c main_arg4 (by decide)
    _ = W9 m ρ c (Proc.devRef .tc main_arg4) := W10_of m ρ c main_arg4 (by decide)
    _ = W8 m ρ c (Proc.devRef .tc main_arg4) := W9_of m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W33_main_arg5 (c : Dev nD) : W33 m ρ c (Proc.devRef .tc main_arg5) = m ((c : Thread nD τ).loc main_arg5) :=
  calc W33 m ρ c (Proc.devRef .tc main_arg5)
    _ = W32 m ρ c (Proc.devRef .tc main_arg5) := W33_of m ρ c main_arg5 (by decide)
    _ = W31 m ρ c (Proc.devRef .tc main_arg5) := W32_of m ρ c main_arg5 (by decide)
    _ = W30 m ρ c (Proc.devRef .tc main_arg5) := W31_of m ρ c main_arg5 (by decide)
    _ = W29 m ρ c (Proc.devRef .tc main_arg5) := W30_of m ρ c main_arg5 (by decide)
    _ = W28 m ρ c (Proc.devRef .tc main_arg5) := W29_of m ρ c main_arg5 (by decide)
    _ = W27 m ρ c (Proc.devRef .tc main_arg5) := W28_of_ne m ρ c main_arg5 (by decide)
    _ = W26 m ρ c (Proc.devRef .tc main_arg5) := W27_of m ρ c main_arg5 (by decide)
    _ = W25 m ρ c (Proc.devRef .tc main_arg5) := W26_of_ne m ρ c main_arg5 (by decide)
    _ = W24 m ρ c (Proc.devRef .tc main_arg5) := W25_of m ρ c main_arg5 (by decide)
    _ = W23 m ρ c (Proc.devRef .tc main_arg5) := W24_of_ne m ρ c main_arg5 (by decide)
    _ = W22 m ρ c (Proc.devRef .tc main_arg5) := W23_of m ρ c main_arg5 (by decide)
    _ = W21 m ρ c (Proc.devRef .tc main_arg5) := W22_of_ne m ρ c main_arg5 (by decide)
    _ = W20 m ρ c (Proc.devRef .tc main_arg5) := W21_of m ρ c main_arg5 (by decide)
    _ = W19 m ρ c (Proc.devRef .tc main_arg5) := W20_of_ne m ρ c main_arg5 (by decide)
    _ = W18 m ρ c (Proc.devRef .tc main_arg5) := W19_of m ρ c main_arg5 (by decide)
    _ = W17 m ρ c (Proc.devRef .tc main_arg5) := W18_of m ρ c main_arg5 (by decide)
    _ = W16 m ρ c (Proc.devRef .tc main_arg5) := W17_of m ρ c main_arg5 (by decide)
    _ = W15 m ρ c (Proc.devRef .tc main_arg5) := W16_of m ρ c main_arg5 (by decide)
    _ = W14 m ρ c (Proc.devRef .tc main_arg5) := W15_of m ρ c main_arg5 (by decide)
    _ = W13 m ρ c (Proc.devRef .tc main_arg5) := W14_of m ρ c main_arg5 (by decide)
    _ = W12 m ρ c (Proc.devRef .tc main_arg5) := W13_of m ρ c main_arg5 (by decide)
    _ = W11 m ρ c (Proc.devRef .tc main_arg5) := W12_of m ρ c main_arg5 (by decide)
    _ = W10 m ρ c (Proc.devRef .tc main_arg5) := W11_of m ρ c main_arg5 (by decide)
    _ = W9 m ρ c (Proc.devRef .tc main_arg5) := W10_of m ρ c main_arg5 (by decide)
    _ = W8 m ρ c (Proc.devRef .tc main_arg5) := W9_of m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W33_main_arg6 (c : Dev nD) : W33 m ρ c (Proc.devRef .tc main_arg6) = m ((c : Thread nD τ).loc main_arg6) :=
  calc W33 m ρ c (Proc.devRef .tc main_arg6)
    _ = W32 m ρ c (Proc.devRef .tc main_arg6) := W33_of m ρ c main_arg6 (by decide)
    _ = W31 m ρ c (Proc.devRef .tc main_arg6) := W32_of m ρ c main_arg6 (by decide)
    _ = W30 m ρ c (Proc.devRef .tc main_arg6) := W31_of m ρ c main_arg6 (by decide)
    _ = W29 m ρ c (Proc.devRef .tc main_arg6) := W30_of m ρ c main_arg6 (by decide)
    _ = W28 m ρ c (Proc.devRef .tc main_arg6) := W29_of m ρ c main_arg6 (by decide)
    _ = W27 m ρ c (Proc.devRef .tc main_arg6) := W28_of_ne m ρ c main_arg6 (by decide)
    _ = W26 m ρ c (Proc.devRef .tc main_arg6) := W27_of m ρ c main_arg6 (by decide)
    _ = W25 m ρ c (Proc.devRef .tc main_arg6) := W26_of_ne m ρ c main_arg6 (by decide)
    _ = W24 m ρ c (Proc.devRef .tc main_arg6) := W25_of m ρ c main_arg6 (by decide)
    _ = W23 m ρ c (Proc.devRef .tc main_arg6) := W24_of_ne m ρ c main_arg6 (by decide)
    _ = W22 m ρ c (Proc.devRef .tc main_arg6) := W23_of m ρ c main_arg6 (by decide)
    _ = W21 m ρ c (Proc.devRef .tc main_arg6) := W22_of_ne m ρ c main_arg6 (by decide)
    _ = W20 m ρ c (Proc.devRef .tc main_arg6) := W21_of m ρ c main_arg6 (by decide)
    _ = W19 m ρ c (Proc.devRef .tc main_arg6) := W20_of_ne m ρ c main_arg6 (by decide)
    _ = W18 m ρ c (Proc.devRef .tc main_arg6) := W19_of m ρ c main_arg6 (by decide)
    _ = W17 m ρ c (Proc.devRef .tc main_arg6) := W18_of m ρ c main_arg6 (by decide)
    _ = W16 m ρ c (Proc.devRef .tc main_arg6) := W17_of m ρ c main_arg6 (by decide)
    _ = W15 m ρ c (Proc.devRef .tc main_arg6) := W16_of m ρ c main_arg6 (by decide)
    _ = W14 m ρ c (Proc.devRef .tc main_arg6) := W15_of m ρ c main_arg6 (by decide)
    _ = W13 m ρ c (Proc.devRef .tc main_arg6) := W14_of m ρ c main_arg6 (by decide)
    _ = W12 m ρ c (Proc.devRef .tc main_arg6) := W13_of m ρ c main_arg6 (by decide)
    _ = W11 m ρ c (Proc.devRef .tc main_arg6) := W12_of m ρ c main_arg6 (by decide)
    _ = W10 m ρ c (Proc.devRef .tc main_arg6) := W11_of m ρ c main_arg6 (by decide)
    _ = W9 m ρ c (Proc.devRef .tc main_arg6) := W10_of m ρ c main_arg6 (by decide)
    _ = W8 m ρ c (Proc.devRef .tc main_arg6) := W9_of m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W33_main_arg7 (c : Dev nD) : W33 m ρ c (Proc.devRef .tc main_arg7) = m ((c : Thread nD τ).loc main_arg7) :=
  calc W33 m ρ c (Proc.devRef .tc main_arg7)
    _ = W32 m ρ c (Proc.devRef .tc main_arg7) := W33_of m ρ c main_arg7 (by decide)
    _ = W31 m ρ c (Proc.devRef .tc main_arg7) := W32_of m ρ c main_arg7 (by decide)
    _ = W30 m ρ c (Proc.devRef .tc main_arg7) := W31_of m ρ c main_arg7 (by decide)
    _ = W29 m ρ c (Proc.devRef .tc main_arg7) := W30_of m ρ c main_arg7 (by decide)
    _ = W28 m ρ c (Proc.devRef .tc main_arg7) := W29_of m ρ c main_arg7 (by decide)
    _ = W27 m ρ c (Proc.devRef .tc main_arg7) := W28_of_ne m ρ c main_arg7 (by decide)
    _ = W26 m ρ c (Proc.devRef .tc main_arg7) := W27_of m ρ c main_arg7 (by decide)
    _ = W25 m ρ c (Proc.devRef .tc main_arg7) := W26_of_ne m ρ c main_arg7 (by decide)
    _ = W24 m ρ c (Proc.devRef .tc main_arg7) := W25_of m ρ c main_arg7 (by decide)
    _ = W23 m ρ c (Proc.devRef .tc main_arg7) := W24_of_ne m ρ c main_arg7 (by decide)
    _ = W22 m ρ c (Proc.devRef .tc main_arg7) := W23_of m ρ c main_arg7 (by decide)
    _ = W21 m ρ c (Proc.devRef .tc main_arg7) := W22_of_ne m ρ c main_arg7 (by decide)
    _ = W20 m ρ c (Proc.devRef .tc main_arg7) := W21_of m ρ c main_arg7 (by decide)
    _ = W19 m ρ c (Proc.devRef .tc main_arg7) := W20_of_ne m ρ c main_arg7 (by decide)
    _ = W18 m ρ c (Proc.devRef .tc main_arg7) := W19_of m ρ c main_arg7 (by decide)
    _ = W17 m ρ c (Proc.devRef .tc main_arg7) := W18_of m ρ c main_arg7 (by decide)
    _ = W16 m ρ c (Proc.devRef .tc main_arg7) := W17_of m ρ c main_arg7 (by decide)
    _ = W15 m ρ c (Proc.devRef .tc main_arg7) := W16_of m ρ c main_arg7 (by decide)
    _ = W14 m ρ c (Proc.devRef .tc main_arg7) := W15_of m ρ c main_arg7 (by decide)
    _ = W13 m ρ c (Proc.devRef .tc main_arg7) := W14_of m ρ c main_arg7 (by decide)
    _ = W12 m ρ c (Proc.devRef .tc main_arg7) := W13_of m ρ c main_arg7 (by decide)
    _ = W11 m ρ c (Proc.devRef .tc main_arg7) := W12_of m ρ c main_arg7 (by decide)
    _ = W10 m ρ c (Proc.devRef .tc main_arg7) := W11_of m ρ c main_arg7 (by decide)
    _ = W9 m ρ c (Proc.devRef .tc main_arg7) := W10_of m ρ c main_arg7 (by decide)
    _ = W8 m ρ c (Proc.devRef .tc main_arg7) := W9_of m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W33_main_arg8 (c : Dev nD) : W33 m ρ c (Proc.devRef .tc main_arg8) = m ((c : Thread nD τ).loc main_arg8) :=
  calc W33 m ρ c (Proc.devRef .tc main_arg8)
    _ = W32 m ρ c (Proc.devRef .tc main_arg8) := W33_of m ρ c main_arg8 (by decide)
    _ = W31 m ρ c (Proc.devRef .tc main_arg8) := W32_of m ρ c main_arg8 (by decide)
    _ = W30 m ρ c (Proc.devRef .tc main_arg8) := W31_of m ρ c main_arg8 (by decide)
    _ = W29 m ρ c (Proc.devRef .tc main_arg8) := W30_of m ρ c main_arg8 (by decide)
    _ = W28 m ρ c (Proc.devRef .tc main_arg8) := W29_of m ρ c main_arg8 (by decide)
    _ = W27 m ρ c (Proc.devRef .tc main_arg8) := W28_of_ne m ρ c main_arg8 (by decide)
    _ = W26 m ρ c (Proc.devRef .tc main_arg8) := W27_of m ρ c main_arg8 (by decide)
    _ = W25 m ρ c (Proc.devRef .tc main_arg8) := W26_of_ne m ρ c main_arg8 (by decide)
    _ = W24 m ρ c (Proc.devRef .tc main_arg8) := W25_of m ρ c main_arg8 (by decide)
    _ = W23 m ρ c (Proc.devRef .tc main_arg8) := W24_of_ne m ρ c main_arg8 (by decide)
    _ = W22 m ρ c (Proc.devRef .tc main_arg8) := W23_of m ρ c main_arg8 (by decide)
    _ = W21 m ρ c (Proc.devRef .tc main_arg8) := W22_of_ne m ρ c main_arg8 (by decide)
    _ = W20 m ρ c (Proc.devRef .tc main_arg8) := W21_of m ρ c main_arg8 (by decide)
    _ = W19 m ρ c (Proc.devRef .tc main_arg8) := W20_of_ne m ρ c main_arg8 (by decide)
    _ = W18 m ρ c (Proc.devRef .tc main_arg8) := W19_of m ρ c main_arg8 (by decide)
    _ = W17 m ρ c (Proc.devRef .tc main_arg8) := W18_of m ρ c main_arg8 (by decide)
    _ = W16 m ρ c (Proc.devRef .tc main_arg8) := W17_of m ρ c main_arg8 (by decide)
    _ = W15 m ρ c (Proc.devRef .tc main_arg8) := W16_of m ρ c main_arg8 (by decide)
    _ = W14 m ρ c (Proc.devRef .tc main_arg8) := W15_of m ρ c main_arg8 (by decide)
    _ = W13 m ρ c (Proc.devRef .tc main_arg8) := W14_of m ρ c main_arg8 (by decide)
    _ = W12 m ρ c (Proc.devRef .tc main_arg8) := W13_of m ρ c main_arg8 (by decide)
    _ = W11 m ρ c (Proc.devRef .tc main_arg8) := W12_of m ρ c main_arg8 (by decide)
    _ = W10 m ρ c (Proc.devRef .tc main_arg8) := W11_of m ρ c main_arg8 (by decide)
    _ = W9 m ρ c (Proc.devRef .tc main_arg8) := W10_of m ρ c main_arg8 (by decide)
    _ = W8 m ρ c (Proc.devRef .tc main_arg8) := W9_of m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl

end Cert.Kernel.Gen

end
-- ==== Proof.KB.Shared1.lean ====
/-
  Region 1 of the program multiplies the adjacency matrix by itself: its two input windows read ONE array. The
  buffers behind the region's three windows are therefore two, not three, and the array read twice is held by the
  two input windows at the two halves of its full share. This module proves the two facts that move the region's
  arrays out of a core's unscoped buffers at the region's entry and back at its exit:

  * entry (`split1`): the unscoped buffers at contents `V` are the region's arrays at the contents read off `V`
    — the shared array's full points-to split along the share into its left and right halves, one per input
    window; the result array whole at the full share — beside the unscoped buffers that are no window's array;
  * exit (`join1`): conversely the arrays at contents `F'` and that rest at `V` are the unscoped buffers at any
    valuation `V'` that has the arrays at `F'` and agrees with `V` off them — the two halves of the shared array,
    held at the SAME contents `V'` of it, recombine into its full points-to.
-/
import proofs.«141740_j85993835200811_1_alg».proof.Proof.KB.R1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Shr

/-- The buffers behind the three windows' arrays are two: both operands read the adjacency matrix, the result
    is written to the third window's array. -/
theorem image1 : (Finset.univ.image (Pipeline.arrRef spec1) : Finset (Ref sig .tc)) = {main_arg0, main_v57} := by decide

/-- The operand array is not the result array. -/
theorem ne1 : (main_arg0 : Ref sig .tc) ∉ ({main_v57} : Finset (Ref sig .tc)) := by decide

/-- Every window's array is an unscoped buffer. -/
theorem sub1 : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

end Shr

-- the buffer contents when the region is entered
variable (V : (c : Dev nD) → (b : Ref sig .tc) → Buf (Elt F) ((c : Thread nD τ).loc b))

/-- ENTRY: a core's unscoped buffers at contents `V` are region 1's arrays at the contents read off `V` and the
    unscoped rest. The unscoped buffers split into the two buffers behind the windows' arrays and the rest; the
    operand array's full share splits into its left half (window 0) and right half (window 1), at the same
    contents; the result array (window 2, an output) is held whole at the full share. -/
theorem split1 (c : Dev nD) :
    (unscopedBufs c (V c) : sProp 𝕄) ⊢ iprop((dat1 V c).arrays (dat1 V c).A ∗ Pipeline.unscopedRest spec1 c (V c)) := by
  unfold unscopedBufs Pipeline.unscopedRest
  rw [bigSep_sdiff_split Shr.sub1]
  refine sep_mono ?_ .rfl
  rw [Shr.image1, bigSep_insert Shr.ne1, bigSep_singleton]
  unfold Dat.arrays
  -- every window's array is a whole buffer (windows 0 and 1 name the same one)
  rw [bigSep_W1, (arr_whole1 0).set_eq_univ, (arr_whole1 2).set_eq_univ]
  show iprop(((c.tc : Thread nD τ).loc main_arg0 ↦{fullShare} V c main_arg0) ∗ ((c.tc : Thread nD τ).loc main_v57 ↦{fullShare} V c main_v57)) ⊢
    iprop((((c.tc : Thread nD τ).loc main_arg0) ↦{fullShare.left} V c main_arg0) ∗ (((c.tc : Thread nD τ).loc main_arg0) ↦{fullShare.right} V c main_arg0) ∗ (((c.tc : Thread nD τ).loc main_v57) ↦{fullShare} V c main_v57))
  iintro ⟨H0, H2⟩
  ihave H := (pointsTo_share (PosShare.mem_left_op_right fullShare)).1 $$ H0
  icases H with ⟨Hl, Hr⟩
  isplitl [Hl]; · iexact Hl
  isplitl [Hr]; · iexact Hr
  iexact H2

/-- EXIT: region 1's arrays at contents `F'` and the unscoped rest at `V` are the core's unscoped buffers at any
    valuation `V'` that has the arrays at `F'` (`hF`) and agrees with `V` off them (`hrest`). Windows 0 and 1 hold
    the two halves of the operand array's share, both at `V'` of that array, so they recombine into its full share. -/
theorem join1 (c : Dev nD) (V' : (b : Ref sig .tc) → Buf (Elt F) ((c.tc : Thread nD τ).loc b))
    (F' : (w : Fin cfg1.W) → Buf (Elt F) ((cfg1.win w).arr.view.loc (c.tc : Thread nD τ)))
    (hF : ∀ w, F' w = V' (Pipeline.arrRef spec1 w))
    (hrest : ∀ b, b ∉ Finset.univ.image (Pipeline.arrRef spec1) → V' b = V c b) :
    iprop((dat1 V c).arrays F' ∗ Pipeline.unscopedRest spec1 c (V c)) ⊢ (unscopedBufs c V' : sProp 𝕄) := by
  unfold unscopedBufs
  rw [bigSep_sdiff_split Shr.sub1]
  refine sep_mono ?_ (Entails.of_eq ?_)
  · rw [Shr.image1, bigSep_insert Shr.ne1, bigSep_singleton]
    unfold Dat.arrays
    rw [bigSep_W1, (arr_whole1 0).set_eq_univ, (arr_whole1 2).set_eq_univ, hF 0, hF 1, hF 2]
    show iprop((((c.tc : Thread nD τ).loc main_arg0) ↦{fullShare.left} V' main_arg0) ∗ (((c.tc : Thread nD τ).loc main_arg0) ↦{fullShare.right} V' main_arg0) ∗ (((c.tc : Thread nD τ).loc main_v57) ↦{fullShare} V' main_v57)) ⊢
      iprop(((c.tc : Thread nD τ).loc main_arg0 ↦{fullShare} V' main_arg0) ∗ ((c.tc : Thread nD τ).loc main_v57 ↦{fullShare} V' main_v57))
    iintro ⟨Hl, Hr, H2⟩
    isplitl [Hl Hr]
    · iapply (pointsTo_share (PosShare.mem_left_op_right fullShare)).2
      isplitl [Hl] <;> iassumption
    iexact H2
  · unfold Pipeline.unscopedRest
    exact bigSep_congr fun b hb => by rw [hrest b (Finset.mem_sdiff.mp hb).2]

end Cert.Kernel.Gen

end
-- ==== Proof.KB.RunSegs.lean ====
/-
  The program as a list of segments. Between two segments a TensorCore holds every unscoped buffer whole at the
  boundary's contents, beside its generator register at some state and its dues at nothing. A host stretch is a
  segment from its boundary's contents to its result from them; a kernel region is a segment whose arrays are
  taken out of the unscoped buffers at entry and put back, at what the pipeline leaves, at the exit.
-/
import proofs.«141740_j85993835200811_1_alg».proof.Proof.KB.RunW
import proofs.«141740_j85993835200811_1_alg».proof.Proof.KB.Shared1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents: a literal match on the pipeline's index, so that
    the data of a numeral reduce to the region's. -/
def pdats : (p : Fin 5) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's result from `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W33 m ρ c) ∗ ∃ r, prngReg c r)

/-! ## The regions as segments -/

-- `iapply` of a library lemma stated over the pinned configuration unifies with it only when unification may
-- unfold plain definitions in a metavariable's type
set_option backward.isDefEq.respectTransparency.types false in
/-- REGION 0 over the thread state: entered from every unscoped buffer at `W19`, left at `W20`. Its arrays are
    split out of the unscoped buffers at entry and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 1 over the thread state: entered from every unscoped buffer at `W21`, left at `W22`. Its two input
    windows read one array, held at the two halves of the full share: the arrays are split out of the unscoped buffers and
    put back by the two lemmas for that layout. The generator register goes into the class invariant and comes out; nothing
    is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := split1 (E1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 (E1 m ρ) c (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 2 over the thread state: entered from every unscoped buffer at `W23`, left at `W24`. Its arrays are
    split out of the unscoped buffers at entry and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 3 over the thread state: entered from every unscoped buffer at `W25`, left at `W26`. Its arrays are
    split out of the unscoped buffers at entry and put back at the exit contents; the generator register goes into the class
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (X3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 4 over the thread state: entered from every unscoped buffer at `W27`, left at `W28`. Its arrays are
    split out of the unscoped buffers at entry and put back at the exit contents; the generator register goes into the class
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (X4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

/-- The program's 33 segments in order: a host segment per stretch from its boundary's contents, a region per kernel call. -/
abbrev segs : List (Pipeline.Seg (pcfgs (F := F)) adm (pdats m ρ) () defs₀ 𝒱₀ L lv) :=
  [ .host (hseg hostOps0 hostOps0_sub Run.hostOps0_fresh (W0 m ρ)),
    .host (hseg hostOps0_1 hostOps0_1_sub Run.hostOps0_1_fresh (W1 m ρ)),
    .host (hseg hostOps0_2 hostOps0_2_sub Run.hostOps0_2_fresh (W2 m ρ)),
    .host (hseg hostOps0_3 hostOps0_3_sub Run.hostOps0_3_fresh (W3 m ρ)),
    .host (hseg hostOps0_4 hostOps0_4_sub Run.hostOps0_4_fresh (W4 m ρ)),
    .host (hseg hostOps0_5 hostOps0_5_sub Run.hostOps0_5_fresh (W5 m ρ)),
    .host (hseg hostOps0_6 hostOps0_6_sub Run.hostOps0_6_fresh (W6 m ρ)),
    .host (hseg hostOps0_7 hostOps0_7_sub Run.hostOps0_7_fresh (W7 m ρ)),
    .host (hseg hostOps0_8 hostOps0_8_sub Run.hostOps0_8_fresh (W8 m ρ)),
    .host (hseg hostOps0_9 hostOps0_9_sub Run.hostOps0_9_fresh (W9 m ρ)),
    .host (hseg hostOps0_10 hostOps0_10_sub Run.hostOps0_10_fresh (W10 m ρ)),
    .host (hseg hostOps0_11 hostOps0_11_sub Run.hostOps0_11_fresh (W11 m ρ)),
    .host (hseg hostOps0_12 hostOps0_12_sub Run.hostOps0_12_fresh (W12 m ρ)),
    .host (hseg hostOps0_13 hostOps0_13_sub Run.hostOps0_13_fresh (W13 m ρ)),
    .host (hseg hostOps0_14 hostOps0_14_sub Run.hostOps0_14_fresh (W14 m ρ)),
    .host (hseg hostOps0_15 hostOps0_15_sub Run.hostOps0_15_fresh (W15 m ρ)),
    .host (hseg hostOps0_16 hostOps0_16_sub Run.hostOps0_16_fresh (W16 m ρ)),
    .host (hseg hostOps0_17 hostOps0_17_sub Run.hostOps0_17_fresh (W17 m ρ)),
    .host (hseg hostOps0_18 hostOps0_18_sub Run.hostOps0_18_fresh (W18 m ρ)),
    .region (reg0 m ρ),
    .host (hseg hostOps1 hostOps1_sub Run.hostOps1_fresh (W20 m ρ)),
    .region (reg1 m ρ),
    .host (hseg hostOps2 hostOps2_sub Run.hostOps2_fresh (W22 m ρ)),
    .region (reg2 m ρ),
    .host (hseg hostOps3 hostOps3_sub Run.hostOps3_fresh (W24 m ρ)),
    .region (reg3 m ρ),
    .host (hseg hostOps4 hostOps4_sub Run.hostOps4_fresh (W26 m ρ)),
    .region (reg4 m ρ),
    .host (hseg hostOps5 hostOps5_sub Run.hostOps5_fresh (W28 m ρ)),
    .host (hseg hostOps5_1 hostOps5_1_sub Run.hostOps5_1_fresh (W29 m ρ)),
    .host (hseg hostOps5_2 hostOps5_2_sub Run.hostOps5_2_fresh (W30 m ρ)),
    .host (hseg hostOps5_3 hostOps5_3_sub Run.hostOps5_3_fresh (W31 m ρ)),
    .host (hseg hostOps5_4 hostOps5_4_sub Run.hostOps5_4_fresh (W32 m ρ)) ]

/-- The program IS the run of the segments: it is the chain of its items, and so is the segments' run. -/
theorem main_run (c : Dev nD) : main (F := F) c = Pipeline.Seg.run (segs m ρ) := (main_chain c).trans (by chain_rfl)

end Cert.Kernel.Gen

end
-- ==== Proof.KB.Run.lean ====
/-
  The launch over the program's segments. From any memory with zero counters, every weakly fair execution of the
  program terminates and every final state has each core's every unscoped buffer at the last boundary's contents;
  the argument arrays, which those contents leave as launched, therefore end unchanged.
-/
import proofs.«141740_j85993835200811_1_alg».proof.Proof.KB.RunSegs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last host segment's thread state is the last thread state beside the core's dues (the separating conjunction
    reassociated). -/
theorem last_state (c : Dev nD) :
    iprop(StableHlo.held (c : Thread nD τ) (Pipeline.ucRefs τ sig) (W33 m ρ c) ∗ R c)
      ⊢ (iprop(Tₙ m ρ c ∗ ∃ W, owes (c.tc : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and in every final state each core's every unscoped buffer holds the last boundary's
    contents `W33`: the launch over the 33 segments, whose thread states chain by construction, the last one read
    against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h => h)

/-- THE FRAME: every final state has the nine argument arrays as launched. Each is an unscoped buffer, so it ends at
    the last boundary's contents, which at an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono
    (fun r h c =>
      ⟨(h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c)⟩)
    (run m ρ)

end Cert.Kernel.Gen

end
-- ==== Proof.KI.R0.lean ====
/-
  Region 0 of the program: one matrix product per grid point. The body loads the left block
  (S320x2048) and the right block (S2048x512), multiplies them into a zero accumulator and stores the
  product over the whole output block (S320x512). This module states what the output block holds after the body
  as a function of the two input blocks, proves the body's triple, and packages the per-point data
  the pipeline needs: the input blocks stay in place, the output block is the product.
-/
import proofs.«141740_j85993835200811_1_alg».proof.Proof.Gen.KernelIdeal.Launch
import proofs.«141740_j85993835200811_1_alg».proof.Proof.Gen.KernelIdeal.Skeleton
import proofs.«141740_j85993835200811_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole left block, the whole right block, the whole output block. -/
abbrev rL0 : Rect S320x2048 := Rect.unit (s := S320x2048) ![0, 0] S320x2048.size inb_S320x2048_S320x2048_0_0
abbrev rR0 : Rect S2048x512 := Rect.unit (s := S2048x512) ![0, 0] S2048x512.size inb_S2048x512_S2048x512_0_0
abbrev rO0 : Rect S320x512 := Rect.unit (s := S320x512) ![0, 0] S320x512.size inb_S320x512_S320x512_0_0

/-- The output block after the body: its one store, of the product of the two loaded blocks. -/
def out0_2 (x0 : Vec F S320x2048 .f32) (x1 : Vec F S2048x512 .f32) : Vec F S320x512 .f32 :=
  View.canon [⟨rO0, k0_pay1 (View.ld x0 rL0) (View.ld x1 rR0)⟩]

/-- The one store covers the output block. -/
theorem cover0_2 (p0 : Vec F S320x512 .f32) (y : S320x512.Idx) :
    ∃ pc ∈ ([⟨rO0, p0⟩] : List (View.Piece (Elt F) S320x512 .f32)), y ∈ pc.1.set :=
  View.cover_of_tiled [⟨rO0, p0⟩] S320x512.size (by rfl) y

set_option maxHeartbeats 1000000 in
/-- The body on whole staging buffers: the inputs keep their contents, the output ends at the product. -/
theorem sound_kernel0 (c : Dev nD) (E : Set ℕ) (i : grid0.Coords) (arg2 : Memref sig .tc .vmem S320x2048 .f32) (harg2 : arg2.IsWhole) (arg3 : Memref sig .tc .vmem S2048x512 .f32) (harg3 : arg3.IsWhole)
    (arg4 : Memref sig .tc .vmem S320x512 .f32) (harg4 : arg4.IsWhole)
    (x0 : Vec F S320x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The per-point data of this region on core `c`: the arrays as the region finds them; after the body each input
    buffer holds its block and the output buffer the product of the two input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.R1.lean ====
/-
  Region 1 of the program: one matrix product per grid point. The body loads the left block
  (S512x2048) and the right block (S2048x512), multiplies them into a zero accumulator and stores the
  product over the whole output block (S512x512). This module states what the output block holds after the body
  as a function of the two input blocks, proves the body's triple, and packages the per-point data
  the pipeline needs: the input blocks stay in place, the output block is the product.
-/
import proofs.«141740_j85993835200811_1_alg».proof.Proof.Gen.KernelIdeal.Launch
import proofs.«141740_j85993835200811_1_alg».proof.Proof.Gen.KernelIdeal.Skeleton
import proofs.«141740_j85993835200811_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole left block, the whole right block, the whole output block. -/
abbrev rL1 : Rect S512x2048 := Rect.unit (s := S512x2048) ![0, 0] S512x2048.size inb_S512x2048_S512x2048_0_0
abbrev rR1 : Rect S2048x512 := Rect.unit (s := S2048x512) ![0, 0] S2048x512.size inb_S2048x512_S2048x512_0_0
abbrev rO1 : Rect S512x512 := Rect.unit (s := S512x512) ![0, 0] S512x512.size inb_S512x512_S512x512_0_0

/-- The output block after the body: its one store, of the product of the two loaded blocks. -/
def out1_2 (x0 : Vec F S512x2048 .f32) (x1 : Vec F S2048x512 .f32) : Vec F S512x512 .f32 :=
  View.canon [⟨rO1, k1_pay1 (View.ld x0 rL1) (View.ld x1 rR1)⟩]

/-- The one store covers the output block. -/
theorem cover1_2 (p0 : Vec F S512x512 .f32) (y : S512x512.Idx) :
    ∃ pc ∈ ([⟨rO1, p0⟩] : List (View.Piece (Elt F) S512x512 .f32)), y ∈ pc.1.set :=
  View.cover_of_tiled [⟨rO1, p0⟩] S512x512.size (by rfl) y

set_option maxHeartbeats 1000000 in
/-- The body on whole staging buffers: the inputs keep their contents, the output ends at the product. -/
theorem sound_kernel1 (c : Dev nD) (E : Set ℕ) (i : grid1.Coords) (arg2 : Memref sig .tc .vmem S512x2048 .f32) (harg2 : arg2.IsWhole) (arg3 : Memref sig .tc .vmem S2048x512 .f32) (harg3 : arg3.IsWhole)
    (arg4 : Memref sig .tc .vmem S512x512 .f32) (harg4 : arg4.IsWhole)
    (x0 : Vec F S512x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__matmul_kernel i arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The per-point data of this region on core `c`: the arrays as the region finds them; after the body each input
    buffer holds its block and the output buffer the product of the two input blocks. The two input windows read ONE
    array, so each holds it at half the share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.R2.lean ====
/-
  Region 2 of the program: one matrix product per grid point. The body loads the left block
  (S320x2048) and the right block (S2048x512), multiplies them into a zero accumulator and stores the
  product over the whole output block (S320x512). This module states what the output block holds after the body
  as a function of the two input blocks, proves the body's triple, and packages the per-point data
  the pipeline needs: the input blocks stay in place, the output block is the product.
-/
import proofs.«141740_j85993835200811_1_alg».proof.Proof.Gen.KernelIdeal.Launch
import proofs.«141740_j85993835200811_1_alg».proof.Proof.Gen.KernelIdeal.Skeleton
import proofs.«141740_j85993835200811_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole left block, the whole right block, the whole output block. -/
abbrev rL2 : Rect S320x2048 := Rect.unit (s := S320x2048) ![0, 0] S320x2048.size inb_S320x2048_S320x2048_0_0
abbrev rR2 : Rect S2048x512 := Rect.unit (s := S2048x512) ![0, 0] S2048x512.size inb_S2048x512_S2048x512_0_0
abbrev rO2 : Rect S320x512 := Rect.unit (s := S320x512) ![0, 0] S320x512.size inb_S320x512_S320x512_0_0

/-- The output block after the body: its one store, of the product of the two loaded blocks. -/
def out2_2 (x0 : Vec F S320x2048 .f32) (x1 : Vec F S2048x512 .f32) : Vec F S320x512 .f32 :=
  View.canon [⟨rO2, k2_pay1 (View.ld x0 rL2) (View.ld x1 rR2)⟩]

/-- The one store covers the output block. -/
theorem cover2_2 (p0 : Vec F S320x512 .f32) (y : S320x512.Idx) :
    ∃ pc ∈ ([⟨rO2, p0⟩] : List (View.Piece (Elt F) S320x512 .f32)), y ∈ pc.1.set :=
  View.cover_of_tiled [⟨rO2, p0⟩] S320x512.size (by rfl) y

set_option maxHeartbeats 1000000 in
/-- The body on whole staging buffers: the inputs keep their contents, the output ends at the product. -/
theorem sound_kernel2 (c : Dev nD) (E : Set ℕ) (i : grid2.Coords) (arg2 : Memref sig .tc .vmem S320x2048 .f32) (harg2 : arg2.IsWhole) (arg3 : Memref sig .tc .vmem S2048x512 .f32) (harg3 : arg3.IsWhole)
    (arg4 : Memref sig .tc .vmem S320x512 .f32) (harg4 : arg4.IsWhole)
    (x0 : Vec F S320x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The per-point data of this region on core `c`: the arrays as the region finds them; after the body each input
    buffer holds its block and the output buffer the product of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.KI.R3.lean ====
/-
  Region 3 of the program: one matrix product per grid point. The body loads the left block
  (S512x2048) and the right block (S2048x512), multiplies them into a zero accumulator and stores the
  product over the whole output block (S512x512). This module states what the output block holds after the body
  as a function of the two input blocks, proves the body's triple, and packages the per-point data
  the pipeline needs: the input blocks stay in place, the output block is the product.
-/
import proofs.«141740_j85993835200811_1_alg».proof.Proof.Gen.KernelIdeal.Launch
import proofs.«141740_j85993835200811_1_alg».proof.Proof.Gen.KernelIdeal.Skeleton
import proofs.«141740_j85993835200811_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block at every point, whether or not the point fetched it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole left block, the whole right block, the whole output block. -/
abbrev rL3 : Rect S512x2048 := Rect.unit (s := S512x2048) ![0, 0] S512x2048.size inb_S512x2048_S512x2048_0_0
abbrev rR3 : Rect S2048x512 := Rect.unit (s := S2048x512) ![0, 0] S2048x512.size inb_S2048x512_S2048x512_0_0
abbrev rO3 : Rect S512x512 := Rect.unit (s := S512x512) ![0, 0] S512x512.size inb_S512x512_S512x512_0_0

/-- The output block after the body: its one store, of the product of the two loaded blocks. -/
def out3_2 (x0 : Vec F S512x2048 .f32) (x1 : Vec F S2048x512 .f32) : Vec F S512x512 .f32 :=
  View.canon [⟨rO3, k3_pay1 (View.ld x0 rL3) (View.ld x1 rR3)⟩]

/-- The one store covers the output block. -/
theorem cover3_2 (p0 : Vec F S512x512 .f32) (y : S512x512.Idx) :
    ∃ pc ∈ ([⟨rO3, p0⟩] : List (View.Piece (Elt F) S512x512 .f32)), y ∈ pc.1.set :=
  View.cover_of_tiled [⟨rO3, p0⟩] S512x512.size (by rfl) y

set_option maxHeartbeats 1000000 in
/-- The body on whole staging buffers: the inputs keep their contents, the output ends at the product. -/
theorem sound_kernel3 (c : Dev nD) (E : Set ℕ) (i : grid3.Coords) (arg2 : Memref sig .tc .vmem S512x2048 .f32) (harg2 : arg2.IsWhole) (arg3 : Memref sig .tc .vmem S2048x512 .f32) (harg3 : arg3.IsWhole)
    (arg4 : Memref sig .tc .vmem S512x512 .f32) (harg4 : arg4.IsWhole)
    (x0 : Vec F S512x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__matmul_kernel i arg2 harg2 arg3 harg3 arg4 harg4) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The per-point data of this region on core `c`: the arrays as the region finds them; after the body each input
    buffer holds its block and the output buffer the product of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.R4.lean ====
/-
  Region 4 of the program: one matrix product per grid point. The body loads the left block
  (S320x2048) and the right block (S2048x512), multiplies them into a zero accumulator and stores the
  product over the whole output block (S320x512). This module states what the output block holds after the body
  as a function of the two input blocks, proves the body's triple, and packages the per-point data
  the pipeline needs: the input blocks stay in place, the output block is the product.
-/
import proofs.«141740_j85993835200811_1_alg».proof.Proof.Gen.KernelIdeal.Launch
import proofs.«141740_j85993835200811_1_alg».proof.Proof.Gen.KernelIdeal.Skeleton
import proofs.«141740_j85993835200811_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds its block at every point, whether or not the point fetched it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds its block at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole left block, the whole right block, the whole output block. -/
abbrev rL4 : Rect S320x2048 := Rect.unit (s := S320x2048) ![0, 0] S320x2048.size inb_S320x2048_S320x2048_0_0
abbrev rR4 : Rect S2048x512 := Rect.unit (s := S2048x512) ![0, 0] S2048x512.size inb_S2048x512_S2048x512_0_0
abbrev rO4 : Rect S320x512 := Rect.unit (s := S320x512) ![0, 0] S320x512.size inb_S320x512_S320x512_0_0

/-- The output block after the body: its one store, of the product of the two loaded blocks. -/
def out4_2 (x0 : Vec F S320x2048 .f32) (x1 : Vec F S2048x512 .f32) : Vec F S320x512 .f32 :=
  View.canon [⟨rO4, k4_pay1 (View.ld x0 rL4) (View.ld x1 rR4)⟩]

/-- The one store covers the output block. -/
theorem cover4_2 (p0 : Vec F S320x512 .f32) (y : S320x512.Idx) :
    ∃ pc ∈ ([⟨rO4, p0⟩] : List (View.Piece (Elt F) S320x512 .f32)), y ∈ pc.1.set :=
  View.cover_of_tiled [⟨rO4, p0⟩] S320x512.size (by rfl) y

set_option maxHeartbeats 1000000 in
/-- The body on whole staging buffers: the inputs keep their contents, the output ends at the product. -/
theorem sound_kernel4 (c : Dev nD) (E : Set ℕ) (i : grid4.Coords) (arg2 : Memref sig .tc .vmem S320x2048 .f32) (harg2 : arg2.IsWhole) (arg3 : Memref sig .tc .vmem S2048x512 .f32) (harg3 : arg3.IsWhole)
    (arg4 : Memref sig .tc .vmem S320x512 .f32) (harg4 : arg4.IsWhole)
    (x0 : Vec F S320x2048 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__matmul_kernel i arg2 harg2 arg3 harg3 arg4 harg4) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The per-point data of this region on core `c`: the arrays as the region finds them; after the body each input
    buffer holds its block and the output buffer the product of the two input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Gen

end
-- ==== Proof.KI.RunW.lean ====
/-
  The buffer contents of a TensorCore at every boundary between two segments of the program: the launch memory,
  then, segment by segment, what a host stretch leaves (each operation rewrites the buffers it writes) and what a
  kernel region leaves (its windows' arrays at what the pipeline's write-backs fold to, every other buffer as
  entered). The lemmas read these valuations at single references: a region's arrays at its exit, a buffer that is
  no array of the region, a reference no operation of a stretch writes; and each argument array, which no
  stretch writes and which regions only read, is walked back through all 33 segments to the launch memory.
-/
import proofs.«141740_j85993835200811_1_alg».proof.Proof.KI.R0
import proofs.«141740_j85993835200811_1_alg».proof.Proof.KI.R1
import proofs.«141740_j85993835200811_1_alg».proof.Proof.KI.R2
import proofs.«141740_j85993835200811_1_alg».proof.Proof.KI.R3
import proofs.«141740_j85993835200811_1_alg».proof.Proof.KI.R4

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

namespace Run

/-- Every operation of a literal stretch writes only references of a literal list: each operation's written set is
    a singleton, whose element is found in the list by evaluation. -/
local macro "writes_in_list" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    StableHlo.nary_writes, Finset.singleton_subset_iff, List.mem_toFinset]
  repeat' apply And.intro
  all_goals exact List.mem_map_of_mem (by decide)))

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  writes_in_list
/-- No operation of `hostOps0_1` allocates a buffer. -/
theorem hostOps0_1_fresh : (hostOps0_1 : List (HloOp τ sig (Elt F))).Forall fun op => op.fresh = ∅ := by
  simp only [List.Forall]; repeat' constructor
/-- The references `hostOps0_1`'s operations write. -/
abbrev hostOps0_1_W : List (Ref sig .tc) := [main_call0_cst, main_call0_v0, main_v1]
theorem hostOps0_1_writes : (hostOps0_1 : List (HloOp τ sig (Elt F))).Forall fun op => op.writes ⊆ (hostOps0_1_W.map (Proc.devRef (τ := τ) .tc)).toFinset := by
  writes_in_list
/-- No operation of `hostOps0_2` allocates a buffer. -/
theorem hostOps0_2_fresh : (hostOps0_2 : List (HloOp τ sig (Elt F))).Forall fun op => op.fresh = ∅ := by
  simp only [List.Forall]; repeat' constructor
/-- The references `hostOps0_2`'s operations write. -/
abbrev hostOps0_2_W : List (Ref sig .tc) := [main_cst, main_v2]
theorem hostOps0_2_writes : (hostOps0_2 : List (HloOp τ sig (Elt F))).Forall fun op => op.writes ⊆ (hostOps0_2_W.map (Proc.devRef (τ := τ) .tc)).toFinset := by
  writes_in_list
/-- No operation of `hostOps0_3` allocates a buffer. -/
theorem hostOps0_3_fresh : (hostOps0_3 : List (HloOp τ sig (Elt F))).Forall fun op => op.fresh = ∅ := by
  simp only [List.Forall]; repeat' constructor
/-- The references `hostOps0_3`'s operations write. -/
abbrev hostOps0_3_W : List (Ref sig .tc) := [main_call1_v0, main_call1_c, main_call1_v1, main_call1_v2, main_call1_v3, main_call1_v4, main_call1_cst, main_call1_v5, main_v3]
theorem hostOps0_3_writes : (hostOps0_3 : List (HloOp τ sig (Elt F))).Forall fun op => op.writes ⊆ (hostOps0_3_W.map (Proc.devRef (τ := τ) .tc)).toFinset := by
  writes_in_list
/-- No operation of `hostOps0_4` allocates a buffer. -/
theorem hostOps0_4_fresh : (hostOps0_4 : List (HloOp τ sig (Elt F))).Forall fun op => op.fresh = ∅ := by
  simp only [List.Forall]; repeat' constructor
/-- The references `hostOps0_4`'s operations write. -/
abbrev hostOps0_4_W : List (Ref sig .tc) := [main_cst_0, main_v4, main_v5]
theorem hostOps0_4_writes : (hostOps0_4 : List (HloOp τ sig (Elt F))).Forall fun op => op.writes ⊆ (hostOps0_4_W.map (Proc.devRef (τ := τ) .tc)).toFinset := by
  writes_in_list
/-- No operation of `hostOps0_5` allocates a buffer. -/
theorem hostOps0_5_fresh : (hostOps0_5 : List (HloOp τ sig (Elt F))).Forall fun op => op.fresh = ∅ := by
  simp only [List.Forall]; repeat' constructor
/-- The references `hostOps0_5`'s operations write. -/
abbrev hostOps0_5_W : List (Ref sig .tc) := [main_call2_v0, main_call2_v1, main_call2_call0_c, main_call2_call0_v0, main_v6]
theorem hostOps0_5_writes : (hostOps0_5 : List (HloOp τ sig (Elt F))).Forall fun op => op.writes ⊆ (hostOps0_5_W.map (Proc.devRef (τ := τ) .tc)).toFinset := by
  writes_in_list
/-- No operation of `hostOps0_6` allocates a buffer. -/
theorem hostOps0_6_fresh : (hostOps0_6 : List (HloOp τ sig (Elt F))).Forall fun op => op.fresh = ∅ := by
  simp only [List.Forall]; repeat' constructor
/-- The references `hostOps0_6`'s operations write. -/
abbrev hostOps0_6_W : List (Ref sig .tc) := [main_c, main_v7, main_c_1]
theorem hostOps0_6_writes : (hostOps0_6 : List (HloOp τ sig (Elt F))).Forall fun op => op.writes ⊆ (hostOps0_6_W.map (Proc.devRef (τ := τ) .tc)).toFinset := by
  writes_in_list
/-- No operation of `hostOps0_7` allocates a buffer. -/
theorem hostOps0_7_fresh : (hostOps0_7 : List (HloOp τ sig (Elt F))).Forall fun op => op.fresh = ∅ := by
  simp only [List.Forall]; repeat' constructor
/-- The references `hostOps0_7`'s operations write. -/
abbrev hostOps0_7_W : List (Ref sig .tc) := [main_call3_v0, main_call3_v1, main_v8]
theorem hostOps0_7_writes : (hostOps0_7 : List (HloOp τ sig (Elt F))).Forall fun op => op.writes ⊆ (hostOps0_7_W.map (Proc.devRef (τ := τ) .tc)).toFinset := by
  writes_in_list
/-- No operation of `hostOps0_8` allocates a buffer. -/
theorem hostOps0_8_fresh : (hostOps0_8 : List (HloOp τ sig (Elt F))).Forall fun op => op.fresh = ∅ := by
  simp only [List.Forall]; repeat' constructor
/-- The references `hostOps0_8`'s operations write. -/
abbrev hostOps0_8_W : List (Ref sig .tc) := [main_c_2, main_v9, main_v10, main_c_3, main_v11, main_v12, main_v13, main_v14, main_c_4, main_v15, main_v16]
theorem hostOps0_8_writes : (hostOps0_8 : List (HloOp τ sig (Elt F))).Forall fun op => op.writes ⊆ (hostOps0_8_W.map (Proc.devRef (τ := τ) .tc)).toFinset := by
  writes_in_list
/-- No operation of `hostOps0_9` allocates a buffer. -/
theorem hostOps0_9_fresh : (hostOps0_9 : List (HloOp τ sig (Elt F))).Forall fun op => op.fresh = ∅ := by
  simp only [List.Forall]; repeat' constructor
/-- The references `hostOps0_9`'s operations write. -/
abbrev hostOps0_9_W : List (Ref sig .tc) := [main_call4_call0_c, main_call4_call0_v0, main_v17]
theorem hostOps0_9_writes : (hostOps0_9 : List (HloOp τ sig (Elt F))).Forall fun op => op.writes ⊆ (hostOps0_9_W.map (Proc.devRef (τ := τ) .tc)).toFinset := by
  writes_in_list
/-- No operation of `hostOps0_10` allocates a buffer. -/
theorem hostOps0_10_fresh : (hostOps0_10 : List (HloOp τ sig (Elt F))).Forall fun op => op.fresh = ∅ := by
  simp only [List.Forall]; repeat' constructor
/-- The references `hostOps0_10`'s operations write. -/
abbrev hostOps0_10_W : List (Ref sig .tc) := [main_c_5]
theorem hostOps0_10_writes : (hostOps0_10 : List (HloOp τ sig (Elt F))).Forall fun op => op.writes ⊆ (hostOps0_10_W.map (Proc.devRef (τ := τ) .tc)).toFinset := by
  writes_in_list
/-- No operation of `hostOps0_11` allocates a buffer. -/
theorem hostOps0_11_fresh : (hostOps0_11 : List (HloOp τ sig (Elt F))).Forall fun op => op.fresh = ∅ := by
  simp only [List.Forall]; repeat' constructor
/-- The references `hostOps0_11`'s operations write. -/
abbrev hostOps0_11_W : List (Ref sig .tc) := [main_call5_v0, main_call5_v1, main_call5_v2, main_call5_v3, main_call5_v4, main_call5_v5, main_call5_v6, main_call5_v7, main_call5_c, main_call5_v8, main_call5_v9, main_call5_v10, main_call5_c_0, main_call5_v11, main_call5_v12, main_v18]
theorem hostOps0_11_writes : (hostOps0_11 : List (HloOp τ sig (Elt F))).Forall fun op => op.writes ⊆ (hostOps0_11_W.map (Proc.devRef (τ := τ) .tc)).toFinset := by
  writes_in_list
/-- No operation of `hostOps0_12` allocates a buffer. -/
theorem hostOps0_12_fresh : (hostOps0_12 : List (HloOp τ sig (Elt F))).Forall fun op => op.fresh = ∅ := by
  simp only [List.Forall]; repeat' constructor
/-- The references `hostOps0_12`'s operations write. -/
abbrev hostOps0_12_W : List (Ref sig .tc) := [main_c_6]
theorem hostOps0_12_writes : (hostOps0_12 : List (HloOp τ sig (Elt F))).Forall fun op => op.writes ⊆ (hostOps0_12_W.map (Proc.devRef (τ := τ) .tc)).toFinset := by
  writes_in_list
/-- No operation of `hostOps0_13` allocates a buffer. -/
theorem hostOps0_13_fresh : (hostOps0_13 : List (HloOp τ sig (Elt F))).Forall fun op => op.fresh = ∅ := by
  simp only [List.Forall]; repeat' constructor
/-- The references `hostOps0_13`'s operations write. -/
abbrev hostOps0_13_W : List (Ref sig .tc) := [main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v19]
theorem hostOps0_13_writes : (hostOps0_13 : List (HloOp τ sig (Elt F))).Forall fun op => op.writes ⊆ (hostOps0_13_W.map (Proc.devRef (τ := τ) .tc)).toFinset := by
  writes_in_list
/-- No operation of `hostOps0_14` allocates a buffer. -/
theorem hostOps0_14_fresh : (hostOps0_14 : List (HloOp τ sig (Elt F))).Forall fun op => op.fresh = ∅ := by
  simp only [List.Forall]; repeat' constructor
/-- The references `hostOps0_14`'s operations write. -/
abbrev hostOps0_14_W : List (Ref sig .tc) := [main_c_7]
theorem hostOps0_14_writes : (hostOps0_14 : List (HloOp τ sig (Elt F))).Forall fun op => op.writes ⊆ (hostOps0_14_W.map (Proc.devRef (τ := τ) .tc)).toFinset := by
  writes_in_list
/-- No operation of `hostOps0_15` allocates a buffer. -/
theorem hostOps0_15_fresh : (hostOps0_15 : List (HloOp τ sig (Elt F))).Forall fun op => op.fresh = ∅ := by
  simp only [List.Forall]; repeat' constructor
/-- The references `hostOps0_15`'s operations write. -/
abbrev hostOps0_15_W : List (Ref sig .tc) := [main_call7_v0, main_call7_v1, main_call7_v2, main_call7_v3, main_call7_v4, main_call7_v5, main_call7_v6, main_call7_v7, main_call7_c, main_call7_v8, main_call7_v9, main_call7_v10, main_call7_c_0, main_call7_v11, main_call7_v12, main_v20]
theorem hostOps0_15_writes : (hostOps0_15 : List (HloOp τ sig (Elt F))).Forall fun op => op.writes ⊆ (hostOps0_15_W.map (Proc.devRef (τ := τ) .tc)).toFinset := by
  writes_in_list
/-- No operation of `hostOps0_16` allocates a buffer. -/
theorem hostOps0_16_fresh : (hostOps0_16 : List (HloOp τ sig (Elt F))).Forall fun op => op.fresh = ∅ := by
  simp only [List.Forall]; repeat' constructor
/-- The references `hostOps0_16`'s operations write. -/
abbrev hostOps0_16_W : List (Ref sig .tc) := [main_c_8]
theorem hostOps0_16_writes : (hostOps0_16 : List (HloOp τ sig (Elt F))).Forall fun op => op.writes ⊆ (hostOps0_16_W.map (Proc.devRef (τ := τ) .tc)).toFinset := by
  writes_in_list
/-- No operation of `hostOps0_17` allocates a buffer. -/
theorem hostOps0_17_fresh : (hostOps0_17 : List (HloOp τ sig (Elt F))).Forall fun op => op.fresh = ∅ := by
  simp only [List.Forall]; repeat' constructor
/-- The references `hostOps0_17`'s operations write. -/
abbrev hostOps0_17_W : List (Ref sig .tc) := [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v21]
theorem hostOps0_17_writes : (hostOps0_17 : List (HloOp τ sig (Elt F))).Forall fun op => op.writes ⊆ (hostOps0_17_W.map (Proc.devRef (τ := τ) .tc)).toFinset := by
  writes_in_list
/-- No operation of `hostOps0_18` allocates a buffer. -/
theorem hostOps0_18_fresh : (hostOps0_18 : List (HloOp τ sig (Elt F))).Forall fun op => op.fresh = ∅ := by
  simp only [List.Forall]; repeat' constructor
/-- The references `hostOps0_18`'s operations write. -/
abbrev hostOps0_18_W : List (Ref sig .tc) := [main_cst_9, main_v22, main_c_10, main_v23, main_v24, main_c_11, main_v25, main_v26, main_v27, main_c_12, main_v28, main_v29, main_c_13, main_v30, main_v31, main_v32, main_v33, main_v34, main_v35, main_v36, main_v37, main_v38, main_cst_14, main_v39, main_cst_15, main_v40, main_v41, main_v42, main_cst_16, main_v43, main_v44, main_v45]
theorem hostOps0_18_writes : (hostOps0_18 : List (HloOp τ sig (Elt F))).Forall fun op => op.writes ⊆ (hostOps0_18_W.map (Proc.devRef (τ := τ) .tc)).toFinset := by
  writes_in_list
/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v47, main_v48, main_cst_17, main_v49, main_v50, main_v51, main_cst_18, main_v52, main_v53, main_v54, main_v55, main_v56]
theorem hostOps1_writes : (hostOps1 : List (HloOp τ sig (Elt F))).Forall fun op => op.writes ⊆ (hostOps1_W.map (Proc.devRef (τ := τ) .tc)).toFinset := by
  writes_in_list
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v58]
theorem hostOps2_writes : (hostOps2 : List (HloOp τ sig (Elt F))).Forall fun op => op.writes ⊆ (hostOps2_W.map (Proc.devRef (τ := τ) .tc)).toFinset := by
  writes_in_list
/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v60, main_v61, main_cst_19, main_v62, main_v63, main_v64, main_cst_20, main_v65, main_v66, main_v67, main_v68, main_v69]
theorem hostOps3_writes : (hostOps3 : List (HloOp τ sig (Elt F))).Forall fun op => op.writes ⊆ (hostOps3_W.map (Proc.devRef (τ := τ) .tc)).toFinset := by
  writes_in_list
/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v71]
theorem hostOps4_writes : (hostOps4 : List (HloOp τ sig (Elt F))).Forall fun op => op.writes ⊆ (hostOps4_W.map (Proc.devRef (τ := τ) .tc)).toFinset := by
  writes_in_list
/-- No operation of `hostOps5` allocates a buffer. -/
theorem hostOps5_fresh : (hostOps5 : List (HloOp τ sig (Elt F))).Forall fun op => op.fresh = ∅ := by
  simp only [List.Forall]; repeat' constructor
/-- The references `hostOps5`'s operations write. -/
abbrev hostOps5_W : List (Ref sig .tc) := [main_v73, main_v74, main_cst_21, main_v75, main_v76, main_v77, main_cst_22, main_v78, main_v79, main_v80, main_v81, main_v82, main_cst_23, main_v83, main_cst_24, main_v84, main_v85, main_c_25]
theorem hostOps5_writes : (hostOps5 : List (HloOp τ sig (Elt F))).Forall fun op => op.writes ⊆ (hostOps5_W.map (Proc.devRef (τ := τ) .tc)).toFinset := by
  writes_in_list
/-- No operation of `hostOps5_1` allocates a buffer. -/
theorem hostOps5_1_fresh : (hostOps5_1 : List (HloOp τ sig (Elt F))).Forall fun op => op.fresh = ∅ := by
  simp only [List.Forall]; repeat' constructor
/-- The references `hostOps5_1`'s operations write. -/
abbrev hostOps5_1_W : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v86]
theorem hostOps5_1_writes : (hostOps5_1 : List (HloOp τ sig (Elt F))).Forall fun op => op.writes ⊆ (hostOps5_1_W.map (Proc.devRef (τ := τ) .tc)).toFinset := by
  writes_in_list
/-- No operation of `hostOps5_2` allocates a buffer. -/
theorem hostOps5_2_fresh : (hostOps5_2 : List (HloOp τ sig (Elt F))).Forall fun op => op.fresh = ∅ := by
  simp only [List.Forall]; repeat' constructor
/-- The references `hostOps5_2`'s operations write. -/
abbrev hostOps5_2_W : List (Ref sig .tc) := [main_v87, main_v88, main_v89, main_v90, main_v91, main_v92, main_cst_26, main_v93, main_v94, main_v95, main_v96, main_v97, main_v98, main_v99, main_v100, main_v101, main_v102, main_v103, main_v104, main_v105]
theorem hostOps5_2_writes : (hostOps5_2 : List (HloOp τ sig (Elt F))).Forall fun op => op.writes ⊆ (hostOps5_2_W.map (Proc.devRef (τ := τ) .tc)).toFinset := by
  writes_in_list
/-- No operation of `hostOps5_3` allocates a buffer. -/
theorem hostOps5_3_fresh : (hostOps5_3 : List (HloOp τ sig (Elt F))).Forall fun op => op.fresh = ∅ := by
  simp only [List.Forall]; repeat' constructor
/-- The references `hostOps5_3`'s operations write. -/
abbrev hostOps5_3_W : List (Ref sig .tc) := [main_call10_cst, main_call10_v0, main_v106]
theorem hostOps5_3_writes : (hostOps5_3 : List (HloOp τ sig (Elt F))).Forall fun op => op.writes ⊆ (hostOps5_3_W.map (Proc.devRef (τ := τ) .tc)).toFinset := by
  writes_in_list
/-- No operation of `hostOps5_4` allocates a buffer. -/
theorem hostOps5_4_fresh : (hostOps5_4 : List (HloOp τ sig (Elt F))).Forall fun op => op.fresh = ∅ := by
  simp only [List.Forall]; repeat' constructor
/-- The references `hostOps5_4`'s operations write. -/
abbrev hostOps5_4_W : List (Ref sig .tc) := [main_v107, main_v108, main_v109, main_v110]
theorem hostOps5_4_writes : (hostOps5_4 : List (HloOp τ sig (Elt F))).Forall fun op => op.writes ⊆ (hostOps5_4_W.map (Proc.devRef (τ := τ) .tc)).toFinset := by
  writes_in_list

end Run

/-! ## The buffer contents at each boundary: a fold through the program -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- After `hostOps0_8`. -/
abbrev W9 : Dev nD → Valuation τ sig (Elt F) := fun c => StableHlo.after hostOps0_8 (W8 m ρ c)
/-- After `hostOps0_9`. -/
abbrev W10 : Dev nD → Valuation τ sig (Elt F) := fun c => StableHlo.after hostOps0_9 (W9 m ρ c)
/-- After `hostOps0_10`. -/
abbrev W11 : Dev nD → Valuation τ sig (Elt F) := fun c => StableHlo.after hostOps0_10 (W10 m ρ c)
/-- After `hostOps0_11`. -/
abbrev W12 : Dev nD → Valuation τ sig (Elt F) := fun c => StableHlo.after hostOps0_11 (W11 m ρ c)
/-- After `hostOps0_12`. -/
abbrev W13 : Dev nD → Valuation τ sig (Elt F) := fun c => StableHlo.after hostOps0_12 (W12 m ρ c)
/-- After `hostOps0_13`. -/
abbrev W14 : Dev nD → Valuation τ sig (Elt F) := fun c => StableHlo.after hostOps0_13 (W13 m ρ c)
/-- After `hostOps0_14`. -/
abbrev W15 : Dev nD → Valuation τ sig (Elt F) := fun c => StableHlo.after hostOps0_14 (W14 m ρ c)
/-- After `hostOps0_15`. -/
abbrev W16 : Dev nD → Valuation τ sig (Elt F) := fun c => StableHlo.after hostOps0_15 (W15 m ρ c)
/-- After `hostOps0_16`. -/
abbrev W17 : Dev nD → Valuation τ sig (Elt F) := fun c => StableHlo.after hostOps0_16 (W16 m ρ c)
/-- After `hostOps0_17`. -/
abbrev W18 : Dev nD → Valuation τ sig (Elt F) := fun c => StableHlo.after hostOps0_17 (W17 m ρ c)
/-- After `hostOps0_18`. -/
abbrev W19 : Dev nD → Valuation τ sig (Elt F) := fun c => StableHlo.after hostOps0_18 (W18 m ρ c)
/-- The same read at the TensorCore's references: what region 0 is entered from. -/
abbrev E0 : (c : Dev nD) → (b : Ref sig .tc) → Buf (Elt F) ((c : Thread nD τ).loc b) := fun c b => W19 m ρ c b
/-- At region 0's exit: its arrays at what the pipeline leaves (the inputs as entered, the output's write-backs
    folded), every other buffer as entered. -/
def W20 (c : Dev nD) : Valuation τ sig (Elt F) :=
  Pipeline.withArrays spec0 c (W19 m ρ c) fun w => (dat0 (E0 m ρ) c).arrAt w cfg0.N
theorem W20_arr (c : Dev nD) (w : Fin cfg0.W) :
    W20 m ρ c (Proc.devRef .tc (Pipeline.arrRef spec0 w)) = (dat0 (E0 m ρ) c).arrAt w cfg0.N := by
  unfold W20; exact Pipeline.withArrays_arr spec0 launch0.win.arr_inj c _ _ w
theorem W20_of_ne (c : Dev nD) (b : Ref sig .tc) (hb : ∀ w, Pipeline.arrRef spec0 w ≠ b) :
    W20 m ρ c (Proc.devRef .tc b) = W19 m ρ c (Proc.devRef .tc b) := by
  unfold W20; exact Pipeline.withArrays_of_ne spec0 c _ _ b hb
/-- The same read at the TensorCore's references: what region 0 leaves. -/
abbrev X0 : (c : Dev nD) → (b : Ref sig .tc) → Buf (Elt F) ((c : Thread nD τ).loc b) := fun c b => W20 m ρ c b
/-- At region 0's exit each of its arrays holds what the pipeline leaves, and every other buffer what it held at entry. -/
theorem hF0 (c : Dev nD) (w : Fin cfg0.W) : (dat0 (E0 m ρ) c).arrAt w cfg0.N = X0 m ρ c (Pipeline.arrRef spec0 w) :=
  (W20_arr m ρ c w).symm
theorem hrest0 (c : Dev nD) : ∀ b, b ∉ Finset.univ.image (Pipeline.arrRef spec0) → X0 m ρ c b = E0 m ρ c b :=
  fun b hb => W20_of_ne m ρ c b fun w e => hb (Finset.mem_image.mpr ⟨w, Finset.mem_univ _, e⟩)
/-- After `hostOps1`. -/
abbrev W21 : Dev nD → Valuation τ sig (Elt F) := fun c => StableHlo.after hostOps1 (W20 m ρ c)
/-- The same read at the TensorCore's references: what region 1 is entered from. -/
abbrev E1 : (c : Dev nD) → (b : Ref sig .tc) → Buf (Elt F) ((c : Thread nD τ).loc b) := fun c b => W21 m ρ c b
/-- At region 1's exit: its two input windows read one array, which the region leaves as entered; only the output
    array changes, to what the pipeline's write-backs fold to. -/
def W22 (c : Dev nD) : Valuation τ sig (Elt F) :=
  Function.update (W21 m ρ c) (Proc.devRef .tc main_v57) ((dat1 (E1 m ρ) c).arrAt 2 cfg1.N)
theorem W22_v57 (c : Dev nD) : W22 m ρ c (Proc.devRef .tc main_v57) = (dat1 (E1 m ρ) c).arrAt 2 cfg1.N := by
  unfold W22; exact Function.update_self _ _ _
theorem W22_of_ne (c : Dev nD) (b : Ref sig .tc) (hb : b ≠ main_v57) :
    W22 m ρ c (Proc.devRef .tc b) = W21 m ρ c (Proc.devRef .tc b) := by
  unfold W22; exact Function.update_of_ne (StableHlo.devRef_ne_of_ne hb) _ _
/-- The same read at the TensorCore's references: what region 1 leaves. -/
abbrev X1 : (c : Dev nD) → (b : Ref sig .tc) → Buf (Elt F) ((c : Thread nD τ).loc b) := fun c b => W22 m ρ c b
/-- At region 1's exit each window's array holds what the pipeline leaves: an input window's array never changes
    (and the exit contents agree with the entry contents there), the output's is the updated one. -/
theorem hF1 (c : Dev nD) : ∀ w : Fin cfg1.W, (dat1 (E1 m ρ) c).arrAt w cfg1.N = X1 m ρ c (Pipeline.arrRef spec1 w)
  | ⟨0, _⟩ => (((dat1 (E1 m ρ) c).arrAt_in 0 rfl _).trans (A_eq1 (E1 m ρ) c 0)).trans (W22_of_ne m ρ c (Pipeline.arrRef spec1 0) (by decide)).symm
  | ⟨1, _⟩ => (((dat1 (E1 m ρ) c).arrAt_in 1 rfl _).trans (A_eq1 (E1 m ρ) c 1)).trans (W22_of_ne m ρ c (Pipeline.arrRef spec1 1) (by decide)).symm
  | ⟨2, _⟩ => (W22_v57 m ρ c).symm
  | ⟨_ + 3, h⟩ => absurd h (Nat.not_lt.2 (Nat.le_add_left _ _))
/-- Every buffer that is no array of region 1 holds at its exit what it held at entry. -/
theorem hrest1 (c : Dev nD) : ∀ b, b ∉ Finset.univ.image (Pipeline.arrRef spec1) → X1 m ρ c b = E1 m ρ c b :=
  fun b hb => W22_of_ne m ρ c b fun e => hb (Finset.mem_image.mpr ⟨2, Finset.mem_univ _, e.symm⟩)
/-- After `hostOps2`. -/
abbrev W23 : Dev nD → Valuation τ sig (Elt F) := fun c => StableHlo.after hostOps2 (W22 m ρ c)
/-- The same read at the TensorCore's references: what region 2 is entered from. -/
abbrev E2 : (c : Dev nD) → (b : Ref sig .tc) → Buf (Elt F) ((c : Thread nD τ).loc b) := fun c b => W23 m ρ c b
/-- At region 2's exit: its arrays at what the pipeline leaves (the inputs as entered, the output's write-backs
    folded), every other buffer as entered. -/
def W24 (c : Dev nD) : Valuation τ sig (Elt F) :=
  Pipeline.withArrays spec2 c (W23 m ρ c) fun w => (dat2 (E2 m ρ) c).arrAt w cfg2.N
theorem W24_arr (c : Dev nD) (w : Fin cfg2.W) :
    W24 m ρ c (Proc.devRef .tc (Pipeline.arrRef spec2 w)) = (dat2 (E2 m ρ) c).arrAt w cfg2.N := by
  unfold W24; exact Pipeline.withArrays_arr spec2 launch2.win.arr_inj c _ _ w
theorem W24_of_ne (c : Dev nD) (b : Ref sig .tc) (hb : ∀ w, Pipeline.arrRef spec2 w ≠ b) :
    W24 m ρ c (Proc.devRef .tc b) = W23 m ρ c (Proc.devRef .tc b) := by
  unfold W24; exact Pipeline.withArrays_of_ne spec2 c _ _ b hb
/-- The same read at the TensorCore's references: what region 2 leaves. -/
abbrev X2 : (c : Dev nD) → (b : Ref sig .tc) → Buf (Elt F) ((c : Thread nD τ).loc b) := fun c b => W24 m ρ c b
/-- At region 2's exit each of its arrays holds what the pipeline leaves, and every other buffer what it held at entry. -/
theorem hF2 (c : Dev nD) (w : Fin cfg2.W) : (dat2 (E2 m ρ) c).arrAt w cfg2.N = X2 m ρ c (Pipeline.arrRef spec2 w) :=
  (W24_arr m ρ c w).symm
theorem hrest2 (c : Dev nD) : ∀ b, b ∉ Finset.univ.image (Pipeline.arrRef spec2) → X2 m ρ c b = E2 m ρ c b :=
  fun b hb => W24_of_ne m ρ c b fun w e => hb (Finset.mem_image.mpr ⟨w, Finset.mem_univ _, e⟩)
/-- After `hostOps3`. -/
abbrev W25 : Dev nD → Valuation τ sig (Elt F) := fun c => StableHlo.after hostOps3 (W24 m ρ c)
/-- The same read at the TensorCore's references: what region 3 is entered from. -/
abbrev E3 : (c : Dev nD) → (b : Ref sig .tc) → Buf (Elt F) ((c : Thread nD τ).loc b) := fun c b => W25 m ρ c b
/-- At region 3's exit: its arrays at what the pipeline leaves (the inputs as entered, the output's write-backs
    folded), every other buffer as entered. -/
def W26 (c : Dev nD) : Valuation τ sig (Elt F) :=
  Pipeline.withArrays spec3 c (W25 m ρ c) fun w => (dat3 (E3 m ρ) c).arrAt w cfg3.N
theorem W26_arr (c : Dev nD) (w : Fin cfg3.W) :
    W26 m ρ c (Proc.devRef .tc (Pipeline.arrRef spec3 w)) = (dat3 (E3 m ρ) c).arrAt w cfg3.N := by
  unfold W26; exact Pipeline.withArrays_arr spec3 launch3.win.arr_inj c _ _ w
theorem W26_of_ne (c : Dev nD) (b : Ref sig .tc) (hb : ∀ w, Pipeline.arrRef spec3 w ≠ b) :
    W26 m ρ c (Proc.devRef .tc b) = W25 m ρ c (Proc.devRef .tc b) := by
  unfold W26; exact Pipeline.withArrays_of_ne spec3 c _ _ b hb
/-- The same read at the TensorCore's references: what region 3 leaves. -/
abbrev X3 : (c : Dev nD) → (b : Ref sig .tc) → Buf (Elt F) ((c : Thread nD τ).loc b) := fun c b => W26 m ρ c b
/-- At region 3's exit each of its arrays holds what the pipeline leaves, and every other buffer what it held at entry. -/
theorem hF3 (c : Dev nD) (w : Fin cfg3.W) : (dat3 (E3 m ρ) c).arrAt w cfg3.N = X3 m ρ c (Pipeline.arrRef spec3 w) :=
  (W26_arr m ρ c w).symm
theorem hrest3 (c : Dev nD) : ∀ b, b ∉ Finset.univ.image (Pipeline.arrRef spec3) → X3 m ρ c b = E3 m ρ c b :=
  fun b hb => W26_of_ne m ρ c b fun w e => hb (Finset.mem_image.mpr ⟨w, Finset.mem_univ _, e⟩)
/-- After `hostOps4`. -/
abbrev W27 : Dev nD → Valuation τ sig (Elt F) := fun c => StableHlo.after hostOps4 (W26 m ρ c)
/-- The same read at the TensorCore's references: what region 4 is entered from. -/
abbrev E4 : (c : Dev nD) → (b : Ref sig .tc) → Buf (Elt F) ((c : Thread nD τ).loc b) := fun c b => W27 m ρ c b
/-- At region 4's exit: its arrays at what the pipeline leaves (the inputs as entered, the output's write-backs
    folded), every other buffer as entered. -/
def W28 (c : Dev nD) : Valuation τ sig (Elt F) :=
  Pipeline.withArrays spec4 c (W27 m ρ c) fun w => (dat4 (E4 m ρ) c).arrAt w cfg4.N
theorem W28_arr (c : Dev nD) (w : Fin cfg4.W) :
    W28 m ρ c (Proc.devRef .tc (Pipeline.arrRef spec4 w)) = (dat4 (E4 m ρ) c).arrAt w cfg4.N := by
  unfold W28; exact Pipeline.withArrays_arr spec4 launch4.win.arr_inj c _ _ w
theorem W28_of_ne (c : Dev nD) (b : Ref sig .tc) (hb : ∀ w, Pipeline.arrRef spec4 w ≠ b) :
    W28 m ρ c (Proc.devRef .tc b) = W27 m ρ c (Proc.devRef .tc b) := by
  unfold W28; exact Pipeline.withArrays_of_ne spec4 c _ _ b hb
/-- The same read at the TensorCore's references: what region 4 leaves. -/
abbrev X4 : (c : Dev nD) → (b : Ref sig .tc) → Buf (Elt F) ((c : Thread nD τ).loc b) := fun c b => W28 m ρ c b
/-- At region 4's exit each of its arrays holds what the pipeline leaves, and every other buffer what it held at entry. -/
theorem hF4 (c : Dev nD) (w : Fin cfg4.W) : (dat4 (E4 m ρ) c).arrAt w cfg4.N = X4 m ρ c (Pipeline.arrRef spec4 w) :=
  (W28_arr m ρ c w).symm
theorem hrest4 (c : Dev nD) : ∀ b, b ∉ Finset.univ.image (Pipeline.arrRef spec4) → X4 m ρ c b = E4 m ρ c b :=
  fun b hb => W28_of_ne m ρ c b fun w e => hb (Finset.mem_image.mpr ⟨w, Finset.mem_univ _, e⟩)
/-- After `hostOps5`. -/
abbrev W29 : Dev nD → Valuation τ sig (Elt F) := fun c => StableHlo.after hostOps5 (W28 m ρ c)
/-- After `hostOps5_1`. -/
abbrev W30 : Dev nD → Valuation τ sig (Elt F) := fun c => StableHlo.after hostOps5_1 (W29 m ρ c)
/-- After `hostOps5_2`. -/
abbrev W31 : Dev nD → Valuation τ sig (Elt F) := fun c => StableHlo.after hostOps5_2 (W30 m ρ c)
/-- After `hostOps5_3`. -/
abbrev W32 : Dev nD → Valuation τ sig (Elt F) := fun c => StableHlo.after hostOps5_3 (W31 m ρ c)
/-- After `hostOps5_4`. -/
abbrev W33 : Dev nD → Valuation τ sig (Elt F) := fun c => StableHlo.after hostOps5_4 (W32 m ρ c)

/-! ## What each host stretch leaves unchanged -/

theorem W1_of (c : Dev nD) (r : Ref sig .tc) (h : r ∉ Run.hostOps0_W) :
    W1 m ρ c (Proc.devRef .tc r) = W0 m ρ c (Proc.devRef .tc r) :=
  StableHlo.after_of_writes_sub hostOps0 _ Run.hostOps0_writes h
theorem W2_of (c : Dev nD) (r : Ref sig .tc) (h : r ∉ Run.hostOps0_1_W) :
    W2 m ρ c (Proc.devRef .tc r) = W1 m ρ c (Proc.devRef .tc r) :=
  StableHlo.after_of_writes_sub hostOps0_1 _ Run.hostOps0_1_writes h
theorem W3_of (c : Dev nD) (r : Ref sig .tc) (h : r ∉ Run.hostOps0_2_W) :
    W3 m ρ c (Proc.devRef .tc r) = W2 m ρ c (Proc.devRef .tc r) :=
  StableHlo.after_of_writes_sub hostOps0_2 _ Run.hostOps0_2_writes h
theorem W4_of (c : Dev nD) (r : Ref sig .tc) (h : r ∉ Run.hostOps0_3_W) :
    W4 m ρ c (Proc.devRef .tc r) = W3 m ρ c (Proc.devRef .tc r) :=
  StableHlo.after_of_writes_sub hostOps0_3 _ Run.hostOps0_3_writes h
theorem W5_of (c : Dev nD) (r : Ref sig .tc) (h : r ∉ Run.hostOps0_4_W) :
    W5 m ρ c (Proc.devRef .tc r) = W4 m ρ c (Proc.devRef .tc r) :=
  StableHlo.after_of_writes_sub hostOps0_4 _ Run.hostOps0_4_writes h
theorem W6_of (c : Dev nD) (r : Ref sig .tc) (h : r ∉ Run.hostOps0_5_W) :
    W6 m ρ c (Proc.devRef .tc r) = W5 m ρ c (Proc.devRef .tc r) :=
  StableHlo.after_of_writes_sub hostOps0_5 _ Run.hostOps0_5_writes h
theorem W7_of (c : Dev nD) (r : Ref sig .tc) (h : r ∉ Run.hostOps0_6_W) :
    W7 m ρ c (Proc.devRef .tc r) = W6 m ρ c (Proc.devRef .tc r) :=
  StableHlo.after_of_writes_sub hostOps0_6 _ Run.hostOps0_6_writes h
theorem W8_of (c : Dev nD) (r : Ref sig .tc) (h : r ∉ Run.hostOps0_7_W) :
    W8 m ρ c (Proc.devRef .tc r) = W7 m ρ c (Proc.devRef .tc r) :=
  StableHlo.after_of_writes_sub hostOps0_7 _ Run.hostOps0_7_writes h
theorem W9_of (c : Dev nD) (r : Ref sig .tc) (h : r ∉ Run.hostOps0_8_W) :
    W9 m ρ c (Proc.devRef .tc r) = W8 m ρ c (Proc.devRef .tc r) :=
  StableHlo.after_of_writes_sub hostOps0_8 _ Run.hostOps0_8_writes h
theorem W10_of (c : Dev nD) (r : Ref sig .tc) (h : r ∉ Run.hostOps0_9_W) :
    W10 m ρ c (Proc.devRef .tc r) = W9 m ρ c (Proc.devRef .tc r) :=
  StableHlo.after_of_writes_sub hostOps0_9 _ Run.hostOps0_9_writes h
theorem W11_of (c : Dev nD) (r : Ref sig .tc) (h : r ∉ Run.hostOps0_10_W) :
    W11 m ρ c (Proc.devRef .tc r) = W10 m ρ c (Proc.devRef .tc r) :=
  StableHlo.after_of_writes_sub hostOps0_10 _ Run.hostOps0_10_writes h
theorem W12_of (c : Dev nD) (r : Ref sig .tc) (h : r ∉ Run.hostOps0_11_W) :
    W12 m ρ c (Proc.devRef .tc r) = W11 m ρ c (Proc.devRef .tc r) :=
  StableHlo.after_of_writes_sub hostOps0_11 _ Run.hostOps0_11_writes h
theorem W13_of (c : Dev nD) (r : Ref sig .tc) (h : r ∉ Run.hostOps0_12_W) :
    W13 m ρ c (Proc.devRef .tc r) = W12 m ρ c (Proc.devRef .tc r) :=
  StableHlo.after_of_writes_sub hostOps0_12 _ Run.hostOps0_12_writes h
theorem W14_of (c : Dev nD) (r : Ref sig .tc) (h : r ∉ Run.hostOps0_13_W) :
    W14 m ρ c (Proc.devRef .tc r) = W13 m ρ c (Proc.devRef .tc r) :=
  StableHlo.after_of_writes_sub hostOps0_13 _ Run.hostOps0_13_writes h
theorem W15_of (c : Dev nD) (r : Ref sig .tc) (h : r ∉ Run.hostOps0_14_W) :
    W15 m ρ c (Proc.devRef .tc r) = W14 m ρ c (Proc.devRef .tc r) :=
  StableHlo.after_of_writes_sub hostOps0_14 _ Run.hostOps0_14_writes h
theorem W16_of (c : Dev nD) (r : Ref sig .tc) (h : r ∉ Run.hostOps0_15_W) :
    W16 m ρ c (Proc.devRef .tc r) = W15 m ρ c (Proc.devRef .tc r) :=
  StableHlo.after_of_writes_sub hostOps0_15 _ Run.hostOps0_15_writes h
theorem W17_of (c : Dev nD) (r : Ref sig .tc) (h : r ∉ Run.hostOps0_16_W) :
    W17 m ρ c (Proc.devRef .tc r) = W16 m ρ c (Proc.devRef .tc r) :=
  StableHlo.after_of_writes_sub hostOps0_16 _ Run.hostOps0_16_writes h
theorem W18_of (c : Dev nD) (r : Ref sig .tc) (h : r ∉ Run.hostOps0_17_W) :
    W18 m ρ c (Proc.devRef .tc r) = W17 m ρ c (Proc.devRef .tc r) :=
  StableHlo.after_of_writes_sub hostOps0_17 _ Run.hostOps0_17_writes h
theorem W19_of (c : Dev nD) (r : Ref sig .tc) (h : r ∉ Run.hostOps0_18_W) :
    W19 m ρ c (Proc.devRef .tc r) = W18 m ρ c (Proc.devRef .tc r) :=
  StableHlo.after_of_writes_sub hostOps0_18 _ Run.hostOps0_18_writes h
theorem W21_of (c : Dev nD) (r : Ref sig .tc) (h : r ∉ Run.hostOps1_W) :
    W21 m ρ c (Proc.devRef .tc r) = W20 m ρ c (Proc.devRef .tc r) :=
  StableHlo.after_of_writes_sub hostOps1 _ Run.hostOps1_writes h
theorem W23_of (c : Dev nD) (r : Ref sig .tc) (h : r ∉ Run.hostOps2_W) :
    W23 m ρ c (Proc.devRef .tc r) = W22 m ρ c (Proc.devRef .tc r) :=
  StableHlo.after_of_writes_sub hostOps2 _ Run.hostOps2_writes h
theorem W25_of (c : Dev nD) (r : Ref sig .tc) (h : r ∉ Run.hostOps3_W) :
    W25 m ρ c (Proc.devRef .tc r) = W24 m ρ c (Proc.devRef .tc r) :=
  StableHlo.after_of_writes_sub hostOps3 _ Run.hostOps3_writes h
theorem W27_of (c : Dev nD) (r : Ref sig .tc) (h : r ∉ Run.hostOps4_W) :
    W27 m ρ c (Proc.devRef .tc r) = W26 m ρ c (Proc.devRef .tc r) :=
  StableHlo.after_of_writes_sub hostOps4 _ Run.hostOps4_writes h
theorem W29_of (c : Dev nD) (r : Ref sig .tc) (h : r ∉ Run.hostOps5_W) :
    W29 m ρ c (Proc.devRef .tc r) = W28 m ρ c (Proc.devRef .tc r) :=
  StableHlo.after_of_writes_sub hostOps5 _ Run.hostOps5_writes h
theorem W30_of (c : Dev nD) (r : Ref sig .tc) (h : r ∉ Run.hostOps5_1_W) :
    W30 m ρ c (Proc.devRef .tc r) = W29 m ρ c (Proc.devRef .tc r) :=
  StableHlo.after_of_writes_sub hostOps5_1 _ Run.hostOps5_1_writes h
theorem W31_of (c : Dev nD) (r : Ref sig .tc) (h : r ∉ Run.hostOps5_2_W) :
    W31 m ρ c (Proc.devRef .tc r) = W30 m ρ c (Proc.devRef .tc r) :=
  StableHlo.after_of_writes_sub hostOps5_2 _ Run.hostOps5_2_writes h
theorem W32_of (c : Dev nD) (r : Ref sig .tc) (h : r ∉ Run.hostOps5_3_W) :
    W32 m ρ c (Proc.devRef .tc r) = W31 m ρ c (Proc.devRef .tc r) :=
  StableHlo.after_of_writes_sub hostOps5_3 _ Run.hostOps5_3_writes h
theorem W33_of (c : Dev nD) (r : Ref sig .tc) (h : r ∉ Run.hostOps5_4_W) :
    W33 m ρ c (Proc.devRef .tc r) = W32 m ρ c (Proc.devRef .tc r) :=
  StableHlo.after_of_writes_sub hostOps5_4 _ Run.hostOps5_4_writes h

/-! ## The arguments end as launched

No host operation writes an argument and no region has one as its output: the fold at an argument's buffer walks back
to the launch memory. The first argument is an input array of regions 0, 1 and 3; an input window's array is never
written back. -/

theorem W33_main_arg0 (c : Dev nD) : W33 m ρ c (Proc.devRef .tc main_arg0) = m ((c : Thread nD τ).loc main_arg0) :=
  calc W33 m ρ c (Proc.devRef .tc main_arg0)
    _ = W32 m ρ c (Proc.devRef .tc main_arg0) := W33_of m ρ c main_arg0 (by decide)
    _ = W31 m ρ c (Proc.devRef .tc main_arg0) := W32_of m ρ c main_arg0 (by decide)
    _ = W30 m ρ c (Proc.devRef .tc main_arg0) := W31_of m ρ c main_arg0 (by decide)
    _ = W29 m ρ c (Proc.devRef .tc main_arg0) := W30_of m ρ c main_arg0 (by decide)
    _ = W28 m ρ c (Proc.devRef .tc main_arg0) := W29_of m ρ c main_arg0 (by decide)
    _ = W27 m ρ c (Proc.devRef .tc main_arg0) := W28_of_ne m ρ c main_arg0 (by decide)
    _ = W26 m ρ c (Proc.devRef .tc main_arg0) := W27_of m ρ c main_arg0 (by decide)
    _ = W25 m ρ c (Proc.devRef .tc main_arg0) := (W26_arr m ρ c 0).trans (((dat3 (E3 m ρ) c).arrAt_in 0 rfl _).trans (A_eq3 (E3 m ρ) c 0))
    _ = W24 m ρ c (Proc.devRef .tc main_arg0) := W25_of m ρ c main_arg0 (by decide)
    _ = W23 m ρ c (Proc.devRef .tc main_arg0) := W24_of_ne m ρ c main_arg0 (by decide)
    _ = W22 m ρ c (Proc.devRef .tc main_arg0) := W23_of m ρ c main_arg0 (by decide)
    _ = W21 m ρ c (Proc.devRef .tc main_arg0) := W22_of_ne m ρ c main_arg0 (by decide)
    _ = W20 m ρ c (Proc.devRef .tc main_arg0) := W21_of m ρ c main_arg0 (by decide)
    _ = W19 m ρ c (Proc.devRef .tc main_arg0) := (W20_arr m ρ c 1).trans (((dat0 (E0 m ρ) c).arrAt_in 1 rfl _).trans (A_eq0 (E0 m ρ) c 1))
    _ = W18 m ρ c (Proc.devRef .tc main_arg0) := W19_of m ρ c main_arg0 (by decide)
    _ = W17 m ρ c (Proc.devRef .tc main_arg0) := W18_of m ρ c main_arg0 (by decide)
    _ = W16 m ρ c (Proc.devRef .tc main_arg0) := W17_of m ρ c main_arg0 (by decide)
    _ = W15 m ρ c (Proc.devRef .tc main_arg0) := W16_of m ρ c main_arg0 (by decide)
    _ = W14 m ρ c (Proc.devRef .tc main_arg0) := W15_of m ρ c main_arg0 (by decide)
    _ = W13 m ρ c (Proc.devRef .tc main_arg0) := W14_of m ρ c main_arg0 (by decide)
    _ = W12 m ρ c (Proc.devRef .tc main_arg0) := W13_of m ρ c main_arg0 (by decide)
    _ = W11 m ρ c (Proc.devRef .tc main_arg0) := W12_of m ρ c main_arg0 (by decide)
    _ = W10 m ρ c (Proc.devRef .tc main_arg0) := W11_of m ρ c main_arg0 (by decide)
    _ = W9 m ρ c (Proc.devRef .tc main_arg0) := W10_of m ρ c main_arg0 (by decide)
    _ = W8 m ρ c (Proc.devRef .tc main_arg0) := W9_of m ρ c main_arg0 (by decide)
    _ = W7 m ρ c (Proc.devRef .tc main_arg0) := W8_of m ρ c main_arg0 (by decide)
    _ = W6 m ρ c (Proc.devRef .tc main_arg0) := W7_of m ρ c main_arg0 (by decide)
    _ = W5 m ρ c (Proc.devRef .tc main_arg0) := W6_of m ρ c main_arg0 (by decide)
    _ = W4 m ρ c (Proc.devRef .tc main_arg0) := W5_of m ρ c main_arg0 (by decide)
    _ = W3 m ρ c (Proc.devRef .tc main_arg0) := W4_of m ρ c main_arg0 (by decide)
    _ = W2 m ρ c (Proc.devRef .tc main_arg0) := W3_of m ρ c main_arg0 (by decide)
    _ = W1 m ρ c (Proc.devRef .tc main_arg0) := W2_of m ρ c main_arg0 (by decide)
    _ = W0 m ρ c (Proc.devRef .tc main_arg0) := W1_of m ρ c main_arg0 (by decide)
    _ = m ((c : Thread nD τ).loc main_arg0) := rfl
theorem W33_main_arg1 (c : Dev nD) : W33 m ρ c (Proc.devRef .tc main_arg1) = m ((c : Thread nD τ).loc main_arg1) :=
  calc W33 m ρ c (Proc.devRef .tc main_arg1)
    _ = W32 m ρ c (Proc.devRef .tc main_arg1) := W33_of m ρ c main_arg1 (by decide)
    _ = W31 m ρ c (Proc.devRef .tc main_arg1) := W32_of m ρ c main_arg1 (by decide)
    _ = W30 m ρ c (Proc.devRef .tc main_arg1) := W31_of m ρ c main_arg1 (by decide)
    _ = W29 m ρ c (Proc.devRef .tc main_arg1) := W30_of m ρ c main_arg1 (by decide)
    _ = W28 m ρ c (Proc.devRef .tc main_arg1) := W29_of m ρ c main_arg1 (by decide)
    _ = W27 m ρ c (Proc.devRef .tc main_arg1) := W28_of_ne m ρ c main_arg1 (by decide)
    _ = W26 m ρ c (Proc.devRef .tc main_arg1) := W27_of m ρ c main_arg1 (by decide)
    _ = W25 m ρ c (Proc.devRef .tc main_arg1) := W26_of_ne m ρ c main_arg1 (by decide)
    _ = W24 m ρ c (Proc.devRef .tc main_arg1) := W25_of m ρ c main_arg1 (by decide)
    _ = W23 m ρ c (Proc.devRef .tc main_arg1) := W24_of_ne m ρ c main_arg1 (by decide)
    _ = W22 m ρ c (Proc.devRef .tc main_arg1) := W23_of m ρ c main_arg1 (by decide)
    _ = W21 m ρ c (Proc.devRef .tc main_arg1) := W22_of_ne m ρ c main_arg1 (by decide)
    _ = W20 m ρ c (Proc.devRef .tc main_arg1) := W21_of m ρ c main_arg1 (by decide)
    _ = W19 m ρ c (Proc.devRef .tc main_arg1) := W20_of_ne m ρ c main_arg1 (by decide)
    _ = W18 m ρ c (Proc.devRef .tc main_arg1) := W19_of m ρ c main_arg1 (by decide)
    _ = W17 m ρ c (Proc.devRef .tc main_arg1) := W18_of m ρ c main_arg1 (by decide)
    _ = W16 m ρ c (Proc.devRef .tc main_arg1) := W17_of m ρ c main_arg1 (by decide)
    _ = W15 m ρ c (Proc.devRef .tc main_arg1) := W16_of m ρ c main_arg1 (by decide)
    _ = W14 m ρ c (Proc.devRef .tc main_arg1) := W15_of m ρ c main_arg1 (by decide)
    _ = W13 m ρ c (Proc.devRef .tc main_arg1) := W14_of m ρ c main_arg1 (by decide)
    _ = W12 m ρ c (Proc.devRef .tc main_arg1) := W13_of m ρ c main_arg1 (by decide)
    _ = W11 m ρ c (Proc.devRef .tc main_arg1) := W12_of m ρ c main_arg1 (by decide)
    _ = W10 m ρ c (Proc.devRef .tc main_arg1) := W11_of m ρ c main_arg1 (by decide)
    _ = W9 m ρ c (Proc.devRef .tc main_arg1) := W10_of m ρ c main_arg1 (by decide)
    _ = W8 m ρ c (Proc.devRef .tc main_arg1) := W9_of m ρ c main_arg1 (by decide)
    _ = W7 m ρ c (Proc.devRef .tc main_arg1) := W8_of m ρ c main_arg1 (by decide)
    _ = W6 m ρ c (Proc.devRef .tc main_arg1) := W7_of m ρ c main_arg1 (by decide)
    _ = W5 m ρ c (Proc.devRef .tc main_arg1) := W6_of m ρ c main_arg1 (by decide)
    _ = W4 m ρ c (Proc.devRef .tc main_arg1) := W5_of m ρ c main_arg1 (by decide)
    _ = W3 m ρ c (Proc.devRef .tc main_arg1) := W4_of m ρ c main_arg1 (by decide)
    _ = W2 m ρ c (Proc.devRef .tc main_arg1) := W3_of m ρ c main_arg1 (by decide)
    _ = W1 m ρ c (Proc.devRef .tc main_arg1) := W2_of m ρ c main_arg1 (by decide)
    _ = W0 m ρ c (Proc.devRef .tc main_arg1) := W1_of m ρ c main_arg1 (by decide)
    _ = m ((c : Thread nD τ).loc main_arg1) := rfl
theorem W33_main_arg2 (c : Dev nD) : W33 m ρ c (Proc.devRef .tc main_arg2) = m ((c : Thread nD τ).loc main_arg2) :=
  calc W33 m ρ c (Proc.devRef .tc main_arg2)
    _ = W32 m ρ c (Proc.devRef .tc main_arg2) := W33_of m ρ c main_arg2 (by decide)
    _ = W31 m ρ c (Proc.devRef .tc main_arg2) := W32_of m ρ c main_arg2 (by decide)
    _ = W30 m ρ c (Proc.devRef .tc main_arg2) := W31_of m ρ c main_arg2 (by decide)
    _ = W29 m ρ c (Proc.devRef .tc main_arg2) := W30_of m ρ c main_arg2 (by decide)
    _ = W28 m ρ c (Proc.devRef .tc main_arg2) := W29_of m ρ c main_arg2 (by decide)
    _ = W27 m ρ c (Proc.devRef .tc main_arg2) := W28_of_ne m ρ c main_arg2 (by decide)
    _ = W26 m ρ c (Proc.devRef .tc main_arg2) := W27_of m ρ c main_arg2 (by decide)
    _ = W25 m ρ c (Proc.devRef .tc main_arg2) := W26_of_ne m ρ c main_arg2 (by decide)
    _ = W24 m ρ c (Proc.devRef .tc main_arg2) := W25_of m ρ c main_arg2 (by decide)
    _ = W23 m ρ c (Proc.devRef .tc main_arg2) := W24_of_ne m ρ c main_arg2 (by decide)
    _ = W22 m ρ c (Proc.devRef .tc main_arg2) := W23_of m ρ c main_arg2 (by decide)
    _ = W21 m ρ c (Proc.devRef .tc main_arg2) := W22_of_ne m ρ c main_arg2 (by decide)
    _ = W20 m ρ c (Proc.devRef .tc main_arg2) := W21_of m ρ c main_arg2 (by decide)
    _ = W19 m ρ c (Proc.devRef .tc main_arg2) := W20_of_ne m ρ c main_arg2 (by decide)
    _ = W18 m ρ c (Proc.devRef .tc main_arg2) := W19_of m ρ c main_arg2 (by decide)
    _ = W17 m ρ c (Proc.devRef .tc main_arg2) := W18_of m ρ c main_arg2 (by decide)
    _ = W16 m ρ c (Proc.devRef .tc main_arg2) := W17_of m ρ c main_arg2 (by decide)
    _ = W15 m ρ c (Proc.devRef .tc main_arg2) := W16_of m ρ c main_arg2 (by decide)
    _ = W14 m ρ c (Proc.devRef .tc main_arg2) := W15_of m ρ c main_arg2 (by decide)
    _ = W13 m ρ c (Proc.devRef .tc main_arg2) := W14_of m ρ c main_arg2 (by decide)
    _ = W12 m ρ c (Proc.devRef .tc main_arg2) := W13_of m ρ c main_arg2 (by decide)
    _ = W11 m ρ c (Proc.devRef .tc main_arg2) := W12_of m ρ c main_arg2 (by decide)
    _ = W10 m ρ c (Proc.devRef .tc main_arg2) := W11_of m ρ c main_arg2 (by decide)
    _ = W9 m ρ c (Proc.devRef .tc main_arg2) := W10_of m ρ c main_arg2 (by decide)
    _ = W8 m ρ c (Proc.devRef .tc main_arg2) := W9_of m ρ c main_arg2 (by decide)
    _ = W7 m ρ c (Proc.devRef .tc main_arg2) := W8_of m ρ c main_arg2 (by decide)
    _ = W6 m ρ c (Proc.devRef .tc main_arg2) := W7_of m ρ c main_arg2 (by decide)
    _ = W5 m ρ c (Proc.devRef .tc main_arg2) := W6_of m ρ c main_arg2 (by decide)
    _ = W4 m ρ c (Proc.devRef .tc main_arg2) := W5_of m ρ c main_arg2 (by decide)
    _ = W3 m ρ c (Proc.devRef .tc main_arg2) := W4_of m ρ c main_arg2 (by decide)
    _ = W2 m ρ c (Proc.devRef .tc main_arg2) := W3_of m ρ c main_arg2 (by decide)
    _ = W1 m ρ c (Proc.devRef .tc main_arg2) := W2_of m ρ c main_arg2 (by decide)
    _ = W0 m ρ c (Proc.devRef .tc main_arg2) := W1_of m ρ c main_arg2 (by decide)
    _ = m ((c : Thread nD τ).loc main_arg2) := rfl
theorem W33_main_arg3 (c : Dev nD) : W33 m ρ c (Proc.devRef .tc main_arg3) = m ((c : Thread nD τ).loc main_arg3) :=
  calc W33 m ρ c (Proc.devRef .tc main_arg3)
    _ = W32 m ρ c (Proc.devRef .tc main_arg3) := W33_of m ρ c main_arg3 (by decide)
    _ = W31 m ρ c (Proc.devRef .tc main_arg3) := W32_of m ρ c main_arg3 (by decide)
    _ = W30 m ρ c (Proc.devRef .tc main_arg3) := W31_of m ρ c main_arg3 (by decide)
    _ = W29 m ρ c (Proc.devRef .tc main_arg3) := W30_of m ρ c main_arg3 (by decide)
    _ = W28 m ρ c (Proc.devRef .tc main_arg3) := W29_of m ρ c main_arg3 (by decide)
    _ = W27 m ρ c (Proc.devRef .tc main_arg3) := W28_of_ne m ρ c main_arg3 (by decide)
    _ = W26 m ρ c (Proc.devRef .tc main_arg3) := W27_of m ρ c main_arg3 (by decide)
    _ = W25 m ρ c (Proc.devRef .tc main_arg3) := W26_of_ne m ρ c main_arg3 (by decide)
    _ = W24 m ρ c (Proc.devRef .tc main_arg3) := W25_of m ρ c main_arg3 (by decide)
    _ = W23 m ρ c (Proc.devRef .tc main_arg3) := W24_of_ne m ρ c main_arg3 (by decide)
    _ = W22 m ρ c (Proc.devRef .tc main_arg3) := W23_of m ρ c main_arg3 (by decide)
    _ = W21 m ρ c (Proc.devRef .tc main_arg3) := W22_of_ne m ρ c main_arg3 (by decide)
    _ = W20 m ρ c (Proc.devRef .tc main_arg3) := W21_of m ρ c main_arg3 (by decide)
    _ = W19 m ρ c (Proc.devRef .tc main_arg3) := W20_of_ne m ρ c main_arg3 (by decide)
    _ = W18 m ρ c (Proc.devRef .tc main_arg3) := W19_of m ρ c main_arg3 (by decide)
    _ = W17 m ρ c (Proc.devRef .tc main_arg3) := W18_of m ρ c main_arg3 (by decide)
    _ = W16 m ρ c (Proc.devRef .tc main_arg3) := W17_of m ρ c main_arg3 (by decide)
    _ = W15 m ρ c (Proc.devRef .tc main_arg3) := W16_of m ρ c main_arg3 (by decide)
    _ = W14 m ρ c (Proc.devRef .tc main_arg3) := W15_of m ρ c main_arg3 (by decide)
    _ = W13 m ρ c (Proc.devRef .tc main_arg3) := W14_of m ρ c main_arg3 (by decide)
    _ = W12 m ρ c (Proc.devRef .tc main_arg3) := W13_of m ρ c main_arg3 (by decide)
    _ = W11 m ρ c (Proc.devRef .tc main_arg3) := W12_of m ρ c main_arg3 (by decide)
    _ = W10 m ρ c (Proc.devRef .tc main_arg3) := W11_of m ρ c main_arg3 (by decide)
    _ = W9 m ρ c (Proc.devRef .tc main_arg3) := W10_of m ρ c main_arg3 (by decide)
    _ = W8 m ρ c (Proc.devRef .tc main_arg3) := W9_of m ρ c main_arg3 (by decide)
    _ = W7 m ρ c (Proc.devRef .tc main_arg3) := W8_of m ρ c main_arg3 (by decide)
    _ = W6 m ρ c (Proc.devRef .tc main_arg3) := W7_of m ρ c main_arg3 (by decide)
    _ = W5 m ρ c (Proc.devRef .tc main_arg3) := W6_of m ρ c main_arg3 (by decide)
    _ = W4 m ρ c (Proc.devRef .tc main_arg3) := W5_of m ρ c main_arg3 (by decide)
    _ = W3 m ρ c (Proc.devRef .tc main_arg3) := W4_of m ρ c main_arg3 (by decide)
    _ = W2 m ρ c (Proc.devRef .tc main_arg3) := W3_of m ρ c main_arg3 (by decide)
    _ = W1 m ρ c (Proc.devRef .tc main_arg3) := W2_of m ρ c main_arg3 (by decide)
    _ = W0 m ρ c (Proc.devRef .tc main_arg3) := W1_of m ρ c main_arg3 (by decide)
    _ = m ((c : Thread nD τ).loc main_arg3) := rfl
theorem W33_main_arg4 (c : Dev nD) : W33 m ρ c (Proc.devRef .tc main_arg4) = m ((c : Thread nD τ).loc main_arg4) :=
  calc W33 m ρ c (Proc.devRef .tc main_arg4)
    _ = W32 m ρ c (Proc.devRef .tc main_arg4) := W33_of m ρ c main_arg4 (by decide)
    _ = W31 m ρ c (Proc.devRef .tc main_arg4) := W32_of m ρ c main_arg4 (by decide)
    _ = W30 m ρ c (Proc.devRef .tc main_arg4) := W31_of m ρ c main_arg4 (by decide)
    _ = W29 m ρ c (Proc.devRef .tc main_arg4) := W30_of m ρ c main_arg4 (by decide)
    _ = W28 m ρ c (Proc.devRef .tc main_arg4) := W29_of m ρ c main_arg4 (by decide)
    _ = W27 m ρ c (Proc.devRef .tc main_arg4) := W28_of_ne m ρ c main_arg4 (by decide)
    _ = W26 m ρ c (Proc.devRef .tc main_arg4) := W27_of m ρ c main_arg4 (by decide)
    _ = W25 m ρ c (Proc.devRef .tc main_arg4) := W26_of_ne m ρ c main_arg4 (by decide)
    _ = W24 m ρ c (Proc.devRef .tc main_arg4) := W25_of m ρ c main_arg4 (by decide)
    _ = W23 m ρ c (Proc.devRef .tc main_arg4) := W24_of_ne m ρ c main_arg4 (by decide)
    _ = W22 m ρ c (Proc.devRef .tc main_arg4) := W23_of m ρ c main_arg4 (by decide)
    _ = W21 m ρ c (Proc.devRef .tc main_arg4) := W22_of_ne m ρ c main_arg4 (by decide)
    _ = W20 m ρ c (Proc.devRef .tc main_arg4) := W21_of m ρ c main_arg4 (by decide)
    _ = W19 m ρ c (Proc.devRef .tc main_arg4) := W20_of_ne m ρ c main_arg4 (by decide)
    _ = W18 m ρ c (Proc.devRef .tc main_arg4) := W19_of m ρ c main_arg4 (by decide)
    _ = W17 m ρ c (Proc.devRef .tc main_arg4) := W18_of m ρ c main_arg4 (by decide)
    _ = W16 m ρ c (Proc.devRef .tc main_arg4) := W17_of m ρ c main_arg4 (by decide)
    _ = W15 m ρ c (Proc.devRef .tc main_arg4) := W16_of m ρ c main_arg4 (by decide)
    _ = W14 m ρ c (Proc.devRef .tc main_arg4) := W15_of m ρ c main_arg4 (by decide)
    _ = W13 m ρ c (Proc.devRef .tc main_arg4) := W14_of m ρ c main_arg4 (by decide)
    _ = W12 m ρ c (Proc.devRef .tc main_arg4) := W13_of m ρ c main_arg4 (by decide)
    _ = W11 m ρ c (Proc.devRef .tc main_arg4) := W12_of m ρ c main_arg4 (by decide)
    _ = W10 m ρ c (Proc.devRef .tc main_arg4) := W11_of m ρ c main_arg4 (by decide)
    _ = W9 m ρ c (Proc.devRef .tc main_arg4) := W10_of m ρ c main_arg4 (by decide)
    _ = W8 m ρ c (Proc.devRef .tc main_arg4) := W9_of m ρ c main_arg4 (by decide)
    _ = W7 m ρ c (Proc.devRef .tc main_arg4) := W8_of m ρ c main_arg4 (by decide)
    _ = W6 m ρ c (Proc.devRef .tc main_arg4) := W7_of m ρ c main_arg4 (by decide)
    _ = W5 m ρ c (Proc.devRef .tc main_arg4) := W6_of m ρ c main_arg4 (by decide)
    _ = W4 m ρ c (Proc.devRef .tc main_arg4) := W5_of m ρ c main_arg4 (by decide)
    _ = W3 m ρ c (Proc.devRef .tc main_arg4) := W4_of m ρ c main_arg4 (by decide)
    _ = W2 m ρ c (Proc.devRef .tc main_arg4) := W3_of m ρ c main_arg4 (by decide)
    _ = W1 m ρ c (Proc.devRef .tc main_arg4) := W2_of m ρ c main_arg4 (by decide)
    _ = W0 m ρ c (Proc.devRef .tc main_arg4) := W1_of m ρ c main_arg4 (by decide)
    _ = m ((c : Thread nD τ).loc main_arg4) := rfl
theorem W33_main_arg5 (c : Dev nD) : W33 m ρ c (Proc.devRef .tc main_arg5) = m ((c : Thread nD τ).loc main_arg5) :=
  calc W33 m ρ c (Proc.devRef .tc main_arg5)
    _ = W32 m ρ c (Proc.devRef .tc main_arg5) := W33_of m ρ c main_arg5 (by decide)
    _ = W31 m ρ c (Proc.devRef .tc main_arg5) := W32_of m ρ c main_arg5 (by decide)
    _ = W30 m ρ c (Proc.devRef .tc main_arg5) := W31_of m ρ c main_arg5 (by decide)
    _ = W29 m ρ c (Proc.devRef .tc main_arg5) := W30_of m ρ c main_arg5 (by decide)
    _ = W28 m ρ c (Proc.devRef .tc main_arg5) := W29_of m ρ c main_arg5 (by decide)
    _ = W27 m ρ c (Proc.devRef .tc main_arg5) := W28_of_ne m ρ c main_arg5 (by decide)
    _ = W26 m ρ c (Proc.devRef .tc main_arg5) := W27_of m ρ c main_arg5 (by decide)
    _ = W25 m ρ c (Proc.devRef .tc main_arg5) := W26_of_ne m ρ c main_arg5 (by decide)
    _ = W24 m ρ c (Proc.devRef .tc main_arg5) := W25_of m ρ c main_arg5 (by decide)
    _ = W23 m ρ c (Proc.devRef .tc main_arg5) := W24_of_ne m ρ c main_arg5 (by decide)
    _ = W22 m ρ c (Proc.devRef .tc main_arg5) := W23_of m ρ c main_arg5 (by decide)
    _ = W21 m ρ c (Proc.devRef .tc main_arg5) := W22_of_ne m ρ c main_arg5 (by decide)
    _ = W20 m ρ c (Proc.devRef .tc main_arg5) := W21_of m ρ c main_arg5 (by decide)
    _ = W19 m ρ c (Proc.devRef .tc main_arg5) := W20_of_ne m ρ c main_arg5 (by decide)
    _ = W18 m ρ c (Proc.devRef .tc main_arg5) := W19_of m ρ c main_arg5 (by decide)
    _ = W17 m ρ c (Proc.devRef .tc main_arg5) := W18_of m ρ c main_arg5 (by decide)
    _ = W16 m ρ c (Proc.devRef .tc main_arg5) := W17_of m ρ c main_arg5 (by decide)
    _ = W15 m ρ c (Proc.devRef .tc main_arg5) := W16_of m ρ c main_arg5 (by decide)
    _ = W14 m ρ c (Proc.devRef .tc main_arg5) := W15_of m ρ c main_arg5 (by decide)
    _ = W13 m ρ c (Proc.devRef .tc main_arg5) := W14_of m ρ c main_arg5 (by decide)
    _ = W12 m ρ c (Proc.devRef .tc main_arg5) := W13_of m ρ c main_arg5 (by decide)
    _ = W11 m ρ c (Proc.devRef .tc main_arg5) := W12_of m ρ c main_arg5 (by decide)
    _ = W10 m ρ c (Proc.devRef .tc main_arg5) := W11_of m ρ c main_arg5 (by decide)
    _ = W9 m ρ c (Proc.devRef .tc main_arg5) := W10_of m ρ c main_arg5 (by decide)
    _ = W8 m ρ c (Proc.devRef .tc main_arg5) := W9_of m ρ c main_arg5 (by decide)
    _ = W7 m ρ c (Proc.devRef .tc main_arg5) := W8_of m ρ c main_arg5 (by decide)
    _ = W6 m ρ c (Proc.devRef .tc main_arg5) := W7_of m ρ c main_arg5 (by decide)
    _ = W5 m ρ c (Proc.devRef .tc main_arg5) := W6_of m ρ c main_arg5 (by decide)
    _ = W4 m ρ c (Proc.devRef .tc main_arg5) := W5_of m ρ c main_arg5 (by decide)
    _ = W3 m ρ c (Proc.devRef .tc main_arg5) := W4_of m ρ c main_arg5 (by decide)
    _ = W2 m ρ c (Proc.devRef .tc main_arg5) := W3_of m ρ c main_arg5 (by decide)
    _ = W1 m ρ c (Proc.devRef .tc main_arg5) := W2_of m ρ c main_arg5 (by decide)
    _ = W0 m ρ c (Proc.devRef .tc main_arg5) := W1_of m ρ c main_arg5 (by decide)
    _ = m ((c : Thread nD τ).loc main_arg5) := rfl
theorem W33_main_arg6 (c : Dev nD) : W33 m ρ c (Proc.devRef .tc main_arg6) = m ((c : Thread nD τ).loc main_arg6) :=
  calc W33 m ρ c (Proc.devRef .tc main_arg6)
    _ = W32 m ρ c (Proc.devRef .tc main_arg6) := W33_of m ρ c main_arg6 (by decide)
    _ = W31 m ρ c (Proc.devRef .tc main_arg6) := W32_of m ρ c main_arg6 (by decide)
    _ = W30 m ρ c (Proc.devRef .tc main_arg6) := W31_of m ρ c main_arg6 (by decide)
    _ = W29 m ρ c (Proc.devRef .tc main_arg6) := W30_of m ρ c main_arg6 (by decide)
    _ = W28 m ρ c (Proc.devRef .tc main_arg6) := W29_of m ρ c main_arg6 (by decide)
    _ = W27 m ρ c (Proc.devRef .tc main_arg6) := W28_of_ne m ρ c main_arg6 (by decide)
    _ = W26 m ρ c (Proc.devRef .tc main_arg6) := W27_of m ρ c main_arg6 (by decide)
    _ = W25 m ρ c (Proc.devRef .tc main_arg6) := W26_of_ne m ρ c main_arg6 (by decide)
    _ = W24 m ρ c (Proc.devRef .tc main_arg6) := W25_of m ρ c main_arg6 (by decide)
    _ = W23 m ρ c (Proc.devRef .tc main_arg6) := W24_of_ne m ρ c main_arg6 (by decide)
    _ = W22 m ρ c (Proc.devRef .tc main_arg6) := W23_of m ρ c main_arg6 (by decide)
    _ = W21 m ρ c (Proc.devRef .tc main_arg6) := W22_of_ne m ρ c main_arg6 (by decide)
    _ = W20 m ρ c (Proc.devRef .tc main_arg6) := W21_of m ρ c main_arg6 (by decide)
    _ = W19 m ρ c (Proc.devRef .tc main_arg6) := W20_of_ne m ρ c main_arg6 (by decide)
    _ = W18 m ρ c (Proc.devRef .tc main_arg6) := W19_of m ρ c main_arg6 (by decide)
    _ = W17 m ρ c (Proc.devRef .tc main_arg6) := W18_of m ρ c main_arg6 (by decide)
    _ = W16 m ρ c (Proc.devRef .tc main_arg6) := W17_of m ρ c main_arg6 (by decide)
    _ = W15 m ρ c (Proc.devRef .tc main_arg6) := W16_of m ρ c main_arg6 (by decide)
    _ = W14 m ρ c (Proc.devRef .tc main_arg6) := W15_of m ρ c main_arg6 (by decide)
    _ = W13 m ρ c (Proc.devRef .tc main_arg6) := W14_of m ρ c main_arg6 (by decide)
    _ = W12 m ρ c (Proc.devRef .tc main_arg6) := W13_of m ρ c main_arg6 (by decide)
    _ = W11 m ρ c (Proc.devRef .tc main_arg6) := W12_of m ρ c main_arg6 (by decide)
    _ = W10 m ρ c (Proc.devRef .tc main_arg6) := W11_of m ρ c main_arg6 (by decide)
    _ = W9 m ρ c (Proc.devRef .tc main_arg6) := W10_of m ρ c main_arg6 (by decide)
    _ = W8 m ρ c (Proc.devRef .tc main_arg6) := W9_of m ρ c main_arg6 (by decide)
    _ = W7 m ρ c (Proc.devRef .tc main_arg6) := W8_of m ρ c main_arg6 (by decide)
    _ = W6 m ρ c (Proc.devRef .tc main_arg6) := W7_of m ρ c main_arg6 (by decide)
    _ = W5 m ρ c (Proc.devRef .tc main_arg6) := W6_of m ρ c main_arg6 (by decide)
    _ = W4 m ρ c (Proc.devRef .tc main_arg6) := W5_of m ρ c main_arg6 (by decide)
    _ = W3 m ρ c (Proc.devRef .tc main_arg6) := W4_of m ρ c main_arg6 (by decide)
    _ = W2 m ρ c (Proc.devRef .tc main_arg6) := W3_of m ρ c main_arg6 (by decide)
    _ = W1 m ρ c (Proc.devRef .tc main_arg6) := W2_of m ρ c main_arg6 (by decide)
    _ = W0 m ρ c (Proc.devRef .tc main_arg6) := W1_of m ρ c main_arg6 (by decide)
    _ = m ((c : Thread nD τ).loc main_arg6) := rfl
theorem W33_main_arg7 (c : Dev nD) : W33 m ρ c (Proc.devRef .tc main_arg7) = m ((c : Thread nD τ).loc main_arg7) :=
  calc W33 m ρ c (Proc.devRef .tc main_arg7)
    _ = W32 m ρ c (Proc.devRef .tc main_arg7) := W33_of m ρ c main_arg7 (by decide)
    _ = W31 m ρ c (Proc.devRef .tc main_arg7) := W32_of m ρ c main_arg7 (by decide)
    _ = W30 m ρ c (Proc.devRef .tc main_arg7) := W31_of m ρ c main_arg7 (by decide)
    _ = W29 m ρ c (Proc.devRef .tc main_arg7) := W30_of m ρ c main_arg7 (by decide)
    _ = W28 m ρ c (Proc.devRef .tc main_arg7) := W29_of m ρ c main_arg7 (by decide)
    _ = W27 m ρ c (Proc.devRef .tc main_arg7) := W28_of_ne m ρ c main_arg7 (by decide)
    _ = W26 m ρ c (Proc.devRef .tc main_arg7) := W27_of m ρ c main_arg7 (by decide)
    _ = W25 m ρ c (Proc.devRef .tc main_arg7) := W26_of_ne m ρ c main_arg7 (by decide)
    _ = W24 m ρ c (Proc.devRef .tc main_arg7) := W25_of m ρ c main_arg7 (by decide)
    _ = W23 m ρ c (Proc.devRef .tc main_arg7) := W24_of_ne m ρ c main_arg7 (by decide)
    _ = W22 m ρ c (Proc.devRef .tc main_arg7) := W23_of m ρ c main_arg7 (by decide)
    _ = W21 m ρ c (Proc.devRef .tc main_arg7) := W22_of_ne m ρ c main_arg7 (by decide)
    _ = W20 m ρ c (Proc.devRef .tc main_arg7) := W21_of m ρ c main_arg7 (by decide)
    _ = W19 m ρ c (Proc.devRef .tc main_arg7) := W20_of_ne m ρ c main_arg7 (by decide)
    _ = W18 m ρ c (Proc.devRef .tc main_arg7) := W19_of m ρ c main_arg7 (by decide)
    _ = W17 m ρ c (Proc.devRef .tc main_arg7) := W18_of m ρ c main_arg7 (by decide)
    _ = W16 m ρ c (Proc.devRef .tc main_arg7) := W17_of m ρ c main_arg7 (by decide)
    _ = W15 m ρ c (Proc.devRef .tc main_arg7) := W16_of m ρ c main_arg7 (by decide)
    _ = W14 m ρ c (Proc.devRef .tc main_arg7) := W15_of m ρ c main_arg7 (by decide)
    _ = W13 m ρ c (Proc.devRef .tc main_arg7) := W14_of m ρ c main_arg7 (by decide)
    _ = W12 m ρ c (Proc.devRef .tc main_arg7) := W13_of m ρ c main_arg7 (by decide)
    _ = W11 m ρ c (Proc.devRef .tc main_arg7) := W12_of m ρ c main_arg7 (by decide)
    _ = W10 m ρ c (Proc.devRef .tc main_arg7) := W11_of m ρ c main_arg7 (by decide)
    _ = W9 m ρ c (Proc.devRef .tc main_arg7) := W10_of m ρ c main_arg7 (by decide)
    _ = W8 m ρ c (Proc.devRef .tc main_arg7) := W9_of m ρ c main_arg7 (by decide)
    _ = W7 m ρ c (Proc.devRef .tc main_arg7) := W8_of m ρ c main_arg7 (by decide)
    _ = W6 m ρ c (Proc.devRef .tc main_arg7) := W7_of m ρ c main_arg7 (by decide)
    _ = W5 m ρ c (Proc.devRef .tc main_arg7) := W6_of m ρ c main_arg7 (by decide)
    _ = W4 m ρ c (Proc.devRef .tc main_arg7) := W5_of m ρ c main_arg7 (by decide)
    _ = W3 m ρ c (Proc.devRef .tc main_arg7) := W4_of m ρ c main_arg7 (by decide)
    _ = W2 m ρ c (Proc.devRef .tc main_arg7) := W3_of m ρ c main_arg7 (by decide)
    _ = W1 m ρ c (Proc.devRef .tc main_arg7) := W2_of m ρ c main_arg7 (by decide)
    _ = W0 m ρ c (Proc.devRef .tc main_arg7) := W1_of m ρ c main_arg7 (by decide)
    _ = m ((c : Thread nD τ).loc main_arg7) := rfl
theorem W33_main_arg8 (c : Dev nD) : W33 m ρ c (Proc.devRef .tc main_arg8) = m ((c : Thread nD τ).loc main_arg8) :=
  calc W33 m ρ c (Proc.devRef .tc main_arg8)
    _ = W32 m ρ c (Proc.devRef .tc main_arg8) := W33_of m ρ c main_arg8 (by decide)
    _ = W31 m ρ c (Proc.devRef .tc main_arg8) := W32_of m ρ c main_arg8 (by decide)
    _ = W30 m ρ c (Proc.devRef .tc main_arg8) := W31_of m ρ c main_arg8 (by decide)
    _ = W29 m ρ c (Proc.devRef .tc main_arg8) := W30_of m ρ c main_arg8 (by decide)
    _ = W28 m ρ c (Proc.devRef .tc main_arg8) := W29_of m ρ c main_arg8 (by decide)
    _ = W27 m ρ c (Proc.devRef .tc main_arg8) := W28_of_ne m ρ c main_arg8 (by decide)
    _ = W26 m ρ c (Proc.devRef .tc main_arg8) := W27_of m ρ c main_arg8 (by decide)
    _ = W25 m ρ c (Proc.devRef .tc main_arg8) := W26_of_ne m ρ c main_arg8 (by decide)
    _ = W24 m ρ c (Proc.devRef .tc main_arg8) := W25_of m ρ c main_arg8 (by decide)
    _ = W23 m ρ c (Proc.devRef .tc main_arg8) := W24_of_ne m ρ c main_arg8 (by decide)
    _ = W22 m ρ c (Proc.devRef .tc main_arg8) := W23_of m ρ c main_arg8 (by decide)
    _ = W21 m ρ c (Proc.devRef .tc main_arg8) := W22_of_ne m ρ c main_arg8 (by decide)
    _ = W20 m ρ c (Proc.devRef .tc main_arg8) := W21_of m ρ c main_arg8 (by decide)
    _ = W19 m ρ c (Proc.devRef .tc main_arg8) := W20_of_ne m ρ c main_arg8 (by decide)
    _ = W18 m ρ c (Proc.devRef .tc main_arg8) := W19_of m ρ c main_arg8 (by decide)
    _ = W17 m ρ c (Proc.devRef .tc main_arg8) := W18_of m ρ c main_arg8 (by decide)
    _ = W16 m ρ c (Proc.devRef .tc main_arg8) := W17_of m ρ c main_arg8 (by decide)
    _ = W15 m ρ c (Proc.devRef .tc main_arg8) := W16_of m ρ c main_arg8 (by decide)
    _ = W14 m ρ c (Proc.devRef .tc main_arg8) := W15_of m ρ c main_arg8 (by decide)
    _ = W13 m ρ c (Proc.devRef .tc main_arg8) := W14_of m ρ c main_arg8 (by decide)
    _ = W12 m ρ c (Proc.devRef .tc main_arg8) := W13_of m ρ c main_arg8 (by decide)
    _ = W11 m ρ c (Proc.devRef .tc main_arg8) := W12_of m ρ c main_arg8 (by decide)
    _ = W10 m ρ c (Proc.devRef .tc main_arg8) := W11_of m ρ c main_arg8 (by decide)
    _ = W9 m ρ c (Proc.devRef .tc main_arg8) := W10_of m ρ c main_arg8 (by decide)
    _ = W8 m ρ c (Proc.devRef .tc main_arg8) := W9_of m ρ c main_arg8 (by decide)
    _ = W7 m ρ c (Proc.devRef .tc main_arg8) := W8_of m ρ c main_arg8 (by decide)
    _ = W6 m ρ c (Proc.devRef .tc main_arg8) := W7_of m ρ c main_arg8 (by decide)
    _ = W5 m ρ c (Proc.devRef .tc main_arg8) := W6_of m ρ c main_arg8 (by decide)
    _ = W4 m ρ c (Proc.devRef .tc main_arg8) := W5_of m ρ c main_arg8 (by decide)
    _ = W3 m ρ c (Proc.devRef .tc main_arg8) := W4_of m ρ c main_arg8 (by decide)
    _ = W2 m ρ c (Proc.devRef .tc main_arg8) := W3_of m ρ c main_arg8 (by decide)
    _ = W1 m ρ c (Proc.devRef .tc main_arg8) := W2_of m ρ c main_arg8 (by decide)
    _ = W0 m ρ c (Proc.devRef .tc main_arg8) := W1_of m ρ c main_arg8 (by decide)
    _ = m ((c : Thread nD τ).loc main_arg8) := rfl

end Cert.KernelIdeal.Gen

end
-- ==== Proof.KI.Shared1.lean ====
/-
  Region 1 of the program multiplies the adjacency matrix by itself: its two input windows read ONE array. The
  buffers behind the region's three windows are therefore two, not three, and the array read twice is held by the
  two input windows at the two halves of its full share. This module proves the two facts that move the region's
  arrays out of a core's unscoped buffers at the region's entry and back at its exit:

  * entry (`split1`): the unscoped buffers at contents `V` are the region's arrays at the contents read off `V`
    — the shared array's full points-to split along the share into its left and right halves, one per input
    window; the result array whole at the full share — beside the unscoped buffers that are no window's array;
  * exit (`join1`): conversely the arrays at contents `F'` and that rest at `V` are the unscoped buffers at any
    valuation `V'` that has the arrays at `F'` and agrees with `V` off them — the two halves of the shared array,
    held at the SAME contents `V'` of it, recombine into its full points-to.
-/
import proofs.«141740_j85993835200811_1_alg».proof.Proof.KI.R1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Shr

/-- The buffers behind the three windows' arrays are two: both operands read the adjacency matrix, the result
    is written to the third window's array. -/
theorem image1 : (Finset.univ.image (Pipeline.arrRef spec1) : Finset (Ref sig .tc)) = {main_arg0, main_v57} := by decide

/-- The operand array is not the result array. -/
theorem ne1 : (main_arg0 : Ref sig .tc) ∉ ({main_v57} : Finset (Ref sig .tc)) := by decide

/-- Every window's array is an unscoped buffer. -/
theorem sub1 : Finset.univ.image (Pipeline.arrRef spec1) ⊆ Finset.univ.filter fun b : Ref sig .tc => ¬ b.isScoped := fun b hb => by
  obtain ⟨w, -, rfl⟩ := Finset.mem_image.mp hb
  exact Finset.mem_filter.mpr ⟨Finset.mem_univ _, by simp [winFacts₀1.arr_unscoped w]⟩

end Shr

-- the buffer contents when the region is entered
variable (V : (c : Dev nD) → (b : Ref sig .tc) → Buf (Elt F) ((c : Thread nD τ).loc b))

/-- ENTRY: a core's unscoped buffers at contents `V` are region 1's arrays at the contents read off `V` and the
    unscoped rest. The unscoped buffers split into the two buffers behind the windows' arrays and the rest; the
    operand array's full share splits into its left half (window 0) and right half (window 1), at the same
    contents; the result array (window 2, an output) is held whole at the full share. -/
theorem split1 (c : Dev nD) :
    (unscopedBufs c (V c) : sProp 𝕄) ⊢ iprop((dat1 V c).arrays (dat1 V c).A ∗ Pipeline.unscopedRest spec1 c (V c)) := by
  unfold unscopedBufs Pipeline.unscopedRest
  rw [bigSep_sdiff_split Shr.sub1]
  refine sep_mono ?_ .rfl
  rw [Shr.image1, bigSep_insert Shr.ne1, bigSep_singleton]
  unfold Dat.arrays
  -- every window's array is a whole buffer (windows 0 and 1 name the same one)
  rw [bigSep_W1, (arr_whole1 0).set_eq_univ, (arr_whole1 2).set_eq_univ]
  show iprop(((c.tc : Thread nD τ).loc main_arg0 ↦{fullShare} V c main_arg0) ∗ ((c.tc : Thread nD τ).loc main_v57 ↦{fullShare} V c main_v57)) ⊢
    iprop((((c.tc : Thread nD τ).loc main_arg0) ↦{fullShare.left} V c main_arg0) ∗ (((c.tc : Thread nD τ).loc main_arg0) ↦{fullShare.right} V c main_arg0) ∗ (((c.tc : Thread nD τ).loc main_v57) ↦{fullShare} V c main_v57))
  iintro ⟨H0, H2⟩
  ihave H := (pointsTo_share (PosShare.mem_left_op_right fullShare)).1 $$ H0
  icases H with ⟨Hl, Hr⟩
  isplitl [Hl]; · iexact Hl
  isplitl [Hr]; · iexact Hr
  iexact H2

/-- EXIT: region 1's arrays at contents `F'` and the unscoped rest at `V` are the core's unscoped buffers at any
    valuation `V'` that has the arrays at `F'` (`hF`) and agrees with `V` off them (`hrest`). Windows 0 and 1 hold
    the two halves of the operand array's share, both at `V'` of that array, so they recombine into its full share. -/
theorem join1 (c : Dev nD) (V' : (b : Ref sig .tc) → Buf (Elt F) ((c.tc : Thread nD τ).loc b))
    (F' : (w : Fin cfg1.W) → Buf (Elt F) ((cfg1.win w).arr.view.loc (c.tc : Thread nD τ)))
    (hF : ∀ w, F' w = V' (Pipeline.arrRef spec1 w))
    (hrest : ∀ b, b ∉ Finset.univ.image (Pipeline.arrRef spec1) → V' b = V c b) :
    iprop((dat1 V c).arrays F' ∗ Pipeline.unscopedRest spec1 c (V c)) ⊢ (unscopedBufs c V' : sProp 𝕄) := by
  unfold unscopedBufs
  rw [bigSep_sdiff_split Shr.sub1]
  refine sep_mono ?_ (Entails.of_eq ?_)
  · rw [Shr.image1, bigSep_insert Shr.ne1, bigSep_singleton]
    unfold Dat.arrays
    rw [bigSep_W1, (arr_whole1 0).set_eq_univ, (arr_whole1 2).set_eq_univ, hF 0, hF 1, hF 2]
    show iprop((((c.tc : Thread nD τ).loc main_arg0) ↦{fullShare.left} V' main_arg0) ∗ (((c.tc : Thread nD τ).loc main_arg0) ↦{fullShare.right} V' main_arg0) ∗ (((c.tc : Thread nD τ).loc main_v57) ↦{fullShare} V' main_v57)) ⊢
      iprop(((c.tc : Thread nD τ).loc main_arg0 ↦{fullShare} V' main_arg0) ∗ ((c.tc : Thread nD τ).loc main_v57 ↦{fullShare} V' main_v57))
    iintro ⟨Hl, Hr, H2⟩
    isplitl [Hl Hr]
    · iapply (pointsTo_share (PosShare.mem_left_op_right fullShare)).2
      isplitl [Hl] <;> iassumption
    iexact H2
  · unfold Pipeline.unscopedRest
    exact bigSep_congr fun b hb => by rw [hrest b (Finset.mem_sdiff.mp hb).2]

end Cert.KernelIdeal.Gen

end
-- ==== Proof.KI.RunSegs.lean ====
/-
  The program as a list of segments. Between two segments a TensorCore holds every unscoped buffer whole at the
  boundary's contents, beside its generator register at some state and its dues at nothing. A host stretch is a
  segment from its boundary's contents to its result from them; a kernel region is a segment whose arrays are
  taken out of the unscoped buffers at entry and put back, at what the pipeline leaves, at the exit.
-/
import proofs.«141740_j85993835200811_1_alg».proof.Proof.KI.RunW
import proofs.«141740_j85993835200811_1_alg».proof.Proof.KI.Shared1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents: a literal match on the pipeline's index, so that
    the data of a numeral reduce to the region's. -/
def pdats : (p : Fin 5) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
  | ⟨4, _⟩ => fun c => dat4 (E4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at the stretch's result from `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W33 m ρ c) ∗ ∃ r, prngReg c r)

/-! ## The regions as segments -/

-- `iapply` of a library lemma stated over the pinned configuration unifies with it only when unification may
-- unfold plain definitions in a metavariable's type
set_option backward.isDefEq.respectTransparency.types false in
/-- REGION 0 over the thread state: entered from every unscoped buffer at `W19`, left at `W20`. Its arrays are
    split out of the unscoped buffers at entry and put back at the exit contents; the generator register goes into the class
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 1 over the thread state: entered from every unscoped buffer at `W21`, left at `W22`. Its two input
    windows read one array, held at the two halves of the full share: the arrays are split out of the unscoped buffers and
    put back by the two lemmas for that layout. The generator register goes into the class invariant and comes out; nothing
    is owed; the kernel has no semaphore of its own. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := split1 (E1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 (E1 m ρ) c (X1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 2 over the thread state: entered from every unscoped buffer at `W23`, left at `W24`. Its arrays are
    split out of the unscoped buffers at entry and put back at the exit contents; the generator register goes into the class
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E2 m ρ c) (X2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 3 over the thread state: entered from every unscoped buffer at `W25`, left at `W26`. Its arrays are
    split out of the unscoped buffers at entry and put back at the exit contents; the generator register goes into the class
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (X3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies with it only when unification may
-- unfold plain definitions in a metavariable's type
set_option backward.isDefEq.respectTransparency.types false in
/-- REGION 4 over the thread state: entered from every unscoped buffer at `W27`, left at `W28`. Its arrays are
    split out of the unscoped buffers at entry and put back at the exit contents; the generator register goes into the class
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m ρ) c).loose
  hwaits := Pipeline.hwaits_of_owed_zero _ _ _ _ L lv 4 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec4 c (E4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (E4 m ρ c) (X4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments -/

/-- The program's 33 segments in order: a host segment per stretch from its boundary's contents, a region per kernel call. -/
abbrev segs : List (Pipeline.Seg (pcfgs (F := F)) adm (pdats m ρ) () defs₀ 𝒱₀ L lv) :=
  [ .host (hseg hostOps0 hostOps0_sub Run.hostOps0_fresh (W0 m ρ)),
    .host (hseg hostOps0_1 hostOps0_1_sub Run.hostOps0_1_fresh (W1 m ρ)),
    .host (hseg hostOps0_2 hostOps0_2_sub Run.hostOps0_2_fresh (W2 m ρ)),
    .host (hseg hostOps0_3 hostOps0_3_sub Run.hostOps0_3_fresh (W3 m ρ)),
    .host (hseg hostOps0_4 hostOps0_4_sub Run.hostOps0_4_fresh (W4 m ρ)),
    .host (hseg hostOps0_5 hostOps0_5_sub Run.hostOps0_5_fresh (W5 m ρ)),
    .host (hseg hostOps0_6 hostOps0_6_sub Run.hostOps0_6_fresh (W6 m ρ)),
    .host (hseg hostOps0_7 hostOps0_7_sub Run.hostOps0_7_fresh (W7 m ρ)),
    .host (hseg hostOps0_8 hostOps0_8_sub Run.hostOps0_8_fresh (W8 m ρ)),
    .host (hseg hostOps0_9 hostOps0_9_sub Run.hostOps0_9_fresh (W9 m ρ)),
    .host (hseg hostOps0_10 hostOps0_10_sub Run.hostOps0_10_fresh (W10 m ρ)),
    .host (hseg hostOps0_11 hostOps0_11_sub Run.hostOps0_11_fresh (W11 m ρ)),
    .host (hseg hostOps0_12 hostOps0_12_sub Run.hostOps0_12_fresh (W12 m ρ)),
    .host (hseg hostOps0_13 hostOps0_13_sub Run.hostOps0_13_fresh (W13 m ρ)),
    .host (hseg hostOps0_14 hostOps0_14_sub Run.hostOps0_14_fresh (W14 m ρ)),
    .host (hseg hostOps0_15 hostOps0_15_sub Run.hostOps0_15_fresh (W15 m ρ)),
    .host (hseg hostOps0_16 hostOps0_16_sub Run.hostOps0_16_fresh (W16 m ρ)),
    .host (hseg hostOps0_17 hostOps0_17_sub Run.hostOps0_17_fresh (W17 m ρ)),
    .host (hseg hostOps0_18 hostOps0_18_sub Run.hostOps0_18_fresh (W18 m ρ)),
    .region (reg0 m ρ),
    .host (hseg hostOps1 hostOps1_sub Run.hostOps1_fresh (W20 m ρ)),
    .region (reg1 m ρ),
    .host (hseg hostOps2 hostOps2_sub Run.hostOps2_fresh (W22 m ρ)),
    .region (reg2 m ρ),
    .host (hseg hostOps3 hostOps3_sub Run.hostOps3_fresh (W24 m ρ)),
    .region (reg3 m ρ),
    .host (hseg hostOps4 hostOps4_sub Run.hostOps4_fresh (W26 m ρ)),
    .region (reg4 m ρ),
    .host (hseg hostOps5 hostOps5_sub Run.hostOps5_fresh (W28 m ρ)),
    .host (hseg hostOps5_1 hostOps5_1_sub Run.hostOps5_1_fresh (W29 m ρ)),
    .host (hseg hostOps5_2 hostOps5_2_sub Run.hostOps5_2_fresh (W30 m ρ)),
    .host (hseg hostOps5_3 hostOps5_3_sub Run.hostOps5_3_fresh (W31 m ρ)),
    .host (hseg hostOps5_4 hostOps5_4_sub Run.hostOps5_4_fresh (W32 m ρ)) ]

/-- The program IS the run of the segments: it is the chain of its items, and so is the segments' run. -/
theorem main_run (c : Dev nD) : main (F := F) c = Pipeline.Seg.run (segs m ρ) := (main_chain c).trans (by chain_rfl)

end Cert.KernelIdeal.Gen

end
-- ==== Proof.KI.Run.lean ====
/-
  The launch over the program's segments. From any memory with zero counters, every weakly fair execution of the
  program terminates and every final state has each core's every unscoped buffer at the last boundary's contents;
  the argument arrays, which those contents leave as launched, therefore end unchanged.
-/
import proofs.«141740_j85993835200811_1_alg».proof.Proof.KI.RunSegs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last host segment's thread state is the last thread state beside the core's dues (the separating conjunction
    reassociated). -/
theorem last_state (c : Dev nD) :
    iprop(StableHlo.held (c : Thread nD τ) (Pipeline.ucRefs τ sig) (W33 m ρ c) ∗ R c)
      ⊢ (iprop(Tₙ m ρ c ∗ ∃ W, owes (c.tc : Thread nD τ) (0 : CellTallies nD τ sig Unit) W) : sProp 𝕄) := by
  iintro ⟨Hh, Hp, HO⟩
  isplitl [Hh Hp]
  · isplitl [Hh]; · iexact Hh
    iexact Hp
  iexact HO

-- the launch theorem's implicit arguments are found by unifying its conclusion with this one, which takes unfolding
-- plain definitions in a metavariable's type
set_option backward.isDefEq.respectTransparency.types false in
/-- THE RUN: from any memory with zero counters, every weakly fair execution of the program on the TensorCores
    terminates, nothing faulting, and in every final state each core's every unscoped buffer holds the last boundary's
    contents `W33`: the launch over the 33 segments, whose thread states chain by construction, the last one read
    against the final state. -/
theorem run : θ_run defs (onTc (τ := τ) (main (F := F))) ⟨m, fun _ => 0, ρ⟩ (fun r => ∀ c : Dev nD,
      ∀ b ∈ Pipeline.ucRefs τ sig, r.2.mem (((c : Thread nD τ)).1, b) = W33 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h => h)

/-- THE FRAME: every final state has the nine argument arrays as launched. Each is an unscoped buffer, so it ends at
    the last boundary's contents, which at an argument are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono
    (fun r h c =>
      ⟨(h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c)⟩)
    (run m ρ)

end Cert.KernelIdeal.Gen

end
-- ==== Proof.Ref.Run.lean ====
/- The reference program's run, written out: @main of `ReferenceIdeal` as the LIST of its 253 StableHLO operations
   (each call of a module-local function listed as the callee's operations over that call's buffers), the equation
   `main c = seq ops`, and the run read back (`StableHlo.run_seq`): every weakly fair execution terminates with each
   TensorCore buffer at the fold `after ops` of the operations' results over its launch contents. The fold is kept
   folded and split at eight stretches (`after_ops`); no operation writes an argument (`kept_arg`). -/
import proofs.«141740_j85993835200811_1_alg».proof.Proof.Gen.ReferenceIdeal
import Idealize.ShloMosaic.Lib.StableHlo.Run
import Idealize.ShloMosaic.Lib.Pipeline.Regions

set_option maxRecDepth 8192
noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The reference's operations, in order

The reference @main is a straight line of StableHLO operations; a call of a module-local function runs the callee's
body on the call's own buffers, so each call is listed as the callee's operations over that call's record. The line is
cut twice: into ITEMS (a cut at every call's entry and exit, and wherever a window of @main or a stretch below ends),
the form in which @main is shown equal to the line, and into eight STRETCHES, the form in which its value is read
back. -/

/-- Item 0: 1 operation of @main. -/
abbrev it0 : List (HloOp τ sig (Elt F)) :=
  [ StableHlo.reshape main_arg2 main_v0 rfl shapeCasts_S32x45x1_S32x45 ]
/-- Item 1: 3 operations of @relu over the record main_call0. -/
abbrev it1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S32x45, .f32⟩) (broadcastInDim S32x45 ![] bcast_S_S32x45),
    StableHlo.TRef.binary (.of main_v0 : StableHlo.TRef sig ⟨S32x45, .f32⟩) (.of main_call0_v0 : StableHlo.TRef sig ⟨S32x45, .f32⟩) (.of main_v1 : StableHlo.TRef sig ⟨S32x45, .f32⟩) maximumf ]
/-- Item 2: 2 operations of @main. -/
abbrev it2 : List (HloOp τ sig (Elt F)) :=
  [ StableHlo.nullary main_cst (constant S_ .f32 0x3F800000#32),
    StableHlo.unary main_cst main_v2 (broadcastInDim S10x10 ![] bcast_S_S10x10 : (⟨S_, .f32⟩ : BufTy).Contents (Elt F) → (⟨S10x10, .f32⟩ : BufTy).Contents (Elt F)) ]
/-- Item 3: 9 operations of @triu over the record main_call1. -/
abbrev it3 : List (HloOp τ sig (Elt F)) :=
  [ StableHlo.TRef.nullary (.of main_call1_v0 : StableHlo.TRef sig ⟨S10x10, .i32⟩) (iotaInDim S10x10 32 0),
    StableHlo.TRef.nullary (.of main_call1_c : StableHlo.TRef sig ⟨S_, .i32⟩) (constantI S_ 32 0#32),
    StableHlo.TRef.unary (.of main_call1_c : StableHlo.TRef sig ⟨S_, .i32⟩) (.of main_call1_v1 : StableHlo.TRef sig ⟨S10x10, .i32⟩) (broadcastInDim S10x10 ![] bcast_S_S10x10),
    StableHlo.TRef.binary (.of main_call1_v0 : StableHlo.TRef sig ⟨S10x10, .i32⟩) (.of main_call1_v1 : StableHlo.TRef sig ⟨S10x10, .i32⟩) (.of main_call1_v2 : StableHlo.TRef sig ⟨S10x10, .i32⟩) addi,
    StableHlo.TRef.nullary (.of main_call1_v3 : StableHlo.TRef sig ⟨S10x10, .i32⟩) (iotaInDim S10x10 32 1),
    StableHlo.TRef.binary (.of main_call1_v2 : StableHlo.TRef sig ⟨S10x10, .i32⟩) (.of main_call1_v3 : StableHlo.TRef sig ⟨S10x10, .i32⟩) (.of main_call1_v4 : StableHlo.TRef sig ⟨S10x10, .i1⟩) (cmpi .sge),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v5 : StableHlo.TRef sig ⟨S10x10, .f32⟩) (broadcastInDim S10x10 ![] bcast_S_S10x10),
    StableHlo.TRef.ternary (.of main_call1_v4 : StableHlo.TRef sig ⟨S10x10, .i1⟩) (.of main_call1_v5 : StableHlo.TRef sig ⟨S10x10, .f32⟩) (.of main_v2 : StableHlo.TRef sig ⟨S10x10, .f32⟩) (.of main_v3 : StableHlo.TRef sig ⟨S10x10, .f32⟩) select ]
/-- Item 4: 3 operations of @main. -/
abbrev it4 : List (HloOp τ sig (Elt F)) :=
  [ StableHlo.nullary main_cst_0 (constant S_ .f32 0x00000000#32),
    StableHlo.unary main_cst_0 main_v4 (broadcastInDim S10x10 ![] bcast_S_S10x10 : (⟨S_, .f32⟩ : BufTy).Contents (Elt F) → (⟨S10x10, .f32⟩ : BufTy).Contents (Elt F)),
    StableHlo.binary main_v3 main_v4 main_v5 (cmpf .une : (⟨S10x10, .f32⟩ : BufTy).Contents (Elt F) → (⟨S10x10, .f32⟩ : BufTy).Contents (Elt F) → (⟨S10x10, .i1⟩ : BufTy).Contents (Elt F)) ]
/-- Item 5: 5 operations of @cumsum over the record main_call2. -/
abbrev it5 : List (HloOp τ sig (Elt F)) :=
  [ StableHlo.TRef.reshape (.of main_v5 : StableHlo.TRef sig ⟨S10x10, .i1⟩) (.of main_call2_v0 : StableHlo.TRef sig ⟨S100, .i1⟩) rfl shapeCasts_S10x10_S100,
    StableHlo.TRef.unary (.of main_call2_v0 : StableHlo.TRef sig ⟨S100, .i1⟩) (.of main_call2_v1 : StableHlo.TRef sig ⟨S100, .i32⟩) (extui 32 · natLt_1_32),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_call2_v1 : StableHlo.TRef sig ⟨S100, .i32⟩) (.of main_call2_call0_v0 : StableHlo.TRef sig ⟨S_, .i32⟩) (.of main_v6 : StableHlo.TRef sig ⟨S100, .i32⟩) (fun x v => Host.reduceWindow IntOp.addi ![100] ![1] ![99] ![0] x v reduceWindows_S100_S100_w100s1p99_0 h_S_) ]
/-- Item 6: 3 operations of @main. -/
abbrev it6 : List (HloOp τ sig (Elt F)) :=
  [ StableHlo.nullary main_c (constantI S_ 32 0#32),
    StableHlo.unary main_c main_v7 (broadcastInDim S45 ![] bcast_S_S45 : (⟨S_, .i32⟩ : BufTy).Contents (Elt F) → (⟨S45, .i32⟩ : BufTy).Contents (Elt F)),
    StableHlo.nullary main_c_1 (constantI S_ 32 0#32) ]
/-- Item 7: 3 operations of @clip over the record main_call3. -/
abbrev it7 : List (HloOp τ sig (Elt F)) :=
  [ StableHlo.TRef.unary (.of main_c_1 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S100, .i32⟩) (broadcastInDim S100 ![] bcast_S_S100),
    StableHlo.TRef.binary (.of main_call3_v1 : StableHlo.TRef sig ⟨S100, .i32⟩) (.of main_v6 : StableHlo.TRef sig ⟨S100, .i32⟩) (.of main_v8 : StableHlo.TRef sig ⟨S100, .i32⟩) maxsi ]
/-- Item 8: 11 operations of @main. -/
abbrev it8 : List (HloOp τ sig (Elt F)) :=
  [ StableHlo.nullary main_c_2 (constantI S_ 32 0#32),
    StableHlo.unary main_c_2 main_v9 (broadcastInDim S100 ![] bcast_S_S100 : (⟨S_, .i32⟩ : BufTy).Contents (Elt F) → (⟨S100, .i32⟩ : BufTy).Contents (Elt F)),
    StableHlo.binary main_v8 main_v9 main_v10 (cmpi .slt : (⟨S100, .i32⟩ : BufTy).Contents (Elt F) → (⟨S100, .i32⟩ : BufTy).Contents (Elt F) → (⟨S100, .i1⟩ : BufTy).Contents (Elt F)),
    StableHlo.nullary main_c_3 (constantI S_ 32 45#32),
    StableHlo.unary main_c_3 main_v11 (broadcastInDim S100 ![] bcast_S_S100 : (⟨S_, .i32⟩ : BufTy).Contents (Elt F) → (⟨S100, .i32⟩ : BufTy).Contents (Elt F)),
    StableHlo.binary main_v8 main_v11 main_v12 (addi : (⟨S100, .i32⟩ : BufTy).Contents (Elt F) → (⟨S100, .i32⟩ : BufTy).Contents (Elt F) → (⟨S100, .i32⟩ : BufTy).Contents (Elt F)),
    StableHlo.ternary main_v10 main_v12 main_v8 main_v13 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v13 main_v14 (broadcastInDim S100x1 ![0] bcast_S100_S100x1_0 : (⟨S100, .i32⟩ : BufTy).Contents (Elt F) → (⟨S100x1, .i32⟩ : BufTy).Contents (Elt F)),
    StableHlo.nullary main_c_4 (constantI S_ 32 1#32),
    StableHlo.unary main_c_4 main_v15 (broadcastInDim S100 ![] bcast_S_S100 : (⟨S_, .i32⟩ : BufTy).Contents (Elt F) → (⟨S100, .i32⟩ : BufTy).Contents (Elt F)),
    StableHlo.ternary main_v7 main_v14 main_v15 main_v16 ((fun x i u => Host.scatter scatter_S45_S100x1_S100_n_0_0_1 IntOp.addi x i u) : (⟨S45, .i32⟩ : BufTy).Contents (Elt F) → (⟨S100x1, .i32⟩ : BufTy).Contents (Elt F) → (⟨S100, .i32⟩ : BufTy).Contents (Elt F) → (⟨S45, .i32⟩ : BufTy).Contents (Elt F)) ]
/-- Item 9: 3 operations of @cumsum_1 over the record main_call4. -/
abbrev it9 : List (HloOp τ sig (Elt F)) :=
  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v16 : StableHlo.TRef sig ⟨S45, .i32⟩) (.of main_call4_call0_v0 : StableHlo.TRef sig ⟨S_, .i32⟩) (.of main_v17 : StableHlo.TRef sig ⟨S45, .i32⟩) (fun x v => Host.reduceWindow IntOp.addi ![45] ![1] ![44] ![0] x v reduceWindows_S45_S45_w45s1p44_0 h_S_) ]
/-- Item 10: 1 operation of @main. -/
abbrev it10 : List (HloOp τ sig (Elt F)) :=
  [ StableHlo.nullary main_c_5 (constantI S_ 32 10#32) ]
/-- Item 11: 16 operations of @floor_divide over the record main_call5. -/
abbrev it11 : List (HloOp τ sig (Elt F)) :=
  [ StableHlo.TRef.unary (.of main_c_5 : StableHlo.TRef sig ⟨S_, .i32⟩) (.of main_call5_v0 : StableHlo.TRef sig ⟨S45, .i32⟩) (broadcastInDim S45 ![] bcast_S_S45),
    StableHlo.TRef.binary (.of main_v17 : StableHlo.TRef sig ⟨S45, .i32⟩) (.of main_call5_v0 : StableHlo.TRef sig ⟨S45, .i32⟩) (.of main_call5_v1 : StableHlo.TRef sig ⟨S45, .i32⟩) Host.divsi,
    StableHlo.TRef.unary (.of main_v17 : StableHlo.TRef sig ⟨S45, .i32⟩) (.of main_call5_v2 : StableHlo.TRef sig ⟨S45, .i32⟩) signi,
    StableHlo.TRef.unary (.of main_c_5 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S45, .i32⟩) (broadcastInDim S45 ![] bcast_S_S45),
    StableHlo.TRef.binary (.of main_call5_v2 : StableHlo.TRef sig ⟨S45, .i32⟩) (.of main_call5_v4 : StableHlo.TRef sig ⟨S45, .i32⟩) (.of main_call5_v5 : StableHlo.TRef sig ⟨S45, .i1⟩) (cmpi .ne),
    StableHlo.TRef.unary (.of main_c_5 : StableHlo.TRef sig ⟨S_, .i32⟩) (.of main_call5_v6 : StableHlo.TRef sig ⟨S45, .i32⟩) (broadcastInDim S45 ![] bcast_S_S45),
    StableHlo.TRef.binary (.of main_v17 : StableHlo.TRef sig ⟨S45, .i32⟩) (.of main_call5_v6 : StableHlo.TRef sig ⟨S45, .i32⟩) (.of main_call5_v7 : StableHlo.TRef sig ⟨S45, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S45, .i32⟩) (broadcastInDim S45 ![] bcast_S_S45),
    StableHlo.TRef.binary (.of main_call5_v7 : StableHlo.TRef sig ⟨S45, .i32⟩) (.of main_call5_v8 : StableHlo.TRef sig ⟨S45, .i32⟩) (.of main_call5_v9 : StableHlo.TRef sig ⟨S45, .i1⟩) (cmpi .ne),
    StableHlo.TRef.binary (.of main_call5_v5 : StableHlo.TRef sig ⟨S45, .i1⟩) (.of main_call5_v9 : StableHlo.TRef sig ⟨S45, .i1⟩) (.of main_call5_v10 : StableHlo.TRef sig ⟨S45, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S45, .i32⟩) (broadcastInDim S45 ![] bcast_S_S45),
    StableHlo.TRef.binary (.of main_call5_v1 : StableHlo.TRef sig ⟨S45, .i32⟩) (.of main_call5_v11 : StableHlo.TRef sig ⟨S45, .i32⟩) (.of main_call5_v12 : StableHlo.TRef sig ⟨S45, .i32⟩) subi,
    StableHlo.TRef.ternary (.of main_call5_v10 : StableHlo.TRef sig ⟨S45, .i1⟩) (.of main_call5_v12 : StableHlo.TRef sig ⟨S45, .i32⟩) (.of main_call5_v1 : StableHlo.TRef sig ⟨S45, .i32⟩) (.of main_v18 : StableHlo.TRef sig ⟨S45, .i32⟩) select ]
/-- Item 12: 1 operation of @main. -/
abbrev it12 : List (HloOp τ sig (Elt F)) :=
  [ StableHlo.nullary main_c_6 (constantI S_ 32 10#32) ]
/-- Item 13: 21 operations of @remainder over the record main_call6. -/
abbrev it13 : List (HloOp τ sig (Elt F)) :=
  [ StableHlo.TRef.unary (.of main_c_6 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S45, .i32⟩) (broadcastInDim S45 ![] bcast_S_S45),
    StableHlo.TRef.binary (.of main_v18 : StableHlo.TRef sig ⟨S45, .i32⟩) (.of main_call6_v3 : StableHlo.TRef sig ⟨S45, .i32⟩) (.of main_call6_v4 : StableHlo.TRef sig ⟨S45, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S45, .i32⟩) (broadcastInDim S45 ![] bcast_S_S45),
    StableHlo.TRef.binary (.of main_call6_v4 : StableHlo.TRef sig ⟨S45, .i32⟩) (.of main_call6_v5 : StableHlo.TRef sig ⟨S45, .i32⟩) (.of main_call6_v6 : StableHlo.TRef sig ⟨S45, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S45, .i32⟩) (broadcastInDim S45 ![] bcast_S_S45),
    StableHlo.TRef.binary (.of main_call6_v4 : StableHlo.TRef sig ⟨S45, .i32⟩) (.of main_call6_v7 : StableHlo.TRef sig ⟨S45, .i32⟩) (.of main_call6_v8 : StableHlo.TRef sig ⟨S45, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S45, .i1⟩) (broadcastInDim S45 ![] bcast_S_S45),
    StableHlo.TRef.binary (.of main_call6_v8 : StableHlo.TRef sig ⟨S45, .i1⟩) (.of main_call6_v10 : StableHlo.TRef sig ⟨S45, .i1⟩) (.of main_call6_v11 : StableHlo.TRef sig ⟨S45, .i1⟩) (cmpi .ne),
    StableHlo.TRef.binary (.of main_call6_v11 : StableHlo.TRef sig ⟨S45, .i1⟩) (.of main_call6_v6 : StableHlo.TRef sig ⟨S45, .i1⟩) (.of main_call6_v12 : StableHlo.TRef sig ⟨S45, .i1⟩) andi,
    StableHlo.TRef.unary (.of main_call6_v2 : StableHlo.TRef sig ⟨S_, .i32⟩) (.of main_call6_v13 : StableHlo.TRef sig ⟨S45, .i32⟩) (broadcastInDim S45 ![] bcast_S_S45),
    StableHlo.TRef.binary (.of main_call6_v4 : StableHlo.TRef sig ⟨S45, .i32⟩) (.of main_call6_v13 : StableHlo.TRef sig ⟨S45, .i32⟩) (.of main_call6_v14 : StableHlo.TRef sig ⟨S45, .i32⟩) addi,
    StableHlo.TRef.ternary (.of main_call6_v12 : StableHlo.TRef sig ⟨S45, .i1⟩) (.of main_call6_v14 : StableHlo.TRef sig ⟨S45, .i32⟩) (.of main_call6_v4 : StableHlo.TRef sig ⟨S45, .i32⟩) (.of main_v19 : StableHlo.TRef sig ⟨S45, .i32⟩) select ]
/-- Item 14: 1 operation of @main. -/
abbrev it14 : List (HloOp τ sig (Elt F)) :=
  [ StableHlo.nullary main_c_7 (constantI S_ 32 1#32) ]
/-- Item 15: 16 operations of @floor_divide over the record main_call7. -/
abbrev it15 : List (HloOp τ sig (Elt F)) :=
  [ StableHlo.TRef.unary (.of main_c_7 : StableHlo.TRef sig ⟨S_, .i32⟩) (.of main_call7_v0 : StableHlo.TRef sig ⟨S45, .i32⟩) (broadcastInDim S45 ![] bcast_S_S45),
    StableHlo.TRef.binary (.of main_v17 : StableHlo.TRef sig ⟨S45, .i32⟩) (.of main_call7_v0 : StableHlo.TRef sig ⟨S45, .i32⟩) (.of main_call7_v1 : StableHlo.TRef sig ⟨S45, .i32⟩) Host.divsi,
    StableHlo.TRef.unary (.of main_v17 : StableHlo.TRef sig ⟨S45, .i32⟩) (.of main_call7_v2 : StableHlo.TRef sig ⟨S45, .i32⟩) signi,
    StableHlo.TRef.unary (.of main_c_7 : StableHlo.TRef sig ⟨S_, .i32⟩) (.of main_call7_v3 : StableHlo.TRef sig ⟨S_, .i32⟩) signi,
    StableHlo.TRef.unary (.of main_call7_v3 : StableHlo.TRef sig ⟨S_, .i32⟩) (.of main_call7_v4 : StableHlo.TRef sig ⟨S45, .i32⟩) (broadcastInDim S45 ![] bcast_S_S45),
    StableHlo.TRef.binary (.of main_call7_v2 : StableHlo.TRef sig ⟨S45, .i32⟩) (.of main_call7_v4 : StableHlo.TRef sig ⟨S45, .i32⟩) (.of main_call7_v5 : StableHlo.TRef sig ⟨S45, .i1⟩) (cmpi .ne),
    StableHlo.TRef.unary (.of main_c_7 : StableHlo.TRef sig ⟨S_, .i32⟩) (.of main_call7_v6 : StableHlo.TRef sig ⟨S45, .i32⟩) (broadcastInDim S45 ![] bcast_S_S45),
    StableHlo.TRef.binary (.of main_v17 : StableHlo.TRef sig ⟨S45, .i32⟩) (.of main_call7_v6 : StableHlo.TRef sig ⟨S45, .i32⟩) (.of main_call7_v7 : StableHlo.TRef sig ⟨S45, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v8 : StableHlo.TRef sig ⟨S45, .i32⟩) (broadcastInDim S45 ![] bcast_S_S45),
    StableHlo.TRef.binary (.of main_call7_v7 : StableHlo.TRef sig ⟨S45, .i32⟩) (.of main_call7_v8 : StableHlo.TRef sig ⟨S45, .i32⟩) (.of main_call7_v9 : StableHlo.TRef sig ⟨S45, .i1⟩) (cmpi .ne),
    StableHlo.TRef.binary (.of main_call7_v5 : StableHlo.TRef sig ⟨S45, .i1⟩) (.of main_call7_v9 : StableHlo.TRef sig ⟨S45, .i1⟩) (.of main_call7_v10 : StableHlo.TRef sig ⟨S45, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v11 : StableHlo.TRef sig ⟨S45, .i32⟩) (broadcastInDim S45 ![] bcast_S_S45),
    StableHlo.TRef.binary (.of main_call7_v1 : StableHlo.TRef sig ⟨S45, .i32⟩) (.of main_call7_v11 : StableHlo.TRef sig ⟨S45, .i32⟩) (.of main_call7_v12 : StableHlo.TRef sig ⟨S45, .i32⟩) subi,
    StableHlo.TRef.ternary (.of main_call7_v10 : StableHlo.TRef sig ⟨S45, .i1⟩) (.of main_call7_v12 : StableHlo.TRef sig ⟨S45, .i32⟩) (.of main_call7_v1 : StableHlo.TRef sig ⟨S45, .i32⟩) (.of main_v20 : StableHlo.TRef sig ⟨S45, .i32⟩) select ]
/-- Item 16: 1 operation of @main. -/
abbrev it16 : List (HloOp τ sig (Elt F)) :=
  [ StableHlo.nullary main_c_8 (constantI S_ 32 10#32) ]
/-- Item 17: 21 operations of @remainder over the record main_call8. -/
abbrev it17 : List (HloOp τ sig (Elt F)) :=
  [ StableHlo.TRef.unary (.of main_c_8 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary (.of main_call8_v2 : StableHlo.TRef sig ⟨S_, .i32⟩) (.of main_call8_v3 : StableHlo.TRef sig ⟨S45, .i32⟩) (broadcastInDim S45 ![] bcast_S_S45),
    StableHlo.TRef.binary (.of main_v20 : StableHlo.TRef sig ⟨S45, .i32⟩) (.of main_call8_v3 : StableHlo.TRef sig ⟨S45, .i32⟩) (.of main_call8_v4 : StableHlo.TRef sig ⟨S45, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S45, .i32⟩) (broadcastInDim S45 ![] bcast_S_S45),
    StableHlo.TRef.binary (.of main_call8_v4 : StableHlo.TRef sig ⟨S45, .i32⟩) (.of main_call8_v5 : StableHlo.TRef sig ⟨S45, .i32⟩) (.of main_call8_v6 : StableHlo.TRef sig ⟨S45, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S45, .i32⟩) (broadcastInDim S45 ![] bcast_S_S45),
    StableHlo.TRef.binary (.of main_call8_v4 : StableHlo.TRef sig ⟨S45, .i32⟩) (.of main_call8_v7 : StableHlo.TRef sig ⟨S45, .i32⟩) (.of main_call8_v8 : StableHlo.TRef sig ⟨S45, .i1⟩) (cmpi .slt),
    StableHlo.TRef.nullary (.of main_call8_c_3 : StableHlo.TRef sig ⟨S_, .i32⟩) (constantI S_ 32 0#32),
    StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S45, .i1⟩) (broadcastInDim S45 ![] bcast_S_S45),
    StableHlo.TRef.binary (.of main_call8_v8 : StableHlo.TRef sig ⟨S45, .i1⟩) (.of main_call8_v10 : StableHlo.TRef sig ⟨S45, .i1⟩) (.of main_call8_v11 : StableHlo.TRef sig ⟨S45, .i1⟩) (cmpi .ne),
    StableHlo.TRef.binary (.of main_call8_v11 : StableHlo.TRef sig ⟨S45, .i1⟩) (.of main_call8_v6 : StableHlo.TRef sig ⟨S45, .i1⟩) (.of main_call8_v12 : StableHlo.TRef sig ⟨S45, .i1⟩) andi,
    StableHlo.TRef.unary (.of main_call8_v2 : StableHlo.TRef sig ⟨S_, .i32⟩) (.of main_call8_v13 : StableHlo.TRef sig ⟨S45, .i32⟩) (broadcastInDim S45 ![] bcast_S_S45),
    StableHlo.TRef.binary (.of main_call8_v4 : StableHlo.TRef sig ⟨S45, .i32⟩) (.of main_call8_v13 : StableHlo.TRef sig ⟨S45, .i32⟩) (.of main_call8_v14 : StableHlo.TRef sig ⟨S45, .i32⟩) addi,
    StableHlo.TRef.ternary (.of main_call8_v12 : StableHlo.TRef sig ⟨S45, .i1⟩) (.of main_call8_v14 : StableHlo.TRef sig ⟨S45, .i32⟩) (.of main_call8_v4 : StableHlo.TRef sig ⟨S45, .i32⟩) (.of main_v21 : StableHlo.TRef sig ⟨S45, .i32⟩) select ]
/-- Item 18: 27 operations of @main. -/
abbrev it18 : List (HloOp τ sig (Elt F)) :=
  [ StableHlo.nullary main_cst_9 (constant S_ .f32 0x00000000#32),
    StableHlo.unary main_cst_9 main_v22 (broadcastInDim S32x10x10 ![] bcast_S_S32x10x10 : (⟨S_, .f32⟩ : BufTy).Contents (Elt F) → (⟨S32x10x10, .f32⟩ : BufTy).Contents (Elt F)),
    StableHlo.nullary main_c_10 (constantI S_ 32 0#32),
    StableHlo.unary main_c_10 main_v23 (broadcastInDim S45 ![] bcast_S_S45 : (⟨S_, .i32⟩ : BufTy).Contents (Elt F) → (⟨S45, .i32⟩ : BufTy).Contents (Elt F)),
    StableHlo.binary main_v19 main_v23 main_v24 (cmpi .slt : (⟨S45, .i32⟩ : BufTy).Contents (Elt F) → (⟨S45, .i32⟩ : BufTy).Contents (Elt F) → (⟨S45, .i1⟩ : BufTy).Contents (Elt F)),
    StableHlo.nullary main_c_11 (constantI S_ 32 10#32),
    StableHlo.unary main_c_11 main_v25 (broadcastInDim S45 ![] bcast_S_S45 : (⟨S_, .i32⟩ : BufTy).Contents (Elt F) → (⟨S45, .i32⟩ : BufTy).Contents (Elt F)),
    StableHlo.binary main_v19 main_v25 main_v26 (addi : (⟨S45, .i32⟩ : BufTy).Contents (Elt F) → (⟨S45, .i32⟩ : BufTy).Contents (Elt F) → (⟨S45, .i32⟩ : BufTy).Contents (Elt F)),
    StableHlo.ternary main_v24 main_v26 main_v19 main_v27 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.nullary main_c_12 (constantI S_ 32 0#32),
    StableHlo.unary main_c_12 main_v28 (broadcastInDim S45 ![] bcast_S_S45 : (⟨S_, .i32⟩ : BufTy).Contents (Elt F) → (⟨S45, .i32⟩ : BufTy).Contents (Elt F)),
    StableHlo.binary main_v21 main_v28 main_v29 (cmpi .slt : (⟨S45, .i32⟩ : BufTy).Contents (Elt F) → (⟨S45, .i32⟩ : BufTy).Contents (Elt F) → (⟨S45, .i1⟩ : BufTy).Contents (Elt F)),
    StableHlo.nullary main_c_13 (constantI S_ 32 10#32),
    StableHlo.unary main_c_13 main_v30 (broadcastInDim S45 ![] bcast_S_S45 : (⟨S_, .i32⟩ : BufTy).Contents (Elt F) → (⟨S45, .i32⟩ : BufTy).Contents (Elt F)),
    StableHlo.binary main_v21 main_v30 main_v31 (addi : (⟨S45, .i32⟩ : BufTy).Contents (Elt F) → (⟨S45, .i32⟩ : BufTy).Contents (Elt F) → (⟨S45, .i32⟩ : BufTy).Contents (Elt F)),
    StableHlo.ternary main_v29 main_v31 main_v21 main_v32 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v27 main_v33 (broadcastInDim S45x1 ![0] bcast_S45_S45x1_0 : (⟨S45, .i32⟩ : BufTy).Contents (Elt F) → (⟨S45x1, .i32⟩ : BufTy).Contents (Elt F)),
    StableHlo.unary main_v32 main_v34 (broadcastInDim S45x1 ![0] bcast_S45_S45x1_0 : (⟨S45, .i32⟩ : BufTy).Contents (Elt F) → (⟨S45x1, .i32⟩ : BufTy).Contents (Elt F)),
    StableHlo.binary main_v33 main_v34 main_v35 ((fun a b => concatenate S45x2 1 [⟨S45x1, a⟩, ⟨S45x1, b⟩] concatenates_S45x1_S45x1_S45x2_d1) : (⟨S45x1, .i32⟩ : BufTy).Contents (Elt F) → (⟨S45x1, .i32⟩ : BufTy).Contents (Elt F) → (⟨S45x2, .i32⟩ : BufTy).Contents (Elt F)),
    StableHlo.ternary main_v22 main_v35 main_v1 main_v36 ((fun x i u => Host.scatter scatter_S32x10x10_S45x2_S32x45_0_12_12_1 (fun _ b => b) x i u) : (⟨S32x10x10, .f32⟩ : BufTy).Contents (Elt F) → (⟨S45x2, .i32⟩ : BufTy).Contents (Elt F) → (⟨S32x45, .f32⟩ : BufTy).Contents (Elt F) → (⟨S32x10x10, .f32⟩ : BufTy).Contents (Elt F)),
    StableHlo.unary main_v36 main_v37 ((transpose S32x10x10 [0, 2, 1] · transposes_S32x10x10_S32x10x10_0_2_1) : (⟨S32x10x10, .f32⟩ : BufTy).Contents (Elt F) → (⟨S32x10x10, .f32⟩ : BufTy).Contents (Elt F)),
    StableHlo.binary main_v36 main_v37 main_v38 (addf : (⟨S32x10x10, .f32⟩ : BufTy).Contents (Elt F) → (⟨S32x10x10, .f32⟩ : BufTy).Contents (Elt F) → (⟨S32x10x10, .f32⟩ : BufTy).Contents (Elt F)),
    StableHlo.nullary main_cst_14 (constant S_ .f32 0x3F800000#32),
    StableHlo.unary main_cst_14 main_v39 (broadcastInDim S2048 ![] bcast_S_S2048 : (⟨S_, .f32⟩ : BufTy).Contents (Elt F) → (⟨S2048, .f32⟩ : BufTy).Contents (Elt F)),
    StableHlo.nullary main_cst_15 (constant S_ .f32 0x00000000#32),
    StableHlo.unary main_cst_15 main_v40 (broadcastInDim S128 ![] bcast_S_S128 : (⟨S_, .f32⟩ : BufTy).Contents (Elt F) → (⟨S128, .f32⟩ : BufTy).Contents (Elt F)),
    StableHlo.unary main_arg1 main_v41 (broadcastInDim S2048x1 ![0] bcast_S2048_S2048x1_0 : (⟨S2048, .i32⟩ : BufTy).Contents (Elt F) → (⟨S2048x1, .i32⟩ : BufTy).Contents (Elt F)) ]
/-- Item 19: 1 operation of @main. -/
abbrev it19 : List (HloOp τ sig (Elt F)) :=
  [ StableHlo.ternary main_v40 main_v41 main_v39 main_v42 ((fun x i u => Host.scatterAdd scatter_S128_S2048x1_S2048_n_0_0_1 x i u) : (⟨S128, .f32⟩ : BufTy).Contents (Elt F) → (⟨S2048x1, .i32⟩ : BufTy).Contents (Elt F) → (⟨S2048, .f32⟩ : BufTy).Contents (Elt F) → (⟨S128, .f32⟩ : BufTy).Contents (Elt F)) ]
/-- Item 20: 12 operations of @main. -/
abbrev it20 : List (HloOp τ sig (Elt F)) :=
  [ StableHlo.nullary main_v43 (iotaInDim S2048x2048 32 0),
    StableHlo.nullary main_v44 (iotaInDim S2048x2048 32 1),
    StableHlo.nullary main_c_16 (constantI S_ 32 0#32),
    StableHlo.unary main_c_16 main_v45 (broadcastInDim S2048x2048 ![] bcast_S_S2048x2048 : (⟨S_, .i32⟩ : BufTy).Contents (Elt F) → (⟨S2048x2048, .i32⟩ : BufTy).Contents (Elt F)),
    StableHlo.binary main_v43 main_v45 main_v46 (addi : (⟨S2048x2048, .i32⟩ : BufTy).Contents (Elt F) → (⟨S2048x2048, .i32⟩ : BufTy).Contents (Elt F) → (⟨S2048x2048, .i32⟩ : BufTy).Contents (Elt F)),
    StableHlo.binary main_v46 main_v44 main_v47 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v47 main_v48 (uitofp .f32 : (⟨S2048x2048, .i1⟩ : BufTy).Contents (Elt F) → (⟨S2048x2048, .f32⟩ : BufTy).Contents (Elt F)),
    StableHlo.nullary main_cst_17 (constant S_ .f32 0x3F800000#32),
    StableHlo.unary main_cst_17 main_v49 (broadcastInDim S32x10x2048 ![] bcast_S_S32x10x2048 : (⟨S_, .f32⟩ : BufTy).Contents (Elt F) → (⟨S32x10x2048, .f32⟩ : BufTy).Contents (Elt F)),
    StableHlo.binary main_arg0 main_v48 main_v50 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.binary main_v38 main_v49 main_v51 ((fun l r => Host.dotGeneral dot_S32x10x10_S32x10x2048_S32x10x2048_2_1_1_2_0_0 none l r) : (⟨S32x10x10, .f32⟩ : BufTy).Contents (Elt F) → (⟨S32x10x2048, .f32⟩ : BufTy).Contents (Elt F) → (⟨S32x10x2048, .f32⟩ : BufTy).Contents (Elt F)),
    StableHlo.binary main_v51 main_v50 main_v52 ((fun l r => Host.dotGeneral dot_S32x10x2048_S2048x2048_S32x10x2048_2_0_01_1_n_n none l r) : (⟨S32x10x2048, .f32⟩ : BufTy).Contents (Elt F) → (⟨S2048x2048, .f32⟩ : BufTy).Contents (Elt F) → (⟨S32x10x2048, .f32⟩ : BufTy).Contents (Elt F)) ]
/-- Item 21: 10 operations of @main. -/
abbrev it21 : List (HloOp τ sig (Elt F)) :=
  [ StableHlo.unary main_v52 main_v53 ((transpose S2048x32x10 [2, 0, 1] · transposes_S32x10x2048_S2048x32x10_2_0_1) : (⟨S32x10x2048, .f32⟩ : BufTy).Contents (Elt F) → (⟨S2048x32x10, .f32⟩ : BufTy).Contents (Elt F)),
    StableHlo.nullary main_cst_18 (constant S_ .f32 0x00000000#32),
    StableHlo.unary main_cst_18 main_v54 (broadcastInDim S128x32x10 ![] bcast_S_S128x32x10 : (⟨S_, .f32⟩ : BufTy).Contents (Elt F) → (⟨S128x32x10, .f32⟩ : BufTy).Contents (Elt F)),
    StableHlo.unary main_arg1 main_v55 (broadcastInDim S2048x1 ![0] bcast_S2048_S2048x1_0 : (⟨S2048, .i32⟩ : BufTy).Contents (Elt F) → (⟨S2048x1, .i32⟩ : BufTy).Contents (Elt F)),
    StableHlo.ternary main_v54 main_v55 main_v53 main_v56 ((fun x i u => Host.scatterAdd scatter_S128x32x10_S2048x1_S2048x32x10_12_0_0_1 x i u) : (⟨S128x32x10, .f32⟩ : BufTy).Contents (Elt F) → (⟨S2048x1, .i32⟩ : BufTy).Contents (Elt F) → (⟨S2048x32x10, .f32⟩ : BufTy).Contents (Elt F) → (⟨S128x32x10, .f32⟩ : BufTy).Contents (Elt F)),
    StableHlo.nullary main_cst_19 (constant S_ .f32 0x00000000#32),
    StableHlo.binary main_v56 main_cst_19 main_v57 ((fun x v => Host.reduceAdd x v reducesTo_S128x32x10_S128x32_d2 h_S_) : (⟨S128x32x10, .f32⟩ : BufTy).Contents (Elt F) → (⟨S_, .f32⟩ : BufTy).Contents (Elt F) → (⟨S128x32, .f32⟩ : BufTy).Contents (Elt F)),
    StableHlo.unary main_v42 main_v58 (broadcastInDim S128x1 ![0] bcast_S128_S128x1_0 : (⟨S128, .f32⟩ : BufTy).Contents (Elt F) → (⟨S128x1, .f32⟩ : BufTy).Contents (Elt F)),
    StableHlo.unary main_v58 main_v59 (broadcastInDim S128x32 ![0, 1] bcast_S128x1_S128x32_0_1 : (⟨S128x1, .f32⟩ : BufTy).Contents (Elt F) → (⟨S128x32, .f32⟩ : BufTy).Contents (Elt F)),
    StableHlo.binary main_v57 main_v59 main_v60 (Host.divf : (⟨S128x32, .f32⟩ : BufTy).Contents (Elt F) → (⟨S128x32, .f32⟩ : BufTy).Contents (Elt F) → (⟨S128x32, .f32⟩ : BufTy).Contents (Elt F)) ]
/-- Item 22: 3 operations of @main. -/
abbrev it22 : List (HloOp τ sig (Elt F)) :=
  [ StableHlo.binary main_arg0 main_v50 main_v61 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.binary main_v38 main_v51 main_v62 ((fun l r => Host.dotGeneral dot_S32x10x10_S32x10x2048_S32x10x2048_2_1_1_2_0_0 none l r) : (⟨S32x10x10, .f32⟩ : BufTy).Contents (Elt F) → (⟨S32x10x2048, .f32⟩ : BufTy).Contents (Elt F) → (⟨S32x10x2048, .f32⟩ : BufTy).Contents (Elt F)),
    StableHlo.binary main_v62 main_v61 main_v63 ((fun l r => Host.dotGeneral dot_S32x10x2048_S2048x2048_S32x10x2048_2_0_01_1_n_n none l r) : (⟨S32x10x2048, .f32⟩ : BufTy).Contents (Elt F) → (⟨S2048x2048, .f32⟩ : BufTy).Contents (Elt F) → (⟨S32x10x2048, .f32⟩ : BufTy).Contents (Elt F)) ]
/-- Item 23: 10 operations of @main. -/
abbrev it23 : List (HloOp τ sig (Elt F)) :=
  [ StableHlo.unary main_v63 main_v64 ((transpose S2048x32x10 [2, 0, 1] · transposes_S32x10x2048_S2048x32x10_2_0_1) : (⟨S32x10x2048, .f32⟩ : BufTy).Contents (Elt F) → (⟨S2048x32x10, .f32⟩ : BufTy).Contents (Elt F)),
    StableHlo.nullary main_cst_20 (constant S_ .f32 0x00000000#32),
    StableHlo.unary main_cst_20 main_v65 (broadcastInDim S128x32x10 ![] bcast_S_S128x32x10 : (⟨S_, .f32⟩ : BufTy).Contents (Elt F) → (⟨S128x32x10, .f32⟩ : BufTy).Contents (Elt F)),
    StableHlo.unary main_arg1 main_v66 (broadcastInDim S2048x1 ![0] bcast_S2048_S2048x1_0 : (⟨S2048, .i32⟩ : BufTy).Contents (Elt F) → (⟨S2048x1, .i32⟩ : BufTy).Contents (Elt F)),
    StableHlo.ternary main_v65 main_v66 main_v64 main_v67 ((fun x i u => Host.scatterAdd scatter_S128x32x10_S2048x1_S2048x32x10_12_0_0_1 x i u) : (⟨S128x32x10, .f32⟩ : BufTy).Contents (Elt F) → (⟨S2048x1, .i32⟩ : BufTy).Contents (Elt F) → (⟨S2048x32x10, .f32⟩ : BufTy).Contents (Elt F) → (⟨S128x32x10, .f32⟩ : BufTy).Contents (Elt F)),
    StableHlo.nullary main_cst_21 (constant S_ .f32 0x00000000#32),
    StableHlo.binary main_v67 main_cst_21 main_v68 ((fun x v => Host.reduceAdd x v reducesTo_S128x32x10_S128x32_d2 h_S_) : (⟨S128x32x10, .f32⟩ : BufTy).Contents (Elt F) → (⟨S_, .f32⟩ : BufTy).Contents (Elt F) → (⟨S128x32, .f32⟩ : BufTy).Contents (Elt F)),
    StableHlo.unary main_v42 main_v69 (broadcastInDim S128x1 ![0] bcast_S128_S128x1_0 : (⟨S128, .f32⟩ : BufTy).Contents (Elt F) → (⟨S128x1, .f32⟩ : BufTy).Contents (Elt F)),
    StableHlo.unary main_v69 main_v70 (broadcastInDim S128x32 ![0, 1] bcast_S128x1_S128x32_0_1 : (⟨S128x1, .f32⟩ : BufTy).Contents (Elt F) → (⟨S128x32, .f32⟩ : BufTy).Contents (Elt F)),
    StableHlo.binary main_v68 main_v70 main_v71 (Host.divf : (⟨S128x32, .f32⟩ : BufTy).Contents (Elt F) → (⟨S128x32, .f32⟩ : BufTy).Contents (Elt F) → (⟨S128x32, .f32⟩ : BufTy).Contents (Elt F)) ]
/-- Item 24: 3 operations of @main. -/
abbrev it24 : List (HloOp τ sig (Elt F)) :=
  [ StableHlo.binary main_arg0 main_v61 main_v72 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.binary main_v38 main_v62 main_v73 ((fun l r => Host.dotGeneral dot_S32x10x10_S32x10x2048_S32x10x2048_2_1_1_2_0_0 none l r) : (⟨S32x10x10, .f32⟩ : BufTy).Contents (Elt F) → (⟨S32x10x2048, .f32⟩ : BufTy).Contents (Elt F) → (⟨S32x10x2048, .f32⟩ : BufTy).Contents (Elt F)),
    StableHlo.binary main_v73 main_v72 main_v74 ((fun l r => Host.dotGeneral dot_S32x10x2048_S2048x2048_S32x10x2048_2_0_01_1_n_n none l r) : (⟨S32x10x2048, .f32⟩ : BufTy).Contents (Elt F) → (⟨S2048x2048, .f32⟩ : BufTy).Contents (Elt F) → (⟨S32x10x2048, .f32⟩ : BufTy).Contents (Elt F)) ]
/-- Item 25: 10 operations of @main. -/
abbrev it25 : List (HloOp τ sig (Elt F)) :=
  [ StableHlo.unary main_v74 main_v75 ((transpose S2048x32x10 [2, 0, 1] · transposes_S32x10x2048_S2048x32x10_2_0_1) : (⟨S32x10x2048, .f32⟩ : BufTy).Contents (Elt F) → (⟨S2048x32x10, .f32⟩ : BufTy).Contents (Elt F)),
    StableHlo.nullary main_cst_22 (constant S_ .f32 0x00000000#32),
    StableHlo.unary main_cst_22 main_v76 (broadcastInDim S128x32x10 ![] bcast_S_S128x32x10 : (⟨S_, .f32⟩ : BufTy).Contents (Elt F) → (⟨S128x32x10, .f32⟩ : BufTy).Contents (Elt F)),
    StableHlo.unary main_arg1 main_v77 (broadcastInDim S2048x1 ![0] bcast_S2048_S2048x1_0 : (⟨S2048, .i32⟩ : BufTy).Contents (Elt F) → (⟨S2048x1, .i32⟩ : BufTy).Contents (Elt F)),
    StableHlo.ternary main_v76 main_v77 main_v75 main_v78 ((fun x i u => Host.scatterAdd scatter_S128x32x10_S2048x1_S2048x32x10_12_0_0_1 x i u) : (⟨S128x32x10, .f32⟩ : BufTy).Contents (Elt F) → (⟨S2048x1, .i32⟩ : BufTy).Contents (Elt F) → (⟨S2048x32x10, .f32⟩ : BufTy).Contents (Elt F) → (⟨S128x32x10, .f32⟩ : BufTy).Contents (Elt F)),
    StableHlo.nullary main_cst_23 (constant S_ .f32 0x00000000#32),
    StableHlo.binary main_v78 main_cst_23 main_v79 ((fun x v => Host.reduceAdd x v reducesTo_S128x32x10_S128x32_d2 h_S_) : (⟨S128x32x10, .f32⟩ : BufTy).Contents (Elt F) → (⟨S_, .f32⟩ : BufTy).Contents (Elt F) → (⟨S128x32, .f32⟩ : BufTy).Contents (Elt F)),
    StableHlo.unary main_v42 main_v80 (broadcastInDim S128x1 ![0] bcast_S128_S128x1_0 : (⟨S128, .f32⟩ : BufTy).Contents (Elt F) → (⟨S128x1, .f32⟩ : BufTy).Contents (Elt F)),
    StableHlo.unary main_v80 main_v81 (broadcastInDim S128x32 ![0, 1] bcast_S128x1_S128x32_0_1 : (⟨S128x1, .f32⟩ : BufTy).Contents (Elt F) → (⟨S128x32, .f32⟩ : BufTy).Contents (Elt F)),
    StableHlo.binary main_v79 main_v81 main_v82 (Host.divf : (⟨S128x32, .f32⟩ : BufTy).Contents (Elt F) → (⟨S128x32, .f32⟩ : BufTy).Contents (Elt F) → (⟨S128x32, .f32⟩ : BufTy).Contents (Elt F)) ]
/-- Item 26: 7 operations of @main. -/
abbrev it26 : List (HloOp τ sig (Elt F)) :=
  [ StableHlo.nary ![main_v60, main_v71, main_v82] main_v83 (fun u => concatenate S128x96 1 [⟨S128x32, u 0⟩, ⟨S128x32, u 1⟩, ⟨S128x32, u 2⟩] concatenates_S128x32_S128x32_S128x32_S128x96_d1),
    StableHlo.nullary main_cst_24 (constant S_ .f32 0x00000000#32),
    StableHlo.binary main_v83 main_cst_24 main_v84 ((fun x v => Host.reduceAdd x v reducesTo_S128x96_S96_d0 h_S_) : (⟨S128x96, .f32⟩ : BufTy).Contents (Elt F) → (⟨S_, .f32⟩ : BufTy).Contents (Elt F) → (⟨S96, .f32⟩ : BufTy).Contents (Elt F)),
    StableHlo.nullary main_cst_25 (constant S_ .f32 0x43000000#32),
    StableHlo.unary main_cst_25 main_v85 (broadcastInDim S96 ![] bcast_S_S96 : (⟨S_, .f32⟩ : BufTy).Contents (Elt F) → (⟨S96, .f32⟩ : BufTy).Contents (Elt F)),
    StableHlo.binary main_v84 main_v85 main_v86 (Host.divf : (⟨S96, .f32⟩ : BufTy).Contents (Elt F) → (⟨S96, .f32⟩ : BufTy).Contents (Elt F) → (⟨S96, .f32⟩ : BufTy).Contents (Elt F)),
    StableHlo.nullary main_c_26 (constantI S_ 32 0#32) ]
/-- Item 27: 22 operations of @var over the record main_call9. -/
abbrev it27 : List (HloOp τ sig (Elt F)) :=
  [ StableHlo.TRef.nullary (.of main_call9_cst : StableHlo.TRef sig ⟨S_, .f32⟩) (constant S_ .f32 0x00000000#32),
    StableHlo.TRef.binary (.of main_v83 : StableHlo.TRef sig ⟨S128x96, .f32⟩) (.of main_call9_cst : StableHlo.TRef sig ⟨S_, .f32⟩) (.of main_call9_v0 : StableHlo.TRef sig ⟨S96, .f32⟩) (fun x v => Host.reduceAdd x v reducesTo_S128x96_S96_d0 h_S_),
    StableHlo.TRef.unary (.of main_call9_v0 : StableHlo.TRef sig ⟨S96, .f32⟩) (.of main_call9_v1 : StableHlo.TRef sig ⟨S1x96, .f32⟩) (broadcastInDim S1x96 ![1] bcast_S96_S1x96_1),
    StableHlo.TRef.nullary (.of main_call9_cst_0 : StableHlo.TRef sig ⟨S_, .f32⟩) (constant S_ .f32 0x43000000#32),
    StableHlo.TRef.unary (.of main_call9_cst_0 : StableHlo.TRef sig ⟨S_, .f32⟩) (.of main_call9_v2 : StableHlo.TRef sig ⟨S1x96, .f32⟩) (broadcastInDim S1x96 ![] bcast_S_S1x96),
    StableHlo.TRef.binary (.of main_call9_v1 : StableHlo.TRef sig ⟨S1x96, .f32⟩) (.of main_call9_v2 : StableHlo.TRef sig ⟨S1x96, .f32⟩) (.of main_call9_v3 : StableHlo.TRef sig ⟨S1x96, .f32⟩) Host.divf,
    StableHlo.TRef.unary (.of main_call9_v3 : StableHlo.TRef sig ⟨S1x96, .f32⟩) (.of main_call9_v4 : StableHlo.TRef sig ⟨S128x96, .f32⟩) (broadcastInDim S128x96 ![0, 1] bcast_S1x96_S128x96_0_1),
    StableHlo.TRef.binary (.of main_v83 : StableHlo.TRef sig ⟨S128x96, .f32⟩) (.of main_call9_v4 : StableHlo.TRef sig ⟨S128x96, .f32⟩) (.of main_call9_v5 : StableHlo.TRef sig ⟨S128x96, .f32⟩) subf,
    StableHlo.TRef.binary (.of main_call9_v5 : StableHlo.TRef sig ⟨S128x96, .f32⟩) (.of main_call9_v5 : StableHlo.TRef sig ⟨S128x96, .f32⟩) (.of main_call9_v6 : StableHlo.TRef sig ⟨S128x96, .f32⟩) mulf,
    StableHlo.TRef.unary (.of main_c_26 : StableHlo.TRef sig ⟨S_, .i32⟩) (.of main_call9_v7 : StableHlo.TRef sig ⟨S_, .f32⟩) (sitofp .f32),
    StableHlo.TRef.nullary (.of main_call9_cst_1 : StableHlo.TRef sig ⟨S_, .f32⟩) (constant S_ .f32 0x43000000#32),
    StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf,
    StableHlo.TRef.nullary (.of main_call9_cst_2 : StableHlo.TRef sig ⟨S_, .f32⟩) (constant S_ .f32 0x00000000#32),
    StableHlo.TRef.binary (.of main_call9_v6 : StableHlo.TRef sig ⟨S128x96, .f32⟩) (.of main_call9_cst_2 : StableHlo.TRef sig ⟨S_, .f32⟩) (.of main_call9_v9 : StableHlo.TRef sig ⟨S96, .f32⟩) (fun x v => Host.reduceAdd x v reducesTo_S128x96_S96_d0 h_S_),
    StableHlo.TRef.unary (.of main_call9_v8 : StableHlo.TRef sig ⟨S_, .f32⟩) (.of main_call9_v10 : StableHlo.TRef sig ⟨S96, .f32⟩) (broadcastInDim S96 ![] bcast_S_S96),
    StableHlo.TRef.binary (.of main_call9_v9 : StableHlo.TRef sig ⟨S96, .f32⟩) (.of main_call9_v10 : StableHlo.TRef sig ⟨S96, .f32⟩) (.of main_call9_v11 : StableHlo.TRef sig ⟨S96, .f32⟩) Host.divf,
    StableHlo.TRef.nullary (.of main_call9_cst_3 : StableHlo.TRef sig ⟨S_, .f32⟩) (constant S_ .f32 0x00000000#32),
    StableHlo.TRef.binary (.of main_call9_v8 : StableHlo.TRef sig ⟨S_, .f32⟩) (.of main_call9_cst_3 : StableHlo.TRef sig ⟨S_, .f32⟩) (.of main_call9_v12 : StableHlo.TRef sig ⟨S_, .i1⟩) (cmpf .ogt),
    StableHlo.TRef.nullary (.of main_call9_cst_4 : StableHlo.TRef sig ⟨S_, .f32⟩) (constant S_ .f32 0x7FC00000#32),
    StableHlo.TRef.unary (.of main_call9_cst_4 : StableHlo.TRef sig ⟨S_, .f32⟩) (.of main_call9_call0_v0 : StableHlo.TRef sig ⟨S_, .f32⟩) id,
    StableHlo.TRef.unary (.of main_call9_call0_v0 : StableHlo.TRef sig ⟨S_, .f32⟩) (.of main_call9_call0_v1 : StableHlo.TRef sig ⟨S96, .f32⟩) (broadcastInDim S96 ![] bcast_S_S96),
    StableHlo.TRef.ternary (.of main_call9_v12 : StableHlo.TRef sig ⟨S_, .i1⟩) (.of main_call9_v11 : StableHlo.TRef sig ⟨S96, .f32⟩) (.of main_call9_call0_v1 : StableHlo.TRef sig ⟨S96, .f32⟩) (.of main_v87 : StableHlo.TRef sig ⟨S96, .f32⟩) (fun p a b => select (broadcastInDim S96 ![] bcast_S_S96 p) a b) ]
/-- Item 28: 3 operations of @main. -/
abbrev it28 : List (HloOp τ sig (Elt F)) :=
  [ StableHlo.unary main_v86 main_v88 (broadcastInDim S1x96 ![1] bcast_S96_S1x96_1 : (⟨S96, .f32⟩ : BufTy).Contents (Elt F) → (⟨S1x96, .f32⟩ : BufTy).Contents (Elt F)),
    StableHlo.unary main_v88 main_v89 (broadcastInDim S128x96 ![0, 1] bcast_S1x96_S128x96_0_1 : (⟨S1x96, .f32⟩ : BufTy).Contents (Elt F) → (⟨S128x96, .f32⟩ : BufTy).Contents (Elt F)),
    StableHlo.binary main_v83 main_v89 main_v90 (subf : (⟨S128x96, .f32⟩ : BufTy).Contents (Elt F) → (⟨S128x96, .f32⟩ : BufTy).Contents (Elt F) → (⟨S128x96, .f32⟩ : BufTy).Contents (Elt F)) ]
/-- Item 29: 17 operations of @main. -/
abbrev it29 : List (HloOp τ sig (Elt F)) :=
  [ StableHlo.unary main_arg3 main_v91 (broadcastInDim S1x96 ![1] bcast_S96_S1x96_1 : (⟨S96, .f32⟩ : BufTy).Contents (Elt F) → (⟨S1x96, .f32⟩ : BufTy).Contents (Elt F)),
    StableHlo.unary main_v91 main_v92 (broadcastInDim S128x96 ![0, 1] bcast_S1x96_S128x96_0_1 : (⟨S1x96, .f32⟩ : BufTy).Contents (Elt F) → (⟨S128x96, .f32⟩ : BufTy).Contents (Elt F)),
    StableHlo.binary main_v92 main_v90 main_v93 (mulf : (⟨S128x96, .f32⟩ : BufTy).Contents (Elt F) → (⟨S128x96, .f32⟩ : BufTy).Contents (Elt F) → (⟨S128x96, .f32⟩ : BufTy).Contents (Elt F)),
    StableHlo.nullary main_cst_27 (constant S_ .f32 0x3727C5AC#32),
    StableHlo.unary main_cst_27 main_v94 (broadcastInDim S96 ![] bcast_S_S96 : (⟨S_, .f32⟩ : BufTy).Contents (Elt F) → (⟨S96, .f32⟩ : BufTy).Contents (Elt F)),
    StableHlo.binary main_v87 main_v94 main_v95 (addf : (⟨S96, .f32⟩ : BufTy).Contents (Elt F) → (⟨S96, .f32⟩ : BufTy).Contents (Elt F) → (⟨S96, .f32⟩ : BufTy).Contents (Elt F)),
    StableHlo.unary main_v95 main_v96 (Host.rsqrt : (⟨S96, .f32⟩ : BufTy).Contents (Elt F) → (⟨S96, .f32⟩ : BufTy).Contents (Elt F)),
    StableHlo.unary main_v96 main_v97 (broadcastInDim S1x96 ![1] bcast_S96_S1x96_1 : (⟨S96, .f32⟩ : BufTy).Contents (Elt F) → (⟨S1x96, .f32⟩ : BufTy).Contents (Elt F)),
    StableHlo.unary main_v97 main_v98 (broadcastInDim S128x96 ![0, 1] bcast_S1x96_S128x96_0_1 : (⟨S1x96, .f32⟩ : BufTy).Contents (Elt F) → (⟨S128x96, .f32⟩ : BufTy).Contents (Elt F)),
    StableHlo.binary main_v93 main_v98 main_v99 (mulf : (⟨S128x96, .f32⟩ : BufTy).Contents (Elt F) → (⟨S128x96, .f32⟩ : BufTy).Contents (Elt F) → (⟨S128x96, .f32⟩ : BufTy).Contents (Elt F)),
    StableHlo.unary main_arg4 main_v100 (broadcastInDim S1x96 ![1] bcast_S96_S1x96_1 : (⟨S96, .f32⟩ : BufTy).Contents (Elt F) → (⟨S1x96, .f32⟩ : BufTy).Contents (Elt F)),
    StableHlo.unary main_v100 main_v101 (broadcastInDim S128x96 ![0, 1] bcast_S1x96_S128x96_0_1 : (⟨S1x96, .f32⟩ : BufTy).Contents (Elt F) → (⟨S128x96, .f32⟩ : BufTy).Contents (Elt F)),
    StableHlo.binary main_v99 main_v101 main_v102 (addf : (⟨S128x96, .f32⟩ : BufTy).Contents (Elt F) → (⟨S128x96, .f32⟩ : BufTy).Contents (Elt F) → (⟨S128x96, .f32⟩ : BufTy).Contents (Elt F)),
    StableHlo.binary main_v102 main_arg5 main_v103 ((fun l r => Host.dotGeneral dot_S128x96_S96x128_S128x128_1_0_0_1_n_n none l r) : (⟨S128x96, .f32⟩ : BufTy).Contents (Elt F) → (⟨S96x128, .f32⟩ : BufTy).Contents (Elt F) → (⟨S128x128, .f32⟩ : BufTy).Contents (Elt F)),
    StableHlo.unary main_arg6 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S128x128 ![0, 1] bcast_S1x128_S128x128_0_1 : (⟨S1x128, .f32⟩ : BufTy).Contents (Elt F) → (⟨S128x128, .f32⟩ : BufTy).Contents (Elt F)),
    StableHlo.binary main_v103 main_v105 main_v106 (addf : (⟨S128x128, .f32⟩ : BufTy).Contents (Elt F) → (⟨S128x128, .f32⟩ : BufTy).Contents (Elt F) → (⟨S128x128, .f32⟩ : BufTy).Contents (Elt F)) ]
/-- Item 30: 3 operations of @relu_5 over the record main_call10. -/
abbrev it30 : List (HloOp τ sig (Elt F)) :=
  [ StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S128x128, .f32⟩) (broadcastInDim S128x128 ![] bcast_S_S128x128),
    StableHlo.TRef.binary (.of main_v106 : StableHlo.TRef sig ⟨S128x128, .f32⟩) (.of main_call10_v0 : StableHlo.TRef sig ⟨S128x128, .f32⟩) (.of main_v107 : StableHlo.TRef sig ⟨S128x128, .f32⟩) maximumf ]
/-- Item 31: 4 operations of @main. -/
abbrev it31 : List (HloOp τ sig (Elt F)) :=
  [ StableHlo.binary main_v107 main_arg7 main_v108 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    StableHlo.unary main_arg8 main_v109 (broadcastInDim S1x2 ![1] bcast_S2_S1x2_1 : (⟨S2, .f32⟩ : BufTy).Contents (Elt F) → (⟨S1x2, .f32⟩ : BufTy).Contents (Elt F)),
    StableHlo.unary main_v109 main_v110 (broadcastInDim S128x2 ![0, 1] bcast_S1x2_S128x2_0_1 : (⟨S1x2, .f32⟩ : BufTy).Contents (Elt F) → (⟨S128x2, .f32⟩ : BufTy).Contents (Elt F)),
    StableHlo.binary main_v108 main_v110 main_v111 (addf : (⟨S128x2, .f32⟩ : BufTy).Contents (Elt F) → (⟨S128x2, .f32⟩ : BufTy).Contents (Elt F) → (⟨S128x2, .f32⟩ : BufTy).Contents (Elt F)) ]

/-- The items, in order. -/
abbrev items : List (List (HloOp τ sig (Elt F))) :=
  [it0, it1, it2, it3, it4, it5, it6, it7, it8, it9, it10, it11, it12, it13, it14, it15, it16, it17, it18, it19, it20, it21, it22, it23, it24, it25, it26, it27, it28, it29, it30, it31]

/-- Stretch 0 (149 operations), %0 … %42: relu of the learned weights scattered into the strict upper triangles of 32 blocks of 10×10 (the triangle's row and column indices computed from a mask's running sum), the blocks symmetrised, and the node count per graph. -/
abbrev ops0 : List (HloOp τ sig (Elt F)) :=
  [ StableHlo.reshape main_arg2 main_v0 rfl shapeCasts_S32x45x1_S32x45,
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S32x45, .f32⟩) (broadcastInDim S32x45 ![] bcast_S_S32x45),
    StableHlo.TRef.binary (.of main_v0 : StableHlo.TRef sig ⟨S32x45, .f32⟩) (.of main_call0_v0 : StableHlo.TRef sig ⟨S32x45, .f32⟩) (.of main_v1 : StableHlo.TRef sig ⟨S32x45, .f32⟩) maximumf,
    StableHlo.nullary main_cst (constant S_ .f32 0x3F800000#32),
    StableHlo.unary main_cst main_v2 (broadcastInDim S10x10 ![] bcast_S_S10x10 : (⟨S_, .f32⟩ : BufTy).Contents (Elt F) → (⟨S10x10, .f32⟩ : BufTy).Contents (Elt F)),
    StableHlo.TRef.nullary (.of main_call1_v0 : StableHlo.TRef sig ⟨S10x10, .i32⟩) (iotaInDim S10x10 32 0),
    StableHlo.TRef.nullary (.of main_call1_c : StableHlo.TRef sig ⟨S_, .i32⟩) (constantI S_ 32 0#32),
    StableHlo.TRef.unary (.of main_call1_c : StableHlo.TRef sig ⟨S_, .i32⟩) (.of main_call1_v1 : StableHlo.TRef sig ⟨S10x10, .i32⟩) (broadcastInDim S10x10 ![] bcast_S_S10x10),
    StableHlo.TRef.binary (.of main_call1_v0 : StableHlo.TRef sig ⟨S10x10, .i32⟩) (.of main_call1_v1 : StableHlo.TRef sig ⟨S10x10, .i32⟩) (.of main_call1_v2 : StableHlo.TRef sig ⟨S10x10, .i32⟩) addi,
    StableHlo.TRef.nullary (.of main_call1_v3 : StableHlo.TRef sig ⟨S10x10, .i32⟩) (iotaInDim S10x10 32 1),
    StableHlo.TRef.binary (.of main_call1_v2 : StableHlo.TRef sig ⟨S10x10, .i32⟩) (.of main_call1_v3 : StableHlo.TRef sig ⟨S10x10, .i32⟩) (.of main_call1_v4 : StableHlo.TRef sig ⟨S10x10, .i1⟩) (cmpi .sge),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v5 : StableHlo.TRef sig ⟨S10x10, .f32⟩) (broadcastInDim S10x10 ![] bcast_S_S10x10),
    StableHlo.TRef.ternary (.of main_call1_v4 : StableHlo.TRef sig ⟨S10x10, .i1⟩) (.of main_call1_v5 : StableHlo.TRef sig ⟨S10x10, .f32⟩) (.of main_v2 : StableHlo.TRef sig ⟨S10x10, .f32⟩) (.of main_v3 : StableHlo.TRef sig ⟨S10x10, .f32⟩) select,
    StableHlo.nullary main_cst_0 (constant S_ .f32 0x00000000#32),
    StableHlo.unary main_cst_0 main_v4 (broadcastInDim S10x10 ![] bcast_S_S10x10 : (⟨S_, .f32⟩ : BufTy).Contents (Elt F) → (⟨S10x10, .f32⟩ : BufTy).Contents (Elt F)),
    StableHlo.binary main_v3 main_v4 main_v5 (cmpf .une : (⟨S10x10, .f32⟩ : BufTy).Contents (Elt F) → (⟨S10x10, .f32⟩ : BufTy).Contents (Elt F) → (⟨S10x10, .i1⟩ : BufTy).Contents (Elt F)),
    StableHlo.TRef.reshape (.of main_v5 : StableHlo.TRef sig ⟨S10x10, .i1⟩) (.of main_call2_v0 : StableHlo.TRef sig ⟨S100, .i1⟩) rfl shapeCasts_S10x10_S100,
    StableHlo.TRef.unary (.of main_call2_v0 : StableHlo.TRef sig ⟨S100, .i1⟩) (.of main_call2_v1 : StableHlo.TRef sig ⟨S100, .i32⟩) (extui 32 · natLt_1_32),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_call2_v1 : StableHlo.TRef sig ⟨S100, .i32⟩) (.of main_call2_call0_v0 : StableHlo.TRef sig ⟨S_, .i32⟩) (.of main_v6 : StableHlo.TRef sig ⟨S100, .i32⟩) (fun x v => Host.reduceWindow IntOp.addi ![100] ![1] ![99] ![0] x v reduceWindows_S100_S100_w100s1p99_0 h_S_),
    StableHlo.nullary main_c (constantI S_ 32 0#32),
    StableHlo.unary main_c main_v7 (broadcastInDim S45 ![] bcast_S_S45 : (⟨S_, .i32⟩ : BufTy).Contents (Elt F) → (⟨S45, .i32⟩ : BufTy).Contents (Elt F)),
    StableHlo.nullary main_c_1 (constantI S_ 32 0#32),
    StableHlo.TRef.unary (.of main_c_1 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S100, .i32⟩) (broadcastInDim S100 ![] bcast_S_S100),
    StableHlo.TRef.binary (.of main_call3_v1 : StableHlo.TRef sig ⟨S100, .i32⟩) (.of main_v6 : StableHlo.TRef sig ⟨S100, .i32⟩) (.of main_v8 : StableHlo.TRef sig ⟨S100, .i32⟩) maxsi,
    StableHlo.nullary main_c_2 (constantI S_ 32 0#32),
    StableHlo.unary main_c_2 main_v9 (broadcastInDim S100 ![] bcast_S_S100 : (⟨S_, .i32⟩ : BufTy).Contents (Elt F) → (⟨S100, .i32⟩ : BufTy).Contents (Elt F)),
    StableHlo.binary main_v8 main_v9 main_v10 (cmpi .slt : (⟨S100, .i32⟩ : BufTy).Contents (Elt F) → (⟨S100, .i32⟩ : BufTy).Contents (Elt F) → (⟨S100, .i1⟩ : BufTy).Contents (Elt F)),
    StableHlo.nullary main_c_3 (constantI S_ 32 45#32),
    StableHlo.unary main_c_3 main_v11 (broadcastInDim S100 ![] bcast_S_S100 : (⟨S_, .i32⟩ : BufTy).Contents (Elt F) → (⟨S100, .i32⟩ : BufTy).Contents (Elt F)),
    StableHlo.binary main_v8 main_v11 main_v12 (addi : (⟨S100, .i32⟩ : BufTy).Contents (Elt F) → (⟨S100, .i32⟩ : BufTy).Contents (Elt F) → (⟨S100, .i32⟩ : BufTy).Contents (Elt F)),
    StableHlo.ternary main_v10 main_v12 main_v8 main_v13 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v13 main_v14 (broadcastInDim S100x1 ![0] bcast_S100_S100x1_0 : (⟨S100, .i32⟩ : BufTy).Contents (Elt F) → (⟨S100x1, .i32⟩ : BufTy).Contents (Elt F)),
    StableHlo.nullary main_c_4 (constantI S_ 32 1#32),
    StableHlo.unary main_c_4 main_v15 (broadcastInDim S100 ![] bcast_S_S100 : (⟨S_, .i32⟩ : BufTy).Contents (Elt F) → (⟨S100, .i32⟩ : BufTy).Contents (Elt F)),
    StableHlo.ternary main_v7 main_v14 main_v15 main_v16 ((fun x i u => Host.scatter scatter_S45_S100x1_S100_n_0_0_1 IntOp.addi x i u) : (⟨S45, .i32⟩ : BufTy).Contents (Elt F) → (⟨S100x1, .i32⟩ : BufTy).Contents (Elt F) → (⟨S100, .i32⟩ : BufTy).Contents (Elt F) → (⟨S45, .i32⟩ : BufTy).Contents (Elt F)),
    StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v16 : StableHlo.TRef sig ⟨S45, .i32⟩) (.of main_call4_call0_v0 : StableHlo.TRef sig ⟨S_, .i32⟩) (.of main_v17 : StableHlo.TRef sig ⟨S45, .i32⟩) (fun x v => Host.reduceWindow IntOp.addi ![45] ![1] ![44] ![0] x v reduceWindows_S45_S45_w45s1p44_0 h_S_),
    StableHlo.nullary main_c_5 (constantI S_ 32 10#32),
    StableHlo.TRef.unary (.of main_c_5 : StableHlo.TRef sig ⟨S_, .i32⟩) (.of main_call5_v0 : StableHlo.TRef sig ⟨S45, .i32⟩) (broadcastInDim S45 ![] bcast_S_S45),
    StableHlo.TRef.binary (.of main_v17 : StableHlo.TRef sig ⟨S45, .i32⟩) (.of main_call5_v0 : StableHlo.TRef sig ⟨S45, .i32⟩) (.of main_call5_v1 : StableHlo.TRef sig ⟨S45, .i32⟩) Host.divsi,
    StableHlo.TRef.unary (.of main_v17 : StableHlo.TRef sig ⟨S45, .i32⟩) (.of main_call5_v2 : StableHlo.TRef sig ⟨S45, .i32⟩) signi,
    StableHlo.TRef.unary (.of main_c_5 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S45, .i32⟩) (broadcastInDim S45 ![] bcast_S_S45),
    StableHlo.TRef.binary (.of main_call5_v2 : StableHlo.TRef sig ⟨S45, .i32⟩) (.of main_call5_v4 : StableHlo.TRef sig ⟨S45, .i32⟩) (.of main_call5_v5 : StableHlo.TRef sig ⟨S45, .i1⟩) (cmpi .ne),
    StableHlo.TRef.unary (.of main_c_5 : StableHlo.TRef sig ⟨S_, .i32⟩) (.of main_call5_v6 : StableHlo.TRef sig ⟨S45, .i32⟩) (broadcastInDim S45 ![] bcast_S_S45),
    StableHlo.TRef.binary (.of main_v17 : StableHlo.TRef sig ⟨S45, .i32⟩) (.of main_call5_v6 : StableHlo.TRef sig ⟨S45, .i32⟩) (.of main_call5_v7 : StableHlo.TRef sig ⟨S45, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S45, .i32⟩) (broadcastInDim S45 ![] bcast_S_S45),
    StableHlo.TRef.binary (.of main_call5_v7 : StableHlo.TRef sig ⟨S45, .i32⟩) (.of main_call5_v8 : StableHlo.TRef sig ⟨S45, .i32⟩) (.of main_call5_v9 : StableHlo.TRef sig ⟨S45, .i1⟩) (cmpi .ne),
    StableHlo.TRef.binary (.of main_call5_v5 : StableHlo.TRef sig ⟨S45, .i1⟩) (.of main_call5_v9 : StableHlo.TRef sig ⟨S45, .i1⟩) (.of main_call5_v10 : StableHlo.TRef sig ⟨S45, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S45, .i32⟩) (broadcastInDim S45 ![] bcast_S_S45),
    StableHlo.TRef.binary (.of main_call5_v1 : StableHlo.TRef sig ⟨S45, .i32⟩) (.of main_call5_v11 : StableHlo.TRef sig ⟨S45, .i32⟩) (.of main_call5_v12 : StableHlo.TRef sig ⟨S45, .i32⟩) subi,
    StableHlo.TRef.ternary (.of main_call5_v10 : StableHlo.TRef sig ⟨S45, .i1⟩) (.of main_call5_v12 : StableHlo.TRef sig ⟨S45, .i32⟩) (.of main_call5_v1 : StableHlo.TRef sig ⟨S45, .i32⟩) (.of main_v18 : StableHlo.TRef sig ⟨S45, .i32⟩) select,
    StableHlo.nullary main_c_6 (constantI S_ 32 10#32),
    StableHlo.TRef.unary (.of main_c_6 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S45, .i32⟩) (broadcastInDim S45 ![] bcast_S_S45),
    StableHlo.TRef.binary (.of main_v18 : StableHlo.TRef sig ⟨S45, .i32⟩) (.of main_call6_v3 : StableHlo.TRef sig ⟨S45, .i32⟩) (.of main_call6_v4 : StableHlo.TRef sig ⟨S45, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S45, .i32⟩) (broadcastInDim S45 ![] bcast_S_S45),
    StableHlo.TRef.binary (.of main_call6_v4 : StableHlo.TRef sig ⟨S45, .i32⟩) (.of main_call6_v5 : StableHlo.TRef sig ⟨S45, .i32⟩) (.of main_call6_v6 : StableHlo.TRef sig ⟨S45, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S45, .i32⟩) (broadcastInDim S45 ![] bcast_S_S45),
    StableHlo.TRef.binary (.of main_call6_v4 : StableHlo.TRef sig ⟨S45, .i32⟩) (.of main_call6_v7 : StableHlo.TRef sig ⟨S45, .i32⟩) (.of main_call6_v8 : StableHlo.TRef sig ⟨S45, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S45, .i1⟩) (broadcastInDim S45 ![] bcast_S_S45),
    StableHlo.TRef.binary (.of main_call6_v8 : StableHlo.TRef sig ⟨S45, .i1⟩) (.of main_call6_v10 : StableHlo.TRef sig ⟨S45, .i1⟩) (.of main_call6_v11 : StableHlo.TRef sig ⟨S45, .i1⟩) (cmpi .ne),
    StableHlo.TRef.binary (.of main_call6_v11 : StableHlo.TRef sig ⟨S45, .i1⟩) (.of main_call6_v6 : StableHlo.TRef sig ⟨S45, .i1⟩) (.of main_call6_v12 : StableHlo.TRef sig ⟨S45, .i1⟩) andi,
    StableHlo.TRef.unary (.of main_call6_v2 : StableHlo.TRef sig ⟨S_, .i32⟩) (.of main_call6_v13 : StableHlo.TRef sig ⟨S45, .i32⟩) (broadcastInDim S45 ![] bcast_S_S45),
    StableHlo.TRef.binary (.of main_call6_v4 : StableHlo.TRef sig ⟨S45, .i32⟩) (.of main_call6_v13 : StableHlo.TRef sig ⟨S45, .i32⟩) (.of main_call6_v14 : StableHlo.TRef sig ⟨S45, .i32⟩) addi,
    StableHlo.TRef.ternary (.of main_call6_v12 : StableHlo.TRef sig ⟨S45, .i1⟩) (.of main_call6_v14 : StableHlo.TRef sig ⟨S45, .i32⟩) (.of main_call6_v4 : StableHlo.TRef sig ⟨S45, .i32⟩) (.of main_v19 : StableHlo.TRef sig ⟨S45, .i32⟩) select,
    StableHlo.nullary main_c_7 (constantI S_ 32 1#32),
    StableHlo.TRef.unary (.of main_c_7 : StableHlo.TRef sig ⟨S_, .i32⟩) (.of main_call7_v0 : StableHlo.TRef sig ⟨S45, .i32⟩) (broadcastInDim S45 ![] bcast_S_S45),
    StableHlo.TRef.binary (.of main_v17 : StableHlo.TRef sig ⟨S45, .i32⟩) (.of main_call7_v0 : StableHlo.TRef sig ⟨S45, .i32⟩) (.of main_call7_v1 : StableHlo.TRef sig ⟨S45, .i32⟩) Host.divsi,
    StableHlo.TRef.unary (.of main_v17 : StableHlo.TRef sig ⟨S45, .i32⟩) (.of main_call7_v2 : StableHlo.TRef sig ⟨S45, .i32⟩) signi,
    StableHlo.TRef.unary (.of main_c_7 : StableHlo.TRef sig ⟨S_, .i32⟩) (.of main_call7_v3 : StableHlo.TRef sig ⟨S_, .i32⟩) signi,
    StableHlo.TRef.unary (.of main_call7_v3 : StableHlo.TRef sig ⟨S_, .i32⟩) (.of main_call7_v4 : StableHlo.TRef sig ⟨S45, .i32⟩) (broadcastInDim S45 ![] bcast_S_S45),
    StableHlo.TRef.binary (.of main_call7_v2 : StableHlo.TRef sig ⟨S45, .i32⟩) (.of main_call7_v4 : StableHlo.TRef sig ⟨S45, .i32⟩) (.of main_call7_v5 : StableHlo.TRef sig ⟨S45, .i1⟩) (cmpi .ne),
    StableHlo.TRef.unary (.of main_c_7 : StableHlo.TRef sig ⟨S_, .i32⟩) (.of main_call7_v6 : StableHlo.TRef sig ⟨S45, .i32⟩) (broadcastInDim S45 ![] bcast_S_S45),
    StableHlo.TRef.binary (.of main_v17 : StableHlo.TRef sig ⟨S45, .i32⟩) (.of main_call7_v6 : StableHlo.TRef sig ⟨S45, .i32⟩) (.of main_call7_v7 : StableHlo.TRef sig ⟨S45, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v8 : StableHlo.TRef sig ⟨S45, .i32⟩) (broadcastInDim S45 ![] bcast_S_S45),
    StableHlo.TRef.binary (.of main_call7_v7 : StableHlo.TRef sig ⟨S45, .i32⟩) (.of main_call7_v8 : StableHlo.TRef sig ⟨S45, .i32⟩) (.of main_call7_v9 : StableHlo.TRef sig ⟨S45, .i1⟩) (cmpi .ne),
    StableHlo.TRef.binary (.of main_call7_v5 : StableHlo.TRef sig ⟨S45, .i1⟩) (.of main_call7_v9 : StableHlo.TRef sig ⟨S45, .i1⟩) (.of main_call7_v10 : StableHlo.TRef sig ⟨S45, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v11 : StableHlo.TRef sig ⟨S45, .i32⟩) (broadcastInDim S45 ![] bcast_S_S45),
    StableHlo.TRef.binary (.of main_call7_v1 : StableHlo.TRef sig ⟨S45, .i32⟩) (.of main_call7_v11 : StableHlo.TRef sig ⟨S45, .i32⟩) (.of main_call7_v12 : StableHlo.TRef sig ⟨S45, .i32⟩) subi,
    StableHlo.TRef.ternary (.of main_call7_v10 : StableHlo.TRef sig ⟨S45, .i1⟩) (.of main_call7_v12 : StableHlo.TRef sig ⟨S45, .i32⟩) (.of main_call7_v1 : StableHlo.TRef sig ⟨S45, .i32⟩) (.of main_v20 : StableHlo.TRef sig ⟨S45, .i32⟩) select,
    StableHlo.nullary main_c_8 (constantI S_ 32 10#32),
    StableHlo.TRef.unary (.of main_c_8 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary (.of main_call8_v2 : StableHlo.TRef sig ⟨S_, .i32⟩) (.of main_call8_v3 : StableHlo.TRef sig ⟨S45, .i32⟩) (broadcastInDim S45 ![] bcast_S_S45),
    StableHlo.TRef.binary (.of main_v20 : StableHlo.TRef sig ⟨S45, .i32⟩) (.of main_call8_v3 : StableHlo.TRef sig ⟨S45, .i32⟩) (.of main_call8_v4 : StableHlo.TRef sig ⟨S45, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S45, .i32⟩) (broadcastInDim S45 ![] bcast_S_S45),
    StableHlo.TRef.binary (.of main_call8_v4 : StableHlo.TRef sig ⟨S45, .i32⟩) (.of main_call8_v5 : StableHlo.TRef sig ⟨S45, .i32⟩) (.of main_call8_v6 : StableHlo.TRef sig ⟨S45, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S45, .i32⟩) (broadcastInDim S45 ![] bcast_S_S45),
    StableHlo.TRef.binary (.of main_call8_v4 : StableHlo.TRef sig ⟨S45, .i32⟩) (.of main_call8_v7 : StableHlo.TRef sig ⟨S45, .i32⟩) (.of main_call8_v8 : StableHlo.TRef sig ⟨S45, .i1⟩) (cmpi .slt),
    StableHlo.TRef.nullary (.of main_call8_c_3 : StableHlo.TRef sig ⟨S_, .i32⟩) (constantI S_ 32 0#32),
    StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S45, .i1⟩) (broadcastInDim S45 ![] bcast_S_S45),
    StableHlo.TRef.binary (.of main_call8_v8 : StableHlo.TRef sig ⟨S45, .i1⟩) (.of main_call8_v10 : StableHlo.TRef sig ⟨S45, .i1⟩) (.of main_call8_v11 : StableHlo.TRef sig ⟨S45, .i1⟩) (cmpi .ne),
    StableHlo.TRef.binary (.of main_call8_v11 : StableHlo.TRef sig ⟨S45, .i1⟩) (.of main_call8_v6 : StableHlo.TRef sig ⟨S45, .i1⟩) (.of main_call8_v12 : StableHlo.TRef sig ⟨S45, .i1⟩) andi,
    StableHlo.TRef.unary (.of main_call8_v2 : StableHlo.TRef sig ⟨S_, .i32⟩) (.of main_call8_v13 : StableHlo.TRef sig ⟨S45, .i32⟩) (broadcastInDim S45 ![] bcast_S_S45),
    StableHlo.TRef.binary (.of main_call8_v4 : StableHlo.TRef sig ⟨S45, .i32⟩) (.of main_call8_v13 : StableHlo.TRef sig ⟨S45, .i32⟩) (.of main_call8_v14 : StableHlo.TRef sig ⟨S45, .i32⟩) addi,
    StableHlo.TRef.ternary (.of main_call8_v12 : StableHlo.TRef sig ⟨S45, .i1⟩) (.of main_call8_v14 : StableHlo.TRef sig ⟨S45, .i32⟩) (.of main_call8_v4 : StableHlo.TRef sig ⟨S45, .i32⟩) (.of main_v21 : StableHlo.TRef sig ⟨S45, .i32⟩) select,
    StableHlo.nullary main_cst_9 (constant S_ .f32 0x00000000#32),
    StableHlo.unary main_cst_9 main_v22 (broadcastInDim S32x10x10 ![] bcast_S_S32x10x10 : (⟨S_, .f32⟩ : BufTy).Contents (Elt F) → (⟨S32x10x10, .f32⟩ : BufTy).Contents (Elt F)),
    StableHlo.nullary main_c_10 (constantI S_ 32 0#32),
    StableHlo.unary main_c_10 main_v23 (broadcastInDim S45 ![] bcast_S_S45 : (⟨S_, .i32⟩ : BufTy).Contents (Elt F) → (⟨S45, .i32⟩ : BufTy).Contents (Elt F)),
    StableHlo.binary main_v19 main_v23 main_v24 (cmpi .slt : (⟨S45, .i32⟩ : BufTy).Contents (Elt F) → (⟨S45, .i32⟩ : BufTy).Contents (Elt F) → (⟨S45, .i1⟩ : BufTy).Contents (Elt F)),
    StableHlo.nullary main_c_11 (constantI S_ 32 10#32),
    StableHlo.unary main_c_11 main_v25 (broadcastInDim S45 ![] bcast_S_S45 : (⟨S_, .i32⟩ : BufTy).Contents (Elt F) → (⟨S45, .i32⟩ : BufTy).Contents (Elt F)),
    StableHlo.binary main_v19 main_v25 main_v26 (addi : (⟨S45, .i32⟩ : BufTy).Contents (Elt F) → (⟨S45, .i32⟩ : BufTy).Contents (Elt F) → (⟨S45, .i32⟩ : BufTy).Contents (Elt F)),
    StableHlo.ternary main_v24 main_v26 main_v19 main_v27 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.nullary main_c_12 (constantI S_ 32 0#32),
    StableHlo.unary main_c_12 main_v28 (broadcastInDim S45 ![] bcast_S_S45 : (⟨S_, .i32⟩ : BufTy).Contents (Elt F) → (⟨S45, .i32⟩ : BufTy).Contents (Elt F)),
    StableHlo.binary main_v21 main_v28 main_v29 (cmpi .slt : (⟨S45, .i32⟩ : BufTy).Contents (Elt F) → (⟨S45, .i32⟩ : BufTy).Contents (Elt F) → (⟨S45, .i1⟩ : BufTy).Contents (Elt F)),
    StableHlo.nullary main_c_13 (constantI S_ 32 10#32),
    StableHlo.unary main_c_13 main_v30 (broadcastInDim S45 ![] bcast_S_S45 : (⟨S_, .i32⟩ : BufTy).Contents (Elt F) → (⟨S45, .i32⟩ : BufTy).Contents (Elt F)),
    StableHlo.binary main_v21 main_v30 main_v31 (addi : (⟨S45, .i32⟩ : BufTy).Contents (Elt F) → (⟨S45, .i32⟩ : BufTy).Contents (Elt F) → (⟨S45, .i32⟩ : BufTy).Contents (Elt F)),
    StableHlo.ternary main_v29 main_v31 main_v21 main_v32 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v27 main_v33 (broadcastInDim S45x1 ![0] bcast_S45_S45x1_0 : (⟨S45, .i32⟩ : BufTy).Contents (Elt F) → (⟨S45x1, .i32⟩ : BufTy).Contents (Elt F)),
    StableHlo.unary main_v32 main_v34 (broadcastInDim S45x1 ![0] bcast_S45_S45x1_0 : (⟨S45, .i32⟩ : BufTy).Contents (Elt F) → (⟨S45x1, .i32⟩ : BufTy).Contents (Elt F)),
    StableHlo.binary main_v33 main_v34 main_v35 ((fun a b => concatenate S45x2 1 [⟨S45x1, a⟩, ⟨S45x1, b⟩] concatenates_S45x1_S45x1_S45x2_d1) : (⟨S45x1, .i32⟩ : BufTy).Contents (Elt F) → (⟨S45x1, .i32⟩ : BufTy).Contents (Elt F) → (⟨S45x2, .i32⟩ : BufTy).Contents (Elt F)),
    StableHlo.ternary main_v22 main_v35 main_v1 main_v36 ((fun x i u => Host.scatter scatter_S32x10x10_S45x2_S32x45_0_12_12_1 (fun _ b => b) x i u) : (⟨S32x10x10, .f32⟩ : BufTy).Contents (Elt F) → (⟨S45x2, .i32⟩ : BufTy).Contents (Elt F) → (⟨S32x45, .f32⟩ : BufTy).Contents (Elt F) → (⟨S32x10x10, .f32⟩ : BufTy).Contents (Elt F)),
    StableHlo.unary main_v36 main_v37 ((transpose S32x10x10 [0, 2, 1] · transposes_S32x10x10_S32x10x10_0_2_1) : (⟨S32x10x10, .f32⟩ : BufTy).Contents (Elt F) → (⟨S32x10x10, .f32⟩ : BufTy).Contents (Elt F)),
    StableHlo.binary main_v36 main_v37 main_v38 (addf : (⟨S32x10x10, .f32⟩ : BufTy).Contents (Elt F) → (⟨S32x10x10, .f32⟩ : BufTy).Contents (Elt F) → (⟨S32x10x10, .f32⟩ : BufTy).Contents (Elt F)),
    StableHlo.nullary main_cst_14 (constant S_ .f32 0x3F800000#32),
    StableHlo.unary main_cst_14 main_v39 (broadcastInDim S2048 ![] bcast_S_S2048 : (⟨S_, .f32⟩ : BufTy).Contents (Elt F) → (⟨S2048, .f32⟩ : BufTy).Contents (Elt F)),
    StableHlo.nullary main_cst_15 (constant S_ .f32 0x00000000#32),
    StableHlo.unary main_cst_15 main_v40 (broadcastInDim S128 ![] bcast_S_S128 : (⟨S_, .f32⟩ : BufTy).Contents (Elt F) → (⟨S128, .f32⟩ : BufTy).Contents (Elt F)),
    StableHlo.unary main_arg1 main_v41 (broadcastInDim S2048x1 ![0] bcast_S2048_S2048x1_0 : (⟨S2048, .i32⟩ : BufTy).Contents (Elt F) → (⟨S2048x1, .i32⟩ : BufTy).Contents (Elt F)),
    StableHlo.ternary main_v40 main_v41 main_v39 main_v42 ((fun x i u => Host.scatterAdd scatter_S128_S2048x1_S2048_n_0_0_1 x i u) : (⟨S128, .f32⟩ : BufTy).Contents (Elt F) → (⟨S2048x1, .i32⟩ : BufTy).Contents (Elt F) → (⟨S2048, .f32⟩ : BufTy).Contents (Elt F) → (⟨S128, .f32⟩ : BufTy).Contents (Elt F)) ]
/-- Stretch 1 (12 operations), %43 … %52: the identity matrix, the all-ones start, and the first step's three products (adj·I, A·E, and their product). -/
abbrev ops1 : List (HloOp τ sig (Elt F)) :=
  [ StableHlo.nullary main_v43 (iotaInDim S2048x2048 32 0),
    StableHlo.nullary main_v44 (iotaInDim S2048x2048 32 1),
    StableHlo.nullary main_c_16 (constantI S_ 32 0#32),
    StableHlo.unary main_c_16 main_v45 (broadcastInDim S2048x2048 ![] bcast_S_S2048x2048 : (⟨S_, .i32⟩ : BufTy).Contents (Elt F) → (⟨S2048x2048, .i32⟩ : BufTy).Contents (Elt F)),
    StableHlo.binary main_v43 main_v45 main_v46 (addi : (⟨S2048x2048, .i32⟩ : BufTy).Contents (Elt F) → (⟨S2048x2048, .i32⟩ : BufTy).Contents (Elt F) → (⟨S2048x2048, .i32⟩ : BufTy).Contents (Elt F)),
    StableHlo.binary main_v46 main_v44 main_v47 (cmpi .eq : (⟨S2048x2048, .i32⟩ : BufTy).Contents (Elt F) → (⟨S2048x2048, .i32⟩ : BufTy).Contents (Elt F) → (⟨S2048x2048, .i1⟩ : BufTy).Contents (Elt F)),
    StableHlo.unary main_v47 main_v48 (uitofp .f32 : (⟨S2048x2048, .i1⟩ : BufTy).Contents (Elt F) → (⟨S2048x2048, .f32⟩ : BufTy).Contents (Elt F)),
    StableHlo.nullary main_cst_17 (constant S_ .f32 0x3F800000#32),
    StableHlo.unary main_cst_17 main_v49 (broadcastInDim S32x10x2048 ![] bcast_S_S32x10x2048 : (⟨S_, .f32⟩ : BufTy).Contents (Elt F) → (⟨S32x10x2048, .f32⟩ : BufTy).Contents (Elt F)),
    StableHlo.binary main_arg0 main_v48 main_v50 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.binary main_v38 main_v49 main_v51 ((fun l r => Host.dotGeneral dot_S32x10x10_S32x10x2048_S32x10x2048_2_1_1_2_0_0 none l r) : (⟨S32x10x10, .f32⟩ : BufTy).Contents (Elt F) → (⟨S32x10x2048, .f32⟩ : BufTy).Contents (Elt F) → (⟨S32x10x2048, .f32⟩ : BufTy).Contents (Elt F)),
    StableHlo.binary main_v51 main_v50 main_v52 ((fun l r => Host.dotGeneral dot_S32x10x2048_S2048x2048_S32x10x2048_2_0_01_1_n_n none l r) : (⟨S32x10x2048, .f32⟩ : BufTy).Contents (Elt F) → (⟨S2048x2048, .f32⟩ : BufTy).Contents (Elt F) → (⟨S32x10x2048, .f32⟩ : BufTy).Contents (Elt F)) ]
/-- Stretch 2 (10 operations), %53 … %60: the first step pooled: scatter-added over nodes into graphs, summed over a block's node axis, divided by the counts. -/
abbrev ops2 : List (HloOp τ sig (Elt F)) :=
  [ StableHlo.unary main_v52 main_v53 ((transpose S2048x32x10 [2, 0, 1] · transposes_S32x10x2048_S2048x32x10_2_0_1) : (⟨S32x10x2048, .f32⟩ : BufTy).Contents (Elt F) → (⟨S2048x32x10, .f32⟩ : BufTy).Contents (Elt F)),
    StableHlo.nullary main_cst_18 (constant S_ .f32 0x00000000#32),
    StableHlo.unary main_cst_18 main_v54 (broadcastInDim S128x32x10 ![] bcast_S_S128x32x10 : (⟨S_, .f32⟩ : BufTy).Contents (Elt F) → (⟨S128x32x10, .f32⟩ : BufTy).Contents (Elt F)),
    StableHlo.unary main_arg1 main_v55 (broadcastInDim S2048x1 ![0] bcast_S2048_S2048x1_0 : (⟨S2048, .i32⟩ : BufTy).Contents (Elt F) → (⟨S2048x1, .i32⟩ : BufTy).Contents (Elt F)),
    StableHlo.ternary main_v54 main_v55 main_v53 main_v56 ((fun x i u => Host.scatterAdd scatter_S128x32x10_S2048x1_S2048x32x10_12_0_0_1 x i u) : (⟨S128x32x10, .f32⟩ : BufTy).Contents (Elt F) → (⟨S2048x1, .i32⟩ : BufTy).Contents (Elt F) → (⟨S2048x32x10, .f32⟩ : BufTy).Contents (Elt F) → (⟨S128x32x10, .f32⟩ : BufTy).Contents (Elt F)),
    StableHlo.nullary main_cst_19 (constant S_ .f32 0x00000000#32),
    StableHlo.binary main_v56 main_cst_19 main_v57 ((fun x v => Host.reduceAdd x v reducesTo_S128x32x10_S128x32_d2 h_S_) : (⟨S128x32x10, .f32⟩ : BufTy).Contents (Elt F) → (⟨S_, .f32⟩ : BufTy).Contents (Elt F) → (⟨S128x32, .f32⟩ : BufTy).Contents (Elt F)),
    StableHlo.unary main_v42 main_v58 (broadcastInDim S128x1 ![0] bcast_S128_S128x1_0 : (⟨S128, .f32⟩ : BufTy).Contents (Elt F) → (⟨S128x1, .f32⟩ : BufTy).Contents (Elt F)),
    StableHlo.unary main_v58 main_v59 (broadcastInDim S128x32 ![0, 1] bcast_S128x1_S128x32_0_1 : (⟨S128x1, .f32⟩ : BufTy).Contents (Elt F) → (⟨S128x32, .f32⟩ : BufTy).Contents (Elt F)),
    StableHlo.binary main_v57 main_v59 main_v60 (Host.divf : (⟨S128x32, .f32⟩ : BufTy).Contents (Elt F) → (⟨S128x32, .f32⟩ : BufTy).Contents (Elt F) → (⟨S128x32, .f32⟩ : BufTy).Contents (Elt F)) ]
/-- Stretch 3 (3 operations), %61 … %63: the second step's three products. -/
abbrev ops3 : List (HloOp τ sig (Elt F)) :=
  [ StableHlo.binary main_arg0 main_v50 main_v61 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.binary main_v38 main_v51 main_v62 ((fun l r => Host.dotGeneral dot_S32x10x10_S32x10x2048_S32x10x2048_2_1_1_2_0_0 none l r) : (⟨S32x10x10, .f32⟩ : BufTy).Contents (Elt F) → (⟨S32x10x2048, .f32⟩ : BufTy).Contents (Elt F) → (⟨S32x10x2048, .f32⟩ : BufTy).Contents (Elt F)),
    StableHlo.binary main_v62 main_v61 main_v63 ((fun l r => Host.dotGeneral dot_S32x10x2048_S2048x2048_S32x10x2048_2_0_01_1_n_n none l r) : (⟨S32x10x2048, .f32⟩ : BufTy).Contents (Elt F) → (⟨S2048x2048, .f32⟩ : BufTy).Contents (Elt F) → (⟨S32x10x2048, .f32⟩ : BufTy).Contents (Elt F)) ]
/-- Stretch 4 (10 operations), %64 … %71: the second step pooled. -/
abbrev ops4 : List (HloOp τ sig (Elt F)) :=
  [ StableHlo.unary main_v63 main_v64 ((transpose S2048x32x10 [2, 0, 1] · transposes_S32x10x2048_S2048x32x10_2_0_1) : (⟨S32x10x2048, .f32⟩ : BufTy).Contents (Elt F) → (⟨S2048x32x10, .f32⟩ : BufTy).Contents (Elt F)),
    StableHlo.nullary main_cst_20 (constant S_ .f32 0x00000000#32),
    StableHlo.unary main_cst_20 main_v65 (broadcastInDim S128x32x10 ![] bcast_S_S128x32x10 : (⟨S_, .f32⟩ : BufTy).Contents (Elt F) → (⟨S128x32x10, .f32⟩ : BufTy).Contents (Elt F)),
    StableHlo.unary main_arg1 main_v66 (broadcastInDim S2048x1 ![0] bcast_S2048_S2048x1_0 : (⟨S2048, .i32⟩ : BufTy).Contents (Elt F) → (⟨S2048x1, .i32⟩ : BufTy).Contents (Elt F)),
    StableHlo.ternary main_v65 main_v66 main_v64 main_v67 ((fun x i u => Host.scatterAdd scatter_S128x32x10_S2048x1_S2048x32x10_12_0_0_1 x i u) : (⟨S128x32x10, .f32⟩ : BufTy).Contents (Elt F) → (⟨S2048x1, .i32⟩ : BufTy).Contents (Elt F) → (⟨S2048x32x10, .f32⟩ : BufTy).Contents (Elt F) → (⟨S128x32x10, .f32⟩ : BufTy).Contents (Elt F)),
    StableHlo.nullary main_cst_21 (constant S_ .f32 0x00000000#32),
    StableHlo.binary main_v67 main_cst_21 main_v68 ((fun x v => Host.reduceAdd x v reducesTo_S128x32x10_S128x32_d2 h_S_) : (⟨S128x32x10, .f32⟩ : BufTy).Contents (Elt F) → (⟨S_, .f32⟩ : BufTy).Contents (Elt F) → (⟨S128x32, .f32⟩ : BufTy).Contents (Elt F)),
    StableHlo.unary main_v42 main_v69 (broadcastInDim S128x1 ![0] bcast_S128_S128x1_0 : (⟨S128, .f32⟩ : BufTy).Contents (Elt F) → (⟨S128x1, .f32⟩ : BufTy).Contents (Elt F)),
    StableHlo.unary main_v69 main_v70 (broadcastInDim S128x32 ![0, 1] bcast_S128x1_S128x32_0_1 : (⟨S128x1, .f32⟩ : BufTy).Contents (Elt F) → (⟨S128x32, .f32⟩ : BufTy).Contents (Elt F)),
    StableHlo.binary main_v68 main_v70 main_v71 (Host.divf : (⟨S128x32, .f32⟩ : BufTy).Contents (Elt F) → (⟨S128x32, .f32⟩ : BufTy).Contents (Elt F) → (⟨S128x32, .f32⟩ : BufTy).Contents (Elt F)) ]
/-- Stretch 5 (3 operations), %72 … %74: the third step's three products. -/
abbrev ops5 : List (HloOp τ sig (Elt F)) :=
  [ StableHlo.binary main_arg0 main_v61 main_v72 ((fun l r => Host.dotGeneral dot_S2048x2048_S2048x2048_S2048x2048_1_0_0_1_n_n none l r) : (⟨S2048x2048, .f32⟩ : BufTy).Contents (Elt F) → (⟨S2048x2048, .f32⟩ : BufTy).Contents (Elt F) → (⟨S2048x2048, .f32⟩ : BufTy).Contents (Elt F)),
    StableHlo.binary main_v38 main_v62 main_v73 ((fun l r => Host.dotGeneral dot_S32x10x10_S32x10x2048_S32x10x2048_2_1_1_2_0_0 none l r) : (⟨S32x10x10, .f32⟩ : BufTy).Contents (Elt F) → (⟨S32x10x2048, .f32⟩ : BufTy).Contents (Elt F) → (⟨S32x10x2048, .f32⟩ : BufTy).Contents (Elt F)),
    StableHlo.binary main_v73 main_v72 main_v74 ((fun l r => Host.dotGeneral dot_S32x10x2048_S2048x2048_S32x10x2048_2_0_01_1_n_n none l r) : (⟨S32x10x2048, .f32⟩ : BufTy).Contents (Elt F) → (⟨S2048x2048, .f32⟩ : BufTy).Contents (Elt F) → (⟨S32x10x2048, .f32⟩ : BufTy).Contents (Elt F)) ]
/-- Stretch 6 (10 operations), %75 … %82: the third step pooled. -/
abbrev ops6 : List (HloOp τ sig (Elt F)) :=
  [ StableHlo.unary main_v74 main_v75 ((transpose S2048x32x10 [2, 0, 1] · transposes_S32x10x2048_S2048x32x10_2_0_1) : (⟨S32x10x2048, .f32⟩ : BufTy).Contents (Elt F) → (⟨S2048x32x10, .f32⟩ : BufTy).Contents (Elt F)),
    StableHlo.nullary main_cst_22 (constant S_ .f32 0x00000000#32),
    StableHlo.unary main_cst_22 main_v76 (broadcastInDim S128x32x10 ![] bcast_S_S128x32x10 : (⟨S_, .f32⟩ : BufTy).Contents (Elt F) → (⟨S128x32x10, .f32⟩ : BufTy).Contents (Elt F)),
    StableHlo.unary main_arg1 main_v77 (broadcastInDim S2048x1 ![0] bcast_S2048_S2048x1_0 : (⟨S2048, .i32⟩ : BufTy).Contents (Elt F) → (⟨S2048x1, .i32⟩ : BufTy).Contents (Elt F)),
    StableHlo.ternary main_v76 main_v77 main_v75 main_v78 ((fun x i u => Host.scatterAdd scatter_S128x32x10_S2048x1_S2048x32x10_12_0_0_1 x i u) : (⟨S128x32x10, .f32⟩ : BufTy).Contents (Elt F) → (⟨S2048x1, .i32⟩ : BufTy).Contents (Elt F) → (⟨S2048x32x10, .f32⟩ : BufTy).Contents (Elt F) → (⟨S128x32x10, .f32⟩ : BufTy).Contents (Elt F)),
    StableHlo.nullary main_cst_23 (constant S_ .f32 0x00000000#32),
    StableHlo.binary main_v78 main_cst_23 main_v79 ((fun x v => Host.reduceAdd x v reducesTo_S128x32x10_S128x32_d2 h_S_) : (⟨S128x32x10, .f32⟩ : BufTy).Contents (Elt F) → (⟨S_, .f32⟩ : BufTy).Contents (Elt F) → (⟨S128x32, .f32⟩ : BufTy).Contents (Elt F)),
    StableHlo.unary main_v42 main_v80 (broadcastInDim S128x1 ![0] bcast_S128_S128x1_0 : (⟨S128, .f32⟩ : BufTy).Contents (Elt F) → (⟨S128x1, .f32⟩ : BufTy).Contents (Elt F)),
    StableHlo.unary main_v80 main_v81 (broadcastInDim S128x32 ![0, 1] bcast_S128x1_S128x32_0_1 : (⟨S128x1, .f32⟩ : BufTy).Contents (Elt F) → (⟨S128x32, .f32⟩ : BufTy).Contents (Elt F)),
    StableHlo.binary main_v79 main_v81 main_v82 (Host.divf : (⟨S128x32, .f32⟩ : BufTy).Contents (Elt F) → (⟨S128x32, .f32⟩ : BufTy).Contents (Elt F) → (⟨S128x32, .f32⟩ : BufTy).Contents (Elt F)) ]
/-- Stretch 7 (56 operations), %83 … %111: the three pooled features concatenated, normalised over the batch (mean, variance, reciprocal square root), scaled and shifted, then the two dense layers with a relu between. -/
abbrev ops7 : List (HloOp τ sig (Elt F)) :=
  [ StableHlo.nary ![main_v60, main_v71, main_v82] main_v83 (fun u => concatenate S128x96 1 [⟨S128x32, u 0⟩, ⟨S128x32, u 1⟩, ⟨S128x32, u 2⟩] concatenates_S128x32_S128x32_S128x32_S128x96_d1),
    StableHlo.nullary main_cst_24 (constant S_ .f32 0x00000000#32),
    StableHlo.binary main_v83 main_cst_24 main_v84 ((fun x v => Host.reduceAdd x v reducesTo_S128x96_S96_d0 h_S_) : (⟨S128x96, .f32⟩ : BufTy).Contents (Elt F) → (⟨S_, .f32⟩ : BufTy).Contents (Elt F) → (⟨S96, .f32⟩ : BufTy).Contents (Elt F)),
    StableHlo.nullary main_cst_25 (constant S_ .f32 0x43000000#32),
    StableHlo.unary main_cst_25 main_v85 (broadcastInDim S96 ![] bcast_S_S96 : (⟨S_, .f32⟩ : BufTy).Contents (Elt F) → (⟨S96, .f32⟩ : BufTy).Contents (Elt F)),
    StableHlo.binary main_v84 main_v85 main_v86 (Host.divf : (⟨S96, .f32⟩ : BufTy).Contents (Elt F) → (⟨S96, .f32⟩ : BufTy).Contents (Elt F) → (⟨S96, .f32⟩ : BufTy).Contents (Elt F)),
    StableHlo.nullary main_c_26 (constantI S_ 32 0#32),
    StableHlo.TRef.nullary (.of main_call9_cst : StableHlo.TRef sig ⟨S_, .f32⟩) (constant S_ .f32 0x00000000#32),
    StableHlo.TRef.binary (.of main_v83 : StableHlo.TRef sig ⟨S128x96, .f32⟩) (.of main_call9_cst : StableHlo.TRef sig ⟨S_, .f32⟩) (.of main_call9_v0 : StableHlo.TRef sig ⟨S96, .f32⟩) (fun x v => Host.reduceAdd x v reducesTo_S128x96_S96_d0 h_S_),
    StableHlo.TRef.unary (.of main_call9_v0 : StableHlo.TRef sig ⟨S96, .f32⟩) (.of main_call9_v1 : StableHlo.TRef sig ⟨S1x96, .f32⟩) (broadcastInDim S1x96 ![1] bcast_S96_S1x96_1),
    StableHlo.TRef.nullary (.of main_call9_cst_0 : StableHlo.TRef sig ⟨S_, .f32⟩) (constant S_ .f32 0x43000000#32),
    StableHlo.TRef.unary (.of main_call9_cst_0 : StableHlo.TRef sig ⟨S_, .f32⟩) (.of main_call9_v2 : StableHlo.TRef sig ⟨S1x96, .f32⟩) (broadcastInDim S1x96 ![] bcast_S_S1x96),
    StableHlo.TRef.binary (.of main_call9_v1 : StableHlo.TRef sig ⟨S1x96, .f32⟩) (.of main_call9_v2 : StableHlo.TRef sig ⟨S1x96, .f32⟩) (.of main_call9_v3 : StableHlo.TRef sig ⟨S1x96, .f32⟩) Host.divf,
    StableHlo.TRef.unary (.of main_call9_v3 : StableHlo.TRef sig ⟨S1x96, .f32⟩) (.of main_call9_v4 : StableHlo.TRef sig ⟨S128x96, .f32⟩) (broadcastInDim S128x96 ![0, 1] bcast_S1x96_S128x96_0_1),
    StableHlo.TRef.binary (.of main_v83 : StableHlo.TRef sig ⟨S128x96, .f32⟩) (.of main_call9_v4 : StableHlo.TRef sig ⟨S128x96, .f32⟩) (.of main_call9_v5 : StableHlo.TRef sig ⟨S128x96, .f32⟩) subf,
    StableHlo.TRef.binary (.of main_call9_v5 : StableHlo.TRef sig ⟨S128x96, .f32⟩) (.of main_call9_v5 : StableHlo.TRef sig ⟨S128x96, .f32⟩) (.of main_call9_v6 : StableHlo.TRef sig ⟨S128x96, .f32⟩) mulf,
    StableHlo.TRef.unary (.of main_c_26 : StableHlo.TRef sig ⟨S_, .i32⟩) (.of main_call9_v7 : StableHlo.TRef sig ⟨S_, .f32⟩) (sitofp .f32),
    StableHlo.TRef.nullary (.of main_call9_cst_1 : StableHlo.TRef sig ⟨S_, .f32⟩) (constant S_ .f32 0x43000000#32),
    StableHlo.TRef.binary (.of main_call9_cst_1 : StableHlo.TRef sig ⟨S_, .f32⟩) (.of main_call9_v7 : StableHlo.TRef sig ⟨S_, .f32⟩) (.of main_call9_v8 : StableHlo.TRef sig ⟨S_, .f32⟩) subf,
    StableHlo.TRef.nullary (.of main_call9_cst_2 : StableHlo.TRef sig ⟨S_, .f32⟩) (constant S_ .f32 0x00000000#32),
    StableHlo.TRef.binary (.of main_call9_v6 : StableHlo.TRef sig ⟨S128x96, .f32⟩) (.of main_call9_cst_2 : StableHlo.TRef sig ⟨S_, .f32⟩) (.of main_call9_v9 : StableHlo.TRef sig ⟨S96, .f32⟩) (fun x v => Host.reduceAdd x v reducesTo_S128x96_S96_d0 h_S_),
    StableHlo.TRef.unary (.of main_call9_v8 : StableHlo.TRef sig ⟨S_, .f32⟩) (.of main_call9_v10 : StableHlo.TRef sig ⟨S96, .f32⟩) (broadcastInDim S96 ![] bcast_S_S96),
    StableHlo.TRef.binary (.of main_call9_v9 : StableHlo.TRef sig ⟨S96, .f32⟩) (.of main_call9_v10 : StableHlo.TRef sig ⟨S96, .f32⟩) (.of main_call9_v11 : StableHlo.TRef sig ⟨S96, .f32⟩) Host.divf,
    StableHlo.TRef.nullary (.of main_call9_cst_3 : StableHlo.TRef sig ⟨S_, .f32⟩) (constant S_ .f32 0x00000000#32),
    StableHlo.TRef.binary (.of main_call9_v8 : StableHlo.TRef sig ⟨S_, .f32⟩) (.of main_call9_cst_3 : StableHlo.TRef sig ⟨S_, .f32⟩) (.of main_call9_v12 : StableHlo.TRef sig ⟨S_, .i1⟩) (cmpf .ogt),
    StableHlo.TRef.nullary (.of main_call9_cst_4 : StableHlo.TRef sig ⟨S_, .f32⟩) (constant S_ .f32 0x7FC00000#32),
    StableHlo.TRef.unary (.of main_call9_cst_4 : StableHlo.TRef sig ⟨S_, .f32⟩) (.of main_call9_call0_v0 : StableHlo.TRef sig ⟨S_, .f32⟩) id,
    StableHlo.TRef.unary (.of main_call9_call0_v0 : StableHlo.TRef sig ⟨S_, .f32⟩) (.of main_call9_call0_v1 : StableHlo.TRef sig ⟨S96, .f32⟩) (broadcastInDim S96 ![] bcast_S_S96),
    StableHlo.TRef.ternary (.of main_call9_v12 : StableHlo.TRef sig ⟨S_, .i1⟩) (.of main_call9_v11 : StableHlo.TRef sig ⟨S96, .f32⟩) (.of main_call9_call0_v1 : StableHlo.TRef sig ⟨S96, .f32⟩) (.of main_v87 : StableHlo.TRef sig ⟨S96, .f32⟩) (fun p a b => select (broadcastInDim S96 ![] bcast_S_S96 p) a b),
    StableHlo.unary main_v86 main_v88 (broadcastInDim S1x96 ![1] bcast_S96_S1x96_1 : (⟨S96, .f32⟩ : BufTy).Contents (Elt F) → (⟨S1x96, .f32⟩ : BufTy).Contents (Elt F)),
    StableHlo.unary main_v88 main_v89 (broadcastInDim S128x96 ![0, 1] bcast_S1x96_S128x96_0_1 : (⟨S1x96, .f32⟩ : BufTy).Contents (Elt F) → (⟨S128x96, .f32⟩ : BufTy).Contents (Elt F)),
    StableHlo.binary main_v83 main_v89 main_v90 (subf : (⟨S128x96, .f32⟩ : BufTy).Contents (Elt F) → (⟨S128x96, .f32⟩ : BufTy).Contents (Elt F) → (⟨S128x96, .f32⟩ : BufTy).Contents (Elt F)),
    StableHlo.unary main_arg3 main_v91 (broadcastInDim S1x96 ![1] bcast_S96_S1x96_1 : (⟨S96, .f32⟩ : BufTy).Contents (Elt F) → (⟨S1x96, .f32⟩ : BufTy).Contents (Elt F)),
    StableHlo.unary main_v91 main_v92 (broadcastInDim S128x96 ![0, 1] bcast_S1x96_S128x96_0_1 : (⟨S1x96, .f32⟩ : BufTy).Contents (Elt F) → (⟨S128x96, .f32⟩ : BufTy).Contents (Elt F)),
    StableHlo.binary main_v92 main_v90 main_v93 (mulf : (⟨S128x96, .f32⟩ : BufTy).Contents (Elt F) → (⟨S128x96, .f32⟩ : BufTy).Contents (Elt F) → (⟨S128x96, .f32⟩ : BufTy).Contents (Elt F)),
    StableHlo.nullary main_cst_27 (constant S_ .f32 0x3727C5AC#32),
    StableHlo.unary main_cst_27 main_v94 (broadcastInDim S96 ![] bcast_S_S96 : (⟨S_, .f32⟩ : BufTy).Contents (Elt F) → (⟨S96, .f32⟩ : BufTy).Contents (Elt F)),
    StableHlo.binary main_v87 main_v94 main_v95 (addf : (⟨S96, .f32⟩ : BufTy).Contents (Elt F) → (⟨S96, .f32⟩ : BufTy).Contents (Elt F) → (⟨S96, .f32⟩ : BufTy).Contents (Elt F)),
    StableHlo.unary main_v95 main_v96 (Host.rsqrt : (⟨S96, .f32⟩ : BufTy).Contents (Elt F) → (⟨S96, .f32⟩ : BufTy).Contents (Elt F)),
    StableHlo.unary main_v96 main_v97 (broadcastInDim S1x96 ![1] bcast_S96_S1x96_1 : (⟨S96, .f32⟩ : BufTy).Contents (Elt F) → (⟨S1x96, .f32⟩ : BufTy).Contents (Elt F)),
    StableHlo.unary main_v97 main_v98 (broadcastInDim S128x96 ![0, 1] bcast_S1x96_S128x96_0_1 : (⟨S1x96, .f32⟩ : BufTy).Contents (Elt F) → (⟨S128x96, .f32⟩ : BufTy).Contents (Elt F)),
    StableHlo.binary main_v93 main_v98 main_v99 (mulf : (⟨S128x96, .f32⟩ : BufTy).Contents (Elt F) → (⟨S128x96, .f32⟩ : BufTy).Contents (Elt F) → (⟨S128x96, .f32⟩ : BufTy).Contents (Elt F)),
    StableHlo.unary main_arg4 main_v100 (broadcastInDim S1x96 ![1] bcast_S96_S1x96_1 : (⟨S96, .f32⟩ : BufTy).Contents (Elt F) → (⟨S1x96, .f32⟩ : BufTy).Contents (Elt F)),
    StableHlo.unary main_v100 main_v101 (broadcastInDim S128x96 ![0, 1] bcast_S1x96_S128x96_0_1 : (⟨S1x96, .f32⟩ : BufTy).Contents (Elt F) → (⟨S128x96, .f32⟩ : BufTy).Contents (Elt F)),
    StableHlo.binary main_v99 main_v101 main_v102 (addf : (⟨S128x96, .f32⟩ : BufTy).Contents (Elt F) → (⟨S128x96, .f32⟩ : BufTy).Contents (Elt F) → (⟨S128x96, .f32⟩ : BufTy).Contents (Elt F)),
    StableHlo.binary main_v102 main_arg5 main_v103 ((fun l r => Host.dotGeneral dot_S128x96_S96x128_S128x128_1_0_0_1_n_n none l r) : (⟨S128x96, .f32⟩ : BufTy).Contents (Elt F) → (⟨S96x128, .f32⟩ : BufTy).Contents (Elt F) → (⟨S128x128, .f32⟩ : BufTy).Contents (Elt F)),
    StableHlo.unary main_arg6 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S128x128 ![0, 1] bcast_S1x128_S128x128_0_1 : (⟨S1x128, .f32⟩ : BufTy).Contents (Elt F) → (⟨S128x128, .f32⟩ : BufTy).Contents (Elt F)),
    StableHlo.binary main_v103 main_v105 main_v106 (addf : (⟨S128x128, .f32⟩ : BufTy).Contents (Elt F) → (⟨S128x128, .f32⟩ : BufTy).Contents (Elt F) → (⟨S128x128, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S128x128, .f32⟩) (broadcastInDim S128x128 ![] bcast_S_S128x128),
    StableHlo.TRef.binary (.of main_v106 : StableHlo.TRef sig ⟨S128x128, .f32⟩) (.of main_call10_v0 : StableHlo.TRef sig ⟨S128x128, .f32⟩) (.of main_v107 : StableHlo.TRef sig ⟨S128x128, .f32⟩) maximumf,
    StableHlo.binary main_v107 main_arg7 main_v108 ((fun l r => Host.dotGeneral dot_S128x128_S128x2_S128x2_1_0_0_1_n_n none l r) : (⟨S128x128, .f32⟩ : BufTy).Contents (Elt F) → (⟨S128x2, .f32⟩ : BufTy).Contents (Elt F) → (⟨S128x2, .f32⟩ : BufTy).Contents (Elt F)),
    StableHlo.unary main_arg8 main_v109 (broadcastInDim S1x2 ![1] bcast_S2_S1x2_1 : (⟨S2, .f32⟩ : BufTy).Contents (Elt F) → (⟨S1x2, .f32⟩ : BufTy).Contents (Elt F)),
    StableHlo.unary main_v109 main_v110 (broadcastInDim S128x2 ![0, 1] bcast_S1x2_S128x2_0_1 : (⟨S1x2, .f32⟩ : BufTy).Contents (Elt F) → (⟨S128x2, .f32⟩ : BufTy).Contents (Elt F)),
    StableHlo.binary main_v108 main_v110 main_v111 (addf : (⟨S128x2, .f32⟩ : BufTy).Contents (Elt F) → (⟨S128x2, .f32⟩ : BufTy).Contents (Elt F) → (⟨S128x2, .f32⟩ : BufTy).Contents (Elt F)) ]

/-- All 253 operations of the reference, in order. -/
abbrev ops : List (HloOp τ sig (Elt F)) := ops0 ++ (ops1 ++ (ops2 ++ (ops3 ++ (ops4 ++ (ops5 ++ (ops6 ++ ops7))))))

/-! ## What the operations touch, determine and write -/

/-- An operation that writes the one reference `y`, a member of the list `W`, writes within `W`. -/
theorem writes_sub_of_mem {W : List (Ref sig .tc)} {op : HloOp τ sig (Elt F)} (y : Ref sig .tc)
    (h : op.writes = {Proc.devRef .tc y}) (hy : y ∈ W) : op.writes ⊆ (W.map (Proc.devRef (τ := τ) .tc)).toFinset := by
  rw [h]; exact Finset.singleton_subset_iff.2 (List.mem_toFinset.2 (List.mem_map_of_mem hy))

/-- Each operation of stretch 0 touches TensorCore references only. -/
theorem ops0_sub : (ops0 : List (HloOp τ sig (Elt F))).Forall fun op => op.bufs ⊆ tcRefs τ sig :=
  ⟨reshape_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub .., nullary_bufs_sub .., unary_bufs_sub .., nullary_bufs_sub .., unary_bufs_sub .., unary_bufs_sub .., ternary_bufs_sub ..⟩
/-- Each operation of stretch 0 determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references stretch 0 writes, in order. -/
abbrev W0 : List (Ref sig .tc) :=
  [main_v0, main_call0_cst, main_call0_v0, main_v1, main_cst, main_v2, main_call1_v0, main_call1_c, main_call1_v1, main_call1_v2, main_call1_v3, main_call1_v4, main_call1_cst, main_call1_v5, main_v3, main_cst_0, main_v4, main_v5, main_call2_v0, main_call2_v1, main_call2_call0_c, main_call2_call0_v0, main_v6, main_c, main_v7, main_c_1, main_call3_v0, main_call3_v1, main_v8, main_c_2, main_v9, main_v10, main_c_3, main_v11, main_v12, main_v13, main_v14, main_c_4, main_v15, main_v16, main_call4_call0_c, main_call4_call0_v0, main_v17, main_c_5, main_call5_v0, main_call5_v1, main_call5_v2, main_call5_v3, main_call5_v4, main_call5_v5, main_call5_v6, main_call5_v7, main_call5_c, main_call5_v8, main_call5_v9, main_call5_v10, main_call5_c_0, main_call5_v11, main_call5_v12, main_v18, main_c_6, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v19, main_c_7, main_call7_v0, main_call7_v1, main_call7_v2, main_call7_v3, main_call7_v4, main_call7_v5, main_call7_v6, main_call7_v7, main_call7_c, main_call7_v8, main_call7_v9, main_call7_v10, main_call7_c_0, main_call7_v11, main_call7_v12, main_v20, main_c_8, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v21, main_cst_9, main_v22, main_c_10, main_v23, main_v24, main_c_11, main_v25, main_v26, main_v27, main_c_12, main_v28, main_v29, main_c_13, main_v30, main_v31, main_v32, main_v33, main_v34, main_v35, main_v36, main_v37, main_v38, main_cst_14, main_v39, main_cst_15, main_v40, main_v41, main_v42]
theorem ops0_writes : (ops0 : List (HloOp τ sig (Elt F))).Forall fun op => op.writes ⊆ (W0.map (Proc.devRef (τ := τ) .tc)).toFinset :=
  ⟨writes_sub_of_mem main_v0 rfl (by decide),
   writes_sub_of_mem main_call0_cst rfl (by decide),
   writes_sub_of_mem main_call0_v0 rfl (by decide),
   writes_sub_of_mem main_v1 rfl (by decide),
   writes_sub_of_mem main_cst rfl (by decide),
   writes_sub_of_mem main_v2 rfl (by decide),
   writes_sub_of_mem main_call1_v0 rfl (by decide),
   writes_sub_of_mem main_call1_c rfl (by decide),
   writes_sub_of_mem main_call1_v1 rfl (by decide),
   writes_sub_of_mem main_call1_v2 rfl (by decide),
   writes_sub_of_mem main_call1_v3 rfl (by decide),
   writes_sub_of_mem main_call1_v4 rfl (by decide),
   writes_sub_of_mem main_call1_cst rfl (by decide),
   writes_sub_of_mem main_call1_v5 rfl (by decide),
   writes_sub_of_mem main_v3 rfl (by decide),
   writes_sub_of_mem main_cst_0 rfl (by decide),
   writes_sub_of_mem main_v4 rfl (by decide),
   writes_sub_of_mem main_v5 rfl (by decide),
   writes_sub_of_mem main_call2_v0 rfl (by decide),
   writes_sub_of_mem main_call2_v1 rfl (by decide),
   writes_sub_of_mem main_call2_call0_c rfl (by decide),
   writes_sub_of_mem main_call2_call0_v0 rfl (by decide),
   writes_sub_of_mem main_v6 rfl (by decide),
   writes_sub_of_mem main_c rfl (by decide),
   writes_sub_of_mem main_v7 rfl (by decide),
   writes_sub_of_mem main_c_1 rfl (by decide),
   writes_sub_of_mem main_call3_v0 rfl (by decide),
   writes_sub_of_mem main_call3_v1 rfl (by decide),
   writes_sub_of_mem main_v8 rfl (by decide),
   writes_sub_of_mem main_c_2 rfl (by decide),
   writes_sub_of_mem main_v9 rfl (by decide),
   writes_sub_of_mem main_v10 rfl (by decide),
   writes_sub_of_mem main_c_3 rfl (by decide),
   writes_sub_of_mem main_v11 rfl (by decide),
   writes_sub_of_mem main_v12 rfl (by decide),
   writes_sub_of_mem main_v13 rfl (by decide),
   writes_sub_of_mem main_v14 rfl (by decide),
   writes_sub_of_mem main_c_4 rfl (by decide),
   writes_sub_of_mem main_v15 rfl (by decide),
   writes_sub_of_mem main_v16 rfl (by decide),
   writes_sub_of_mem main_call4_call0_c rfl (by decide),
   writes_sub_of_mem main_call4_call0_v0 rfl (by decide),
   writes_sub_of_mem main_v17 rfl (by decide),
   writes_sub_of_mem main_c_5 rfl (by decide),
   writes_sub_of_mem main_call5_v0 rfl (by decide),
   writes_sub_of_mem main_call5_v1 rfl (by decide),
   writes_sub_of_mem main_call5_v2 rfl (by decide),
   writes_sub_of_mem main_call5_v3 rfl (by decide),
   writes_sub_of_mem main_call5_v4 rfl (by decide),
   writes_sub_of_mem main_call5_v5 rfl (by decide),
   writes_sub_of_mem main_call5_v6 rfl (by decide),
   writes_sub_of_mem main_call5_v7 rfl (by decide),
   writes_sub_of_mem main_call5_c rfl (by decide),
   writes_sub_of_mem main_call5_v8 rfl (by decide),
   writes_sub_of_mem main_call5_v9 rfl (by decide),
   writes_sub_of_mem main_call5_v10 rfl (by decide),
   writes_sub_of_mem main_call5_c_0 rfl (by decide),
   writes_sub_of_mem main_call5_v11 rfl (by decide),
   writes_sub_of_mem main_call5_v12 rfl (by decide),
   writes_sub_of_mem main_v18 rfl (by decide),
   writes_sub_of_mem main_c_6 rfl (by decide),
   writes_sub_of_mem main_call6_v0 rfl (by decide),
   writes_sub_of_mem main_call6_c rfl (by decide),
   writes_sub_of_mem main_call6_v1 rfl (by decide),
   writes_sub_of_mem main_call6_c_0 rfl (by decide),
   writes_sub_of_mem main_call6_v2 rfl (by decide),
   writes_sub_of_mem main_call6_v3 rfl (by decide),
   writes_sub_of_mem main_call6_v4 rfl (by decide),
   writes_sub_of_mem main_call6_c_1 rfl (by decide),
   writes_sub_of_mem main_call6_v5 rfl (by decide),
   writes_sub_of_mem main_call6_v6 rfl (by decide),
   writes_sub_of_mem main_call6_c_2 rfl (by decide),
   writes_sub_of_mem main_call6_v7 rfl (by decide),
   writes_sub_of_mem main_call6_v8 rfl (by decide),
   writes_sub_of_mem main_call6_c_3 rfl (by decide),
   writes_sub_of_mem main_call6_v9 rfl (by decide),
   writes_sub_of_mem main_call6_v10 rfl (by decide),
   writes_sub_of_mem main_call6_v11 rfl (by decide),
   writes_sub_of_mem main_call6_v12 rfl (by decide),
   writes_sub_of_mem main_call6_v13 rfl (by decide),
   writes_sub_of_mem main_call6_v14 rfl (by decide),
   writes_sub_of_mem main_v19 rfl (by decide),
   writes_sub_of_mem main_c_7 rfl (by decide),
   writes_sub_of_mem main_call7_v0 rfl (by decide),
   writes_sub_of_mem main_call7_v1 rfl (by decide),
   writes_sub_of_mem main_call7_v2 rfl (by decide),
   writes_sub_of_mem main_call7_v3 rfl (by decide),
   writes_sub_of_mem main_call7_v4 rfl (by decide),
   writes_sub_of_mem main_call7_v5 rfl (by decide),
   writes_sub_of_mem main_call7_v6 rfl (by decide),
   writes_sub_of_mem main_call7_v7 rfl (by decide),
   writes_sub_of_mem main_call7_c rfl (by decide),
   writes_sub_of_mem main_call7_v8 rfl (by decide),
   writes_sub_of_mem main_call7_v9 rfl (by decide),
   writes_sub_of_mem main_call7_v10 rfl (by decide),
   writes_sub_of_mem main_call7_c_0 rfl (by decide),
   writes_sub_of_mem main_call7_v11 rfl (by decide),
   writes_sub_of_mem main_call7_v12 rfl (by decide),
   writes_sub_of_mem main_v20 rfl (by decide),
   writes_sub_of_mem main_c_8 rfl (by decide),
   writes_sub_of_mem main_call8_v0 rfl (by decide),
   writes_sub_of_mem main_call8_c rfl (by decide),
   writes_sub_of_mem main_call8_v1 rfl (by decide),
   writes_sub_of_mem main_call8_c_0 rfl (by decide),
   writes_sub_of_mem main_call8_v2 rfl (by decide),
   writes_sub_of_mem main_call8_v3 rfl (by decide),
   writes_sub_of_mem main_call8_v4 rfl (by decide),
   writes_sub_of_mem main_call8_c_1 rfl (by decide),
   writes_sub_of_mem main_call8_v5 rfl (by decide),
   writes_sub_of_mem main_call8_v6 rfl (by decide),
   writes_sub_of_mem main_call8_c_2 rfl (by decide),
   writes_sub_of_mem main_call8_v7 rfl (by decide),
   writes_sub_of_mem main_call8_v8 rfl (by decide),
   writes_sub_of_mem main_call8_c_3 rfl (by decide),
   writes_sub_of_mem main_call8_v9 rfl (by decide),
   writes_sub_of_mem main_call8_v10 rfl (by decide),
   writes_sub_of_mem main_call8_v11 rfl (by decide),
   writes_sub_of_mem main_call8_v12 rfl (by decide),
   writes_sub_of_mem main_call8_v13 rfl (by decide),
   writes_sub_of_mem main_call8_v14 rfl (by decide),
   writes_sub_of_mem main_v21 rfl (by decide),
   writes_sub_of_mem main_cst_9 rfl (by decide),
   writes_sub_of_mem main_v22 rfl (by decide),
   writes_sub_of_mem main_c_10 rfl (by decide),
   writes_sub_of_mem main_v23 rfl (by decide),
   writes_sub_of_mem main_v24 rfl (by decide),
   writes_sub_of_mem main_c_11 rfl (by decide),
   writes_sub_of_mem main_v25 rfl (by decide),
   writes_sub_of_mem main_v26 rfl (by decide),
   writes_sub_of_mem main_v27 rfl (by decide),
   writes_sub_of_mem main_c_12 rfl (by decide),
   writes_sub_of_mem main_v28 rfl (by decide),
   writes_sub_of_mem main_v29 rfl (by decide),
   writes_sub_of_mem main_c_13 rfl (by decide),
   writes_sub_of_mem main_v30 rfl (by decide),
   writes_sub_of_mem main_v31 rfl (by decide),
   writes_sub_of_mem main_v32 rfl (by decide),
   writes_sub_of_mem main_v33 rfl (by decide),
   writes_sub_of_mem main_v34 rfl (by decide),
   writes_sub_of_mem main_v35 rfl (by decide),
   writes_sub_of_mem main_v36 rfl (by decide),
   writes_sub_of_mem main_v37 rfl (by decide),
   writes_sub_of_mem main_v38 rfl (by decide),
   writes_sub_of_mem main_cst_14 rfl (by decide),
   writes_sub_of_mem main_v39 rfl (by decide),
   writes_sub_of_mem main_cst_15 rfl (by decide),
   writes_sub_of_mem main_v40 rfl (by decide),
   writes_sub_of_mem main_v41 rfl (by decide),
   writes_sub_of_mem main_v42 rfl (by decide)⟩
/-- A reference stretch 0 does not write keeps its contents across it. -/
theorem kept0 {r : Ref sig .tc} (hr : r ∉ W0) (V : Valuation τ sig (Elt F)) :
    after ops0 V (Proc.devRef .tc r) = V (Proc.devRef .tc r) := after_of_writes_sub ops0 V ops0_writes hr

/-- Each operation of stretch 1 touches TensorCore references only. -/
theorem ops1_sub : (ops1 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., binary_bufs_sub ..⟩
/-- Each operation of stretch 1 determines its results. -/
theorem ops1_fresh : (ops1 : List (HloOp τ sig (Elt F))).Forall fun op => op.fresh = ∅ :=
  ⟨rfl, rfl, rfl, rfl, rfl, rfl, rfl, rfl, rfl, rfl, rfl, rfl⟩
/-- The references stretch 1 writes, in order. -/
abbrev W1 : List (Ref sig .tc) :=
  [main_v43, main_v44, main_c_16, main_v45, main_v46, main_v47, main_v48, main_cst_17, main_v49, main_v50, main_v51, main_v52]
theorem ops1_writes : (ops1 : List (HloOp τ sig (Elt F))).Forall fun op => op.writes ⊆ (W1.map (Proc.devRef (τ := τ) .tc)).toFinset :=
  ⟨writes_sub_of_mem main_v43 rfl (by decide),
   writes_sub_of_mem main_v44 rfl (by decide),
   writes_sub_of_mem main_c_16 rfl (by decide),
   writes_sub_of_mem main_v45 rfl (by decide),
   writes_sub_of_mem main_v46 rfl (by decide),
   writes_sub_of_mem main_v47 rfl (by decide),
   writes_sub_of_mem main_v48 rfl (by decide),
   writes_sub_of_mem main_cst_17 rfl (by decide),
   writes_sub_of_mem main_v49 rfl (by decide),
   writes_sub_of_mem main_v50 rfl (by decide),
   writes_sub_of_mem main_v51 rfl (by decide),
   writes_sub_of_mem main_v52 rfl (by decide)⟩
/-- A reference stretch 1 does not write keeps its contents across it. -/
theorem kept1 {r : Ref sig .tc} (hr : r ∉ W1) (V : Valuation τ sig (Elt F)) :
    after ops1 V (Proc.devRef .tc r) = V (Proc.devRef .tc r) := after_of_writes_sub ops1 V ops1_writes hr

/-- Each operation of stretch 2 touches TensorCore references only. -/
theorem ops2_sub : (ops2 : List (HloOp τ sig (Elt F))).Forall fun op => op.bufs ⊆ tcRefs τ sig :=
  ⟨unary_bufs_sub .., nullary_bufs_sub .., unary_bufs_sub .., unary_bufs_sub .., ternary_bufs_sub .., nullary_bufs_sub .., binary_bufs_sub .., unary_bufs_sub .., unary_bufs_sub .., binary_bufs_sub ..⟩
/-- Each operation of stretch 2 determines its results. -/
theorem ops2_fresh : (ops2 : List (HloOp τ sig (Elt F))).Forall fun op => op.fresh = ∅ :=
  ⟨rfl, rfl, rfl, rfl, rfl, rfl, rfl, rfl, rfl, rfl⟩
/-- The references stretch 2 writes, in order. -/
abbrev W2 : List (Ref sig .tc) :=
  [main_v53, main_cst_18, main_v54, main_v55, main_v56, main_cst_19, main_v57, main_v58, main_v59, main_v60]
theorem ops2_writes : (ops2 : List (HloOp τ sig (Elt F))).Forall fun op => op.writes ⊆ (W2.map (Proc.devRef (τ := τ) .tc)).toFinset :=
  ⟨writes_sub_of_mem main_v53 rfl (by decide),
   writes_sub_of_mem main_cst_18 rfl (by decide),
   writes_sub_of_mem main_v54 rfl (by decide),
   writes_sub_of_mem main_v55 rfl (by decide),
   writes_sub_of_mem main_v56 rfl (by decide),
   writes_sub_of_mem main_cst_19 rfl (by decide),
   writes_sub_of_mem main_v57 rfl (by decide),
   writes_sub_of_mem main_v58 rfl (by decide),
   writes_sub_of_mem main_v59 rfl (by decide),
   writes_sub_of_mem main_v60 rfl (by decide)⟩
/-- A reference stretch 2 does not write keeps its contents across it. -/
theorem kept2 {r : Ref sig .tc} (hr : r ∉ W2) (V : Valuation τ sig (Elt F)) :
    after ops2 V (Proc.devRef .tc r) = V (Proc.devRef .tc r) := after_of_writes_sub ops2 V ops2_writes hr

/-- Each operation of stretch 3 touches TensorCore references only. -/
theorem ops3_sub : (ops3 : List (HloOp τ sig (Elt F))).Forall fun op => op.bufs ⊆ tcRefs τ sig :=
  ⟨binary_bufs_sub .., binary_bufs_sub .., binary_bufs_sub ..⟩
/-- Each operation of stretch 3 determines its results. -/
theorem ops3_fresh : (ops3 : List (HloOp τ sig (Elt F))).Forall fun op => op.fresh = ∅ :=
  ⟨rfl, rfl, rfl⟩
/-- The references stretch 3 writes, in order. -/
abbrev W3 : List (Ref sig .tc) :=
  [main_v61, main_v62, main_v63]
theorem ops3_writes : (ops3 : List (HloOp τ sig (Elt F))).Forall fun op => op.writes ⊆ (W3.map (Proc.devRef (τ := τ) .tc)).toFinset :=
  ⟨writes_sub_of_mem main_v61 rfl (by decide),
   writes_sub_of_mem main_v62 rfl (by decide),
   writes_sub_of_mem main_v63 rfl (by decide)⟩
/-- A reference stretch 3 does not write keeps its contents across it. -/
theorem kept3 {r : Ref sig .tc} (hr : r ∉ W3) (V : Valuation τ sig (Elt F)) :
    after ops3 V (Proc.devRef .tc r) = V (Proc.devRef .tc r) := after_of_writes_sub ops3 V ops3_writes hr

/-- Each operation of stretch 4 touches TensorCore references only. -/
theorem ops4_sub : (ops4 : List (HloOp τ sig (Elt F))).Forall fun op => op.bufs ⊆ tcRefs τ sig :=
  ⟨unary_bufs_sub .., nullary_bufs_sub .., unary_bufs_sub .., unary_bufs_sub .., ternary_bufs_sub .., nullary_bufs_sub .., binary_bufs_sub .., unary_bufs_sub .., unary_bufs_sub .., binary_bufs_sub ..⟩
/-- Each operation of stretch 4 determines its results. -/
theorem ops4_fresh : (ops4 : List (HloOp τ sig (Elt F))).Forall fun op => op.fresh = ∅ :=
  ⟨rfl, rfl, rfl, rfl, rfl, rfl, rfl, rfl, rfl, rfl⟩
/-- The references stretch 4 writes, in order. -/
abbrev W4 : List (Ref sig .tc) :=
  [main_v64, main_cst_20, main_v65, main_v66, main_v67, main_cst_21, main_v68, main_v69, main_v70, main_v71]
theorem ops4_writes : (ops4 : List (HloOp τ sig (Elt F))).Forall fun op => op.writes ⊆ (W4.map (Proc.devRef (τ := τ) .tc)).toFinset :=
  ⟨writes_sub_of_mem main_v64 rfl (by decide),
   writes_sub_of_mem main_cst_20 rfl (by decide),
   writes_sub_of_mem main_v65 rfl (by decide),
   writes_sub_of_mem main_v66 rfl (by decide),
   writes_sub_of_mem main_v67 rfl (by decide),
   writes_sub_of_mem main_cst_21 rfl (by decide),
   writes_sub_of_mem main_v68 rfl (by decide),
   writes_sub_of_mem main_v69 rfl (by decide),
   writes_sub_of_mem main_v70 rfl (by decide),
   writes_sub_of_mem main_v71 rfl (by decide)⟩
/-- A reference stretch 4 does not write keeps its contents across it. -/
theorem kept4 {r : Ref sig .tc} (hr : r ∉ W4) (V : Valuation τ sig (Elt F)) :
    after ops4 V (Proc.devRef .tc r) = V (Proc.devRef .tc r) := after_of_writes_sub ops4 V ops4_writes hr

/-- Each operation of stretch 5 touches TensorCore references only. -/
theorem ops5_sub : (ops5 : List (HloOp τ sig (Elt F))).Forall fun op => op.bufs ⊆ tcRefs τ sig :=
  ⟨binary_bufs_sub .., binary_bufs_sub .., binary_bufs_sub ..⟩
/-- Each operation of stretch 5 determines its results. -/
theorem ops5_fresh : (ops5 : List (HloOp τ sig (Elt F))).Forall fun op => op.fresh = ∅ :=
  ⟨rfl, rfl, rfl⟩
/-- The references stretch 5 writes, in order. -/
abbrev W5 : List (Ref sig .tc) :=
  [main_v72, main_v73, main_v74]
theorem ops5_writes : (ops5 : List (HloOp τ sig (Elt F))).Forall fun op => op.writes ⊆ (W5.map (Proc.devRef (τ := τ) .tc)).toFinset :=
  ⟨writes_sub_of_mem main_v72 rfl (by decide),
   writes_sub_of_mem main_v73 rfl (by decide),
   writes_sub_of_mem main_v74 rfl (by decide)⟩
/-- A reference stretch 5 does not write keeps its contents across it. -/
theorem kept5 {r : Ref sig .tc} (hr : r ∉ W5) (V : Valuation τ sig (Elt F)) :
    after ops5 V (Proc.devRef .tc r) = V (Proc.devRef .tc r) := after_of_writes_sub ops5 V ops5_writes hr

/-- Each operation of stretch 6 touches TensorCore references only. -/
theorem ops6_sub : (ops6 : List (HloOp τ sig (Elt F))).Forall fun op => op.bufs ⊆ tcRefs τ sig :=
  ⟨unary_bufs_sub .., nullary_bufs_sub .., unary_bufs_sub .., unary_bufs_sub .., ternary_bufs_sub .., nullary_bufs_sub .., binary_bufs_sub .., unary_bufs_sub .., unary_bufs_sub .., binary_bufs_sub ..⟩
/-- Each operation of stretch 6 determines its results. -/
theorem ops6_fresh : (ops6 : List (HloOp τ sig (Elt F))).Forall fun op => op.fresh = ∅ :=
  ⟨rfl, rfl, rfl, rfl, rfl, rfl, rfl, rfl, rfl, rfl⟩
/-- The references stretch 6 writes, in order. -/
abbrev W6 : List (Ref sig .tc) :=
  [main_v75, main_cst_22, main_v76, main_v77, main_v78, main_cst_23, main_v79, main_v80, main_v81, main_v82]
theorem ops6_writes : (ops6 : List (HloOp τ sig (Elt F))).Forall fun op => op.writes ⊆ (W6.map (Proc.devRef (τ := τ) .tc)).toFinset :=
  ⟨writes_sub_of_mem main_v75 rfl (by decide),
   writes_sub_of_mem main_cst_22 rfl (by decide),
   writes_sub_of_mem main_v76 rfl (by decide),
   writes_sub_of_mem main_v77 rfl (by decide),
   writes_sub_of_mem main_v78 rfl (by decide),
   writes_sub_of_mem main_cst_23 rfl (by decide),
   writes_sub_of_mem main_v79 rfl (by decide),
   writes_sub_of_mem main_v80 rfl (by decide),
   writes_sub_of_mem main_v81 rfl (by decide),
   writes_sub_of_mem main_v82 rfl (by decide)⟩
/-- A reference stretch 6 does not write keeps its contents across it. -/
theorem kept6 {r : Ref sig .tc} (hr : r ∉ W6) (V : Valuation τ sig (Elt F)) :
    after ops6 V (Proc.devRef .tc r) = V (Proc.devRef .tc r) := after_of_writes_sub ops6 V ops6_writes hr

/-- Each operation of stretch 7 touches TensorCore references only. -/
theorem ops7_sub : (ops7 : List (HloOp τ sig (Elt F))).Forall fun op => op.bufs ⊆ tcRefs τ sig :=
  ⟨nary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Each operation of stretch 7 determines its results. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references stretch 7 writes, in order. -/
abbrev W7 : List (Ref sig .tc) :=
  [main_v83, main_cst_24, main_v84, main_cst_25, main_v85, main_v86, main_c_26, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v87, main_v88, main_v89, main_v90, main_v91, main_v92, main_v93, main_cst_27, main_v94, main_v95, main_v96, main_v97, main_v98, main_v99, main_v100, main_v101, main_v102, main_v103, main_v104, main_v105, main_v106, main_call10_cst, main_call10_v0, main_v107, main_v108, main_v109, main_v110, main_v111]
theorem ops7_writes : (ops7 : List (HloOp τ sig (Elt F))).Forall fun op => op.writes ⊆ (W7.map (Proc.devRef (τ := τ) .tc)).toFinset :=
  ⟨writes_sub_of_mem main_v83 rfl (by decide),
   writes_sub_of_mem main_cst_24 rfl (by decide),
   writes_sub_of_mem main_v84 rfl (by decide),
   writes_sub_of_mem main_cst_25 rfl (by decide),
   writes_sub_of_mem main_v85 rfl (by decide),
   writes_sub_of_mem main_v86 rfl (by decide),
   writes_sub_of_mem main_c_26 rfl (by decide),
   writes_sub_of_mem main_call9_cst rfl (by decide),
   writes_sub_of_mem main_call9_v0 rfl (by decide),
   writes_sub_of_mem main_call9_v1 rfl (by decide),
   writes_sub_of_mem main_call9_cst_0 rfl (by decide),
   writes_sub_of_mem main_call9_v2 rfl (by decide),
   writes_sub_of_mem main_call9_v3 rfl (by decide),
   writes_sub_of_mem main_call9_v4 rfl (by decide),
   writes_sub_of_mem main_call9_v5 rfl (by decide),
   writes_sub_of_mem main_call9_v6 rfl (by decide),
   writes_sub_of_mem main_call9_v7 rfl (by decide),
   writes_sub_of_mem main_call9_cst_1 rfl (by decide),
   writes_sub_of_mem main_call9_v8 rfl (by decide),
   writes_sub_of_mem main_call9_cst_2 rfl (by decide),
   writes_sub_of_mem main_call9_v9 rfl (by decide),
   writes_sub_of_mem main_call9_v10 rfl (by decide),
   writes_sub_of_mem main_call9_v11 rfl (by decide),
   writes_sub_of_mem main_call9_cst_3 rfl (by decide),
   writes_sub_of_mem main_call9_v12 rfl (by decide),
   writes_sub_of_mem main_call9_cst_4 rfl (by decide),
   writes_sub_of_mem main_call9_call0_v0 rfl (by decide),
   writes_sub_of_mem main_call9_call0_v1 rfl (by decide),
   writes_sub_of_mem main_v87 rfl (by decide),
   writes_sub_of_mem main_v88 rfl (by decide),
   writes_sub_of_mem main_v89 rfl (by decide),
   writes_sub_of_mem main_v90 rfl (by decide),
   writes_sub_of_mem main_v91 rfl (by decide),
   writes_sub_of_mem main_v92 rfl (by decide),
   writes_sub_of_mem main_v93 rfl (by decide),
   writes_sub_of_mem main_cst_27 rfl (by decide),
   writes_sub_of_mem main_v94 rfl (by decide),
   writes_sub_of_mem main_v95 rfl (by decide),
   writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_v102 rfl (by decide),
   writes_sub_of_mem main_v103 rfl (by decide),
   writes_sub_of_mem main_v104 rfl (by decide),
   writes_sub_of_mem main_v105 rfl (by decide),
   writes_sub_of_mem main_v106 rfl (by decide),
   writes_sub_of_mem main_call10_cst rfl (by decide),
   writes_sub_of_mem main_call10_v0 rfl (by decide),
   writes_sub_of_mem main_v107 rfl (by decide),
   writes_sub_of_mem main_v108 rfl (by decide),
   writes_sub_of_mem main_v109 rfl (by decide),
   writes_sub_of_mem main_v110 rfl (by decide),
   writes_sub_of_mem main_v111 rfl (by decide)⟩
/-- A reference stretch 7 does not write keeps its contents across it. -/
theorem kept7 {r : Ref sig .tc} (hr : r ∉ W7) (V : Valuation τ sig (Elt F)) :
    after ops7 V (Proc.devRef .tc r) = V (Proc.devRef .tc r) := after_of_writes_sub ops7 V ops7_writes hr

theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, List.forall_append.2 ⟨ops6_sub, ops7_sub⟩⟩⟩⟩⟩⟩⟩
theorem ops_fresh : (ops : List (HloOp τ sig (Elt F))).Forall fun op => op.fresh = ∅ :=
  List.forall_append.2 ⟨ops0_fresh, List.forall_append.2 ⟨ops1_fresh, List.forall_append.2 ⟨ops2_fresh, List.forall_append.2 ⟨ops3_fresh,
    List.forall_append.2 ⟨ops4_fresh, List.forall_append.2 ⟨ops5_fresh, List.forall_append.2 ⟨ops6_fresh, ops7_fresh⟩⟩⟩⟩⟩⟩⟩

/-! ## @main is the line

Each window of @main equals the chain of its items by unfolding definitions (a called function's body unfolds to the
item that lists it); the windows are then joined, and a chain of lines is the line of their concatenation. -/

/-- A chain of lines is the line of their concatenation. -/
theorem chain_map_seq {Λ : Labels} : ∀ L : List (List (HloOp τ sig (Elt F))),
    (Pipeline.chain (L.map fun l => (seq l : Prog (TpuEff nD τ sig (Elt F) Λ .tc) PUnit))) = seq L.flatten
  | [] => rfl
  | l :: L => by rw [List.map_cons, Pipeline.chain_cons, chain_map_seq L, List.flatten_cons, seq_append]

/-- Window 0 of @main (statements 1 … 60) is the chain of its items, the last in tail position. -/
theorem main_part0_chain (c : Dev nD) : main_part0 (F := F) c = (Pipeline.chainK
  [ seq it0, seq it1, seq it2, seq it3, seq it4, seq it5, seq it6, seq it7, seq it8, seq it9, seq it10, seq it11, seq it12, seq it13, seq it14, seq it15, seq it16, seq it17 ]
  (seq it18) : Prog (TpuEff nD τ sig (Elt F) (Pipeline.Sig Λ₀ (Fin 0) fun p => (pcfgs (F := F) p).Adm) .tc) PUnit) := by
  chain_rfl

/-- Window 1 of @main (statements 61 … 120) is the chain of its items, the last in tail position. -/
theorem main_part1_chain (c : Dev nD) : main_part1 (F := F) c = (Pipeline.chainK
  [ seq it19, seq it20, seq it21, seq it22, seq it23, seq it24, seq it25, seq it26, seq it27 ]
  (seq it28) : Prog (TpuEff nD τ sig (Elt F) (Pipeline.Sig Λ₀ (Fin 0) fun p => (pcfgs (F := F) p).Adm) .tc) PUnit) := by
  chain_rfl

/-- The last window of @main (statements 121 … 143) is the chain of its items. -/
theorem main_part2_chain (c : Dev nD) : main_part2 (F := F) c = (Pipeline.chain
  [ seq it29, seq it30, seq it31 ] : Prog (TpuEff nD τ sig (Elt F) (Pipeline.Sig Λ₀ (Fin 0) fun p => (pcfgs (F := F) p).Adm) .tc) PUnit) := by
  chain_rfl

/-- @main is the chain of its items. -/
theorem main_chain (c : Dev nD) : main (F := F) c
    = (Pipeline.chain ((items (F := F)).map fun l => (seq l : Prog (TpuEff nD τ sig (Elt F) (Pipeline.Sig Λ₀ (Fin 0) fun p => (pcfgs (F := F) p).Adm) .tc) PUnit))) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- The items concatenated are the eight stretches concatenated: the same operations in the same order. -/
theorem items_flatten : (items : List (List (HloOp τ sig (Elt F)))).flatten = ops := by
  chain_rfl

/-- @main is the straight line of its operations. -/
theorem main_eq (c : Dev nD) : main (F := F) c = seq ops := by
  rw [main_chain c, chain_map_seq, items_flatten]

/-! ## The run -/

/-- The signature scopes no TensorCore buffer … -/
theorem scopedRefs_eq : (Finset.univ.filter fun b : Ref sig .tc => b.isScoped) = ∅ := by decide
/-- … and no semaphore: a program of tensor values only. -/
theorem scopedSems_eq : (Finset.univ.filter fun sm : SemLoc sig => sm.isScoped .tc) = ∅ := by decide

/-- On every device, for any float values, from any memory with zero counters: every weakly fair execution of @main
    terminates with each TensorCore buffer at the fold of the operations' results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.1 ops_fresh)

/-! ## The fold, stretch by stretch -/

/-- The contents after two lines run in order: the second's fold over the first's. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- The contents after the whole line: the eight stretches' folds composed, first stretch innermost. -/
theorem after_ops (V : Valuation τ sig (Elt F)) :
    after ops V = after ops7 (after ops6 (after ops5 (after ops4 (after ops3 (after ops2 (after ops1 (after ops0 V))))))) := by
  simp only [ops, after_append]

/-- The contents after a stretch, item by item (the items are the stretches cut at every call). -/
theorem after_ops0 (V : Valuation τ sig (Elt F)) :
    after ops0 V = after it19 (after it18 (after it17 (after it16 (after it15 (after it14 (after it13 (after it12 (after it11 (after it10 (after it9 (after it8 (after it7 (after it6 (after it5 (after it4 (after it3 (after it2 (after it1 (after it0 (V)))))))))))))))))))) := by
  have h : (ops0 : List (HloOp τ sig (Elt F))) = it0 ++ (it1 ++ (it2 ++ (it3 ++ (it4 ++ (it5 ++ (it6 ++ (it7 ++ (it8 ++ (it9 ++ (it10 ++ (it11 ++ (it12 ++ (it13 ++ (it14 ++ (it15 ++ (it16 ++ (it17 ++ (it18 ++ (it19))))))))))))))))))) := by chain_rfl
  rw [h]; simp only [after_append]
theorem after_ops7 (V : Valuation τ sig (Elt F)) :
    after ops7 V = after it31 (after it30 (after it29 (after it28 (after it27 (after it26 (V)))))) := by
  have h : (ops7 : List (HloOp τ sig (Elt F))) = it26 ++ (it27 ++ (it28 ++ (it29 ++ (it30 ++ (it31))))) := by chain_rfl
  rw [h]; simp only [after_append]

/-- No operation writes an argument: each of the nine keeps its launch contents to the end. -/
theorem kept_arg (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7)
    ∧ after ops V (Proc.devRef .tc main_arg8) = V (Proc.devRef .tc main_arg8) := by
  refine ⟨?_, ?_, ?_, ?_, ?_, ?_, ?_, ?_, ?_⟩ <;>
    rw [after_ops, kept7 (by decide), kept6 (by decide), kept5 (by decide), kept4 (by decide), kept3 (by decide),
      kept2 (by decide), kept1 (by decide), kept0 (by decide)]

end Cert.ReferenceIdeal.Hand

end
-- ==== Proof.Val.Spec.lean ====
/-
  The two matrix products the kernels compute, as whole-array functions over the extended reals:
  entry (i, j) of the product of an [rows, 2048] matrix with a [2048, 2048] matrix is the sum over
  k of l(i, k) * r(k, j). `mmP` has 320 rows (the flattened subgraph powers times an adjacency power),
  `mmA` has 2048 rows (the adjacency matrix times one of its powers).
-/
import Idealize.ShloMosaic.PureOps.Ideal
import Idealize.ShloMosaic.Lib.ValueIdx

noncomputable section

open scoped BigOperators

namespace Cert.Spec

open Idealize.ShloMosaic Idealize.ShloMosaic.ValueIdx

/-- [320, 2048] times [2048, 2048]. -/
def mmP (l : FVec Ideal ⟨2, ![320, 2048]⟩ .f32) (r : FVec Ideal ⟨2, ![2048, 2048]⟩ .f32) : FVec Ideal ⟨2, ![320, 2048]⟩ .f32 :=
  fun i => ∑ k : Fin 2048, l (ix2 (n0 := 320) (n1 := 2048) (i 0) k) * r (ix2 (n0 := 2048) (n1 := 2048) k (i 1))

/-- [2048, 2048] times [2048, 2048]. -/
def mmA (l : FVec Ideal ⟨2, ![2048, 2048]⟩ .f32) (r : FVec Ideal ⟨2, ![2048, 2048]⟩ .f32) : FVec Ideal ⟨2, ![2048, 2048]⟩ .f32 :=
  fun i => ∑ k : Fin 2048, l (ix2 (n0 := 2048) (n1 := 2048) (i 0) k) * r (ix2 (n0 := 2048) (n1 := 2048) k (i 1))

theorem mmP_apply (l : FVec Ideal ⟨2, ![320, 2048]⟩ .f32) (r : FVec Ideal ⟨2, ![2048, 2048]⟩ .f32) (p : Fin 320) (q : Fin 2048) :
    mmP l r (ix2 p q) = ∑ k : Fin 2048, l (ix2 p k) * r (ix2 k q) := rfl

theorem mmA_apply (l : FVec Ideal ⟨2, ![2048, 2048]⟩ .f32) (r : FVec Ideal ⟨2, ![2048, 2048]⟩ .f32) (p : Fin 2048) (q : Fin 2048) :
    mmA l r (ix2 p q) = ∑ k : Fin 2048, l (ix2 p k) * r (ix2 k q) := rfl

end Cert.Spec

end
-- ==== Proof.Val.Alg.lean ====
/-
  Three facts of extended-real algebra joining the kernel's matrix products to the reference's host contractions.
  At the ideal values a host `dot_general` with one contracted axis is the plain sum over that axis of the products of
  the operands' entries; the matrix the reference builds from two iotas is the identity matrix, and multiplying by it on
  the right changes nothing (x * 0 = 0 and x * 1 = x hold for every extended real, infinite ones included); and
  contracting the last axis of a [32, 10, 2048] array with a [2048, 2048] matrix is the [320, 2048] matrix product of
  the array flattened row-major (row 10·s + t is the pair (s, t)), reshaped back.
-/
import proofs.«141740_j85993835200811_1_alg».proof.KernelIdeal
import proofs.«141740_j85993835200811_1_alg».proof.ReferenceIdeal
import proofs.«141740_j85993835200811_1_alg».proof.Proof.Val.Spec
import Idealize.ShloMosaic.Lib.ValueIdx
import Idealize.ShloMosaic.Lib.IdealHost
import Idealize.ShloMosaic.Lib.Pipeline.Value
import Idealize.ShloMosaic.PureOps.Ideal.Laws
import Idealize.ShloMosaic.Lib.ValueLayout

noncomputable section

open scoped BigOperators

namespace Cert.Alg

open Idealize.ShloMosaic Idealize.ShloMosaic.ValueIdx

/-! ## Arithmetic that cites no fact of the programs -/

/-- Two coordinates below 2048 are equal as 32-bit words exactly when they are equal. -/
theorem ofNat_inj (k j : Fin 2048) : BitVec.ofNat 32 k.val = BitVec.ofNat 32 j.val ↔ k = j := by
  constructor
  · intro h
    have h' := congrArg BitVec.toNat h
    rw [BitVec.toNat_ofNat, BitVec.toNat_ofNat] at h'
    have hk := k.isLt
    have hj := j.isLt
    exact Fin.ext (by omega)
  · rintro rfl; rfl

/-- Row-major flattening of the two leading axes: the pair (s, t) is row 10·s + t. -/
def row (s : Fin 32) (t : Fin 10) : Fin 320 := ⟨10 * s.val + t.val, by omega⟩

/-- The flattened array at (row s t, k) is the array at (s, t, k): the two have the same row-major position. -/
theorem flat_apply (p : FVec Ideal Cert.KernelIdeal.S32x10x2048 .f32) (h : Cert.KernelIdeal.S32x10x2048.ShapeCasts Cert.KernelIdeal.S320x2048)
    (s : Fin 32) (t : Fin 10) (k : Fin 2048) :
    shapeCast Cert.KernelIdeal.S320x2048 p h (ix2 (row s t) k) = p (ix3 s t k) := by
  refine shapeCast_apply p h _ _ ?_
  rw [Shape.rowMajor_val_three, Shape.rowMajor_val_two]
  show (s.val * 10 + t.val) * 2048 + k.val = (10 * s.val + t.val) * 2048 + k.val
  omega

/-- Reshaping a [320, 2048] matrix back: entry (s, t, n) is entry (row s t, n). -/
theorem unflat_apply (x : FVec Ideal Cert.KernelIdeal.S320x2048 .f32) (h : Cert.KernelIdeal.S320x2048.ShapeCasts Cert.KernelIdeal.S32x10x2048)
    (s : Fin 32) (t : Fin 10) (n : Fin 2048) :
    shapeCast Cert.KernelIdeal.S32x10x2048 x h (ix3 s t n) = x (ix2 (row s t) n) := by
  refine shapeCast_apply x h _ _ ?_
  rw [Shape.rowMajor_val_three, Shape.rowMajor_val_two]
  show (10 * s.val + t.val) * 2048 + n.val = (s.val * 10 + t.val) * 2048 + n.val
  omega

section Reference
variable [Cert.ReferenceIdeal.Facts₀]

/-! ## The [2048, 2048] × [2048, 2048] contraction -/

/-- The contraction index of the square product is its one coordinate. -/
abbrev eA := contrEquiv1 Cert.ReferenceIdeal.dot_S2048x2048_S2048x2048_S2048x2048_1_0_0_1_n_n 2048 rfl rfl

theorem dotA_apply (l r : FVec Ideal Cert.ReferenceIdeal.S2048x2048 .f32) (p q : Fin 2048) :
    Host.dotGeneral (F := Ideal) Cert.ReferenceIdeal.dot_S2048x2048_S2048x2048_S2048x2048_1_0_0_1_n_n none l r (ix2 p q)
      = ∑ k : Fin 2048, l (ix2 p k) * r (ix2 k q) := by
  simp only [Host.dotGeneral]
  rw [Ideal.dotGeneral_apply, ← Equiv.sum_comp eA.symm]
  refine Finset.sum_congr rfl fun k _ => ?_
  have el : Cert.ReferenceIdeal.dot_S2048x2048_S2048x2048_S2048x2048_1_0_0_1_n_n.lhsIdx (ix2 p q) (eA.symm k) = ix2 p k :=
    funext fun a => Fin.ext (by
      match a with
      | ⟨0, _⟩ => rfl
      | ⟨1, _⟩ => rfl)
  have er : Cert.ReferenceIdeal.dot_S2048x2048_S2048x2048_S2048x2048_1_0_0_1_n_n.rhsIdx (ix2 p q) (eA.symm k) = ix2 k q :=
    funext fun a => Fin.ext (by
      match a with
      | ⟨0, _⟩ => rfl
      | ⟨1, _⟩ => rfl)
  rw [el, er]

/-- (A1) The reference's square contraction is the matrix product. -/
theorem dotA (l r : FVec Ideal Cert.ReferenceIdeal.S2048x2048 .f32) :
    Host.dotGeneral (F := Ideal) Cert.ReferenceIdeal.dot_S2048x2048_S2048x2048_S2048x2048_1_0_0_1_n_n none l r = Cert.Spec.mmA l r := by
  funext i
  obtain ⟨p, q, rfl⟩ : ∃ p q : Fin 2048, i = ix2 p q := ⟨i 0, i 1, eq_ix2 i⟩
  rw [Cert.Spec.mmA_apply]
  exact dotA_apply l r p q

/-! ## The identity matrix built from two iotas -/

/-- The matrix the reference builds: the row iota plus zero, compared with the column iota, converted to a float. -/
abbrev eye : FVec Ideal Cert.ReferenceIdeal.S2048x2048 .f32 :=
  uitofp (F := Ideal) .f32 (cmpi .eq (addi (iotaInDim Cert.ReferenceIdeal.S2048x2048 32 0)
    (broadcastInDim Cert.ReferenceIdeal.S2048x2048 ![] Cert.ReferenceIdeal.Facts₀.bcast_S_S2048x2048 (constantI Cert.ReferenceIdeal.S_ 32 0#32)))
    (iotaInDim Cert.ReferenceIdeal.S2048x2048 32 1))

/-- Entry (k, j) of that matrix is one on the diagonal and zero off it. -/
theorem eye_apply (k j : Fin 2048) : eye (ix2 k j) = if k = j then 1 else 0 := by
  have h0 : broadcastInDim Cert.ReferenceIdeal.S2048x2048 ![] Cert.ReferenceIdeal.Facts₀.bcast_S_S2048x2048
      (constantI Cert.ReferenceIdeal.S_ 32 0#32) (ix2 k j) = 0#32 := by
    rw [broadcastInDim_scalar_apply]; rfl
  show (((IntOp.cmpi .eq (IntOp.addi (BitVec.ofNat 32 k.val)
      (broadcastInDim Cert.ReferenceIdeal.S2048x2048 ![] Cert.ReferenceIdeal.Facts₀.bcast_S_S2048x2048
        (constantI Cert.ReferenceIdeal.S_ 32 0#32) (ix2 k j))) (BitVec.ofNat 32 j.val)).toNat : ℝ) : EReal) = _
  rw [h0]
  show (((BitVec.ofBool (BitVec.ofNat 32 k.val + 0#32 == BitVec.ofNat 32 j.val)).toNat : ℝ) : EReal) = _
  rw [BitVec.add_zero]
  by_cases hkj : k = j
  · subst hkj
    rw [if_pos rfl, beq_self_eq_true]
    simp
  · rw [if_neg hkj, beq_eq_false_iff_ne.mpr fun h => hkj ((ofNat_inj k j).mp h)]
    simp

/-- (A2) Multiplying on the right by that matrix changes nothing: off the diagonal every term is x * 0 = 0, on it x * 1 = x,
    for every extended real x. -/
theorem eye_right (a : FVec Ideal Cert.ReferenceIdeal.S2048x2048 .f32) :
    Cert.Spec.mmA a (uitofp (F := Ideal) .f32 (cmpi .eq (addi (iotaInDim Cert.ReferenceIdeal.S2048x2048 32 0)
      (broadcastInDim Cert.ReferenceIdeal.S2048x2048 ![] Cert.ReferenceIdeal.Facts₀.bcast_S_S2048x2048 (constantI Cert.ReferenceIdeal.S_ 32 0#32)))
      (iotaInDim Cert.ReferenceIdeal.S2048x2048 32 1))) = a := by
  show Cert.Spec.mmA a eye = a
  funext i
  obtain ⟨p, q, rfl⟩ : ∃ p q : Fin 2048, i = ix2 p q := ⟨i 0, i 1, eq_ix2 i⟩
  rw [Cert.Spec.mmA_apply, Finset.sum_eq_single q]
  · rw [eye_apply, if_pos rfl, mul_one]
  · intro k _ hk
    rw [eye_apply, if_neg hk, mul_zero]
  · intro h; exact absurd (Finset.mem_univ q) h

/-! ## The [32, 10, 2048] × [2048, 2048] contraction, and the flattened product -/

/-- The contraction index of the batched product is its one coordinate. -/
abbrev eP := contrEquiv1 Cert.ReferenceIdeal.dot_S32x10x2048_S2048x2048_S32x10x2048_2_0_01_1_n_n 2048 rfl rfl

/-- Entry (s, t, n) of the reference's contraction of the last axis: the sum over k of p(s, t, k) * A(k, n). -/
theorem dotP_apply (p : FVec Ideal Cert.ReferenceIdeal.S32x10x2048 .f32) (A : FVec Ideal Cert.ReferenceIdeal.S2048x2048 .f32)
    (s : Fin 32) (t : Fin 10) (n : Fin 2048) :
    Host.dotGeneral (F := Ideal) Cert.ReferenceIdeal.dot_S32x10x2048_S2048x2048_S32x10x2048_2_0_01_1_n_n none p A (ix3 s t n)
      = ∑ k : Fin 2048, p (ix3 s t k) * A (ix2 k n) := by
  simp only [Host.dotGeneral]
  rw [Ideal.dotGeneral_apply, ← Equiv.sum_comp eP.symm]
  refine Finset.sum_congr rfl fun k _ => ?_
  have el : Cert.ReferenceIdeal.dot_S32x10x2048_S2048x2048_S32x10x2048_2_0_01_1_n_n.lhsIdx (ix3 s t n) (eP.symm k) = ix3 s t k :=
    funext fun a => Fin.ext (by
      match a with
      | ⟨0, _⟩ => rfl
      | ⟨1, _⟩ => rfl
      | ⟨2, _⟩ => rfl)
  have er : Cert.ReferenceIdeal.dot_S32x10x2048_S2048x2048_S32x10x2048_2_0_01_1_n_n.rhsIdx (ix3 s t n) (eP.symm k) = ix2 k n :=
    funext fun a => Fin.ext (by
      match a with
      | ⟨0, _⟩ => rfl
      | ⟨1, _⟩ => rfl)
  rw [el, er]

section Kernel
variable [Cert.KernelIdeal.Facts₀]

/-- (A3) The reference's contraction of the last axis is the flattened matrix product, reshaped back. -/
theorem dotP (p : FVec Ideal Cert.ReferenceIdeal.S32x10x2048 .f32) (A : FVec Ideal Cert.ReferenceIdeal.S2048x2048 .f32) :
    Host.dotGeneral (F := Ideal) Cert.ReferenceIdeal.dot_S32x10x2048_S2048x2048_S32x10x2048_2_0_01_1_n_n none p A
      = shapeCast Cert.KernelIdeal.S32x10x2048
          (Cert.Spec.mmP (shapeCast Cert.KernelIdeal.S320x2048 p Cert.KernelIdeal.Facts₀.shapeCasts_S32x10x2048_S320x2048) A)
          Cert.KernelIdeal.Facts₀.shapeCasts_S320x2048_S32x10x2048 := by
  funext i
  obtain ⟨s, t, n, rfl⟩ : ∃ (s : Fin 32) (t : Fin 10) (n : Fin 2048), i = ix3 s t n := ⟨i 0, i 1, i 2, eq_ix3 i⟩
  rw [dotP_apply, unflat_apply, Cert.Spec.mmP_apply]
  exact Finset.sum_congr rfl fun k _ => by rw [flat_apply]

end Kernel

end Reference

end Cert.Alg

end
-- ==== Proof.Val.Blk0.lean ====
/-
  Region 0 of the program at the ideal values: after the region, its output array is the matrix product of its
  two input arrays, as one whole-array function.

  Each grid point multiplies an [320, 2048] block of the left array by a [2048, 512] block of the right array and
  writes the [320, 512] product over its block of the output. At the ideal values rounding to bf16 is the identity
  and a product into a zero accumulator is the plain sum over the contraction index, so the block's entry (p, q) is
  the sum over k of left(p, k) * right(k, q). The contraction axis is not tiled: the left block holds whole rows of
  the left array and the right block whole columns of the right array, so that sum IS the entry of the whole
  product at the place (p, q) takes in the output array. The output's blocks tile the output array (the block of
  entry (r, s) has block index (r / 320, s / 512)), hence the array ends holding the whole product.
-/
import proofs.«141740_j85993835200811_1_alg».proof.Proof.KI.R0
import proofs.«141740_j85993835200811_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

namespace B0

/-- The product's dimension numbers: contract axis 1 of the left operand with axis 0 of the right. -/
abbrev D := dot_S320x2048_S2048x512_S320x512_1_0_0_1_n_n

/-! ## The operands' indices at an output index and a contraction index -/

theorem lhs_0 (i : S320x512.Idx) (q : D.contr.Idx) : (D.lhsIdx i q 0).val = (i 0).val := by
  unfold DotDims.lhsIdx
  rw [dif_neg (show ¬(0 : Fin S320x2048.rank) ∈ D.lhsBatch by decide), dif_pos (show (0 : Fin S320x2048.rank) ∈ D.lhsNonContracting by decide)]
  rfl
theorem lhs_1 (i : S320x512.Idx) (q : D.contr.Idx) : (D.lhsIdx i q 1).val = (q ⟨0, by decide⟩).val :=
  D.lhsIdx_val_of_single rfl i q
theorem rhs_0 (i : S320x512.Idx) (q : D.contr.Idx) : (D.rhsIdx i q 0).val = (q ⟨0, by decide⟩).val :=
  D.rhsIdx_val_of_single rfl i q
theorem rhs_1 (i : S320x512.Idx) (q : D.contr.Idx) : (D.rhsIdx i q 1).val = (i 1).val := by
  unfold DotDims.rhsIdx
  rw [dif_neg (show ¬(1 : Fin S2048x512.rank) ∈ D.rhsBatch by decide), dif_pos (show (1 : Fin S2048x512.rank) ∈ D.rhsNonContracting by decide)]
  rfl

/-! ## The body's arithmetic at an entry -/

/-- The product block at entry (p, q): the sum over the contraction index of left(p, k) * right(k, q). Casting a shape
    to itself and rounding to bf16 are the identity at the ideal values; the accumulator is zero. -/
theorem pay_apply (x0 : Vec Ideal S320x2048 .f32) (x1 : Vec Ideal S2048x512 .f32) (p : Fin 320) (q : Fin 512) :
    k0_pay1 x0 x1 (ix2 p q) = ∑ k : Fin 2048, x0 (ix2 p k) * x1 (ix2 k q) := by
  unfold k0_pay1
  simp only [shapeCast_self]
  refine (Ideal.matmul_constant_zero_apply D none _ _ (ix2 p q)).trans ?_
  rw [← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 2048 rfl rfl).symm k) = ix2 k q := funext fun a => Fin.ext (by
    match a with
    | ⟨0, _⟩ => exact (rhs_0 _ _).trans hk
    | ⟨1, _⟩ => exact rhs_1 _ _)
  rw [truncf_apply, truncf_apply, el, er]

/-- When row p of the left block is row P of a whole left matrix and column q of the right block is column Q of a
    whole right matrix, entry (p, q) of the product block is entry (P, Q) of the whole product. -/
theorem pay_eq_mm (A : FVec Ideal ⟨2, ![320, 2048]⟩ .f32) (B : FVec Ideal ⟨2, ![2048, 2048]⟩ .f32)
    (x0 : Vec Ideal S320x2048 .f32) (x1 : Vec Ideal S2048x512 .f32) (p : Fin 320) (q : Fin 512) (P : Fin 320) (Q : Fin 2048)
    (h0 : ∀ k : Fin 2048, x0 (ix2 p k) = A (ix2 P k)) (h1 : ∀ k : Fin 2048, x1 (ix2 k q) = B (ix2 k Q)) :
    k0_pay1 x0 x1 (ix2 p q) = Cert.Spec.mmP A B (ix2 P Q) := by
  rw [pay_apply, Cert.Spec.mmP_apply]
  exact Finset.sum_congr rfl fun k _ => by rw [h0 k, h1 k]

/-! ## The blocks' places in their arrays -/

theorem hz : (![0, 0] : Fin 2 → Nat) = fun _ => 0 := funext fun a => by fin_cases a <;> rfl

/-- The block indices over the grid: the left block follows the output's row block and starts at column 0 (it spans
    the whole contraction axis); the right block starts at row 0 and follows the output's column block; the output's
    block indices stay in a 1 by 4 range. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 0
    ∧ win0_2.index t (1 : Fin 2) ≤ 3 :=
  (by decide +kernel : ∀ t : Fin grid0.N, _)

/-- Every block of the output array is some grid point's. -/
theorem idx_onto : ∀ (q0 : Fin 1) (q1 : Fin 4), ∃ t : Fin cfg0.N, win0_2.index t = ![q0.val, q1.val] :=
  (by decide +kernel : ∀ (q0 : Fin 1) (q1 : Fin 4), ∃ t : Fin grid0.N, win0_2.index t = ![q0.val, q1.val])

-- the buffer contents when the region is entered
variable (V : (c : Dev nD) → (b : Ref sig .tc) → Buf (Elt Ideal) ((c : Thread nD τ).loc b))

/-- An entry of the left block at point t is the left array's entry at block index times block size plus the
    coordinate inside the block, on each axis. -/
theorem iblkL_apply (c : Dev nD) (t : Fin cfg0.N) (x : S320x2048.Idx) (k : S320x2048.Idx)
    (hk0 : (k 0).val = win0_0.index t (0 : Fin 2) * 320 + (x 0).val) (hk1 : (k 1).val = win0_0.index t (1 : Fin 2) * 2048 + (x 1).val) :
    (iblk0 V c 0 t : Vec Ideal S320x2048 .f32) x = (V c main_v45 : S320x2048.Idx → EReal) k := by
  unfold iblk0
  rw [View.read_apply]
  show V c main_v45 _ = V c main_v45 _
  refine congrArg _ ?_
  funext a
  apply Fin.ext
  match a with
  | ⟨0, _⟩ => show win0_0.index t (0 : Fin 2) * 320 + 1 * (x 0).val = (k 0).val; omega
  | ⟨1, _⟩ => show win0_0.index t (1 : Fin 2) * 2048 + 1 * (x 1).val = (k 1).val; omega

/-- The same for the right block and the right array. -/
theorem iblkR_apply (c : Dev nD) (t : Fin cfg0.N) (x : S2048x512.Idx) (k : S2048x2048.Idx)
    (hk0 : (k 0).val = win0_1.index t (0 : Fin 2) * 2048 + (x 0).val) (hk1 : (k 1).val = win0_1.index t (1 : Fin 2) * 512 + (x 1).val) :
    (iblk0 V c 1 t : Vec Ideal S2048x512 .f32) x = (V c main_arg0 : S2048x2048.Idx → EReal) k := by
  unfold iblk0
  rw [View.read_apply]
  show V c main_arg0 _ = V c main_arg0 _
  refine congrArg _ ?_
  funext a
  apply Fin.ext
  match a with
  | ⟨0, _⟩ => show win0_1.index t (0 : Fin 2) * 2048 + 1 * (x 0).val = (k 0).val; omega
  | ⟨1, _⟩ => show win0_1.index t (1 : Fin 2) * 512 + 1 * (x 1).val = (k 1).val; omega

/-- Entry (p, q) of the product of point t's blocks is entry (P, Q) of the whole product, (P, Q) the place of (p, q) of
    the output's block in the output array: the left block holds all of row P and the right block all of column Q. -/
theorem blk_entry (c : Dev nD) (t : Fin cfg0.N) (p : Fin 320) (q : Fin 512) (P : Fin 320) (Q : Fin 2048)
    (hP : P.val = win0_2.index t (0 : Fin 2) * 320 + p.val) (hQ : Q.val = win0_2.index t (1 : Fin 2) * 512 + q.val) :
    k0_pay1 (iblk0 V c 0 t) (iblk0 V c 1 t) (ix2 p q) = Cert.Spec.mmP (V c main_v45) (V c main_arg0) (ix2 P Q) := by
  obtain ⟨e0, e1, e2, e3, e4, e5⟩ := idx_facts t
  refine pay_eq_mm (V c main_v45) (V c main_arg0) (iblk0 V c 0 t) (iblk0 V c 1 t) p q P Q (fun k => ?_) (fun k => ?_)
  · exact iblkL_apply V c t (ix2 p k) (ix2 P k) (by show P.val = _ * 320 + p.val; omega) (by show k.val = _ * 2048 + k.val; omega)
  · exact iblkR_apply V c t (ix2 k q) (ix2 k Q) (by show k.val = _ * 2048 + k.val; omega) (by show Q.val = _ * 512 + q.val; omega)

/-! ## From the blocks to the array -/

/-- What point t writes back is block t of the whole product. -/
theorem flushed_eq (c : Dev nD) (t : Fin cfg0.N) :
    (dat0 (F := Ideal) V c).flushed 2 t = ((cfg0.win 2).blk t).view.read (Elt Ideal) (Cert.Spec.mmP (V c main_v45) (V c main_arg0)) := by
  show (cfg0.win 2).cut (grid0.coords t) ((dat0 V c).after 2 t) = _
  rw [after0_2]
  unfold out0_2
  rw [View.canon_unit_zero hz]
  simp only [View.ld_unit_zero (S := S320x2048) hz, View.ld_unit_zero (S := S2048x512) hz]
  obtain ⟨e0, e1, e2, e3, e4, e5⟩ := idx_facts t
  funext j
  show k0_pay1 (iblk0 V c 0 t) (iblk0 V c 1 t) j = Cert.Spec.mmP (V c main_v45) (V c main_arg0) (((cfg0.win 2).blk t).view.emb j)
  have hp : (j 0).val < 320 := (j 0).isLt
  have hq : (j 1).val < 512 := (j 1).isLt
  have hemb : ((cfg0.win 2).blk t).view.emb j
      = ix2 (⟨win0_2.index t (0 : Fin 2) * 320 + (j 0).val, by omega⟩ : Fin 320) (⟨win0_2.index t (1 : Fin 2) * 512 + (j 1).val, by omega⟩ : Fin 2048) := by
    funext a
    apply Fin.ext
    match a with
    | ⟨0, _⟩ => show win0_2.index t (0 : Fin 2) * 320 + 1 * (j 0).val = win0_2.index t (0 : Fin 2) * 320 + (j 0).val; omega
    | ⟨1, _⟩ => show win0_2.index t (1 : Fin 2) * 512 + 1 * (j 1).val = win0_2.index t (1 : Fin 2) * 512 + (j 1).val; omega
  refine (congrArg (k0_pay1 (iblk0 V c 0 t) (iblk0 V c 1 t)) (eq_ix2 (n0 := 320) (n1 := 512) j)).trans ?_
  refine (blk_entry V c t (j 0) (j 1) ⟨win0_2.index t (0 : Fin 2) * 320 + (j 0).val, by omega⟩ ⟨win0_2.index t (1 : Fin 2) * 512 + (j 1).val, by omega⟩ rfl rfl).trans ?_
  exact congrArg (Cert.Spec.mmP (V c main_v45) (V c main_arg0)) hemb.symm

/-- An index of the output array is in point t's block iff each coordinate is in the block's range on its axis. -/
theorem mem_blk (t : Fin cfg0.N) (i : S320x2048.Idx) :
    i ∈ ((cfg0.win 2).blk t).view.set ↔ ∀ a : Fin 2, win0_2.index t a * S320x512.size a ≤ (i a).val ∧ (i a).val < win0_2.index t a * S320x512.size a + S320x512.size a := by
  show i ∈ ((View.whole main_v46).slice (win0_2.rect t)).set ↔ _
  rw [View.set_slice_whole, Rect.mem_set_unit]
  exact Iff.rfl

/-- The output's blocks cover the output array: entry (r, s) lies in the block of block index (r / 320, s / 512). -/
theorem cover (i : S320x2048.Idx) : ∃ t : Fin cfg0.N, (cfg0.win 2).flush t = true ∧ i ∈ ((cfg0.win 2).blk t).view.set := by
  have hi0 : (i 0).val < 320 := (i 0).isLt
  have hi1 : (i 1).val < 2048 := (i 1).isLt
  obtain ⟨t, ht⟩ := idx_onto ⟨(i 0).val / 320, by omega⟩ ⟨(i 1).val / 512, by omega⟩
  have q0 : win0_2.index t (0 : Fin 2) = (i 0).val / 320 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 320 ≤ (i 0).val ∧ (i 0).val < win0_2.index t (0 : Fin 2) * 320 + 320; omega
  | ⟨1, _⟩ => show win0_2.index t (1 : Fin 2) * 512 ≤ (i 1).val ∧ (i 1).val < win0_2.index t (1 : Fin 2) * 512 + 512; omega

end B0

/-- After region 0 its output array is the whole matrix product of its two input arrays. -/
theorem final0 (V : (c : Dev nD) → (b : Ref sig .tc) → Buf (Elt Ideal) ((c : Thread nD τ).loc b)) (c : Dev nD) :
    ((dat0 (F := Ideal) V c).arrAt 2 cfg0.N : S320x2048.Idx → EReal) = Cert.Spec.mmP (V c main_v45) (V c main_arg0) :=
  (dat0 (F := Ideal) V c).arrAt_eq_of_cover 2 (Cert.Spec.mmP (V c main_v45) (V c main_arg0)) (fun t _ => B0.flushed_eq V c t) B0.cover

end Cert.KernelIdeal.Val

end
-- ==== Proof.Val.Blk1.lean ====
/-
  The value of region 1 at the ideal values: after the region its output array, as one function of the two
  arrays it reads, is their matrix product. Each grid point (i0, i1) multiplies the left array's rows
  [512 i0, 512 i0 + 512) by the right array's columns [512 i1, 512 i1 + 512) over the whole contracted axis and
  writes the result over block (i0, i1) of the output; the sixteen blocks tile the output array.
-/
import proofs.«141740_j85993835200811_1_alg».proof.Proof.KI.R1
import proofs.«141740_j85993835200811_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

namespace B1

/-- The accumulator's zero offsets, as the constant zero function. -/
theorem hz : (![0, 0] : Fin 2 → Nat) = fun _ => 0 := funext fun a => by fin_cases a <;> rfl

set_option maxHeartbeats 400000 in
/-- The body's payload at an index: both operands pass through the narrowing unchanged, and the product
    into a zero accumulator is the sum over the one contracted coordinate. -/
theorem pay_apply (x0 : Vec Ideal S512x2048 .f32) (x1 : Vec Ideal S2048x512 .f32) (p : Fin 512) (q : Fin 512) :
    k1_pay1 x0 x1 (ix2 p q) = ∑ k : Fin 2048, x0 (ix2 p k) * x1 (ix2 k q) := by
  unfold k1_pay1
  show FloatOps.matmul dot_S512x2048_S2048x512_S512x512_1_0_0_1_n_n none _ _ (constant S512x512 .f32 0x00000000#32) (ix2 p q) = _
  rw [Ideal.matmul_constant_zero_apply,
    ← Equiv.sum_comp (contrEquiv1 dot_S512x2048_S2048x512_S512x512_1_0_0_1_n_n 2048 rfl rfl).symm]
  refine Finset.sum_congr rfl fun k _ => ?_
  have ck := contrEquiv1_symm_val dot_S512x2048_S2048x512_S512x512_1_0_0_1_n_n 2048 rfl rfl k
  have hl : dot_S512x2048_S2048x512_S512x512_1_0_0_1_n_n.lhsIdx (ix2 p q)
      ((contrEquiv1 dot_S512x2048_S2048x512_S512x512_1_0_0_1_n_n 2048 rfl rfl).symm k) = ix2 p k := by
    funext ax; apply Fin.ext
    match ax with
    | ⟨0, _⟩ => simp [DotDims.lhsIdx, dot_S512x2048_S2048x512_S512x512_1_0_0_1_n_n]; rfl
    | ⟨1, _⟩ => simp [DotDims.lhsIdx, dot_S512x2048_S2048x512_S512x512_1_0_0_1_n_n]; exact ck
  have hr : dot_S512x2048_S2048x512_S512x512_1_0_0_1_n_n.rhsIdx (ix2 p q)
      ((contrEquiv1 dot_S512x2048_S2048x512_S512x512_1_0_0_1_n_n 2048 rfl rfl).symm k) = ix2 k q := by
    funext ax; apply Fin.ext
    match ax with
    | ⟨0, _⟩ => simp [DotDims.rhsIdx, dot_S512x2048_S2048x512_S512x512_1_0_0_1_n_n]; exact ck
    | ⟨1, _⟩ => simp [DotDims.rhsIdx, dot_S512x2048_S2048x512_S512x512_1_0_0_1_n_n]; rfl
  rw [hl, hr]
  rfl

/-- The output block after the body is the payload of the two input blocks: the one store covers the block from
    offset zero, and each load reads its whole block. -/
theorem out_eq (x0 : Vec Ideal S512x2048 .f32) (x1 : Vec Ideal S2048x512 .f32) :
    out1_2 x0 x1 = k1_pay1 x0 x1 := by
  unfold out1_2
  rw [View.canon_unit_zero hz]
  simp only [View.ld_unit_zero (S := S512x2048) hz, View.ld_unit_zero (S := S2048x512) hz]

/-- The block index maps, decided over the grid: the left operand's block follows the output's row block and spans
    the whole contracted axis, the right operand's follows the output's column block, and the output's block
    indices stay below four on each axis. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = win1_2.index t (1 : Fin 2)
    ∧ win1_2.index t (0 : Fin 2) ≤ 3 ∧ win1_2.index t (1 : Fin 2) ≤ 3 :=
  (by decide +kernel : ∀ t : Fin grid1.N, _)

/-- Every one of the four by four output blocks is some grid point's. -/
theorem idx_onto : ∀ (q0 : Fin 4) (q1 : Fin 4), ∃ t : Fin cfg1.N, win1_2.index t = ![q0.val, q1.val] :=
  (by decide +kernel : ∀ (q0 : Fin 4) (q1 : Fin 4), ∃ t : Fin grid1.N, win1_2.index t = ![q0.val, q1.val])

variable (V : (c : Dev nD) → (b : Ref sig .tc) → Buf (Elt Ideal) ((c : Thread nD τ).loc b))

set_option maxHeartbeats 400000 in
/-- The left block at a point is 512 full rows of the left array, starting at the output's row block. -/
theorem left_apply (c : Dev nD) (t : Fin cfg1.N) (p : Fin 512) (k : Fin 2048) (r : Fin 2048)
    (hr : r.val = win1_2.index t (0 : Fin 2) * 512 + p.val) :
    (iblk1 V c 0 t : Vec Ideal S512x2048 .f32) (ix2 p k) = (V c main_arg0 : S2048x2048.Idx → EReal) (ix2 r k) := by
  obtain ⟨e0, e1, e2, e3, e4, e5⟩ := idx_facts t
  unfold iblk1
  rw [View.read_apply]
  show V c main_arg0 _ = V c main_arg0 _
  refine congrArg _ ?_
  funext a
  apply Fin.ext
  match a with
  | ⟨0, _⟩ => show win1_0.index t (0 : Fin 2) * 512 + 1 * p.val = r.val; omega
  | ⟨1, _⟩ => show win1_0.index t (1 : Fin 2) * 2048 + 1 * k.val = k.val; omega

set_option maxHeartbeats 400000 in
/-- The right block at a point is 512 full columns of the right array, starting at the output's column block. -/
theorem right_apply (c : Dev nD) (t : Fin cfg1.N) (k : Fin 2048) (q : Fin 512) (s : Fin 2048)
    (hs : s.val = win1_2.index t (1 : Fin 2) * 512 + q.val) :
    (iblk1 V c 1 t : Vec Ideal S2048x512 .f32) (ix2 k q) = (V c main_arg0 : S2048x2048.Idx → EReal) (ix2 k s) := by
  obtain ⟨e0, e1, e2, e3, e4, e5⟩ := idx_facts t
  unfold iblk1
  rw [View.read_apply]
  show V c main_arg0 _ = V c main_arg0 _
  refine congrArg _ ?_
  funext a
  apply Fin.ext
  match a with
  | ⟨0, _⟩ => show win1_1.index t (0 : Fin 2) * 2048 + 1 * k.val = k.val; omega
  | ⟨1, _⟩ => show win1_1.index t (1 : Fin 2) * 512 + 1 * q.val = s.val; omega

set_option maxHeartbeats 400000 in
/-- What a grid point writes back is its block of the matrix product of the two whole arrays: the contracted axis is
    not tiled, so the block's sum over the contracted coordinate is the whole arrays' sum. -/
theorem flushed_eq (c : Dev nD) (t : Fin cfg1.N) :
    (dat1 (F := Ideal) V c).flushed 2 t
      = ((cfg1.win 2).blk t).view.read (Elt Ideal) (Cert.Spec.mmA (V c main_arg0) (V c main_arg0)) := by
  show (cfg1.win 2).cut (grid1.coords t) ((dat1 V c).after 2 t) = _
  rw [after1_2, out_eq]
  obtain ⟨e0, e1, e2, e3, e4, e5⟩ := idx_facts t
  funext j
  revert j
  show ∀ j : S512x512.Idx, k1_pay1 (iblk1 V c 0 t) (iblk1 V c 1 t) j
      = Cert.Spec.mmA (V c main_arg0) (V c main_arg0) (((cfg1.win 2).blk t).view.emb j)
  intro j
  obtain ⟨p, q, rfl⟩ : ∃ (p : Fin 512) (q : Fin 512), j = ix2 p q := ⟨j 0, j 1, eq_ix2 j⟩
  have hp : win1_2.index t (0 : Fin 2) * 512 + p.val < 2048 := by have := p.isLt; omega
  have hq : win1_2.index t (1 : Fin 2) * 512 + q.val < 2048 := by have := q.isLt; omega
  have hemb : ((cfg1.win 2).blk t).view.emb (ix2 p q)
      = (ix2 (⟨_, hp⟩ : Fin 2048) (⟨_, hq⟩ : Fin 2048) : S2048x2048.Idx) := by
    funext a
    apply Fin.ext
    match a with
    | ⟨0, _⟩ => show win1_2.index t (0 : Fin 2) * 512 + 1 * p.val = win1_2.index t (0 : Fin 2) * 512 + p.val; omega
    | ⟨1, _⟩ => show win1_2.index t (1 : Fin 2) * 512 + 1 * q.val = win1_2.index t (1 : Fin 2) * 512 + q.val; omega
  refine (pay_apply _ _ p q).trans ?_
  rw [hemb, Cert.Spec.mmA_apply]
  refine Finset.sum_congr rfl fun k _ => ?_
  rw [left_apply V c t p k ⟨_, hp⟩ rfl, right_apply V c t k q ⟨_, hq⟩ rfl]

/-- An index of the output array is in a grid point's block iff each coordinate is in the block's range on its axis. -/
theorem mem_blk (t : Fin cfg1.N) (i : S2048x2048.Idx) :
    i ∈ ((cfg1.win 2).blk t).view.set ↔ ∀ a : Fin 2, win1_2.index t a * S512x512.size a ≤ (i a).val
      ∧ (i a).val < win1_2.index t a * S512x512.size a + S512x512.size a := by
  show i ∈ ((View.whole main_v57).slice (win1_2.rect t)).set ↔ _
  rw [View.set_slice_whole, Rect.mem_set_unit]
  exact Iff.rfl

/-- The sixteen output blocks tile the array: the index (r, s) lies in the block of the grid point whose block
    indices are (r / 512, s / 512). -/
theorem cover (i : S2048x2048.Idx) :
    ∃ t : Fin cfg1.N, (cfg1.win 2).flush t = true ∧ i ∈ ((cfg1.win 2).blk t).view.set := by
  have hi0 : (i 0).val < 2048 := (i 0).isLt
  have hi1 : (i 1).val < 2048 := (i 1).isLt
  obtain ⟨t, ht⟩ := idx_onto ⟨(i 0).val / 512, by omega⟩ ⟨(i 1).val / 512, by omega⟩
  have q0 : win1_2.index t (0 : Fin 2) = (i 0).val / 512 := congrFun ht 0
  have q1 : win1_2.index t (1 : Fin 2) = (i 1).val / 512 := congrFun ht 1
  refine ⟨t, flush1_2 t, ?_⟩
  rw [mem_blk]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 512 ≤ (i 1).val ∧ (i 1).val < win1_2.index t (1 : Fin 2) * 512 + 512
    omega

end B1

variable (V : (c : Dev nD) → (b : Ref sig .tc) → Buf (Elt Ideal) ((c : Thread nD τ).loc b))

/-- After region 1 its output array is the matrix product of the left array with the right array, whatever the
    arrays hold when the region is entered. -/
theorem final1 (c : Dev nD) :
    ((dat1 (F := Ideal) V c).arrAt 2 cfg1.N : S2048x2048.Idx → EReal)
      = Cert.Spec.mmA (V c main_arg0) (V c main_arg0) :=
  (dat1 (F := Ideal) V c).arrAt_eq_of_cover 2 (Cert.Spec.mmA (V c main_arg0) (V c main_arg0))
    (fun t _ => B1.flushed_eq V c t) B1.cover

end Cert.KernelIdeal.Val

end
-- ==== Proof.Val.Blk2.lean ====
/-
  Region 2 of the program at the ideal values: after the region, its output array is the matrix product of its
  two input arrays, as one whole-array function.

  Each grid point multiplies an [320, 2048] block of the left array by a [2048, 512] block of the right array and
  writes the [320, 512] product over its block of the output. At the ideal values rounding to bf16 is the identity
  and a product into a zero accumulator is the plain sum over the contraction index, so the block's entry (p, q) is
  the sum over k of left(p, k) * right(k, q). The contraction axis is not tiled: the left block holds whole rows of
  the left array and the right block whole columns of the right array, so that sum IS the entry of the whole
  product at the place (p, q) takes in the output array. The output's blocks tile the output array (the block of
  entry (r, s) has block index (r / 320, s / 512)), hence the array ends holding the whole product.
-/
import proofs.«141740_j85993835200811_1_alg».proof.Proof.KI.R2
import proofs.«141740_j85993835200811_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

namespace B2

/-- The product's dimension numbers: contract axis 1 of the left operand with axis 0 of the right. -/
abbrev D := dot_S320x2048_S2048x512_S320x512_1_0_0_1_n_n

/-! ## The operands' indices at an output index and a contraction index -/

theorem lhs_0 (i : S320x512.Idx) (q : D.contr.Idx) : (D.lhsIdx i q 0).val = (i 0).val := by
  unfold DotDims.lhsIdx
  rw [dif_neg (show ¬(0 : Fin S320x2048.rank) ∈ D.lhsBatch by decide), dif_pos (show (0 : Fin S320x2048.rank) ∈ D.lhsNonContracting by decide)]
  rfl
theorem lhs_1 (i : S320x512.Idx) (q : D.contr.Idx) : (D.lhsIdx i q 1).val = (q ⟨0, by decide⟩).val :=
  D.lhsIdx_val_of_single rfl i q
theorem rhs_0 (i : S320x512.Idx) (q : D.contr.Idx) : (D.rhsIdx i q 0).val = (q ⟨0, by decide⟩).val :=
  D.rhsIdx_val_of_single rfl i q
theorem rhs_1 (i : S320x512.Idx) (q : D.contr.Idx) : (D.rhsIdx i q 1).val = (i 1).val := by
  unfold DotDims.rhsIdx
  rw [dif_neg (show ¬(1 : Fin S2048x512.rank) ∈ D.rhsBatch by decide), dif_pos (show (1 : Fin S2048x512.rank) ∈ D.rhsNonContracting by decide)]
  rfl

/-! ## The body's arithmetic at an entry -/

/-- The product block at entry (p, q): the sum over the contraction index of left(p, k) * right(k, q). Casting a shape
    to itself and rounding to bf16 are the identity at the ideal values; the accumulator is zero. -/
theorem pay_apply (x0 : Vec Ideal S320x2048 .f32) (x1 : Vec Ideal S2048x512 .f32) (p : Fin 320) (q : Fin 512) :
    k2_pay1 x0 x1 (ix2 p q) = ∑ k : Fin 2048, x0 (ix2 p k) * x1 (ix2 k q) := by
  unfold k2_pay1
  simp only [shapeCast_self]
  refine (Ideal.matmul_constant_zero_apply D none _ _ (ix2 p q)).trans ?_
  rw [← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 2048 rfl rfl).symm k) = ix2 k q := funext fun a => Fin.ext (by
    match a with
    | ⟨0, _⟩ => exact (rhs_0 _ _).trans hk
    | ⟨1, _⟩ => exact rhs_1 _ _)
  rw [truncf_apply, truncf_apply, el, er]

/-- When row p of the left block is row P of a whole left matrix and column q of the right block is column Q of a
    whole right matrix, entry (p, q) of the product block is entry (P, Q) of the whole product. -/
theorem pay_eq_mm (A : FVec Ideal ⟨2, ![320, 2048]⟩ .f32) (B : FVec Ideal ⟨2, ![2048, 2048]⟩ .f32)
    (x0 : Vec Ideal S320x2048 .f32) (x1 : Vec Ideal S2048x512 .f32) (p : Fin 320) (q : Fin 512) (P : Fin 320) (Q : Fin 2048)
    (h0 : ∀ k : Fin 2048, x0 (ix2 p k) = A (ix2 P k)) (h1 : ∀ k : Fin 2048, x1 (ix2 k q) = B (ix2 k Q)) :
    k2_pay1 x0 x1 (ix2 p q) = Cert.Spec.mmP A B (ix2 P Q) := by
  rw [pay_apply, Cert.Spec.mmP_apply]
  exact Finset.sum_congr rfl fun k _ => by rw [h0 k, h1 k]

/-! ## The blocks' places in their arrays -/

theorem hz : (![0, 0] : Fin 2 → Nat) = fun _ => 0 := funext fun a => by fin_cases a <;> rfl

/-- The block indices over the grid: the left block follows the output's row block and starts at column 0 (it spans
    the whole contraction axis); the right block starts at row 0 and follows the output's column block; the output's
    block indices stay in a 1 by 4 range. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 0
    ∧ win2_2.index t (1 : Fin 2) ≤ 3 :=
  (by decide +kernel : ∀ t : Fin grid2.N, _)

/-- Every block of the output array is some grid point's. -/
theorem idx_onto : ∀ (q0 : Fin 1) (q1 : Fin 4), ∃ t : Fin cfg2.N, win2_2.index t = ![q0.val, q1.val] :=
  (by decide +kernel : ∀ (q0 : Fin 1) (q1 : Fin 4), ∃ t : Fin grid2.N, win2_2.index t = ![q0.val, q1.val])

-- the buffer contents when the region is entered
variable (V : (c : Dev nD) → (b : Ref sig .tc) → Buf (Elt Ideal) ((c : Thread nD τ).loc b))

/-- An entry of the left block at point t is the left array's entry at block index times block size plus the
    coordinate inside the block, on each axis. -/
theorem iblkL_apply (c : Dev nD) (t : Fin cfg2.N) (x : S320x2048.Idx) (k : S320x2048.Idx)
    (hk0 : (k 0).val = win2_0.index t (0 : Fin 2) * 320 + (x 0).val) (hk1 : (k 1).val = win2_0.index t (1 : Fin 2) * 2048 + (x 1).val) :
    (iblk2 V c 0 t : Vec Ideal S320x2048 .f32) x = (V c main_v58 : S320x2048.Idx → EReal) k := by
  unfold iblk2
  rw [View.read_apply]
  show V c main_v58 _ = V c main_v58 _
  refine congrArg _ ?_
  funext a
  apply Fin.ext
  match a with
  | ⟨0, _⟩ => show win2_0.index t (0 : Fin 2) * 320 + 1 * (x 0).val = (k 0).val; omega
  | ⟨1, _⟩ => show win2_0.index t (1 : Fin 2) * 2048 + 1 * (x 1).val = (k 1).val; omega

/-- The same for the right block and the right array. -/
theorem iblkR_apply (c : Dev nD) (t : Fin cfg2.N) (x : S2048x512.Idx) (k : S2048x2048.Idx)
    (hk0 : (k 0).val = win2_1.index t (0 : Fin 2) * 2048 + (x 0).val) (hk1 : (k 1).val = win2_1.index t (1 : Fin 2) * 512 + (x 1).val) :
    (iblk2 V c 1 t : Vec Ideal S2048x512 .f32) x = (V c main_v57 : S2048x2048.Idx → EReal) k := by
  unfold iblk2
  rw [View.read_apply]
  show V c main_v57 _ = V c main_v57 _
  refine congrArg _ ?_
  funext a
  apply Fin.ext
  match a with
  | ⟨0, _⟩ => show win2_1.index t (0 : Fin 2) * 2048 + 1 * (x 0).val = (k 0).val; omega
  | ⟨1, _⟩ => show win2_1.index t (1 : Fin 2) * 512 + 1 * (x 1).val = (k 1).val; omega

/-- Entry (p, q) of the product of point t's blocks is entry (P, Q) of the whole product, (P, Q) the place of (p, q) of
    the output's block in the output array: the left block holds all of row P and the right block all of column Q. -/
theorem blk_entry (c : Dev nD) (t : Fin cfg2.N) (p : Fin 320) (q : Fin 512) (P : Fin 320) (Q : Fin 2048)
    (hP : P.val = win2_2.index t (0 : Fin 2) * 320 + p.val) (hQ : Q.val = win2_2.index t (1 : Fin 2) * 512 + q.val) :
    k2_pay1 (iblk2 V c 0 t) (iblk2 V c 1 t) (ix2 p q) = Cert.Spec.mmP (V c main_v58) (V c main_v57) (ix2 P Q) := by
  obtain ⟨e0, e1, e2, e3, e4, e5⟩ := idx_facts t
  refine pay_eq_mm (V c main_v58) (V c main_v57) (iblk2 V c 0 t) (iblk2 V c 1 t) p q P Q (fun k => ?_) (fun k => ?_)
  · exact iblkL_apply V c t (ix2 p k) (ix2 P k) (by show P.val = _ * 320 + p.val; omega) (by show k.val = _ * 2048 + k.val; omega)
  · exact iblkR_apply V c t (ix2 k q) (ix2 k Q) (by show k.val = _ * 2048 + k.val; omega) (by show Q.val = _ * 512 + q.val; omega)

/-! ## From the blocks to the array -/

/-- What point t writes back is block t of the whole product. -/
theorem flushed_eq (c : Dev nD) (t : Fin cfg2.N) :
    (dat2 (F := Ideal) V c).flushed 2 t = ((cfg2.win 2).blk t).view.read (Elt Ideal) (Cert.Spec.mmP (V c main_v58) (V c main_v57)) := by
  show (cfg2.win 2).cut (grid2.coords t) ((dat2 V c).after 2 t) = _
  rw [after2_2]
  unfold out2_2
  rw [View.canon_unit_zero hz]
  simp only [View.ld_unit_zero (S := S320x2048) hz, View.ld_unit_zero (S := S2048x512) hz]
  obtain ⟨e0, e1, e2, e3, e4, e5⟩ := idx_facts t
  funext j
  show k2_pay1 (iblk2 V c 0 t) (iblk2 V c 1 t) j = Cert.Spec.mmP (V c main_v58) (V c main_v57) (((cfg2.win 2).blk t).view.emb j)
  have hp : (j 0).val < 320 := (j 0).isLt
  have hq : (j 1).val < 512 := (j 1).isLt
  have hemb : ((cfg2.win 2).blk t).view.emb j
      = ix2 (⟨win2_2.index t (0 : Fin 2) * 320 + (j 0).val, by omega⟩ : Fin 320) (⟨win2_2.index t (1 : Fin 2) * 512 + (j 1).val, by omega⟩ : Fin 2048) := by
    funext a
    apply Fin.ext
    match a with
    | ⟨0, _⟩ => show win2_2.index t (0 : Fin 2) * 320 + 1 * (j 0).val = win2_2.index t (0 : Fin 2) * 320 + (j 0).val; omega
    | ⟨1, _⟩ => show win2_2.index t (1 : Fin 2) * 512 + 1 * (j 1).val = win2_2.index t (1 : Fin 2) * 512 + (j 1).val; omega
  refine (congrArg (k2_pay1 (iblk2 V c 0 t) (iblk2 V c 1 t)) (eq_ix2 (n0 := 320) (n1 := 512) j)).trans ?_
  refine (blk_entry V c t (j 0) (j 1) ⟨win2_2.index t (0 : Fin 2) * 320 + (j 0).val, by omega⟩ ⟨win2_2.index t (1 : Fin 2) * 512 + (j 1).val, by omega⟩ rfl rfl).trans ?_
  exact congrArg (Cert.Spec.mmP (V c main_v58) (V c main_v57)) hemb.symm

/-- An index of the output array is in point t's block iff each coordinate is in the block's range on its axis. -/
theorem mem_blk (t : Fin cfg2.N) (i : S320x2048.Idx) :
    i ∈ ((cfg2.win 2).blk t).view.set ↔ ∀ a : Fin 2, win2_2.index t a * S320x512.size a ≤ (i a).val ∧ (i a).val < win2_2.index t a * S320x512.size a + S320x512.size a := by
  show i ∈ ((View.whole main_v59).slice (win2_2.rect t)).set ↔ _
  rw [View.set_slice_whole, Rect.mem_set_unit]
  exact Iff.rfl

/-- The output's blocks cover the output array: entry (r, s) lies in the block of block index (r / 320, s / 512). -/
theorem cover (i : S320x2048.Idx) : ∃ t : Fin cfg2.N, (cfg2.win 2).flush t = true ∧ i ∈ ((cfg2.win 2).blk t).view.set := by
  have hi0 : (i 0).val < 320 := (i 0).isLt
  have hi1 : (i 1).val < 2048 := (i 1).isLt
  obtain ⟨t, ht⟩ := idx_onto ⟨(i 0).val / 320, by omega⟩ ⟨(i 1).val / 512, by omega⟩
  have q0 : win2_2.index t (0 : Fin 2) = (i 0).val / 320 := congrFun ht 0
  have q1 : win2_2.index t (1 : Fin 2) = (i 1).val / 512 := congrFun ht 1
  refine ⟨t, flush2_2 t, ?_⟩
  rw [mem_blk]
  intro a
  match a with
  | ⟨0, _⟩ => show win2_2.index t (0 : Fin 2) * 320 ≤ (i 0).val ∧ (i 0).val < win2_2.index t (0 : Fin 2) * 320 + 320; omega
  | ⟨1, _⟩ => show win2_2.index t (1 : Fin 2) * 512 ≤ (i 1).val ∧ (i 1).val < win2_2.index t (1 : Fin 2) * 512 + 512; omega

end B2

/-- After region 2 its output array is the whole matrix product of its two input arrays. -/
theorem final2 (V : (c : Dev nD) → (b : Ref sig .tc) → Buf (Elt Ideal) ((c : Thread nD τ).loc b)) (c : Dev nD) :
    ((dat2 (F := Ideal) V c).arrAt 2 cfg2.N : S320x2048.Idx → EReal) = Cert.Spec.mmP (V c main_v58) (V c main_v57) :=
  (dat2 (F := Ideal) V c).arrAt_eq_of_cover 2 (Cert.Spec.mmP (V c main_v58) (V c main_v57)) (fun t _ => B2.flushed_eq V c t) B2.cover

end Cert.KernelIdeal.Val

end
-- ==== Proof.Val.Blk3.lean ====
/-
  The value of region 3 at the ideal values: after the region its output array, as one function of the two
  arrays it reads, is their matrix product. Each grid point (i0, i1) multiplies the left array's rows
  [512 i0, 512 i0 + 512) by the right array's columns [512 i1, 512 i1 + 512) over the whole contracted axis and
  writes the result over block (i0, i1) of the output; the sixteen blocks tile the output array.
-/
import proofs.«141740_j85993835200811_1_alg».proof.Proof.KI.R3
import proofs.«141740_j85993835200811_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

namespace B3

/-- The accumulator's zero offsets, as the constant zero function. -/
theorem hz : (![0, 0] : Fin 2 → Nat) = fun _ => 0 := funext fun a => by fin_cases a <;> rfl

set_option maxHeartbeats 400000 in
/-- The body's payload at an index: the right block is first cast to its own shape, which changes nothing; both
    operands pass through the narrowing unchanged, and the product
    into a zero accumulator is the sum over the one contracted coordinate. -/
theorem pay_apply (x0 : Vec Ideal S512x2048 .f32) (x1 : Vec Ideal S2048x512 .f32) (p : Fin 512) (q : Fin 512) :
    k3_pay1 x0 x1 (ix2 p q) = ∑ k : Fin 2048, x0 (ix2 p k) * x1 (ix2 k q) := by
  unfold k3_pay1
  simp only [shapeCast_self]
  show FloatOps.matmul dot_S512x2048_S2048x512_S512x512_1_0_0_1_n_n none _ _ (constant S512x512 .f32 0x00000000#32) (ix2 p q) = _
  rw [Ideal.matmul_constant_zero_apply,
    ← Equiv.sum_comp (contrEquiv1 dot_S512x2048_S2048x512_S512x512_1_0_0_1_n_n 2048 rfl rfl).symm]
  refine Finset.sum_congr rfl fun k _ => ?_
  have ck := contrEquiv1_symm_val dot_S512x2048_S2048x512_S512x512_1_0_0_1_n_n 2048 rfl rfl k
  have hl : dot_S512x2048_S2048x512_S512x512_1_0_0_1_n_n.lhsIdx (ix2 p q)
      ((contrEquiv1 dot_S512x2048_S2048x512_S512x512_1_0_0_1_n_n 2048 rfl rfl).symm k) = ix2 p k := by
    funext ax; apply Fin.ext
    match ax with
    | ⟨0, _⟩ => simp [DotDims.lhsIdx, dot_S512x2048_S2048x512_S512x512_1_0_0_1_n_n]; rfl
    | ⟨1, _⟩ => simp [DotDims.lhsIdx, dot_S512x2048_S2048x512_S512x512_1_0_0_1_n_n]; exact ck
  have hr : dot_S512x2048_S2048x512_S512x512_1_0_0_1_n_n.rhsIdx (ix2 p q)
      ((contrEquiv1 dot_S512x2048_S2048x512_S512x512_1_0_0_1_n_n 2048 rfl rfl).symm k) = ix2 k q := by
    funext ax; apply Fin.ext
    match ax with
    | ⟨0, _⟩ => simp [DotDims.rhsIdx, dot_S512x2048_S2048x512_S512x512_1_0_0_1_n_n]; exact ck
    | ⟨1, _⟩ => simp [DotDims.rhsIdx, dot_S512x2048_S2048x512_S512x512_1_0_0_1_n_n]; rfl
  rw [hl, hr]
  rfl

/-- The output block after the body is the payload of the two input blocks: the one store covers the block from
    offset zero, and each load reads its whole block. -/
theorem out_eq (x0 : Vec Ideal S512x2048 .f32) (x1 : Vec Ideal S2048x512 .f32) :
    out3_2 x0 x1 = k3_pay1 x0 x1 := by
  unfold out3_2
  rw [View.canon_unit_zero hz]
  simp only [View.ld_unit_zero (S := S512x2048) hz, View.ld_unit_zero (S := S2048x512) hz]

/-- The block index maps, decided over the grid: the left operand's block follows the output's row block and spans
    the whole contracted axis, the right operand's follows the output's column block, and the output's block
    indices stay below four on each axis. -/
theorem idx_facts : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = win3_2.index t (1 : Fin 2)
    ∧ win3_2.index t (0 : Fin 2) ≤ 3 ∧ win3_2.index t (1 : Fin 2) ≤ 3 :=
  (by decide +kernel : ∀ t : Fin grid3.N, _)

/-- Every one of the four by four output blocks is some grid point's. -/
theorem idx_onto : ∀ (q0 : Fin 4) (q1 : Fin 4), ∃ t : Fin cfg3.N, win3_2.index t = ![q0.val, q1.val] :=
  (by decide +kernel : ∀ (q0 : Fin 4) (q1 : Fin 4), ∃ t : Fin grid3.N, win3_2.index t = ![q0.val, q1.val])

variable (V : (c : Dev nD) → (b : Ref sig .tc) → Buf (Elt Ideal) ((c : Thread nD τ).loc b))

set_option maxHeartbeats 400000 in
/-- The left block at a point is 512 full rows of the left array, starting at the output's row block. -/
theorem left_apply (c : Dev nD) (t : Fin cfg3.N) (p : Fin 512) (k : Fin 2048) (r : Fin 2048)
    (hr : r.val = win3_2.index t (0 : Fin 2) * 512 + p.val) :
    (iblk3 V c 0 t : Vec Ideal S512x2048 .f32) (ix2 p k) = (V c main_arg0 : S2048x2048.Idx → EReal) (ix2 r k) := by
  obtain ⟨e0, e1, e2, e3, e4, e5⟩ := idx_facts t
  unfold iblk3
  rw [View.read_apply]
  show V c main_arg0 _ = V c main_arg0 _
  refine congrArg _ ?_
  funext a
  apply Fin.ext
  match a with
  | ⟨0, _⟩ => show win3_0.index t (0 : Fin 2) * 512 + 1 * p.val = r.val; omega
  | ⟨1, _⟩ => show win3_0.index t (1 : Fin 2) * 2048 + 1 * k.val = k.val; omega

set_option maxHeartbeats 400000 in
/-- The right block at a point is 512 full columns of the right array, starting at the output's column block. -/
theorem right_apply (c : Dev nD) (t : Fin cfg3.N) (k : Fin 2048) (q : Fin 512) (s : Fin 2048)
    (hs : s.val = win3_2.index t (1 : Fin 2) * 512 + q.val) :
    (iblk3 V c 1 t : Vec Ideal S2048x512 .f32) (ix2 k q) = (V c main_v57 : S2048x2048.Idx → EReal) (ix2 k s) := by
  obtain ⟨e0, e1, e2, e3, e4, e5⟩ := idx_facts t
  unfold iblk3
  rw [View.read_apply]
  show V c main_v57 _ = V c main_v57 _
  refine congrArg _ ?_
  funext a
  apply Fin.ext
  match a with
  | ⟨0, _⟩ => show win3_1.index t (0 : Fin 2) * 2048 + 1 * k.val = k.val; omega
  | ⟨1, _⟩ => show win3_1.index t (1 : Fin 2) * 512 + 1 * q.val = s.val; omega

set_option maxHeartbeats 400000 in
/-- What a grid point writes back is its block of the matrix product of the two whole arrays: the contracted axis is
    not tiled, so the block's sum over the contracted coordinate is the whole arrays' sum. -/
theorem flushed_eq (c : Dev nD) (t : Fin cfg3.N) :
    (dat3 (F := Ideal) V c).flushed 2 t
      = ((cfg3.win 2).blk t).view.read (Elt Ideal) (Cert.Spec.mmA (V c main_arg0) (V c main_v57)) := by
  show (cfg3.win 2).cut (grid3.coords t) ((dat3 V c).after 2 t) = _
  rw [after3_2, out_eq]
  obtain ⟨e0, e1, e2, e3, e4, e5⟩ := idx_facts t
  funext j
  revert j
  show ∀ j : S512x512.Idx, k3_pay1 (iblk3 V c 0 t) (iblk3 V c 1 t) j
      = Cert.Spec.mmA (V c main_arg0) (V c main_v57) (((cfg3.win 2).blk t).view.emb j)
  intro j
  obtain ⟨p, q, rfl⟩ : ∃ (p : Fin 512) (q : Fin 512), j = ix2 p q := ⟨j 0, j 1, eq_ix2 j⟩
  have hp : win3_2.index t (0 : Fin 2) * 512 + p.val < 2048 := by have := p.isLt; omega
  have hq : win3_2.index t (1 : Fin 2) * 512 + q.val < 2048 := by have := q.isLt; omega
  have hemb : ((cfg3.win 2).blk t).view.emb (ix2 p q)
      = (ix2 (⟨_, hp⟩ : Fin 2048) (⟨_, hq⟩ : Fin 2048) : S2048x2048.Idx) := by
    funext a
    apply Fin.ext
    match a with
    | ⟨0, _⟩ => show win3_2.index t (0 : Fin 2) * 512 + 1 * p.val = win3_2.index t (0 : Fin 2) * 512 + p.val; omega
    | ⟨1, _⟩ => show win3_2.index t (1 : Fin 2) * 512 + 1 * q.val = win3_2.index t (1 : Fin 2) * 512 + q.val; omega
  refine (pay_apply _ _ p q).trans ?_
  rw [hemb, Cert.Spec.mmA_apply]
  refine Finset.sum_congr rfl fun k _ => ?_
  rw [left_apply V c t p k ⟨_, hp⟩ rfl, right_apply V c t k q ⟨_, hq⟩ rfl]

/-- An index of the output array is in a grid point's block iff each coordinate is in the block's range on its axis. -/
theorem mem_blk (t : Fin cfg3.N) (i : S2048x2048.Idx) :
    i ∈ ((cfg3.win 2).blk t).view.set ↔ ∀ a : Fin 2, win3_2.index t a * S512x512.size a ≤ (i a).val
      ∧ (i a).val < win3_2.index t a * S512x512.size a + S512x512.size a := by
  show i ∈ ((View.whole main_v70).slice (win3_2.rect t)).set ↔ _
  rw [View.set_slice_whole, Rect.mem_set_unit]
  exact Iff.rfl

/-- The sixteen output blocks tile the array: the index (r, s) lies in the block of the grid point whose block
    indices are (r / 512, s / 512). -/
theorem cover (i : S2048x2048.Idx) :
    ∃ t : Fin cfg3.N, (cfg3.win 2).flush t = true ∧ i ∈ ((cfg3.win 2).blk t).view.set := by
  have hi0 : (i 0).val < 2048 := (i 0).isLt
  have hi1 : (i 1).val < 2048 := (i 1).isLt
  obtain ⟨t, ht⟩ := idx_onto ⟨(i 0).val / 512, by omega⟩ ⟨(i 1).val / 512, by omega⟩
  have q0 : win3_2.index t (0 : Fin 2) = (i 0).val / 512 := congrFun ht 0
  have q1 : win3_2.index t (1 : Fin 2) = (i 1).val / 512 := congrFun ht 1
  refine ⟨t, flush3_2 t, ?_⟩
  rw [mem_blk]
  intro a
  match a with
  | ⟨0, _⟩ =>
    show win3_2.index t (0 : Fin 2) * 512 ≤ (i 0).val ∧ (i 0).val < win3_2.index t (0 : Fin 2) * 512 + 512
    omega
  | ⟨1, _⟩ =>
    show win3_2.index t (1 : Fin 2) * 512 ≤ (i 1).val ∧ (i 1).val < win3_2.index t (1 : Fin 2) * 512 + 512
    omega

end B3

variable (V : (c : Dev nD) → (b : Ref sig .tc) → Buf (Elt Ideal) ((c : Thread nD τ).loc b))

/-- After region 3 its output array is the matrix product of the left array with the right array, whatever the
    arrays hold when the region is entered. -/
theorem final3 (c : Dev nD) :
    ((dat3 (F := Ideal) V c).arrAt 2 cfg3.N : S2048x2048.Idx → EReal)
      = Cert.Spec.mmA (V c main_arg0) (V c main_v57) :=
  (dat3 (F := Ideal) V c).arrAt_eq_of_cover 2 (Cert.Spec.mmA (V c main_arg0) (V c main_v57))
    (fun t _ => B3.flushed_eq V c t) B3.cover

end Cert.KernelIdeal.Val

end
-- ==== Proof.Val.Blk4.lean ====
/-
  Region 4 of the program at the ideal values: after the region, its output array is the matrix product of its
  two input arrays, as one whole-array function.

  Each grid point multiplies an [320, 2048] block of the left array by a [2048, 512] block of the right array and
  writes the [320, 512] product over its block of the output. At the ideal values rounding to bf16 is the identity
  and a product into a zero accumulator is the plain sum over the contraction index, so the block's entry (p, q) is
  the sum over k of left(p, k) * right(k, q). The contraction axis is not tiled: the left block holds whole rows of
  the left array and the right block whole columns of the right array, so that sum IS the entry of the whole
  product at the place (p, q) takes in the output array. The output's blocks tile the output array (the block of
  entry (r, s) has block index (r / 320, s / 512)), hence the array ends holding the whole product.
-/
import proofs.«141740_j85993835200811_1_alg».proof.Proof.KI.R4
import proofs.«141740_j85993835200811_1_alg».proof.Proof.Val.Spec
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

namespace B4

/-- The product's dimension numbers: contract axis 1 of the left operand with axis 0 of the right. -/
abbrev D := dot_S320x2048_S2048x512_S320x512_1_0_0_1_n_n

/-! ## The operands' indices at an output index and a contraction index -/

theorem lhs_0 (i : S320x512.Idx) (q : D.contr.Idx) : (D.lhsIdx i q 0).val = (i 0).val := by
  unfold DotDims.lhsIdx
  rw [dif_neg (show ¬(0 : Fin S320x2048.rank) ∈ D.lhsBatch by decide), dif_pos (show (0 : Fin S320x2048.rank) ∈ D.lhsNonContracting by decide)]
  rfl
theorem lhs_1 (i : S320x512.Idx) (q : D.contr.Idx) : (D.lhsIdx i q 1).val = (q ⟨0, by decide⟩).val :=
  D.lhsIdx_val_of_single rfl i q
theorem rhs_0 (i : S320x512.Idx) (q : D.contr.Idx) : (D.rhsIdx i q 0).val = (q ⟨0, by decide⟩).val :=
  D.rhsIdx_val_of_single rfl i q
theorem rhs_1 (i : S320x512.Idx) (q : D.contr.Idx) : (D.rhsIdx i q 1).val = (i 1).val := by
  unfold DotDims.rhsIdx
  rw [dif_neg (show ¬(1 : Fin S2048x512.rank) ∈ D.rhsBatch by decide), dif_pos (show (1 : Fin S2048x512.rank) ∈ D.rhsNonContracting by decide)]
  rfl

/-! ## The body's arithmetic at an entry -/

/-- The product block at entry (p, q): the sum over the contraction index of left(p, k) * right(k, q). Casting a shape
    to itself and rounding to bf16 are the identity at the ideal values; the accumulator is zero. -/
theorem pay_apply (x0 : Vec Ideal S320x2048 .f32) (x1 : Vec Ideal S2048x512 .f32) (p : Fin 320) (q : Fin 512) :
    k4_pay1 x0 x1 (ix2 p q) = ∑ k : Fin 2048, x0 (ix2 p k) * x1 (ix2 k q) := by
  unfold k4_pay1
  simp only [shapeCast_self]
  refine (Ideal.matmul_constant_zero_apply D none _ _ (ix2 p q)).trans ?_
  rw [← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 2048 rfl rfl).symm k) = ix2 k q := funext fun a => Fin.ext (by
    match a with
    | ⟨0, _⟩ => exact (rhs_0 _ _).trans hk
    | ⟨1, _⟩ => exact rhs_1 _ _)
  rw [truncf_apply, truncf_apply, el, er]

/-- When row p of the left block is row P of a whole left matrix and column q of the right block is column Q of a
    whole right matrix, entry (p, q) of the product block is entry (P, Q) of the whole product. -/
theorem pay_eq_mm (A : FVec Ideal ⟨2, ![320, 2048]⟩ .f32) (B : FVec Ideal ⟨2, ![2048, 2048]⟩ .f32)
    (x0 : Vec Ideal S320x2048 .f32) (x1 : Vec Ideal S2048x512 .f32) (p : Fin 320) (q : Fin 512) (P : Fin 320) (Q : Fin 2048)
    (h0 : ∀ k : Fin 2048, x0 (ix2 p k) = A (ix2 P k)) (h1 : ∀ k : Fin 2048, x1 (ix2 k q) = B (ix2 k Q)) :
    k4_pay1 x0 x1 (ix2 p q) = Cert.Spec.mmP A B (ix2 P Q) := by
  rw [pay_apply, Cert.Spec.mmP_apply]
  exact Finset.sum_congr rfl fun k _ => by rw [h0 k, h1 k]

/-! ## The blocks' places in their arrays -/

theorem hz : (![0, 0] : Fin 2 → Nat) = fun _ => 0 := funext fun a => by fin_cases a <;> rfl

/-- The block indices over the grid: the left block follows the output's row block and starts at column 0 (it spans
    the whole contraction axis); the right block starts at row 0 and follows the output's column block; the output's
    block indices stay in a 1 by 4 range. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = win4_2.index t (1 : Fin 2)
    ∧ win4_2.index t (0 : Fin 2) ≤ 0
    ∧ win4_2.index t (1 : Fin 2) ≤ 3 :=
  (by decide +kernel : ∀ t : Fin grid4.N, _)

/-- Every block of the output array is some grid point's. -/
theorem idx_onto : ∀ (q0 : Fin 1) (q1 : Fin 4), ∃ t : Fin cfg4.N, win4_2.index t = ![q0.val, q1.val] :=
  (by decide +kernel : ∀ (q0 : Fin 1) (q1 : Fin 4), ∃ t : Fin grid4.N, win4_2.index t = ![q0.val, q1.val])

-- the buffer contents when the region is entered
variable (V : (c : Dev nD) → (b : Ref sig .tc) → Buf (Elt Ideal) ((c : Thread nD τ).loc b))

/-- An entry of the left block at point t is the left array's entry at block index times block size plus the
    coordinate inside the block, on each axis. -/
theorem iblkL_apply (c : Dev nD) (t : Fin cfg4.N) (x : S320x2048.Idx) (k : S320x2048.Idx)
    (hk0 : (k 0).val = win4_0.index t (0 : Fin 2) * 320 + (x 0).val) (hk1 : (k 1).val = win4_0.index t (1 : Fin 2) * 2048 + (x 1).val) :
    (iblk4 V c 0 t : Vec Ideal S320x2048 .f32) x = (V c main_v71 : S320x2048.Idx → EReal) k := by
  unfold iblk4
  rw [View.read_apply]
  show V c main_v71 _ = V c main_v71 _
  refine congrArg _ ?_
  funext a
  apply Fin.ext
  match a with
  | ⟨0, _⟩ => show win4_0.index t (0 : Fin 2) * 320 + 1 * (x 0).val = (k 0).val; omega
  | ⟨1, _⟩ => show win4_0.index t (1 : Fin 2) * 2048 + 1 * (x 1).val = (k 1).val; omega

/-- The same for the right block and the right array. -/
theorem iblkR_apply (c : Dev nD) (t : Fin cfg4.N) (x : S2048x512.Idx) (k : S2048x2048.Idx)
    (hk0 : (k 0).val = win4_1.index t (0 : Fin 2) * 2048 + (x 0).val) (hk1 : (k 1).val = win4_1.index t (1 : Fin 2) * 512 + (x 1).val) :
    (iblk4 V c 1 t : Vec Ideal S2048x512 .f32) x = (V c main_v70 : S2048x2048.Idx → EReal) k := by
  unfold iblk4
  rw [View.read_apply]
  show V c main_v70 _ = V c main_v70 _
  refine congrArg _ ?_
  funext a
  apply Fin.ext
  match a with
  | ⟨0, _⟩ => show win4_1.index t (0 : Fin 2) * 2048 + 1 * (x 0).val = (k 0).val; omega
  | ⟨1, _⟩ => show win4_1.index t (1 : Fin 2) * 512 + 1 * (x 1).val = (k 1).val; omega

/-- Entry (p, q) of the product of point t's blocks is entry (P, Q) of the whole product, (P, Q) the place of (p, q) of
    the output's block in the output array: the left block holds all of row P and the right block all of column Q. -/
theorem blk_entry (c : Dev nD) (t : Fin cfg4.N) (p : Fin 320) (q : Fin 512) (P : Fin 320) (Q : Fin 2048)
    (hP : P.val = win4_2.index t (0 : Fin 2) * 320 + p.val) (hQ : Q.val = win4_2.index t (1 : Fin 2) * 512 + q.val) :
    k4_pay1 (iblk4 V c 0 t) (iblk4 V c 1 t) (ix2 p q) = Cert.Spec.mmP (V c main_v71) (V c main_v70) (ix2 P Q) := by
  obtain ⟨e0, e1, e2, e3, e4, e5⟩ := idx_facts t
  refine pay_eq_mm (V c main_v71) (V c main_v70) (iblk4 V c 0 t) (iblk4 V c 1 t) p q P Q (fun k => ?_) (fun k => ?_)
  · exact iblkL_apply V c t (ix2 p k) (ix2 P k) (by show P.val = _ * 320 + p.val; omega) (by show k.val = _ * 2048 + k.val; omega)
  · exact iblkR_apply V c t (ix2 k q) (ix2 k Q) (by show k.val = _ * 2048 + k.val; omega) (by show Q.val = _ * 512 + q.val; omega)

/-! ## From the blocks to the array -/

/-- What point t writes back is block t of the whole product. -/
theorem flushed_eq (c : Dev nD) (t : Fin cfg4.N) :
    (dat4 (F := Ideal) V c).flushed 2 t = ((cfg4.win 2).blk t).view.read (Elt Ideal) (Cert.Spec.mmP (V c main_v71) (V c main_v70)) := by
  show (cfg4.win 2).cut (grid4.coords t) ((dat4 V c).after 2 t) = _
  rw [after4_2]
  unfold out4_2
  rw [View.canon_unit_zero hz]
  simp only [View.ld_unit_zero (S := S320x2048) hz, View.ld_unit_zero (S := S2048x512) hz]
  obtain ⟨e0, e1, e2, e3, e4, e5⟩ := idx_facts t
  funext j
  show k4_pay1 (iblk4 V c 0 t) (iblk4 V c 1 t) j = Cert.Spec.mmP (V c main_v71) (V c main_v70) (((cfg4.win 2).blk t).view.emb j)
  have hp : (j 0).val < 320 := (j 0).isLt
  have hq : (j 1).val < 512 := (j 1).isLt
  have hemb : ((cfg4.win 2).blk t).view.emb j
      = ix2 (⟨win4_2.index t (0 : Fin 2) * 320 + (j 0).val, by omega⟩ : Fin 320) (⟨win4_2.index t (1 : Fin 2) * 512 + (j 1).val, by omega⟩ : Fin 2048) := by
    funext a
    apply Fin.ext
    match a with
    | ⟨0, _⟩ => show win4_2.index t (0 : Fin 2) * 320 + 1 * (j 0).val = win4_2.index t (0 : Fin 2) * 320 + (j 0).val; omega
    | ⟨1, _⟩ => show win4_2.index t (1 : Fin 2) * 512 + 1 * (j 1).val = win4_2.index t (1 : Fin 2) * 512 + (j 1).val; omega
  refine (congrArg (k4_pay1 (iblk4 V c 0 t) (iblk4 V c 1 t)) (eq_ix2 (n0 := 320) (n1 := 512) j)).trans ?_
  refine (blk_entry V c t (j 0) (j 1) ⟨win4_2.index t (0 : Fin 2) * 320 + (j 0).val, by omega⟩ ⟨win4_2.index t (1 : Fin 2) * 512 + (j 1).val, by omega⟩ rfl rfl).trans ?_
  exact congrArg (Cert.Spec.mmP (V c main_v71) (V c main_v70)) hemb.symm

/-- An index of the output array is in point t's block iff each coordinate is in the block's range on its axis. -/
theorem mem_blk (t : Fin cfg4.N) (i : S320x2048.Idx) :
    i ∈ ((cfg4.win 2).blk t).view.set ↔ ∀ a : Fin 2, win4_2.index t a * S320x512.size a ≤ (i a).val ∧ (i a).val < win4_2.index t a * S320x512.size a + S320x512.size a := by
  show i ∈ ((View.whole main_v72).slice (win4_2.rect t)).set ↔ _
  rw [View.set_slice_whole, Rect.mem_set_unit]
  exact Iff.rfl

/-- The output's blocks cover the output array: entry (r, s) lies in the block of block index (r / 320, s / 512). -/
theorem cover (i : S320x2048.Idx) : ∃ t : Fin cfg4.N, (cfg4.win 2).flush t = true ∧ i ∈ ((cfg4.win 2).blk t).view.set := by
  have hi0 : (i 0).val < 320 := (i 0).isLt
  have hi1 : (i 1).val < 2048 := (i 1).isLt
  obtain ⟨t, ht⟩ := idx_onto ⟨(i 0).val / 320, by omega⟩ ⟨(i 1).val / 512, by omega⟩
  have q0 : win4_2.index t (0 : Fin 2) = (i 0).val / 320 := congrFun ht 0
  have q1 : win4_2.index t (1 : Fin 2) = (i 1).val / 512 := congrFun ht 1
  refine ⟨t, flush4_2 t, ?_⟩
  rw [mem_blk]
  intro a
  match a with
  | ⟨0, _⟩ => show win4_2.index t (0 : Fin 2) * 320 ≤ (i 0).val ∧ (i 0).val < win4_2.index t (0 : Fin 2) * 320 + 320; omega
  | ⟨1, _⟩ => show win4_2.index t (1 : Fin 2) * 512 ≤ (i 1).val ∧ (i 1).val < win4_2.index t (1 : Fin 2) * 512 + 512; omega

end B4

/-- After region 4 its output array is the whole matrix product of its two input arrays. -/
theorem final4 (V : (c : Dev nD) → (b : Ref sig .tc) → Buf (Elt Ideal) ((c : Thread nD τ).loc b)) (c : Dev nD) :
    ((dat4 (F := Ideal) V c).arrAt 2 cfg4.N : S320x2048.Idx → EReal) = Cert.Spec.mmP (V c main_v71) (V c main_v70) :=
  (dat4 (F := Ideal) V c).arrAt_eq_of_cover 2 (Cert.Spec.mmP (V c main_v71) (V c main_v70)) (fun t _ => B4.flushed_eq V c t) B4.cover

end Cert.KernelIdeal.Val

end
-- ==== Proof.Val.KEval.lean ====
/-
  The kernel program's buffer contents at the five kernel regions, at the ideal values, as rewrite rules.

  A kernel region changes exactly one buffer, its output array, and leaves it holding the matrix product of what its
  two input arrays held when the region was entered; every other buffer — the region's input arrays among them, for
  an input window's array is never written back — holds at the region's exit what it held at its entry.
-/
import proofs.«141740_j85993835200811_1_alg».proof.Proof.KI.RunW
import proofs.«141740_j85993835200811_1_alg».proof.Proof.Val.Spec
import proofs.«141740_j85993835200811_1_alg».proof.Proof.Val.Blk0
import proofs.«141740_j85993835200811_1_alg».proof.Proof.Val.Blk1
import proofs.«141740_j85993835200811_1_alg».proof.Proof.Val.Blk2
import proofs.«141740_j85993835200811_1_alg».proof.Proof.Val.Blk3
import proofs.«141740_j85993835200811_1_alg».proof.Proof.Val.Blk4

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! Each rule reads a valuation at one TensorCore reference. As rewrite rules they match that reference up to
    unfolding rather than by its printed shape (`no_index`): a named reference and a variable one unfold to
    different shapes, and a rule keyed on either would miss goals written with the other. -/

/-! ## Region 0: main_v46 = main_v45 · main_arg0 -/

theorem W20_v46 (c : Dev nD) : W20 m ρ c (no_index (Proc.devRef .tc main_v46))
    = Cert.Spec.mmP (W19 m ρ c (Proc.devRef .tc main_v45)) (W19 m ρ c (Proc.devRef .tc main_arg0)) :=
  (W20_arr m ρ c 2).trans (final0 (E0 m ρ) c)

theorem W20_keep (c : Dev nD) (b : Ref sig .tc) (hb : b ≠ main_v46) :
    W20 m ρ c (no_index (Proc.devRef .tc b)) = W19 m ρ c (Proc.devRef .tc b) := by
  by_cases h0 : b = main_v45
  · subst h0; exact (W20_arr m ρ c 0).trans (((dat0 (E0 m ρ) c).arrAt_in 0 rfl _).trans (A_eq0 (E0 m ρ) c 0))
  by_cases h1 : b = main_arg0
  · subst h1; exact (W20_arr m ρ c 1).trans (((dat0 (E0 m ρ) c).arrAt_in 1 rfl _).trans (A_eq0 (E0 m ρ) c 1))
  exact W20_of_ne m ρ c b fun
    | ⟨0, _⟩ => Ne.symm h0
    | ⟨1, _⟩ => Ne.symm h1
    | ⟨2, _⟩ => Ne.symm hb
    | ⟨_ + 3, h⟩ => absurd h (Nat.not_lt.2 (Nat.le_add_left _ _))

/-! ## Region 1: main_v57 = main_arg0 · main_arg0 -/

theorem W22_v57_mm (c : Dev nD) : W22 m ρ c (no_index (Proc.devRef .tc main_v57))
    = Cert.Spec.mmA (W21 m ρ c (Proc.devRef .tc main_arg0)) (W21 m ρ c (Proc.devRef .tc main_arg0)) :=
  (W22_v57 m ρ c).trans (final1 (E1 m ρ) c)

theorem W22_keep (c : Dev nD) (b : Ref sig .tc) (hb : b ≠ main_v57) :
    W22 m ρ c (no_index (Proc.devRef .tc b)) = W21 m ρ c (Proc.devRef .tc b) :=
  W22_of_ne m ρ c b hb

/-! ## Region 2: main_v59 = main_v58 · main_v57 -/

theorem W24_v59 (c : Dev nD) : W24 m ρ c (no_index (Proc.devRef .tc main_v59))
    = Cert.Spec.mmP (W23 m ρ c (Proc.devRef .tc main_v58)) (W23 m ρ c (Proc.devRef .tc main_v57)) :=
  (W24_arr m ρ c 2).trans (final2 (E2 m ρ) c)

theorem W24_keep (c : Dev nD) (b : Ref sig .tc) (hb : b ≠ main_v59) :
    W24 m ρ c (no_index (Proc.devRef .tc b)) = W23 m ρ c (Proc.devRef .tc b) := by
  by_cases h0 : b = main_v58
  · subst h0; exact (W24_arr m ρ c 0).trans (((dat2 (E2 m ρ) c).arrAt_in 0 rfl _).trans (A_eq2 (E2 m ρ) c 0))
  by_cases h1 : b = main_v57
  · subst h1; exact (W24_arr m ρ c 1).trans (((dat2 (E2 m ρ) c).arrAt_in 1 rfl _).trans (A_eq2 (E2 m ρ) c 1))
  exact W24_of_ne m ρ c b fun
    | ⟨0, _⟩ => Ne.symm h0
    | ⟨1, _⟩ => Ne.symm h1
    | ⟨2, _⟩ => Ne.symm hb
    | ⟨_ + 3, h⟩ => absurd h (Nat.not_lt.2 (Nat.le_add_left _ _))

/-! ## Region 3: main_v70 = main_arg0 · main_v57 -/

theorem W26_v70 (c : Dev nD) : W26 m ρ c (no_index (Proc.devRef .tc main_v70))
    = Cert.Spec.mmA (W25 m ρ c (Proc.devRef .tc main_arg0)) (W25 m ρ c (Proc.devRef .tc main_v57)) :=
  (W26_arr m ρ c 2).trans (final3 (E3 m ρ) c)

theorem W26_keep (c : Dev nD) (b : Ref sig .tc) (hb : b ≠ main_v70) :
    W26 m ρ c (no_index (Proc.devRef .tc b)) = W25 m ρ c (Proc.devRef .tc b) := by
  by_cases h0 : b = main_arg0
  · subst h0; exact (W26_arr m ρ c 0).trans (((dat3 (E3 m ρ) c).arrAt_in 0 rfl _).trans (A_eq3 (E3 m ρ) c 0))
  by_cases h1 : b = main_v57
  · subst h1; exact (W26_arr m ρ c 1).trans (((dat3 (E3 m ρ) c).arrAt_in 1 rfl _).trans (A_eq3 (E3 m ρ) c 1))
  exact W26_of_ne m ρ c b fun
    | ⟨0, _⟩ => Ne.symm h0
    | ⟨1, _⟩ => Ne.symm h1
    | ⟨2, _⟩ => Ne.symm hb
    | ⟨_ + 3, h⟩ => absurd h (Nat.not_lt.2 (Nat.le_add_left _ _))

/-! ## Region 4: main_v72 = main_v71 · main_v70 -/

theorem W28_v72 (c : Dev nD) : W28 m ρ c (no_index (Proc.devRef .tc main_v72))
    = Cert.Spec.mmP (W27 m ρ c (Proc.devRef .tc main_v71)) (W27 m ρ c (Proc.devRef .tc main_v70)) :=
  (W28_arr m ρ c 2).trans (final4 (E4 m ρ) c)

theorem W28_keep (c : Dev nD) (b : Ref sig .tc) (hb : b ≠ main_v72) :
    W28 m ρ c (no_index (Proc.devRef .tc b)) = W27 m ρ c (Proc.devRef .tc b) := by
  by_cases h0 : b = main_v71
  · subst h0; exact (W28_arr m ρ c 0).trans (((dat4 (E4 m ρ) c).arrAt_in 0 rfl _).trans (A_eq4 (E4 m ρ) c 0))
  by_cases h1 : b = main_v70
  · subst h1; exact (W28_arr m ρ c 1).trans (((dat4 (E4 m ρ) c).arrAt_in 1 rfl _).trans (A_eq4 (E4 m ρ) c 1))
  exact W28_of_ne m ρ c b fun
    | ⟨0, _⟩ => Ne.symm h0
    | ⟨1, _⟩ => Ne.symm h1
    | ⟨2, _⟩ => Ne.symm hb
    | ⟨_ + 3, h⟩ => absurd h (Nat.not_lt.2 (Nat.le_add_left _ _))

end Cert.KernelIdeal.Val

end
-- ==== Proof.Val.AgreeP.lean ====
/-
  The host prefix of the two programs computes the same values. The kernel program and the reference begin with the same
  line of host operations: the learned weights' relu is scattered into the strict upper triangles of 32 blocks of 10×10
  (at an index table both compute by the same integer operations), the blocks are symmetrised, and the nodes of each
  graph are counted by a scatter-add of ones. Evaluated operation by operation, each program's value at the symmetrised
  blocks and at the node counts is one closed term over its own argument buffers, and the two terms are the same term;
  so equal arguments give equal values. The kernel program's prefix goes on with four more operations: the batched
  contraction of the symmetrised blocks with an all-ones [32, 10, 2048] array and its row-major flattening to
  [320, 2048]; these are read off the last stretch. No operation of the prefix writes an argument.
-/
import proofs.«141740_j85993835200811_1_alg».proof.Proof.Gen.KernelIdeal.Launch
import proofs.«141740_j85993835200811_1_alg».proof.Proof.Ref.Run
import Idealize.ShloMosaic.Lib.StableHlo.Run
import Idealize.ShloMosaic.PureOps.Ideal
import Idealize.ShloMosaic.PureOps.Ideal.Laws

set_option maxRecDepth 8192

noncomputable section

namespace Cert.Agree.P

open Idealize.ShloMosaic Idealize.ShloMosaic.StableHlo Idealize.SL.Sem

/-- The kernel program's host prefix: its first nineteen stretches of host operations, in order. -/
abbrev prefixK (VK : Valuation Cert.KernelIdeal.τ Cert.KernelIdeal.sig (Elt Ideal)) : Valuation Cert.KernelIdeal.τ Cert.KernelIdeal.sig (Elt Ideal) :=
  StableHlo.after Cert.KernelIdeal.Gen.hostOps0_18 (StableHlo.after Cert.KernelIdeal.Gen.hostOps0_17 (StableHlo.after Cert.KernelIdeal.Gen.hostOps0_16 (StableHlo.after Cert.KernelIdeal.Gen.hostOps0_15 (StableHlo.after Cert.KernelIdeal.Gen.hostOps0_14 (StableHlo.after Cert.KernelIdeal.Gen.hostOps0_13 (StableHlo.after Cert.KernelIdeal.Gen.hostOps0_12 (StableHlo.after Cert.KernelIdeal.Gen.hostOps0_11 (StableHlo.after Cert.KernelIdeal.Gen.hostOps0_10 (StableHlo.after Cert.KernelIdeal.Gen.hostOps0_9 (StableHlo.after Cert.KernelIdeal.Gen.hostOps0_8 (StableHlo.after Cert.KernelIdeal.Gen.hostOps0_7 (StableHlo.after Cert.KernelIdeal.Gen.hostOps0_6 (StableHlo.after Cert.KernelIdeal.Gen.hostOps0_5 (StableHlo.after Cert.KernelIdeal.Gen.hostOps0_4 (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 (VK)))))))))))))))))))

/-- Concatenating equal pieces gives equal arrays. -/
theorem concat2_congr {α : Type} {t s₁ s₂ : Shape} {a : Fin t.rank} {x₁ x₁' : s₁.Idx → α} {x₂ x₂' : s₂.Idx → α}
    {h : Shape.Concatenates [s₁, s₂] t a} (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

attribute [local congr] concat2_congr

/-! ## The symmetrised blocks and the node counts agree -/

set_option maxHeartbeats 4000000 in
/-- The symmetrised blocks: equal weight arguments give equal blocks. -/
theorem v38 (VK : Valuation Cert.KernelIdeal.τ Cert.KernelIdeal.sig (Elt Ideal)) (VR : Valuation Cert.ReferenceIdeal.τ Cert.ReferenceIdeal.sig (Elt Ideal))
    (h2 : VK (Proc.devRef .tc Cert.KernelIdeal.main_arg2) = VR (Proc.devRef .tc Cert.ReferenceIdeal.main_arg2)) :
    prefixK VK (Proc.devRef .tc Cert.KernelIdeal.main_v38) = StableHlo.after Cert.ReferenceIdeal.Hand.ops0 VR (Proc.devRef .tc Cert.ReferenceIdeal.main_v38) := by
  rw [Cert.ReferenceIdeal.Hand.after_ops0]
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.ReferenceIdeal.Hand.it0, Cert.ReferenceIdeal.Hand.it1, Cert.ReferenceIdeal.Hand.it2, Cert.ReferenceIdeal.Hand.it3, Cert.ReferenceIdeal.Hand.it4, Cert.ReferenceIdeal.Hand.it5, Cert.ReferenceIdeal.Hand.it6, Cert.ReferenceIdeal.Hand.it7, Cert.ReferenceIdeal.Hand.it8, Cert.ReferenceIdeal.Hand.it9, Cert.ReferenceIdeal.Hand.it10, Cert.ReferenceIdeal.Hand.it11, Cert.ReferenceIdeal.Hand.it12, Cert.ReferenceIdeal.Hand.it13, Cert.ReferenceIdeal.Hand.it14, Cert.ReferenceIdeal.Hand.it15, Cert.ReferenceIdeal.Hand.it16, Cert.ReferenceIdeal.Hand.it17, Cert.ReferenceIdeal.Hand.it18, Cert.ReferenceIdeal.Hand.it19]
  after_results_simp
  rw [h2]
  rfl

set_option maxHeartbeats 4000000 in
/-- The node counts: equal graph-index arguments give equal counts. -/
theorem v42 (VK : Valuation Cert.KernelIdeal.τ Cert.KernelIdeal.sig (Elt Ideal)) (VR : Valuation Cert.ReferenceIdeal.τ Cert.ReferenceIdeal.sig (Elt Ideal))
    (h1 : VK (Proc.devRef .tc Cert.KernelIdeal.main_arg1) = VR (Proc.devRef .tc Cert.ReferenceIdeal.main_arg1)) :
    prefixK VK (Proc.devRef .tc Cert.KernelIdeal.main_v42) = StableHlo.after Cert.ReferenceIdeal.Hand.ops0 VR (Proc.devRef .tc Cert.ReferenceIdeal.main_v42) := by
  rw [Cert.ReferenceIdeal.Hand.after_ops0]
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.ReferenceIdeal.Hand.it0, Cert.ReferenceIdeal.Hand.it1, Cert.ReferenceIdeal.Hand.it2, Cert.ReferenceIdeal.Hand.it3, Cert.ReferenceIdeal.Hand.it4, Cert.ReferenceIdeal.Hand.it5, Cert.ReferenceIdeal.Hand.it6, Cert.ReferenceIdeal.Hand.it7, Cert.ReferenceIdeal.Hand.it8, Cert.ReferenceIdeal.Hand.it9, Cert.ReferenceIdeal.Hand.it10, Cert.ReferenceIdeal.Hand.it11, Cert.ReferenceIdeal.Hand.it12, Cert.ReferenceIdeal.Hand.it13, Cert.ReferenceIdeal.Hand.it14, Cert.ReferenceIdeal.Hand.it15, Cert.ReferenceIdeal.Hand.it16, Cert.ReferenceIdeal.Hand.it17, Cert.ReferenceIdeal.Hand.it18, Cert.ReferenceIdeal.Hand.it19]
  after_results_simp
  rw [h1]
  rfl

/-! ## The last stretch of the prefix: the batched contraction with the all-ones array and its flattening

Both are read off the last stretch alone, whatever the contents before it: the contraction's left operand is what the
stretch itself leaves in the symmetrised blocks' buffer. -/

theorem last_v44 (V : Valuation Cert.KernelIdeal.τ Cert.KernelIdeal.sig (Elt Ideal)) :
    StableHlo.after Cert.KernelIdeal.Gen.hostOps0_18 V (Proc.devRef .tc Cert.KernelIdeal.main_v44)
      = Host.dotGeneral (F := Ideal) (φ₁ := .f32) (φ₂ := .f32) Cert.KernelIdeal.dot_S32x10x10_S32x10x2048_S32x10x2048_2_1_1_2_0_0 none
          (StableHlo.after Cert.KernelIdeal.Gen.hostOps0_18 V (Proc.devRef .tc Cert.KernelIdeal.main_v38) : FVec Ideal Cert.KernelIdeal.S32x10x10 .f32)
          (broadcastInDim Cert.KernelIdeal.S32x10x2048 ![] Cert.KernelIdeal.Facts₀.bcast_S_S32x10x2048
            (constant (F := Ideal) Cert.KernelIdeal.S_ .f32 0x3F800000#32)) := by
  simp only [Cert.KernelIdeal.Gen.hostOps0_18]
  after_results_simp
  all_goals rfl

theorem last_v45 (V : Valuation Cert.KernelIdeal.τ Cert.KernelIdeal.sig (Elt Ideal)) :
    StableHlo.after Cert.KernelIdeal.Gen.hostOps0_18 V (Proc.devRef .tc Cert.KernelIdeal.main_v45)
      = shapeCast Cert.KernelIdeal.S320x2048
          (StableHlo.after Cert.KernelIdeal.Gen.hostOps0_18 V (Proc.devRef .tc Cert.KernelIdeal.main_v44) : FVec Ideal Cert.KernelIdeal.S32x10x2048 .f32)
          Cert.KernelIdeal.Facts₀.shapeCasts_S32x10x2048_S320x2048 := by
  simp only [Cert.KernelIdeal.Gen.hostOps0_18]
  after_results_simp
  all_goals rfl

/-- The contraction of the symmetrised blocks with the all-ones array, after the prefix. -/
theorem v44 (VK : Valuation Cert.KernelIdeal.τ Cert.KernelIdeal.sig (Elt Ideal)) :
    prefixK VK (Proc.devRef .tc Cert.KernelIdeal.main_v44)
      = Host.dotGeneral (F := Ideal) (φ₁ := .f32) (φ₂ := .f32) Cert.KernelIdeal.dot_S32x10x10_S32x10x2048_S32x10x2048_2_1_1_2_0_0 none
          (prefixK VK (Proc.devRef .tc Cert.KernelIdeal.main_v38) : FVec Ideal Cert.KernelIdeal.S32x10x10 .f32)
          (broadcastInDim Cert.KernelIdeal.S32x10x2048 ![] Cert.KernelIdeal.Facts₀.bcast_S_S32x10x2048
            (constant (F := Ideal) Cert.KernelIdeal.S_ .f32 0x3F800000#32)) :=
  last_v44 _

/-- Its flattening to [320, 2048], after the prefix. -/
theorem v45 (VK : Valuation Cert.KernelIdeal.τ Cert.KernelIdeal.sig (Elt Ideal)) :
    prefixK VK (Proc.devRef .tc Cert.KernelIdeal.main_v45)
      = shapeCast Cert.KernelIdeal.S320x2048 (prefixK VK (Proc.devRef .tc Cert.KernelIdeal.main_v44) : FVec Ideal Cert.KernelIdeal.S32x10x2048 .f32)
          Cert.KernelIdeal.Facts₀.shapeCasts_S32x10x2048_S320x2048 :=
  last_v45 _

/-! ## The prefix writes no argument -/

theorem keepK_0 (VK : Valuation Cert.KernelIdeal.τ Cert.KernelIdeal.sig (Elt Ideal)) :
    prefixK VK (Proc.devRef .tc Cert.KernelIdeal.main_arg0) = VK (Proc.devRef .tc Cert.KernelIdeal.main_arg0) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_1 (VK : Valuation Cert.KernelIdeal.τ Cert.KernelIdeal.sig (Elt Ideal)) :
    prefixK VK (Proc.devRef .tc Cert.KernelIdeal.main_arg1) = VK (Proc.devRef .tc Cert.KernelIdeal.main_arg1) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_2 (VK : Valuation Cert.KernelIdeal.τ Cert.KernelIdeal.sig (Elt Ideal)) :
    prefixK VK (Proc.devRef .tc Cert.KernelIdeal.main_arg2) = VK (Proc.devRef .tc Cert.KernelIdeal.main_arg2) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_3 (VK : Valuation Cert.KernelIdeal.τ Cert.KernelIdeal.sig (Elt Ideal)) :
    prefixK VK (Proc.devRef .tc Cert.KernelIdeal.main_arg3) = VK (Proc.devRef .tc Cert.KernelIdeal.main_arg3) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_4 (VK : Valuation Cert.KernelIdeal.τ Cert.KernelIdeal.sig (Elt Ideal)) :
    prefixK VK (Proc.devRef .tc Cert.KernelIdeal.main_arg4) = VK (Proc.devRef .tc Cert.KernelIdeal.main_arg4) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_5 (VK : Valuation Cert.KernelIdeal.τ Cert.KernelIdeal.sig (Elt Ideal)) :
    prefixK VK (Proc.devRef .tc Cert.KernelIdeal.main_arg5) = VK (Proc.devRef .tc Cert.KernelIdeal.main_arg5) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_6 (VK : Valuation Cert.KernelIdeal.τ Cert.KernelIdeal.sig (Elt Ideal)) :
    prefixK VK (Proc.devRef .tc Cert.KernelIdeal.main_arg6) = VK (Proc.devRef .tc Cert.KernelIdeal.main_arg6) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_7 (VK : Valuation Cert.KernelIdeal.τ Cert.KernelIdeal.sig (Elt Ideal)) :
    prefixK VK (Proc.devRef .tc Cert.KernelIdeal.main_arg7) = VK (Proc.devRef .tc Cert.KernelIdeal.main_arg7) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

theorem keepK_8 (VK : Valuation Cert.KernelIdeal.τ Cert.KernelIdeal.sig (Elt Ideal)) :
    prefixK VK (Proc.devRef .tc Cert.KernelIdeal.main_arg8) = VK (Proc.devRef .tc Cert.KernelIdeal.main_arg8) := by
  simp only [prefixK, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18]
  after_results_simp

end Cert.Agree.P

end
-- ==== Proof.Val.AgreeF.lean ====
/-
  The two programs' feature stages and subgraph-power steps agree. Each program pools a [32, 10, 2048] array of
  products into per-graph features by the same chain of host operations (transpose, scatter-add over the nodes' graph
  indices into a zero array, sum over a block's node axis, division by the broadcast counts) and advances the
  subgraph powers by the same batched contraction; so when the arrays the chains start from agree, the arrays they
  end at agree: both sides evaluate to one term over the starting arrays.
-/
import proofs.«141740_j85993835200811_1_alg».proof.Proof.Gen.KernelIdeal.Launch
import proofs.«141740_j85993835200811_1_alg».proof.Proof.Ref.Run
import Idealize.ShloMosaic.Lib.StableHlo.Run
import Idealize.ShloMosaic.PureOps.Ideal
import Idealize.ShloMosaic.Lib.IdealHost

noncomputable section

namespace Cert.Agree.F

open Idealize.ShloMosaic Idealize.ShloMosaic.StableHlo Idealize.SL.Sem

variable (VK : Valuation Cert.KernelIdeal.τ Cert.KernelIdeal.sig (Elt Ideal))
variable (VR : Valuation Cert.ReferenceIdeal.τ Cert.ReferenceIdeal.sig (Elt Ideal))

set_option maxHeartbeats 400000 in
/-- The first step pooled: when the reference's product array is the kernel program's [320, 2048] product reshaped to
    [32, 10, 2048], and the graph indices and the counts agree, the pooled features agree. -/
theorem feat1
    (hres : VR (Proc.devRef .tc Cert.ReferenceIdeal.main_v52)
      = shapeCast Cert.KernelIdeal.S32x10x2048 (VK (Proc.devRef .tc Cert.KernelIdeal.main_v46))
          Cert.KernelIdeal.Facts₀.shapeCasts_S320x2048_S32x10x2048)
    (h1 : VK (Proc.devRef .tc Cert.KernelIdeal.main_arg1) = VR (Proc.devRef .tc Cert.ReferenceIdeal.main_arg1))
    (h42 : VK (Proc.devRef .tc Cert.KernelIdeal.main_v42) = VR (Proc.devRef .tc Cert.ReferenceIdeal.main_v42)) :
    StableHlo.after Cert.KernelIdeal.Gen.hostOps1 VK (Proc.devRef .tc Cert.KernelIdeal.main_v55)
      = StableHlo.after Cert.ReferenceIdeal.Hand.ops2 VR (Proc.devRef .tc Cert.ReferenceIdeal.main_v60) := by
  simp only [Cert.KernelIdeal.Gen.hostOps1, Cert.ReferenceIdeal.Hand.ops2]
  after_results_simp
  rw [hres, h1, h42]
  rfl

set_option maxHeartbeats 400000 in
/-- The second subgraph power: the same batched contraction of the subgraph matrices with the first power. -/
theorem pow2
    (h38 : VK (Proc.devRef .tc Cert.KernelIdeal.main_v38) = VR (Proc.devRef .tc Cert.ReferenceIdeal.main_v38))
    (h44 : VK (Proc.devRef .tc Cert.KernelIdeal.main_v44) = VR (Proc.devRef .tc Cert.ReferenceIdeal.main_v51)) :
    StableHlo.after Cert.KernelIdeal.Gen.hostOps1 VK (Proc.devRef .tc Cert.KernelIdeal.main_v56)
      = StableHlo.after Cert.ReferenceIdeal.Hand.ops3 VR (Proc.devRef .tc Cert.ReferenceIdeal.main_v62) := by
  simp only [Cert.KernelIdeal.Gen.hostOps1, Cert.ReferenceIdeal.Hand.ops3]
  after_results_simp
  rw [h38, h44]
  rfl

set_option maxHeartbeats 400000 in
/-- The second step pooled, as the first. -/
theorem feat2
    (hres : VR (Proc.devRef .tc Cert.ReferenceIdeal.main_v63)
      = shapeCast Cert.KernelIdeal.S32x10x2048 (VK (Proc.devRef .tc Cert.KernelIdeal.main_v59))
          Cert.KernelIdeal.Facts₀.shapeCasts_S320x2048_S32x10x2048)
    (h1 : VK (Proc.devRef .tc Cert.KernelIdeal.main_arg1) = VR (Proc.devRef .tc Cert.ReferenceIdeal.main_arg1))
    (h42 : VK (Proc.devRef .tc Cert.KernelIdeal.main_v42) = VR (Proc.devRef .tc Cert.ReferenceIdeal.main_v42)) :
    StableHlo.after Cert.KernelIdeal.Gen.hostOps3 VK (Proc.devRef .tc Cert.KernelIdeal.main_v68)
      = StableHlo.after Cert.ReferenceIdeal.Hand.ops4 VR (Proc.devRef .tc Cert.ReferenceIdeal.main_v71) := by
  simp only [Cert.KernelIdeal.Gen.hostOps3, Cert.ReferenceIdeal.Hand.ops4]
  after_results_simp
  rw [hres, h1, h42]
  rfl

set_option maxHeartbeats 400000 in
/-- The third subgraph power: the same batched contraction of the subgraph matrices with the second power. -/
theorem pow3
    (h38 : VK (Proc.devRef .tc Cert.KernelIdeal.main_v38) = VR (Proc.devRef .tc Cert.ReferenceIdeal.main_v38))
    (h56 : VK (Proc.devRef .tc Cert.KernelIdeal.main_v56) = VR (Proc.devRef .tc Cert.ReferenceIdeal.main_v62)) :
    StableHlo.after Cert.KernelIdeal.Gen.hostOps3 VK (Proc.devRef .tc Cert.KernelIdeal.main_v69)
      = StableHlo.after Cert.ReferenceIdeal.Hand.ops5 VR (Proc.devRef .tc Cert.ReferenceIdeal.main_v73) := by
  simp only [Cert.KernelIdeal.Gen.hostOps3, Cert.ReferenceIdeal.Hand.ops5]
  after_results_simp
  rw [h38, h56]
  rfl

end Cert.Agree.F

end
-- ==== Proof.Val.AgreeT.lean ====
/-
  The last stretch of the two programs computes the same value.

  After the third matrix product both programs run the same host operations: the third pooled feature (transpose,
  scatter-add over the batch index, sum over the last axis, division by the node counts), the concatenation of the
  three pooled features into a [128, 96] array, its normalisation over the batch (mean, variance, reciprocal square
  root, scale and shift), and two dense layers with a relu between. The two texts differ only in the names of the
  buffers, so once the inputs of the stretch agree — the reshaped third product, the first two pooled features, the
  node counts and the arguments — the two results are one term of those inputs, read off the two folds of the
  operations' results.
-/
import proofs.«141740_j85993835200811_1_alg».proof.Proof.Gen.KernelIdeal.Launch
import proofs.«141740_j85993835200811_1_alg».proof.Proof.Ref.Run
import Idealize.ShloMosaic.Lib.StableHlo.Run
import Idealize.ShloMosaic.PureOps.Ideal
import Idealize.ShloMosaic.Lib.Pipeline.Value

noncomputable section

namespace Cert.Agree.T

open Idealize.ShloMosaic Idealize.ShloMosaic.TcCoe Idealize.SL.Sem Idealize.ShloMosaic.StableHlo
open Cert

section ThreeOperands
variable {τ : Topo} {sig : RefSig} {Val : EltTy → Type} {x a b y : Ref sig .tc}

/-- A function of three arguments applied to them: the three operands of a three-operand operation kept as plain
    arguments of one function, so that each can be rewritten on its own. -/
def app3 {A B C D : Type} (g : A → B → C → D) (p : A) (q : B) (r : C) : D := g p q r

/-- A three-operand operation's result: its function of the three operands' contents, each read at its own buffer. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = app3 (fun (p : x.ty.Contents Val) (q : a.ty.Contents Val) (r : b.ty.Contents Val) =>
          f (Fin.cons p (Fin.cons q (Fin.cons r (fun i => i.elim0)))))
        (F (Proc.devRef .tc x)) (F (Proc.devRef .tc a)) (F (Proc.devRef .tc b)) := by
  unfold app3; rw [nary_result]; congr 1; funext k; fin_cases k <;> rfl
end ThreeOperands

set_option maxHeartbeats 1000000 in
set_option backward.isDefEq.respectTransparency.types false in
/-- From agreeing inputs — the third product reshaped to [32, 10, 2048], the first two pooled features, the node
    counts and the arguments the stretch reads — the kernel program's result and the reference's are equal: both are
    the same operations' term of those inputs. -/
theorem tail (VK : Valuation KernelIdeal.τ KernelIdeal.sig (Elt Ideal)) (VR : Valuation ReferenceIdeal.τ ReferenceIdeal.sig (Elt Ideal))
    (hres : VR (Proc.devRef .tc ReferenceIdeal.main_v74) = shapeCast KernelIdeal.S32x10x2048 (VK (Proc.devRef .tc KernelIdeal.main_v72)) KernelIdeal.Facts₀.shapeCasts_S320x2048_S32x10x2048)
    (h55 : VK (Proc.devRef .tc KernelIdeal.main_v55) = VR (Proc.devRef .tc ReferenceIdeal.main_v60))
    (h68 : VK (Proc.devRef .tc KernelIdeal.main_v68) = VR (Proc.devRef .tc ReferenceIdeal.main_v71))
    (h42 : VK (Proc.devRef .tc KernelIdeal.main_v42) = VR (Proc.devRef .tc ReferenceIdeal.main_v42))
    (h1 : VK (Proc.devRef .tc KernelIdeal.main_arg1) = VR (Proc.devRef .tc ReferenceIdeal.main_arg1))
    (h3 : VK (Proc.devRef .tc KernelIdeal.main_arg3) = VR (Proc.devRef .tc ReferenceIdeal.main_arg3))
    (h4 : VK (Proc.devRef .tc KernelIdeal.main_arg4) = VR (Proc.devRef .tc ReferenceIdeal.main_arg4))
    (h5 : VK (Proc.devRef .tc KernelIdeal.main_arg5) = VR (Proc.devRef .tc ReferenceIdeal.main_arg5))
    (h6 : VK (Proc.devRef .tc KernelIdeal.main_arg6) = VR (Proc.devRef .tc ReferenceIdeal.main_arg6))
    (h7 : VK (Proc.devRef .tc KernelIdeal.main_arg7) = VR (Proc.devRef .tc ReferenceIdeal.main_arg7))
    (h8 : VK (Proc.devRef .tc KernelIdeal.main_arg8) = VR (Proc.devRef .tc ReferenceIdeal.main_arg8)) :
    StableHlo.after KernelIdeal.Gen.hostOps5_4 (StableHlo.after KernelIdeal.Gen.hostOps5_3 (StableHlo.after KernelIdeal.Gen.hostOps5_2 (StableHlo.after KernelIdeal.Gen.hostOps5_1 (StableHlo.after KernelIdeal.Gen.hostOps5 VK)))) (Proc.devRef .tc KernelIdeal.main_v110)
      = StableHlo.after ReferenceIdeal.Hand.ops7 (StableHlo.after ReferenceIdeal.Hand.ops6 VR) (Proc.devRef .tc ReferenceIdeal.main_v111) := by
  -- both folds read off, operation by operation, down to the stretch's inputs
  simp only [KernelIdeal.Gen.hostOps5, KernelIdeal.Gen.hostOps5_1, KernelIdeal.Gen.hostOps5_2, KernelIdeal.Gen.hostOps5_3, KernelIdeal.Gen.hostOps5_4, ReferenceIdeal.Hand.ops6, ReferenceIdeal.Hand.ops7]
  simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']
  -- the inputs agree; what is left is one term written twice
  rw [h55, h68, h42, h1, h3, h4, h5, h6, h7, h8, hres]
  rfl

end Cert.Agree.T

end
-- ==== Proof.Val.RefRead.lean ====
/- The reference's three propagation steps read back at the ideal values: what each of the short stretches ops1, ops3,
   ops5 leaves in its three product buffers, as the host contraction of what the stretch found in its operands. -/
import proofs.«141740_j85993835200811_1_alg».proof.Proof.Ref.Run
import proofs.«141740_j85993835200811_1_alg».proof.Proof.Val.Alg

set_option maxRecDepth 8192

noncomputable section

namespace Cert.Agree.RR

open Cert.ReferenceIdeal Cert.ReferenceIdeal.Gen Cert.ReferenceIdeal.Hand Idealize.ShloMosaic Idealize.ShloMosaic.TcCoe Idealize.SL.Sem Idealize.ShloMosaic.StableHlo

/-! ## The first step (ops1): from the identity matrix and the all-ones start -/

/-- adj · I, the identity matrix being the one built from two iotas. -/
theorem r50 (VR : Valuation τ sig (Elt Ideal)) :
    after (ops1 (F := Ideal)) VR (Proc.devRef .tc main_v50)
      = Host.dotGeneral (F := Ideal) (φ₁ := .f32) (φ₂ := .f32) dot_S2048x2048_S2048x2048_S2048x2048_1_0_0_1_n_n none (VR (Proc.devRef .tc main_arg0)) Cert.Alg.eye := by
  simp only [ops1]; after_results_simp

/-- A · E, the all-ones start E a broadcast of the constant one. -/
theorem r51 (VR : Valuation τ sig (Elt Ideal)) :
    after (ops1 (F := Ideal)) VR (Proc.devRef .tc main_v51)
      = Host.dotGeneral (F := Ideal) (φ₁ := .f32) (φ₂ := .f32) dot_S32x10x10_S32x10x2048_S32x10x2048_2_1_1_2_0_0 none (VR (Proc.devRef .tc main_v38))
          (broadcastInDim S32x10x2048 ![] Facts₀.bcast_S_S32x10x2048 (constant (F := Ideal) S_ .f32 0x3F800000#32)) := by
  simp only [ops1]; after_results_simp

/-- The product of the two. -/
theorem r52 (VR : Valuation τ sig (Elt Ideal)) :
    after (ops1 (F := Ideal)) VR (Proc.devRef .tc main_v52)
      = Host.dotGeneral (F := Ideal) (φ₁ := .f32) (φ₂ := .f32) dot_S32x10x2048_S2048x2048_S32x10x2048_2_0_01_1_n_n none (after (ops1 (F := Ideal)) VR (Proc.devRef .tc main_v51)) (after (ops1 (F := Ideal)) VR (Proc.devRef .tc main_v50)) := by
  simp only [ops1]; after_results_simp

/-! ## The second step (ops3) -/

/-- adj times the previous power of adj. -/
theorem r61 (VR : Valuation τ sig (Elt Ideal)) :
    after (ops3 (F := Ideal)) VR (Proc.devRef .tc main_v61)
      = Host.dotGeneral (F := Ideal) (φ₁ := .f32) (φ₂ := .f32) dot_S2048x2048_S2048x2048_S2048x2048_1_0_0_1_n_n none (VR (Proc.devRef .tc main_arg0)) (VR (Proc.devRef .tc main_v50)) := by
  simp only [ops3]; after_results_simp

/-- A times the previous power of A applied to E. -/
theorem r62 (VR : Valuation τ sig (Elt Ideal)) :
    after (ops3 (F := Ideal)) VR (Proc.devRef .tc main_v62)
      = Host.dotGeneral (F := Ideal) (φ₁ := .f32) (φ₂ := .f32) dot_S32x10x10_S32x10x2048_S32x10x2048_2_1_1_2_0_0 none (VR (Proc.devRef .tc main_v38)) (VR (Proc.devRef .tc main_v51)) := by
  simp only [ops3]; after_results_simp

/-- The product of the two. -/
theorem r63 (VR : Valuation τ sig (Elt Ideal)) :
    after (ops3 (F := Ideal)) VR (Proc.devRef .tc main_v63)
      = Host.dotGeneral (F := Ideal) (φ₁ := .f32) (φ₂ := .f32) dot_S32x10x2048_S2048x2048_S32x10x2048_2_0_01_1_n_n none (after (ops3 (F := Ideal)) VR (Proc.devRef .tc main_v62)) (after (ops3 (F := Ideal)) VR (Proc.devRef .tc main_v61)) := by
  simp only [ops3]; after_results_simp

/-! ## The third step (ops5) -/

/-- adj times the previous power of adj. -/
theorem r72 (VR : Valuation τ sig (Elt Ideal)) :
    after (ops5 (F := Ideal)) VR (Proc.devRef .tc main_v72)
      = Host.dotGeneral (F := Ideal) (φ₁ := .f32) (φ₂ := .f32) dot_S2048x2048_S2048x2048_S2048x2048_1_0_0_1_n_n none (VR (Proc.devRef .tc main_arg0)) (VR (Proc.devRef .tc main_v61)) := by
  simp only [ops5]; after_results_simp

/-- A times the previous power of A applied to E. -/
theorem r73 (VR : Valuation τ sig (Elt Ideal)) :
    after (ops5 (F := Ideal)) VR (Proc.devRef .tc main_v73)
      = Host.dotGeneral (F := Ideal) (φ₁ := .f32) (φ₂ := .f32) dot_S32x10x10_S32x10x2048_S32x10x2048_2_1_1_2_0_0 none (VR (Proc.devRef .tc main_v38)) (VR (Proc.devRef .tc main_v62)) := by
  simp only [ops5]; after_results_simp

/-- The product of the two. -/
theorem r74 (VR : Valuation τ sig (Elt Ideal)) :
    after (ops5 (F := Ideal)) VR (Proc.devRef .tc main_v74)
      = Host.dotGeneral (F := Ideal) (φ₁ := .f32) (φ₂ := .f32) dot_S32x10x2048_S2048x2048_S32x10x2048_2_0_01_1_n_n none (after (ops5 (F := Ideal)) VR (Proc.devRef .tc main_v73)) (after (ops5 (F := Ideal)) VR (Proc.devRef .tc main_v72)) := by
  simp only [ops5]; after_results_simp

end Cert.Agree.RR

end
-- ==== Proof.Val.Agree.lean ====
/-
  The two idealized programs compute the same array. Both are straight lines of host operations around five matrix
  products; the kernel program's products are the kernel regions (each read back as one whole-array product), the
  reference's are host dot_generals. Stage by stage the buffers that flow forward agree: the subgraph adjacency
  tensor and the node counts (same operations of the same arguments), the powers P_i (same dot_general of the
  same operands), the adjacency powers (adj times the identity is adj; then the same products), the contractions
  res_i (a [32,10,2048] x [2048,2048] contraction is the flattened [320,2048] x [2048,2048] product reshaped back),
  the pooled features (same operations of res_i, the graph indicator and the counts), and the head (same
  operations of the three features and the remaining arguments).
-/
import proofs.«141740_j85993835200811_1_alg».proof.Proof.KI.RunW
import proofs.«141740_j85993835200811_1_alg».proof.Proof.Ref.Run
import proofs.«141740_j85993835200811_1_alg».proof.Proof.Val.Alg
import proofs.«141740_j85993835200811_1_alg».proof.Proof.Val.KEval
import proofs.«141740_j85993835200811_1_alg».proof.Proof.Val.AgreeP
import proofs.«141740_j85993835200811_1_alg».proof.Proof.Val.AgreeF
import proofs.«141740_j85993835200811_1_alg».proof.Proof.Val.AgreeT
import proofs.«141740_j85993835200811_1_alg».proof.Proof.Val.RefRead

set_option maxRecDepth 16384

noncomputable section

namespace Cert.Agree

open Idealize.ShloMosaic Idealize.ShloMosaic.TcCoe Idealize.SL.Sem Idealize.ShloMosaic.StableHlo

/-- The flattening [32,10,2048] -> [320,2048] of the second subgraph power, read at its result. -/
theorem k58 (V : Valuation Cert.KernelIdeal.τ Cert.KernelIdeal.sig (Elt Ideal)) :
    StableHlo.after Cert.KernelIdeal.Gen.hostOps2 V (Proc.devRef .tc Cert.KernelIdeal.main_v58) = shapeCast Cert.KernelIdeal.S320x2048 (V (Proc.devRef .tc Cert.KernelIdeal.main_v56)) Cert.KernelIdeal.Facts₀.shapeCasts_S32x10x2048_S320x2048 := by
  simp only [Cert.KernelIdeal.Gen.hostOps2]; after_results_simp; rfl
/-- The same for the third power. -/
theorem k71 (V : Valuation Cert.KernelIdeal.τ Cert.KernelIdeal.sig (Elt Ideal)) :
    StableHlo.after Cert.KernelIdeal.Gen.hostOps4 V (Proc.devRef .tc Cert.KernelIdeal.main_v71) = shapeCast Cert.KernelIdeal.S320x2048 (V (Proc.devRef .tc Cert.KernelIdeal.main_v69)) Cert.KernelIdeal.Facts₀.shapeCasts_S32x10x2048_S320x2048 := by
  simp only [Cert.KernelIdeal.Gen.hostOps4]; after_results_simp; rfl

set_option maxHeartbeats 4000000 in
/-- From launch memories that agree on the nine arguments, the reference's result buffer after its whole line holds
    what the kernel program's result buffer holds at its last boundary. -/
theorem agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    StableHlo.after Cert.ReferenceIdeal.Hand.ops (StableHlo.launchContents m' c) (Proc.devRef .tc Cert.ReferenceIdeal.main_v111)
      = Cert.KernelIdeal.Gen.W33 (F := Ideal) m ρ c (Proc.devRef .tc Cert.KernelIdeal.main_v110) := by
  rw [Cert.ReferenceIdeal.Hand.after_ops]
  have g0 : Cert.KernelIdeal.Gen.W0 (F := Ideal) m ρ c (Proc.devRef .tc Cert.KernelIdeal.main_arg0) = StableHlo.launchContents m' c (Proc.devRef .tc Cert.ReferenceIdeal.main_arg0) := h0.symm
  have g1 : Cert.KernelIdeal.Gen.W0 (F := Ideal) m ρ c (Proc.devRef .tc Cert.KernelIdeal.main_arg1) = StableHlo.launchContents m' c (Proc.devRef .tc Cert.ReferenceIdeal.main_arg1) := h1.symm
  have g2 : Cert.KernelIdeal.Gen.W0 (F := Ideal) m ρ c (Proc.devRef .tc Cert.KernelIdeal.main_arg2) = StableHlo.launchContents m' c (Proc.devRef .tc Cert.ReferenceIdeal.main_arg2) := h2.symm
  have g3 : Cert.KernelIdeal.Gen.W0 (F := Ideal) m ρ c (Proc.devRef .tc Cert.KernelIdeal.main_arg3) = StableHlo.launchContents m' c (Proc.devRef .tc Cert.ReferenceIdeal.main_arg3) := h3.symm
  have g4 : Cert.KernelIdeal.Gen.W0 (F := Ideal) m ρ c (Proc.devRef .tc Cert.KernelIdeal.main_arg4) = StableHlo.launchContents m' c (Proc.devRef .tc Cert.ReferenceIdeal.main_arg4) := h4.symm
  have g5 : Cert.KernelIdeal.Gen.W0 (F := Ideal) m ρ c (Proc.devRef .tc Cert.KernelIdeal.main_arg5) = StableHlo.launchContents m' c (Proc.devRef .tc Cert.ReferenceIdeal.main_arg5) := h5.symm
  have g6 : Cert.KernelIdeal.Gen.W0 (F := Ideal) m ρ c (Proc.devRef .tc Cert.KernelIdeal.main_arg6) = StableHlo.launchContents m' c (Proc.devRef .tc Cert.ReferenceIdeal.main_arg6) := h6.symm
  have g7 : Cert.KernelIdeal.Gen.W0 (F := Ideal) m ρ c (Proc.devRef .tc Cert.KernelIdeal.main_arg7) = StableHlo.launchContents m' c (Proc.devRef .tc Cert.ReferenceIdeal.main_arg7) := h7.symm
  have g8 : Cert.KernelIdeal.Gen.W0 (F := Ideal) m ρ c (Proc.devRef .tc Cert.KernelIdeal.main_arg8) = StableHlo.launchContents m' c (Proc.devRef .tc Cert.ReferenceIdeal.main_arg8) := h8.symm
  generalize StableHlo.launchContents m' c = X0 at g0 g1 g2 g3 g4 g5 g6 g7 g8 ⊢
  generalize hX1 : StableHlo.after Cert.ReferenceIdeal.Hand.ops0 X0 = X1
  generalize hX2 : StableHlo.after Cert.ReferenceIdeal.Hand.ops1 X1 = X2
  generalize hX3 : StableHlo.after Cert.ReferenceIdeal.Hand.ops2 X2 = X3
  generalize hX4 : StableHlo.after Cert.ReferenceIdeal.Hand.ops3 X3 = X4
  generalize hX5 : StableHlo.after Cert.ReferenceIdeal.Hand.ops4 X4 = X5
  generalize hX6 : StableHlo.after Cert.ReferenceIdeal.Hand.ops5 X5 = X6
  -- what each stretch of the reference leaves untouched
  have rK0 {r : Ref Cert.ReferenceIdeal.sig .tc} (hr : r ∉ Cert.ReferenceIdeal.Hand.W0) : X1 (Proc.devRef .tc r) = X0 (Proc.devRef .tc r) := by
    rw [← hX1]; exact Cert.ReferenceIdeal.Hand.kept0 hr X0
  have rK1 {r : Ref Cert.ReferenceIdeal.sig .tc} (hr : r ∉ Cert.ReferenceIdeal.Hand.W1) : X2 (Proc.devRef .tc r) = X1 (Proc.devRef .tc r) := by
    rw [← hX2]; exact Cert.ReferenceIdeal.Hand.kept1 hr X1
  have rK2 {r : Ref Cert.ReferenceIdeal.sig .tc} (hr : r ∉ Cert.ReferenceIdeal.Hand.W2) : X3 (Proc.devRef .tc r) = X2 (Proc.devRef .tc r) := by
    rw [← hX3]; exact Cert.ReferenceIdeal.Hand.kept2 hr X2
  have rK3 {r : Ref Cert.ReferenceIdeal.sig .tc} (hr : r ∉ Cert.ReferenceIdeal.Hand.W3) : X4 (Proc.devRef .tc r) = X3 (Proc.devRef .tc r) := by
    rw [← hX4]; exact Cert.ReferenceIdeal.Hand.kept3 hr X3
  have rK4 {r : Ref Cert.ReferenceIdeal.sig .tc} (hr : r ∉ Cert.ReferenceIdeal.Hand.W4) : X5 (Proc.devRef .tc r) = X4 (Proc.devRef .tc r) := by
    rw [← hX5]; exact Cert.ReferenceIdeal.Hand.kept4 hr X4
  have rK5 {r : Ref Cert.ReferenceIdeal.sig .tc} (hr : r ∉ Cert.ReferenceIdeal.Hand.W5) : X6 (Proc.devRef .tc r) = X5 (Proc.devRef .tc r) := by
    rw [← hX6]; exact Cert.ReferenceIdeal.Hand.kept5 hr X5
  -- the prefix: subgraph adjacency tensor, node counts, arguments
  have a38 : Cert.KernelIdeal.Gen.W19 (F := Ideal) m ρ c (Proc.devRef .tc Cert.KernelIdeal.main_v38) = X1 (Proc.devRef .tc Cert.ReferenceIdeal.main_v38) := by
    rw [← hX1]; exact Cert.Agree.P.v38 (Cert.KernelIdeal.Gen.W0 (F := Ideal) m ρ c) X0 g2
  have a42 : Cert.KernelIdeal.Gen.W19 (F := Ideal) m ρ c (Proc.devRef .tc Cert.KernelIdeal.main_v42) = X1 (Proc.devRef .tc Cert.ReferenceIdeal.main_v42) := by
    rw [← hX1]; exact Cert.Agree.P.v42 (Cert.KernelIdeal.Gen.W0 (F := Ideal) m ρ c) X0 g1
  have b0 : Cert.KernelIdeal.Gen.W19 (F := Ideal) m ρ c (Proc.devRef .tc Cert.KernelIdeal.main_arg0) = X0 (Proc.devRef .tc Cert.ReferenceIdeal.main_arg0) := (Cert.Agree.P.keepK_0 (Cert.KernelIdeal.Gen.W0 (F := Ideal) m ρ c)).trans g0
  have b1 : Cert.KernelIdeal.Gen.W19 (F := Ideal) m ρ c (Proc.devRef .tc Cert.KernelIdeal.main_arg1) = X0 (Proc.devRef .tc Cert.ReferenceIdeal.main_arg1) := (Cert.Agree.P.keepK_1 (Cert.KernelIdeal.Gen.W0 (F := Ideal) m ρ c)).trans g1
  have b3 : Cert.KernelIdeal.Gen.W19 (F := Ideal) m ρ c (Proc.devRef .tc Cert.KernelIdeal.main_arg3) = X0 (Proc.devRef .tc Cert.ReferenceIdeal.main_arg3) := (Cert.Agree.P.keepK_3 (Cert.KernelIdeal.Gen.W0 (F := Ideal) m ρ c)).trans g3
  have b4 : Cert.KernelIdeal.Gen.W19 (F := Ideal) m ρ c (Proc.devRef .tc Cert.KernelIdeal.main_arg4) = X0 (Proc.devRef .tc Cert.ReferenceIdeal.main_arg4) := (Cert.Agree.P.keepK_4 (Cert.KernelIdeal.Gen.W0 (F := Ideal) m ρ c)).trans g4
  have b5 : Cert.KernelIdeal.Gen.W19 (F := Ideal) m ρ c (Proc.devRef .tc Cert.KernelIdeal.main_arg5) = X0 (Proc.devRef .tc Cert.ReferenceIdeal.main_arg5) := (Cert.Agree.P.keepK_5 (Cert.KernelIdeal.Gen.W0 (F := Ideal) m ρ c)).trans g5
  have b6 : Cert.KernelIdeal.Gen.W19 (F := Ideal) m ρ c (Proc.devRef .tc Cert.KernelIdeal.main_arg6) = X0 (Proc.devRef .tc Cert.ReferenceIdeal.main_arg6) := (Cert.Agree.P.keepK_6 (Cert.KernelIdeal.Gen.W0 (F := Ideal) m ρ c)).trans g6
  have b7 : Cert.KernelIdeal.Gen.W19 (F := Ideal) m ρ c (Proc.devRef .tc Cert.KernelIdeal.main_arg7) = X0 (Proc.devRef .tc Cert.ReferenceIdeal.main_arg7) := (Cert.Agree.P.keepK_7 (Cert.KernelIdeal.Gen.W0 (F := Ideal) m ρ c)).trans g7
  have b8 : Cert.KernelIdeal.Gen.W19 (F := Ideal) m ρ c (Proc.devRef .tc Cert.KernelIdeal.main_arg8) = X0 (Proc.devRef .tc Cert.ReferenceIdeal.main_arg8) := (Cert.Agree.P.keepK_8 (Cert.KernelIdeal.Gen.W0 (F := Ideal) m ρ c)).trans g8
  -- the first power and the first adjacency power
  have x50 : X2 (Proc.devRef .tc Cert.ReferenceIdeal.main_v50) = X0 (Proc.devRef .tc Cert.ReferenceIdeal.main_arg0) := by
    rw [← hX2]
    exact (Cert.Agree.RR.r50 X1).trans (((Cert.Alg.dotA _ _).trans (Cert.Alg.eye_right _)).trans (rK0 (r := Cert.ReferenceIdeal.main_arg0) (by decide)))
  have x51 : X2 (Proc.devRef .tc Cert.ReferenceIdeal.main_v51) = Host.dotGeneral (F := Ideal) (φ₁ := .f32) (φ₂ := .f32) Cert.ReferenceIdeal.dot_S32x10x10_S32x10x2048_S32x10x2048_2_1_1_2_0_0 none (X1 (Proc.devRef .tc Cert.ReferenceIdeal.main_v38)) (broadcastInDim Cert.ReferenceIdeal.S32x10x2048 ![] Cert.ReferenceIdeal.Facts₀.bcast_S_S32x10x2048 (constant (F := Ideal) Cert.ReferenceIdeal.S_ .f32 0x3F800000#32)) := by
    rw [← hX2]; exact Cert.Agree.RR.r51 X1
  have x52 : X2 (Proc.devRef .tc Cert.ReferenceIdeal.main_v52) = Host.dotGeneral (F := Ideal) (φ₁ := .f32) (φ₂ := .f32) Cert.ReferenceIdeal.dot_S32x10x2048_S2048x2048_S32x10x2048_2_0_01_1_n_n none (X2 (Proc.devRef .tc Cert.ReferenceIdeal.main_v51)) (X2 (Proc.devRef .tc Cert.ReferenceIdeal.main_v50)) := by
    rw [← hX2]; exact Cert.Agree.RR.r52 X1
  have k44 : Cert.KernelIdeal.Gen.W19 (F := Ideal) m ρ c (Proc.devRef .tc Cert.KernelIdeal.main_v44) = Host.dotGeneral (F := Ideal) (φ₁ := .f32) (φ₂ := .f32) Cert.KernelIdeal.dot_S32x10x10_S32x10x2048_S32x10x2048_2_1_1_2_0_0 none (Cert.KernelIdeal.Gen.W19 (F := Ideal) m ρ c (Proc.devRef .tc Cert.KernelIdeal.main_v38)) (broadcastInDim Cert.KernelIdeal.S32x10x2048 ![] Cert.KernelIdeal.Facts₀.bcast_S_S32x10x2048 (constant (F := Ideal) Cert.KernelIdeal.S_ .f32 0x3F800000#32)) := Cert.Agree.P.v44 (Cert.KernelIdeal.Gen.W0 (F := Ideal) m ρ c)
  have k45 : Cert.KernelIdeal.Gen.W19 (F := Ideal) m ρ c (Proc.devRef .tc Cert.KernelIdeal.main_v45) = shapeCast Cert.KernelIdeal.S320x2048 (Cert.KernelIdeal.Gen.W19 (F := Ideal) m ρ c (Proc.devRef .tc Cert.KernelIdeal.main_v44)) Cert.KernelIdeal.Facts₀.shapeCasts_S32x10x2048_S320x2048 := Cert.Agree.P.v45 (Cert.KernelIdeal.Gen.W0 (F := Ideal) m ρ c)
  have a44 : Cert.KernelIdeal.Gen.W19 (F := Ideal) m ρ c (Proc.devRef .tc Cert.KernelIdeal.main_v44) = X2 (Proc.devRef .tc Cert.ReferenceIdeal.main_v51) := by
    rw [k44, x51, a38]; rfl
  have res1 : X2 (Proc.devRef .tc Cert.ReferenceIdeal.main_v52) = shapeCast Cert.KernelIdeal.S32x10x2048 (Cert.KernelIdeal.Gen.W20 (F := Ideal) m ρ c (Proc.devRef .tc Cert.KernelIdeal.main_v46)) Cert.KernelIdeal.Facts₀.shapeCasts_S320x2048_S32x10x2048 := by
    rw [x52, Cert.Alg.dotP, Cert.KernelIdeal.Val.W20_v46 m ρ c, k45]
    exact congrArg₂ (fun p a => shapeCast Cert.KernelIdeal.S32x10x2048 (Cert.Spec.mmP (shapeCast Cert.KernelIdeal.S320x2048 p Cert.KernelIdeal.Facts₀.shapeCasts_S32x10x2048_S320x2048) a) Cert.KernelIdeal.Facts₀.shapeCasts_S320x2048_S32x10x2048) a44.symm (x50.trans b0.symm)
  -- the first pooled feature and the second power
  have f1 : Cert.KernelIdeal.Gen.W21 (F := Ideal) m ρ c (Proc.devRef .tc Cert.KernelIdeal.main_v55) = X3 (Proc.devRef .tc Cert.ReferenceIdeal.main_v60) := by
    rw [← hX3]
    exact Cert.Agree.F.feat1 (Cert.KernelIdeal.Gen.W20 (F := Ideal) m ρ c) X2 res1
      (((Cert.KernelIdeal.Val.W20_keep m ρ c Cert.KernelIdeal.main_arg1 (by decide)).trans b1).trans ((rK1 (r := Cert.ReferenceIdeal.main_arg1) (by decide)).trans (rK0 (r := Cert.ReferenceIdeal.main_arg1) (by decide))).symm)
      (((Cert.KernelIdeal.Val.W20_keep m ρ c Cert.KernelIdeal.main_v42 (by decide)).trans a42).trans (rK1 (r := Cert.ReferenceIdeal.main_v42) (by decide)).symm)
  have p2 : Cert.KernelIdeal.Gen.W21 (F := Ideal) m ρ c (Proc.devRef .tc Cert.KernelIdeal.main_v56) = X4 (Proc.devRef .tc Cert.ReferenceIdeal.main_v62) := by
    rw [← hX4]
    exact Cert.Agree.F.pow2 (Cert.KernelIdeal.Gen.W20 (F := Ideal) m ρ c) X3
      (((Cert.KernelIdeal.Val.W20_keep m ρ c Cert.KernelIdeal.main_v38 (by decide)).trans a38).trans ((rK2 (r := Cert.ReferenceIdeal.main_v38) (by decide)).trans (rK1 (r := Cert.ReferenceIdeal.main_v38) (by decide))).symm)
      (((Cert.KernelIdeal.Val.W20_keep m ρ c Cert.KernelIdeal.main_v44 (by decide)).trans a44).trans (rK2 (r := Cert.ReferenceIdeal.main_v51) (by decide)).symm)
  -- the second adjacency power
  have x61 : X4 (Proc.devRef .tc Cert.ReferenceIdeal.main_v61) = Cert.Spec.mmA (X0 (Proc.devRef .tc Cert.ReferenceIdeal.main_arg0)) (X0 (Proc.devRef .tc Cert.ReferenceIdeal.main_arg0)) := by
    rw [← hX4, Cert.Agree.RR.r61 X3, Cert.Alg.dotA, (((rK2 (r := Cert.ReferenceIdeal.main_arg0) (by decide)).trans (rK1 (r := Cert.ReferenceIdeal.main_arg0) (by decide))).trans (rK0 (r := Cert.ReferenceIdeal.main_arg0) (by decide))), (rK2 (r := Cert.ReferenceIdeal.main_v50) (by decide)), x50]
  have a57 : Cert.KernelIdeal.Gen.W22 (F := Ideal) m ρ c (Proc.devRef .tc Cert.KernelIdeal.main_v57) = X4 (Proc.devRef .tc Cert.ReferenceIdeal.main_v61) := by
    rw [Cert.KernelIdeal.Val.W22_v57_mm m ρ c, x61, ((Cert.KernelIdeal.Gen.W21_of (F := Ideal) m ρ c Cert.KernelIdeal.main_arg0 (by decide)).trans (Cert.KernelIdeal.Val.W20_keep m ρ c Cert.KernelIdeal.main_arg0 (by decide))), b0]
  have x63 : X4 (Proc.devRef .tc Cert.ReferenceIdeal.main_v63) = Host.dotGeneral (F := Ideal) (φ₁ := .f32) (φ₂ := .f32) Cert.ReferenceIdeal.dot_S32x10x2048_S2048x2048_S32x10x2048_2_0_01_1_n_n none (X4 (Proc.devRef .tc Cert.ReferenceIdeal.main_v62)) (X4 (Proc.devRef .tc Cert.ReferenceIdeal.main_v61)) := by
    rw [← hX4]; exact Cert.Agree.RR.r63 X3
  have k58' : Cert.KernelIdeal.Gen.W23 (F := Ideal) m ρ c (Proc.devRef .tc Cert.KernelIdeal.main_v58) = shapeCast Cert.KernelIdeal.S320x2048 (Cert.KernelIdeal.Gen.W22 (F := Ideal) m ρ c (Proc.devRef .tc Cert.KernelIdeal.main_v56)) Cert.KernelIdeal.Facts₀.shapeCasts_S32x10x2048_S320x2048 := k58 (Cert.KernelIdeal.Gen.W22 (F := Ideal) m ρ c)
  have res2 : X4 (Proc.devRef .tc Cert.ReferenceIdeal.main_v63) = shapeCast Cert.KernelIdeal.S32x10x2048 (Cert.KernelIdeal.Gen.W24 (F := Ideal) m ρ c (Proc.devRef .tc Cert.KernelIdeal.main_v59)) Cert.KernelIdeal.Facts₀.shapeCasts_S320x2048_S32x10x2048 := by
    rw [x63, Cert.Alg.dotP, Cert.KernelIdeal.Val.W24_v59 m ρ c, k58']
    exact congrArg₂ (fun p a => shapeCast Cert.KernelIdeal.S32x10x2048 (Cert.Spec.mmP (shapeCast Cert.KernelIdeal.S320x2048 p Cert.KernelIdeal.Facts₀.shapeCasts_S32x10x2048_S320x2048) a) Cert.KernelIdeal.Facts₀.shapeCasts_S320x2048_S32x10x2048)
      (p2.symm.trans (Cert.KernelIdeal.Val.W22_keep m ρ c Cert.KernelIdeal.main_v56 (by decide)).symm) (a57.symm.trans (Cert.KernelIdeal.Gen.W23_of (F := Ideal) m ρ c Cert.KernelIdeal.main_v57 (by decide)).symm)
  -- the second pooled feature and the third power
  have f2 : Cert.KernelIdeal.Gen.W25 (F := Ideal) m ρ c (Proc.devRef .tc Cert.KernelIdeal.main_v68) = X5 (Proc.devRef .tc Cert.ReferenceIdeal.main_v71) := by
    rw [← hX5]
    exact Cert.Agree.F.feat2 (Cert.KernelIdeal.Gen.W24 (F := Ideal) m ρ c) X4 res2
      (((((((Cert.KernelIdeal.Val.W24_keep m ρ c Cert.KernelIdeal.main_arg1 (by decide)).trans (Cert.KernelIdeal.Gen.W23_of (F := Ideal) m ρ c Cert.KernelIdeal.main_arg1 (by decide))).trans (Cert.KernelIdeal.Val.W22_keep m ρ c Cert.KernelIdeal.main_arg1 (by decide))).trans (Cert.KernelIdeal.Gen.W21_of (F := Ideal) m ρ c Cert.KernelIdeal.main_arg1 (by decide))).trans (Cert.KernelIdeal.Val.W20_keep m ρ c Cert.KernelIdeal.main_arg1 (by decide))).trans b1).trans ((((rK3 (r := Cert.ReferenceIdeal.main_arg1) (by decide)).trans (rK2 (r := Cert.ReferenceIdeal.main_arg1) (by decide))).trans (rK1 (r := Cert.ReferenceIdeal.main_arg1) (by decide))).trans (rK0 (r := Cert.ReferenceIdeal.main_arg1) (by decide))).symm)
      (((((((Cert.KernelIdeal.Val.W24_keep m ρ c Cert.KernelIdeal.main_v42 (by decide)).trans (Cert.KernelIdeal.Gen.W23_of (F := Ideal) m ρ c Cert.KernelIdeal.main_v42 (by decide))).trans (Cert.KernelIdeal.Val.W22_keep m ρ c Cert.KernelIdeal.main_v42 (by decide))).trans (Cert.KernelIdeal.Gen.W21_of (F := Ideal) m ρ c Cert.KernelIdeal.main_v42 (by decide))).trans (Cert.KernelIdeal.Val.W20_keep m ρ c Cert.KernelIdeal.main_v42 (by decide))).trans a42).trans (((rK3 (r := Cert.ReferenceIdeal.main_v42) (by decide)).trans (rK2 (r := Cert.ReferenceIdeal.main_v42) (by decide))).trans (rK1 (r := Cert.ReferenceIdeal.main_v42) (by decide))).symm)
  have p3 : Cert.KernelIdeal.Gen.W25 (F := Ideal) m ρ c (Proc.devRef .tc Cert.KernelIdeal.main_v69) = X6 (Proc.devRef .tc Cert.ReferenceIdeal.main_v73) := by
    rw [← hX6]
    exact Cert.Agree.F.pow3 (Cert.KernelIdeal.Gen.W24 (F := Ideal) m ρ c) X5
      (((((((Cert.KernelIdeal.Val.W24_keep m ρ c Cert.KernelIdeal.main_v38 (by decide)).trans (Cert.KernelIdeal.Gen.W23_of (F := Ideal) m ρ c Cert.KernelIdeal.main_v38 (by decide))).trans (Cert.KernelIdeal.Val.W22_keep m ρ c Cert.KernelIdeal.main_v38 (by decide))).trans (Cert.KernelIdeal.Gen.W21_of (F := Ideal) m ρ c Cert.KernelIdeal.main_v38 (by decide))).trans (Cert.KernelIdeal.Val.W20_keep m ρ c Cert.KernelIdeal.main_v38 (by decide))).trans a38).trans ((((rK4 (r := Cert.ReferenceIdeal.main_v38) (by decide)).trans (rK3 (r := Cert.ReferenceIdeal.main_v38) (by decide))).trans (rK2 (r := Cert.ReferenceIdeal.main_v38) (by decide))).trans (rK1 (r := Cert.ReferenceIdeal.main_v38) (by decide))).symm)
      (((((Cert.KernelIdeal.Val.W24_keep m ρ c Cert.KernelIdeal.main_v56 (by decide)).trans (Cert.KernelIdeal.Gen.W23_of (F := Ideal) m ρ c Cert.KernelIdeal.main_v56 (by decide))).trans (Cert.KernelIdeal.Val.W22_keep m ρ c Cert.KernelIdeal.main_v56 (by decide))).trans p2).trans (rK4 (r := Cert.ReferenceIdeal.main_v62) (by decide)).symm)
  -- the third adjacency power
  have x72 : X6 (Proc.devRef .tc Cert.ReferenceIdeal.main_v72) = Cert.Spec.mmA (X0 (Proc.devRef .tc Cert.ReferenceIdeal.main_arg0)) (X4 (Proc.devRef .tc Cert.ReferenceIdeal.main_v61)) := by
    rw [← hX6, Cert.Agree.RR.r72 X5, Cert.Alg.dotA, (((((rK4 (r := Cert.ReferenceIdeal.main_arg0) (by decide)).trans (rK3 (r := Cert.ReferenceIdeal.main_arg0) (by decide))).trans (rK2 (r := Cert.ReferenceIdeal.main_arg0) (by decide))).trans (rK1 (r := Cert.ReferenceIdeal.main_arg0) (by decide))).trans (rK0 (r := Cert.ReferenceIdeal.main_arg0) (by decide))), (rK4 (r := Cert.ReferenceIdeal.main_v61) (by decide))]
  have a70 : Cert.KernelIdeal.Gen.W26 (F := Ideal) m ρ c (Proc.devRef .tc Cert.KernelIdeal.main_v70) = X6 (Proc.devRef .tc Cert.ReferenceIdeal.main_v72) := by
    rw [Cert.KernelIdeal.Val.W26_v70 m ρ c, x72, ((((((Cert.KernelIdeal.Gen.W25_of (F := Ideal) m ρ c Cert.KernelIdeal.main_arg0 (by decide)).trans (Cert.KernelIdeal.Val.W24_keep m ρ c Cert.KernelIdeal.main_arg0 (by decide))).trans (Cert.KernelIdeal.Gen.W23_of (F := Ideal) m ρ c Cert.KernelIdeal.main_arg0 (by decide))).trans (Cert.KernelIdeal.Val.W22_keep m ρ c Cert.KernelIdeal.main_arg0 (by decide))).trans (Cert.KernelIdeal.Gen.W21_of (F := Ideal) m ρ c Cert.KernelIdeal.main_arg0 (by decide))).trans (Cert.KernelIdeal.Val.W20_keep m ρ c Cert.KernelIdeal.main_arg0 (by decide))), b0, (((Cert.KernelIdeal.Gen.W25_of (F := Ideal) m ρ c Cert.KernelIdeal.main_v57 (by decide)).trans (Cert.KernelIdeal.Val.W24_keep m ρ c Cert.KernelIdeal.main_v57 (by decide))).trans (Cert.KernelIdeal.Gen.W23_of (F := Ideal) m ρ c Cert.KernelIdeal.main_v57 (by decide))), a57]
  have x74 : X6 (Proc.devRef .tc Cert.ReferenceIdeal.main_v74) = Host.dotGeneral (F := Ideal) (φ₁ := .f32) (φ₂ := .f32) Cert.ReferenceIdeal.dot_S32x10x2048_S2048x2048_S32x10x2048_2_0_01_1_n_n none (X6 (Proc.devRef .tc Cert.ReferenceIdeal.main_v73)) (X6 (Proc.devRef .tc Cert.ReferenceIdeal.main_v72)) := by
    rw [← hX6]; exact Cert.Agree.RR.r74 X5
  have k71' : Cert.KernelIdeal.Gen.W27 (F := Ideal) m ρ c (Proc.devRef .tc Cert.KernelIdeal.main_v71) = shapeCast Cert.KernelIdeal.S320x2048 (Cert.KernelIdeal.Gen.W26 (F := Ideal) m ρ c (Proc.devRef .tc Cert.KernelIdeal.main_v69)) Cert.KernelIdeal.Facts₀.shapeCasts_S32x10x2048_S320x2048 := k71 (Cert.KernelIdeal.Gen.W26 (F := Ideal) m ρ c)
  have res3 : X6 (Proc.devRef .tc Cert.ReferenceIdeal.main_v74) = shapeCast Cert.KernelIdeal.S32x10x2048 (Cert.KernelIdeal.Gen.W28 (F := Ideal) m ρ c (Proc.devRef .tc Cert.KernelIdeal.main_v72)) Cert.KernelIdeal.Facts₀.shapeCasts_S320x2048_S32x10x2048 := by
    rw [x74, Cert.Alg.dotP, Cert.KernelIdeal.Val.W28_v72 m ρ c, k71']
    exact congrArg₂ (fun p a => shapeCast Cert.KernelIdeal.S32x10x2048 (Cert.Spec.mmP (shapeCast Cert.KernelIdeal.S320x2048 p Cert.KernelIdeal.Facts₀.shapeCasts_S32x10x2048_S320x2048) a) Cert.KernelIdeal.Facts₀.shapeCasts_S320x2048_S32x10x2048)
      (p3.symm.trans (Cert.KernelIdeal.Val.W26_keep m ρ c Cert.KernelIdeal.main_v69 (by decide)).symm) (a70.symm.trans (Cert.KernelIdeal.Gen.W27_of (F := Ideal) m ρ c Cert.KernelIdeal.main_v70 (by decide)).symm)
  -- the third pooled feature and the head
  exact (Cert.Agree.T.tail (Cert.KernelIdeal.Gen.W28 (F := Ideal) m ρ c) X6 res3
    (((((((((Cert.KernelIdeal.Val.W28_keep m ρ c Cert.KernelIdeal.main_v55 (by decide)).trans (Cert.KernelIdeal.Gen.W27_of (F := Ideal) m ρ c Cert.KernelIdeal.main_v55 (by decide))).trans (Cert.KernelIdeal.Val.W26_keep m ρ c Cert.KernelIdeal.main_v55 (by decide))).trans (Cert.KernelIdeal.Gen.W25_of (F := Ideal) m ρ c Cert.KernelIdeal.main_v55 (by decide))).trans (Cert.KernelIdeal.Val.W24_keep m ρ c Cert.KernelIdeal.main_v55 (by decide))).trans (Cert.KernelIdeal.Gen.W23_of (F := Ideal) m ρ c Cert.KernelIdeal.main_v55 (by decide))).trans (Cert.KernelIdeal.Val.W22_keep m ρ c Cert.KernelIdeal.main_v55 (by decide))).trans f1).trans (((rK5 (r := Cert.ReferenceIdeal.main_v60) (by decide)).trans (rK4 (r := Cert.ReferenceIdeal.main_v60) (by decide))).trans (rK3 (r := Cert.ReferenceIdeal.main_v60) (by decide))).symm)
    (((((Cert.KernelIdeal.Val.W28_keep m ρ c Cert.KernelIdeal.main_v68 (by decide)).trans (Cert.KernelIdeal.Gen.W27_of (F := Ideal) m ρ c Cert.KernelIdeal.main_v68 (by decide))).trans (Cert.KernelIdeal.Val.W26_keep m ρ c Cert.KernelIdeal.main_v68 (by decide))).trans f2).trans (rK5 (r := Cert.ReferenceIdeal.main_v71) (by decide)).symm)
    (((((((((((Cert.KernelIdeal.Val.W28_keep m ρ c Cert.KernelIdeal.main_v42 (by decide)).trans (Cert.KernelIdeal.Gen.W27_of (F := Ideal) m ρ c Cert.KernelIdeal.main_v42 (by decide))).trans (Cert.KernelIdeal.Val.W26_keep m ρ c Cert.KernelIdeal.main_v42 (by decide))).trans (Cert.KernelIdeal.Gen.W25_of (F := Ideal) m ρ c Cert.KernelIdeal.main_v42 (by decide))).trans (Cert.KernelIdeal.Val.W24_keep m ρ c Cert.KernelIdeal.main_v42 (by decide))).trans (Cert.KernelIdeal.Gen.W23_of (F := Ideal) m ρ c Cert.KernelIdeal.main_v42 (by decide))).trans (Cert.KernelIdeal.Val.W22_keep m ρ c Cert.KernelIdeal.main_v42 (by decide))).trans (Cert.KernelIdeal.Gen.W21_of (F := Ideal) m ρ c Cert.KernelIdeal.main_v42 (by decide))).trans (Cert.KernelIdeal.Val.W20_keep m ρ c Cert.KernelIdeal.main_v42 (by decide))).trans a42).trans (((((rK5 (r := Cert.ReferenceIdeal.main_v42) (by decide)).trans (rK4 (r := Cert.ReferenceIdeal.main_v42) (by decide))).trans (rK3 (r := Cert.ReferenceIdeal.main_v42) (by decide))).trans (rK2 (r := Cert.ReferenceIdeal.main_v42) (by decide))).trans (rK1 (r := Cert.ReferenceIdeal.main_v42) (by decide))).symm)
    (((((((((((Cert.KernelIdeal.Val.W28_keep m ρ c Cert.KernelIdeal.main_arg1 (by decide)).trans (Cert.KernelIdeal.Gen.W27_of (F := Ideal) m ρ c Cert.KernelIdeal.main_arg1 (by decide))).trans (Cert.KernelIdeal.Val.W26_keep m ρ c Cert.KernelIdeal.main_arg1 (by decide))).trans (Cert.KernelIdeal.Gen.W25_of (F := Ideal) m ρ c Cert.KernelIdeal.main_arg1 (by decide))).trans (Cert.KernelIdeal.Val.W24_keep m ρ c Cert.KernelIdeal.main_arg1 (by decide))).trans (Cert.KernelIdeal.Gen.W23_of (F := Ideal) m ρ c Cert.KernelIdeal.main_arg1 (by decide))).trans (Cert.KernelIdeal.Val.W22_keep m ρ c Cert.KernelIdeal.main_arg1 (by decide))).trans (Cert.KernelIdeal.Gen.W21_of (F := Ideal) m ρ c Cert.KernelIdeal.main_arg1 (by decide))).trans (Cert.KernelIdeal.Val.W20_keep m ρ c Cert.KernelIdeal.main_arg1 (by decide))).trans b1).trans ((((((rK5 (r := Cert.ReferenceIdeal.main_arg1) (by decide)).trans (rK4 (r := Cert.ReferenceIdeal.main_arg1) (by decide))).trans (rK3 (r := Cert.ReferenceIdeal.main_arg1) (by decide))).trans (rK2 (r := Cert.ReferenceIdeal.main_arg1) (by decide))).trans (rK1 (r := Cert.ReferenceIdeal.main_arg1) (by decide))).trans (rK0 (r := Cert.ReferenceIdeal.main_arg1) (by decide))).symm)
    (((((((((((Cert.KernelIdeal.Val.W28_keep m ρ c Cert.KernelIdeal.main_arg3 (by decide)).trans (Cert.KernelIdeal.Gen.W27_of (F := Ideal) m ρ c Cert.KernelIdeal.main_arg3 (by decide))).trans (Cert.KernelIdeal.Val.W26_keep m ρ c Cert.KernelIdeal.main_arg3 (by decide))).trans (Cert.KernelIdeal.Gen.W25_of (F := Ideal) m ρ c Cert.KernelIdeal.main_arg3 (by decide))).trans (Cert.KernelIdeal.Val.W24_keep m ρ c Cert.KernelIdeal.main_arg3 (by decide))).trans (Cert.KernelIdeal.Gen.W23_of (F := Ideal) m ρ c Cert.KernelIdeal.main_arg3 (by decide))).trans (Cert.KernelIdeal.Val.W22_keep m ρ c Cert.KernelIdeal.main_arg3 (by decide))).trans (Cert.KernelIdeal.Gen.W21_of (F := Ideal) m ρ c Cert.KernelIdeal.main_arg3 (by decide))).trans (Cert.KernelIdeal.Val.W20_keep m ρ c Cert.KernelIdeal.main_arg3 (by decide))).trans b3).trans ((((((rK5 (r := Cert.ReferenceIdeal.main_arg3) (by decide)).trans (rK4 (r := Cert.ReferenceIdeal.main_arg3) (by decide))).trans (rK3 (r := Cert.ReferenceIdeal.main_arg3) (by decide))).trans (rK2 (r := Cert.ReferenceIdeal.main_arg3) (by decide))).trans (rK1 (r := Cert.ReferenceIdeal.main_arg3) (by decide))).trans (rK0 (r := Cert.ReferenceIdeal.main_arg3) (by decide))).symm)
    (((((((((((Cert.KernelIdeal.Val.W28_keep m ρ c Cert.KernelIdeal.main_arg4 (by decide)).trans (Cert.KernelIdeal.Gen.W27_of (F := Ideal) m ρ c Cert.KernelIdeal.main_arg4 (by decide))).trans (Cert.KernelIdeal.Val.W26_keep m ρ c Cert.KernelIdeal.main_arg4 (by decide))).trans (Cert.KernelIdeal.Gen.W25_of (F := Ideal) m ρ c Cert.KernelIdeal.main_arg4 (by decide))).trans (Cert.KernelIdeal.Val.W24_keep m ρ c Cert.KernelIdeal.main_arg4 (by decide))).trans (Cert.KernelIdeal.Gen.W23_of (F := Ideal) m ρ c Cert.KernelIdeal.main_arg4 (by decide))).trans (Cert.KernelIdeal.Val.W22_keep m ρ c Cert.KernelIdeal.main_arg4 (by decide))).trans (Cert.KernelIdeal.Gen.W21_of (F := Ideal) m ρ c Cert.KernelIdeal.main_arg4 (by decide))).trans (Cert.KernelIdeal.Val.W20_keep m ρ c Cert.KernelIdeal.main_arg4 (by decide))).trans b4).trans ((((((rK5 (r := Cert.ReferenceIdeal.main_arg4) (by decide)).trans (rK4 (r := Cert.ReferenceIdeal.main_arg4) (by decide))).trans (rK3 (r := Cert.ReferenceIdeal.main_arg4) (by decide))).trans (rK2 (r := Cert.ReferenceIdeal.main_arg4) (by decide))).trans (rK1 (r := Cert.ReferenceIdeal.main_arg4) (by decide))).trans (rK0 (r := Cert.ReferenceIdeal.main_arg4) (by decide))).symm)
    (((((((((((Cert.KernelIdeal.Val.W28_keep m ρ c Cert.KernelIdeal.main_arg5 (by decide)).trans (Cert.KernelIdeal.Gen.W27_of (F := Ideal) m ρ c Cert.KernelIdeal.main_arg5 (by decide))).trans (Cert.KernelIdeal.Val.W26_keep m ρ c Cert.KernelIdeal.main_arg5 (by decide))).trans (Cert.KernelIdeal.Gen.W25_of (F := Ideal) m ρ c Cert.KernelIdeal.main_arg5 (by decide))).trans (Cert.KernelIdeal.Val.W24_keep m ρ c Cert.KernelIdeal.main_arg5 (by decide))).trans (Cert.KernelIdeal.Gen.W23_of (F := Ideal) m ρ c Cert.KernelIdeal.main_arg5 (by decide))).trans (Cert.KernelIdeal.Val.W22_keep m ρ c Cert.KernelIdeal.main_arg5 (by decide))).trans (Cert.KernelIdeal.Gen.W21_of (F := Ideal) m ρ c Cert.KernelIdeal.main_arg5 (by decide))).trans (Cert.KernelIdeal.Val.W20_keep m ρ c Cert.KernelIdeal.main_arg5 (by decide))).trans b5).trans ((((((rK5 (r := Cert.ReferenceIdeal.main_arg5) (by decide)).trans (rK4 (r := Cert.ReferenceIdeal.main_arg5) (by decide))).trans (rK3 (r := Cert.ReferenceIdeal.main_arg5) (by decide))).trans (rK2 (r := Cert.ReferenceIdeal.main_arg5) (by decide))).trans (rK1 (r := Cert.ReferenceIdeal.main_arg5) (by decide))).trans (rK0 (r := Cert.ReferenceIdeal.main_arg5) (by decide))).symm)
    (((((((((((Cert.KernelIdeal.Val.W28_keep m ρ c Cert.KernelIdeal.main_arg6 (by decide)).trans (Cert.KernelIdeal.Gen.W27_of (F := Ideal) m ρ c Cert.KernelIdeal.main_arg6 (by decide))).trans (Cert.KernelIdeal.Val.W26_keep m ρ c Cert.KernelIdeal.main_arg6 (by decide))).trans (Cert.KernelIdeal.Gen.W25_of (F := Ideal) m ρ c Cert.KernelIdeal.main_arg6 (by decide))).trans (Cert.KernelIdeal.Val.W24_keep m ρ c Cert.KernelIdeal.main_arg6 (by decide))).trans (Cert.KernelIdeal.Gen.W23_of (F := Ideal) m ρ c Cert.KernelIdeal.main_arg6 (by decide))).trans (Cert.KernelIdeal.Val.W22_keep m ρ c Cert.KernelIdeal.main_arg6 (by decide))).trans (Cert.KernelIdeal.Gen.W21_of (F := Ideal) m ρ c Cert.KernelIdeal.main_arg6 (by decide))).trans (Cert.KernelIdeal.Val.W20_keep m ρ c Cert.KernelIdeal.main_arg6 (by decide))).trans b6).trans ((((((rK5 (r := Cert.ReferenceIdeal.main_arg6) (by decide)).trans (rK4 (r := Cert.ReferenceIdeal.main_arg6) (by decide))).trans (rK3 (r := Cert.ReferenceIdeal.main_arg6) (by decide))).trans (rK2 (r := Cert.ReferenceIdeal.main_arg6) (by decide))).trans (rK1 (r := Cert.ReferenceIdeal.main_arg6) (by decide))).trans (rK0 (r := Cert.ReferenceIdeal.main_arg6) (by decide))).symm)
    (((((((((((Cert.KernelIdeal.Val.W28_keep m ρ c Cert.KernelIdeal.main_arg7 (by decide)).trans (Cert.KernelIdeal.Gen.W27_of (F := Ideal) m ρ c Cert.KernelIdeal.main_arg7 (by decide))).trans (Cert.KernelIdeal.Val.W26_keep m ρ c Cert.KernelIdeal.main_arg7 (by decide))).trans (Cert.KernelIdeal.Gen.W25_of (F := Ideal) m ρ c Cert.KernelIdeal.main_arg7 (by decide))).trans (Cert.KernelIdeal.Val.W24_keep m ρ c Cert.KernelIdeal.main_arg7 (by decide))).trans (Cert.KernelIdeal.Gen.W23_of (F := Ideal) m ρ c Cert.KernelIdeal.main_arg7 (by decide))).trans (Cert.KernelIdeal.Val.W22_keep m ρ c Cert.KernelIdeal.main_arg7 (by decide))).trans (Cert.KernelIdeal.Gen.W21_of (F := Ideal) m ρ c Cert.KernelIdeal.main_arg7 (by decide))).trans (Cert.KernelIdeal.Val.W20_keep m ρ c Cert.KernelIdeal.main_arg7 (by decide))).trans b7).trans ((((((rK5 (r := Cert.ReferenceIdeal.main_arg7) (by decide)).trans (rK4 (r := Cert.ReferenceIdeal.main_arg7) (by decide))).trans (rK3 (r := Cert.ReferenceIdeal.main_arg7) (by decide))).trans (rK2 (r := Cert.ReferenceIdeal.main_arg7) (by decide))).trans (rK1 (r := Cert.ReferenceIdeal.main_arg7) (by decide))).trans (rK0 (r := Cert.ReferenceIdeal.main_arg7) (by decide))).symm)
    (((((((((((Cert.KernelIdeal.Val.W28_keep m ρ c Cert.KernelIdeal.main_arg8 (by decide)).trans (Cert.KernelIdeal.Gen.W27_of (F := Ideal) m ρ c Cert.KernelIdeal.main_arg8 (by decide))).trans (Cert.KernelIdeal.Val.W26_keep m ρ c Cert.KernelIdeal.main_arg8 (by decide))).trans (Cert.KernelIdeal.Gen.W25_of (F := Ideal) m ρ c Cert.KernelIdeal.main_arg8 (by decide))).trans (Cert.KernelIdeal.Val.W24_keep m ρ c Cert.KernelIdeal.main_arg8 (by decide))).trans (Cert.KernelIdeal.Gen.W23_of (F := Ideal) m ρ c Cert.KernelIdeal.main_arg8 (by decide))).trans (Cert.KernelIdeal.Val.W22_keep m ρ c Cert.KernelIdeal.main_arg8 (by decide))).trans (Cert.KernelIdeal.Gen.W21_of (F := Ideal) m ρ c Cert.KernelIdeal.main_arg8 (by decide))).trans (Cert.KernelIdeal.Val.W20_keep m ρ c Cert.KernelIdeal.main_arg8 (by decide))).trans b8).trans ((((((rK5 (r := Cert.ReferenceIdeal.main_arg8) (by decide)).trans (rK4 (r := Cert.ReferenceIdeal.main_arg8) (by decide))).trans (rK3 (r := Cert.ReferenceIdeal.main_arg8) (by decide))).trans (rK2 (r := Cert.ReferenceIdeal.main_arg8) (by decide))).trans (rK1 (r := Cert.ReferenceIdeal.main_arg8) (by decide))).trans (rK0 (r := Cert.ReferenceIdeal.main_arg8) (by decide))).symm)).symm

end Cert.Agree

end
-- ==== Proof.lean ====
/-
  The certificate's claim. The word-level kernel program and its idealization are the same text read at two
  instances; each runs as 19 host stretches, five matrix-product regions among host stretches, and a host tail,
  and every argument array is no region's output and no host operation's result, so it ends as launched (the
  two frame claims). The reference is a straight line of host operations whose run reads every buffer as the
  fold of the operations over the launch memory; no operation writes an argument (its frame claim). The ideal
  pass rewrote nothing. At the ideal instance the two programs end with equal results: the regions' products are
  the reference's dot_generals (adj times the identity is adj; a contraction over the last axis of a
  [32,10,2048] array is the flattened matrix product reshaped back), and every other operation is shared.
-/
import proofs.«141740_j85993835200811_1_alg».proof.Defs
import proofs.«141740_j85993835200811_1_alg».proof.Proof.Gen.Kernel
import proofs.«141740_j85993835200811_1_alg».proof.Proof.Gen.KernelIdeal
import proofs.«141740_j85993835200811_1_alg».proof.Proof.Gen.ReferenceIdeal
import proofs.«141740_j85993835200811_1_alg».proof.Proof.Gen.Pre_finite_inputs
import proofs.«141740_j85993835200811_1_alg».proof.Proof.KB.Run
import proofs.«141740_j85993835200811_1_alg».proof.Proof.KI.Run
import proofs.«141740_j85993835200811_1_alg».proof.Proof.Ref.Run
import proofs.«141740_j85993835200811_1_alg».proof.Proof.Val.Agree
import Idealize.ShloMosaic.Adequacy
import Idealize.ShloMosaic.Init

noncomputable section

namespace Cert.Proof

open Idealize.ShloMosaic Idealize.ShloMosaic.TcCoe Idealize.SL.Sem

/-- The word-level program leaves its arguments as launched. -/
theorem frame_k : Cert.frame_Kernel := fun m ρ _ => Cert.Kernel.Gen.frame (F := Bits) m ρ

/-- So does its idealization. -/
theorem frame_ki : Cert.frame_KernelIdeal := fun m ρ _ => Cert.KernelIdeal.Gen.frame (F := Ideal) m ρ

/-- The reference's run reads every buffer as the fold of its operations; no operation writes an argument. -/
theorem frame_ri : Cert.frame_ReferenceIdeal := fun m ρ _ =>
  (θ_run Cert.ReferenceIdeal.defs _ _).mono (fun r h c =>
    have k := Cert.ReferenceIdeal.Hand.kept_arg (F := Ideal) (StableHlo.launchContents m c)
    ⟨(h c _).trans k.1, (h c _).trans k.2.1, (h c _).trans k.2.2.1, (h c _).trans k.2.2.2.1, (h c _).trans k.2.2.2.2.1,
      (h c _).trans k.2.2.2.2.2.1, (h c _).trans k.2.2.2.2.2.2.1, (h c _).trans k.2.2.2.2.2.2.2.1, (h c _).trans k.2.2.2.2.2.2.2.2⟩)
    (Cert.ReferenceIdeal.Hand.run (F := Ideal) m ρ)

/-- The ideal pass rewrote no operation. -/
theorem preserves : Cert.preserves_Kernel_KernelIdeal := trivial

/-- Run from memories that agree on the arguments, the two idealized programs end with equal results. -/
theorem algebraic : Cert.algebraic_KernelIdeal_ReferenceIdeal := by
  intro m ρ m' ρ' _ hagree
  refine ⟨fun c => Cert.KernelIdeal.Gen.W33 (F := Ideal) m ρ c (Proc.devRef .tc Cert.KernelIdeal.main_v110), ?_, ?_⟩
  · refine (θ_run Cert.KernelIdeal.defs _ _).mono (fun r h c => ?_) (Cert.KernelIdeal.Gen.run (F := Ideal) m ρ)
    exact ⟨h c _ (Cert.KernelIdeal.Gen.mem_uc Cert.KernelIdeal.main_v110 (by decide)),
      (h c _ (Cert.KernelIdeal.Gen.mem_uc Cert.KernelIdeal.main_arg0 (by decide))).trans (Cert.KernelIdeal.Gen.W33_main_arg0 m ρ c),
      (h c _ (Cert.KernelIdeal.Gen.mem_uc Cert.KernelIdeal.main_arg1 (by decide))).trans (Cert.KernelIdeal.Gen.W33_main_arg1 m ρ c),
      (h c _ (Cert.KernelIdeal.Gen.mem_uc Cert.KernelIdeal.main_arg2 (by decide))).trans (Cert.KernelIdeal.Gen.W33_main_arg2 m ρ c),
      (h c _ (Cert.KernelIdeal.Gen.mem_uc Cert.KernelIdeal.main_arg3 (by decide))).trans (Cert.KernelIdeal.Gen.W33_main_arg3 m ρ c),
      (h c _ (Cert.KernelIdeal.Gen.mem_uc Cert.KernelIdeal.main_arg4 (by decide))).trans (Cert.KernelIdeal.Gen.W33_main_arg4 m ρ c),
      (h c _ (Cert.KernelIdeal.Gen.mem_uc Cert.KernelIdeal.main_arg5 (by decide))).trans (Cert.KernelIdeal.Gen.W33_main_arg5 m ρ c),
      (h c _ (Cert.KernelIdeal.Gen.mem_uc Cert.KernelIdeal.main_arg6 (by decide))).trans (Cert.KernelIdeal.Gen.W33_main_arg6 m ρ c),
      (h c _ (Cert.KernelIdeal.Gen.mem_uc Cert.KernelIdeal.main_arg7 (by decide))).trans (Cert.KernelIdeal.Gen.W33_main_arg7 m ρ c),
      (h c _ (Cert.KernelIdeal.Gen.mem_uc Cert.KernelIdeal.main_arg8 (by decide))).trans (Cert.KernelIdeal.Gen.W33_main_arg8 m ρ c)⟩
  · refine (θ_run Cert.ReferenceIdeal.defs _ _).mono (fun r h c => ?_) (Cert.ReferenceIdeal.Hand.run (F := Ideal) m' ρ')
    have k := Cert.ReferenceIdeal.Hand.kept_arg (F := Ideal) (StableHlo.launchContents m' c)
    have ha := hagree c
    refine ⟨(h c _).trans ?_, (h c _).trans k.1, (h c _).trans k.2.1, (h c _).trans k.2.2.1, (h c _).trans k.2.2.2.1, (h c _).trans k.2.2.2.2.1,
      (h c _).trans k.2.2.2.2.2.1, (h c _).trans k.2.2.2.2.2.2.1, (h c _).trans k.2.2.2.2.2.2.2.1, (h c _).trans k.2.2.2.2.2.2.2.2⟩
    exact Cert.Agree.agree m ρ m' c ha.1 ha.2.1 ha.2.2.1 ha.2.2.2.1 ha.2.2.2.2.1 ha.2.2.2.2.2.1 ha.2.2.2.2.2.2.1 ha.2.2.2.2.2.2.2.1 ha.2.2.2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
